-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x2048 : Shape := ⟨4, ![1, 16, 2048, 2048]⟩
abbrev S_ : Shape := ⟨0, ![]⟩

class Facts : Prop where
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_
  h_S_ : 0 < S_.numel

variable [Facts]

def fn {F : FTy → Type} [FloatOps F] (main_arg0 : FVec F S1x16x2048x2048 .f32) : IVec S_ 1 :=
  let main_v0 : FVec F S1x16x2048x2048 .f32 := Host.absf main_arg0
  let main_cst : FVec F S_ .f32 := constant S_ .f32 0x7F800000#32
  let main_v1 : FVec F S1x16x2048x2048 .f32 := broadcastInDim S1x16x2048x2048 ![] bcast_S_S1x16x2048x2048 main_cst
  let main_v2 : IVec S1x16x2048x2048 1 := cmpf .olt main_v0 main_v1
  let main_c : IVec S_ 1 := constantI S_ 1 1#1
  let main_v3 : IVec S_ 1 := (fun x v => Host.reduce IntOp.andi x v reducesTo_S1x16x2048x2048_S_d0_1_2_3 h_S_) main_v2 main_c
  main_v3
-- ==== Kernel.lean ====
abbrev S1x16x2048x2048 : Shape := ⟨4, ![1, 16, 2048, 2048]⟩
abbrev S16x2048x2048 : Shape := ⟨3, ![16, 2048, 2048]⟩
abbrev S32768x2048 : Shape := ⟨2, ![32768, 2048]⟩
abbrev S32x16 : Shape := ⟨2, ![32, 16]⟩
abbrev S128x128 : Shape := ⟨2, ![128, 128]⟩
abbrev S16 : Shape := ⟨1, ![16]⟩
abbrev S_ : Shape := ⟨0, ![]⟩
abbrev S1x16 : Shape := ⟨2, ![1, 16]⟩
abbrev S16x1x128 : Shape := ⟨3, ![16, 1, 128]⟩
abbrev S1x1024x2048 : Shape := ⟨3, ![1, 1024, 2048]⟩
abbrev S1x1x128 : Shape := ⟨3, ![1, 1, 128]⟩
abbrev S1024x2048 : Shape := ⟨2, ![1024, 2048]⟩
abbrev S1x1024x1024 : Shape := ⟨3, ![1, 1024, 1024]⟩
abbrev S1024x1024 : Shape := ⟨2, ![1024, 1024]⟩
abbrev S1 : Shape := ⟨1, ![1]⟩
abbrev S1x1x1 : Shape := ⟨3, ![1, 1, 1]⟩
abbrev S2048 : Shape := ⟨1, ![2048]⟩
abbrev S1x2048 : Shape := ⟨2, ![1, 2048]⟩
abbrev S1x1x2048 : Shape := ⟨3, ![1, 1, 2048]⟩
abbrev S16x32 : Shape := ⟨2, ![16, 32]⟩
abbrev S16x1x1 : Shape := ⟨3, ![16, 1, 1]⟩
abbrev S32 : Shape := ⟨1, ![32]⟩
abbrev S1x32 : Shape := ⟨2, ![1, 32]⟩

abbrev nBuf : Table → Nat
  | .hbm => 12
  | .local .tc .vmem => 4
  | .local .scVector .vmem => 2
  | _ => 0

abbrev bufTy : (tb : Table) → Fin (nBuf tb) → BufTy
  | .hbm, ⟨0, _⟩ => ⟨S1x16x2048x2048, .f32⟩
  | .hbm, ⟨1, _⟩ => ⟨S16x2048x2048, .f32⟩
  | .hbm, ⟨2, _⟩ => ⟨S32768x2048, .f32⟩
  | .hbm, ⟨3, _⟩ => ⟨S32x16, .f32⟩
  | .hbm, ⟨4, _⟩ => ⟨S16x1x128, .f32⟩
  | .hbm, ⟨5, _⟩ => ⟨S16x32, .f32⟩
  | .hbm, ⟨6, _⟩ => ⟨S_, .f32⟩
  | .hbm, ⟨7, _⟩ => ⟨S16, .f32⟩
  | .hbm, ⟨8, _⟩ => ⟨S16x1x1, .f32⟩
  | .hbm, ⟨9, _⟩ => ⟨S16, .f32⟩
  | .hbm, ⟨10, _⟩ => ⟨S32, .f32⟩
  | .hbm, ⟨11, _⟩ => ⟨S1x32, .f32⟩
  | .local .tc .vmem, ⟨0, _⟩ => ⟨S1x1024x2048, .f32⟩
  | .local .tc .vmem, ⟨1, _⟩ => ⟨S1x1024x2048, .f32⟩
  | .local .tc .vmem, ⟨2, _⟩ => ⟨S1x1x128, .f32⟩
  | .local .tc .vmem, ⟨3, _⟩ => ⟨S1x1x128, .f32⟩
  | .local .scVector .vmem, ⟨0, _⟩ => ⟨S128x128, .f32⟩
  | .local .scVector .vmem, ⟨1, _⟩ => ⟨S16, .f32⟩
  | _, _ => ⟨S1x16x2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => true
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v1_scv : Ref sig .scVector := ⟨.hbm, 2, rfl⟩
abbrev main_v2_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_12 : BitVec 32 := 0#32
  let c8_i32 : BitVec 32 := 8#32
  let v35 : BitVec 32 := Scalar.addi c0_i32_12 c8_i32
  let c1_i32_13 : BitVec 32 := 1#32
  ⟨c0_i32_12, v35, c1_i32_13⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2048_i32 : BitVec 32 := 2048#32
  let v29 : BitVec 32 := Scalar.muli v18 c2048_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v30 : BitVec 32 := Scalar.muli v28 c1024_i32
  let v31 : BitVec 32 := Scalar.addi v29 v30
  let c0_i32_12 : BitVec 32 := 0#32
  let c1_i32_13 : BitVec 32 := 1#32
  let arg7 : BitVec 32 := Scf.iv c0_i32_12 c1_i32_13 k0_t1
  let c128_i32 : BitVec 32 := 128#32
  let v40 : BitVec 32 := Scalar.muli arg7 c128_i32
  let v41 : BitVec 32 := Scalar.addi v31 v40
  let c1024_i32_11 : BitVec 32 := 1024#32
  let v32 : BitVec 32 := Scalar.muli v28 c1024_i32_11
  let c128_i32_15 : BitVec 32 := 128#32
  let v42 : BitVec 32 := Scalar.muli arg7 c128_i32_15
  let v43 : BitVec 32 := Scalar.addi v32 v42
  ![v41.toNat, v43.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_15_r0 : BitVec 32 := 0#32
  ![v1.toNat, 0]
abbrev grid1 : Pipeline.Grid := ⟨2, ![16, 2], ![false, false]⟩

def k1_off1 (i : grid1.Coords) : Fin 3 → Nat :=
  let c0_2 : Index := 0#32
  let c0_3 : Index := 0#32
  let arg1 : BitVec 32 := BitVec.ofNat 32 (i 1).val
  let c1024_i32 : BitVec 32 := 1024#32
  let v2 : BitVec 32 := Scalar.muli arg1 c1024_i32
  let v3 : Index := Scalar.indexCast v2
  ![0, 0, v3.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x16x2048x2048_S16x2048x2048 : S1x16x2048x2048.ShapeCasts S16x2048x2048
  shapeCasts_S1x16x2048x2048_S32768x2048 : S1x16x2048x2048.ShapeCasts S32768x2048
  iota_S16_d0_w32_scVector : S16.Iotas .scVector 32 [0]
  inb_S128x128_S1x16_0_0 : ∀ a, (![0, 0] : Fin 2 → Nat) a + S1x16.size a ≤ S128x128.size a
  h_S1x16 : 0 < S1x16.numel
  shapeCasts_S1x16_S16 : S1x16.ShapeCasts S16
  inb_S128x128_S1x16_1_0 : ∀ a, (![1, 0] : Fin 2 → Nat) a + S1x16.size a ≤ S128x128.size a
  inb_S128x128_S1x16_2_0 : ∀ a, (![2, 0] : Fin 2 → Nat) a + S1x16.size a ≤ S128x128.size a
  inb_S128x128_S1x16_3_0 : ∀ a, (![3, 0] : Fin 2 → Nat) a + S1x16.size a ≤ S128x128.size a
  inb_S128x128_S1x16_4_0 : ∀ a, (![4, 0] : Fin 2 → Nat) a + S1x16.size a ≤ S128x128.size a
  inb_S128x128_S1x16_5_0 : ∀ a, (![5, 0] : Fin 2 → Nat) a + S1x16.size a ≤ S128x128.size a
  inb_S128x128_S1x16_6_0 : ∀ a, (![6, 0] : Fin 2 → Nat) a + S1x16.size a ≤ S128x128.size a
  inb_S128x128_S1x16_7_0 : ∀ a, (![7, 0] : Fin 2 → Nat) a + S1x16.size a ≤ S128x128.size a
  inb_S128x128_S1x16_8_0 : ∀ a, (![8, 0] : Fin 2 → Nat) a + S1x16.size a ≤ S128x128.size a
  inb_S128x128_S1x16_9_0 : ∀ a, (![9, 0] : Fin 2 → Nat) a + S1x16.size a ≤ S128x128.size a
  inb_S128x128_S1x16_10_0 : ∀ a, (![10, 0] : Fin 2 → Nat) a + S1x16.size a ≤ S128x128.size a
  inb_S128x128_S1x16_11_0 : ∀ a, (![11, 0] : Fin 2 → Nat) a + S1x16.size a ≤ S128x128.size a
  inb_S128x128_S1x16_12_0 : ∀ a, (![12, 0] : Fin 2 → Nat) a + S1x16.size a ≤ S128x128.size a
  inb_S128x128_S1x16_13_0 : ∀ a, (![13, 0] : Fin 2 → Nat) a + S1x16.size a ≤ S128x128.size a
  inb_S128x128_S1x16_14_0 : ∀ a, (![14, 0] : Fin 2 → Nat) a + S1x16.size a ≤ S128x128.size a
  inb_S128x128_S1x16_15_0 : ∀ a, (![15, 0] : Fin 2 → Nat) a + S1x16.size a ≤ S128x128.size a
  inb_S128x128_S1x16_16_16 : ∀ a, (![16, 16] : Fin 2 → Nat) a + S1x16.size a ≤ S128x128.size a
  inb_S128x128_S1x16_17_16 : ∀ a, (![17, 16] : Fin 2 → Nat) a + S1x16.size a ≤ S128x128.size a
  inb_S128x128_S1x16_18_16 : ∀ a, (![18, 16] : Fin 2 → Nat) a + S1x16.size a ≤ S128x128.size a
  inb_S128x128_S1x16_19_16 : ∀ a, (![19, 16] : Fin 2 → Nat) a + S1x16.size a ≤ S128x128.size a
  inb_S128x128_S1x16_20_16 : ∀ a, (![20, 16] : Fin 2 → Nat) a + S1x16.size a ≤ S128x128.size a
  inb_S128x128_S1x16_21_16 : ∀ a, (![21, 16] : Fin 2 → Nat) a + S1x16.size a ≤ S128x128.size a
  inb_S128x128_S1x16_22_16 : ∀ a, (![22, 16] : Fin 2 → Nat) a + S1x16.size a ≤ S128x128.size a
  inb_S128x128_S1x16_23_16 : ∀ a, (![23, 16] : Fin 2 → Nat) a + S1x16.size a ≤ S128x128.size a
  inb_S128x128_S1x16_24_16 : ∀ a, (![24, 16] : Fin 2 → Nat) a + S1x16.size a ≤ S128x128.size a
  inb_S128x128_S1x16_25_16 : ∀ a, (![25, 16] : Fin 2 → Nat) a + S1x16.size a ≤ S128x128.size a
  inb_S128x128_S1x16_26_16 : ∀ a, (![26, 16] : Fin 2 → Nat) a + S1x16.size a ≤ S128x128.size a
  inb_S128x128_S1x16_27_16 : ∀ a, (![27, 16] : Fin 2 → Nat) a + S1x16.size a ≤ S128x128.size a
  inb_S128x128_S1x16_28_16 : ∀ a, (![28, 16] : Fin 2 → Nat) a + S1x16.size a ≤ S128x128.size a
  inb_S128x128_S1x16_29_16 : ∀ a, (![29, 16] : Fin 2 → Nat) a + S1x16.size a ≤ S128x128.size a
  inb_S128x128_S1x16_30_16 : ∀ a, (![30, 16] : Fin 2 → Nat) a + S1x16.size a ≤ S128x128.size a
  inb_S128x128_S1x16_31_16 : ∀ a, (![31, 16] : Fin 2 → Nat) a + S1x16.size a ≤ S128x128.size a
  inb_S128x128_S1x16_32_32 : ∀ a, (![32, 32] : Fin 2 → Nat) a + S1x16.size a ≤ S128x128.size a
  inb_S128x128_S1x16_33_32 : ∀ a, (![33, 32] : Fin 2 → Nat) a + S1x16.size a ≤ S128x128.size a
  inb_S128x128_S1x16_34_32 : ∀ a, (![34, 32] : Fin 2 → Nat) a + S1x16.size a ≤ S128x128.size a
  inb_S128x128_S1x16_35_32 : ∀ a, (![35, 32] : Fin 2 → Nat) a + S1x16.size a ≤ S128x128.size a
  inb_S128x128_S1x16_36_32 : ∀ a, (![36, 32] : Fin 2 → Nat) a + S1x16.size a ≤ S128x128.size a
  inb_S128x128_S1x16_37_32 : ∀ a, (![37, 32] : Fin 2 → Nat) a + S1x16.size a ≤ S128x128.size a
  inb_S128x128_S1x16_38_32 : ∀ a, (![38, 32] : Fin 2 → Nat) a + S1x16.size a ≤ S128x128.size a
  inb_S128x128_S1x16_39_32 : ∀ a, (![39, 32] : Fin 2 → Nat) a + S1x16.size a ≤ S128x128.size a
  inb_S128x128_S1x16_40_32 : ∀ a, (![40, 32] : Fin 2 → Nat) a + S1x16.size a ≤ S128x128.size a
  inb_S128x128_S1x16_41_32 : ∀ a, (![41, 32] : Fin 2 → Nat) a + S1x16.size a ≤ S128x128.size a
  inb_S128x128_S1x16_42_32 : ∀ a, (![42, 32] : Fin 2 → Nat) a + S1x16.size a ≤ S128x128.size a
  inb_S128x128_S1x16_43_32 : ∀ a, (![43, 32] : Fin 2 → Nat) a + S1x16.size a ≤ S128x128.size a
  inb_S128x128_S1x16_44_32 : ∀ a, (![44, 32] : Fin 2 → Nat) a + S1x16.size a ≤ S128x128.size a
  inb_S128x128_S1x16_45_32 : ∀ a, (![45, 32] : Fin 2 → Nat) a + S1x16.size a ≤ S128x128.size a
  inb_S128x128_S1x16_46_32 : ∀ a, (![46, 32] : Fin 2 → Nat) a + S1x16.size a ≤ S128x128.size a
  inb_S128x128_S1x16_47_32 : ∀ a, (![47, 32] : Fin 2 → Nat) a + S1x16.size a ≤ S128x128.size a
  inb_S128x128_S1x16_48_48 : ∀ a, (![48, 48] : Fin 2 → Nat) a + S1x16.size a ≤ S128x128.size a
  inb_S128x128_S1x16_49_48 : ∀ a, (![49, 48] : Fin 2 → Nat) a + S1x16.size a ≤ S128x128.size a
  inb_S128x128_S1x16_50_48 : ∀ a, (![50, 48] : Fin 2 → Nat) a + S1x16.size a ≤ S128x128.size a
  inb_S128x128_S1x16_51_48 : ∀ a, (![51, 48] : Fin 2 → Nat) a + S1x16.size a ≤ S128x128.size a
  inb_S128x128_S1x16_52_48 : ∀ a, (![52, 48] : Fin 2 → Nat) a + S1x16.size a ≤ S128x128.size a
  inb_S128x128_S1x16_53_48 : ∀ a, (![53, 48] : Fin 2 → Nat) a + S1x16.size a ≤ S128x128.size a
  inb_S128x128_S1x16_54_48 : ∀ a, (![54, 48] : Fin 2 → Nat) a + S1x16.size a ≤ S128x128.size a
  inb_S128x128_S1x16_55_48 : ∀ a, (![55, 48] : Fin 2 → Nat) a + S1x16.size a ≤ S128x128.size a
  inb_S128x128_S1x16_56_48 : ∀ a, (![56, 48] : Fin 2 → Nat) a + S1x16.size a ≤ S128x128.size a
  inb_S128x128_S1x16_57_48 : ∀ a, (![57, 48] : Fin 2 → Nat) a + S1x16.size a ≤ S128x128.size a
  inb_S128x128_S1x16_58_48 : ∀ a, (![58, 48] : Fin 2 → Nat) a + S1x16.size a ≤ S128x128.size a
  inb_S128x128_S1x16_59_48 : ∀ a, (![59, 48] : Fin 2 → Nat) a + S1x16.size a ≤ S128x128.size a
  inb_S128x128_S1x16_60_48 : ∀ a, (![60, 48] : Fin 2 → Nat) a + S1x16.size a ≤ S128x128.size a
  inb_S128x128_S1x16_61_48 : ∀ a, (![61, 48] : Fin 2 → Nat) a + S1x16.size a ≤ S128x128.size a
  inb_S128x128_S1x16_62_48 : ∀ a, (![62, 48] : Fin 2 → Nat) a + S1x16.size a ≤ S128x128.size a
  inb_S128x128_S1x16_63_48 : ∀ a, (![63, 48] : Fin 2 → Nat) a + S1x16.size a ≤ S128x128.size a
  inb_S128x128_S1x16_64_64 : ∀ a, (![64, 64] : Fin 2 → Nat) a + S1x16.size a ≤ S128x128.size a
  inb_S128x128_S1x16_65_64 : ∀ a, (![65, 64] : Fin 2 → Nat) a + S1x16.size a ≤ S128x128.size a
  inb_S128x128_S1x16_66_64 : ∀ a, (![66, 64] : Fin 2 → Nat) a + S1x16.size a ≤ S128x128.size a
  inb_S128x128_S1x16_67_64 : ∀ a, (![67, 64] : Fin 2 → Nat) a + S1x16.size a ≤ S128x128.size a
  inb_S128x128_S1x16_68_64 : ∀ a, (![68, 64] : Fin 2 → Nat) a + S1x16.size a ≤ S128x128.size a
  inb_S128x128_S1x16_69_64 : ∀ a, (![69, 64] : Fin 2 → Nat) a + S1x16.size a ≤ S128x128.size a
  inb_S128x128_S1x16_70_64 : ∀ a, (![70, 64] : Fin 2 → Nat) a + S1x16.size a ≤ S128x128.size a
  inb_S128x128_S1x16_71_64 : ∀ a, (![71, 64] : Fin 2 → Nat) a + S1x16.size a ≤ S128x128.size a
  inb_S128x128_S1x16_72_64 : ∀ a, (![72, 64] : Fin 2 → Nat) a + S1x16.size a ≤ S128x128.size a
  inb_S128x128_S1x16_73_64 : ∀ a, (![73, 64] : Fin 2 → Nat) a + S1x16.size a ≤ S128x128.size a
  inb_S128x128_S1x16_74_64 : ∀ a, (![74, 64] : Fin 2 → Nat) a + S1x16.size a ≤ S128x128.size a
  inb_S128x128_S1x16_75_64 : ∀ a, (![75, 64] : Fin 2 → Nat) a + S1x16.size a ≤ S128x128.size a
  inb_S128x128_S1x16_76_64 : ∀ a, (![76, 64] : Fin 2 → Nat) a + S1x16.size a ≤ S128x128.size a
  inb_S128x128_S1x16_77_64 : ∀ a, (![77, 64] : Fin 2 → Nat) a + S1x16.size a ≤ S128x128.size a
  inb_S128x128_S1x16_78_64 : ∀ a, (![78, 64] : Fin 2 → Nat) a + S1x16.size a ≤ S128x128.size a
  inb_S128x128_S1x16_79_64 : ∀ a, (![79, 64] : Fin 2 → Nat) a + S1x16.size a ≤ S128x128.size a
  inb_S128x128_S1x16_80_80 : ∀ a, (![80, 80] : Fin 2 → Nat) a + S1x16.size a ≤ S128x128.size a
  inb_S128x128_S1x16_81_80 : ∀ a, (![81, 80] : Fin 2 → Nat) a + S1x16.size a ≤ S128x128.size a
  inb_S128x128_S1x16_82_80 : ∀ a, (![82, 80] : Fin 2 → Nat) a + S1x16.size a ≤ S128x128.size a
  inb_S128x128_S1x16_83_80 : ∀ a, (![83, 80] : Fin 2 → Nat) a + S1x16.size a ≤ S128x128.size a
  inb_S128x128_S1x16_84_80 : ∀ a, (![84, 80] : Fin 2 → Nat) a + S1x16.size a ≤ S128x128.size a
  inb_S128x128_S1x16_85_80 : ∀ a, (![85, 80] : Fin 2 → Nat) a + S1x16.size a ≤ S128x128.size a
  inb_S128x128_S1x16_86_80 : ∀ a, (![86, 80] : Fin 2 → Nat) a + S1x16.size a ≤ S128x128.size a
  inb_S128x128_S1x16_87_80 : ∀ a, (![87, 80] : Fin 2 → Nat) a + S1x16.size a ≤ S128x128.size a
  inb_S128x128_S1x16_88_80 : ∀ a, (![88, 80] : Fin 2 → Nat) a + S1x16.size a ≤ S128x128.size a
  inb_S128x128_S1x16_89_80 : ∀ a, (![89, 80] : Fin 2 → Nat) a + S1x16.size a ≤ S128x128.size a
  inb_S128x128_S1x16_90_80 : ∀ a, (![90, 80] : Fin 2 → Nat) a + S1x16.size a ≤ S128x128.size a
  inb_S128x128_S1x16_91_80 : ∀ a, (![91, 80] : Fin 2 → Nat) a + S1x16.size a ≤ S128x128.size a
  inb_S128x128_S1x16_92_80 : ∀ a, (![92, 80] : Fin 2 → Nat) a + S1x16.size a ≤ S128x128.size a
  inb_S128x128_S1x16_93_80 : ∀ a, (![93, 80] : Fin 2 → Nat) a + S1x16.size a ≤ S128x128.size a
  inb_S128x128_S1x16_94_80 : ∀ a, (![94, 80] : Fin 2 → Nat) a + S1x16.size a ≤ S128x128.size a
  inb_S128x128_S1x16_95_80 : ∀ a, (![95, 80] : Fin 2 → Nat) a + S1x16.size a ≤ S128x128.size a
  inb_S128x128_S1x16_96_96 : ∀ a, (![96, 96] : Fin 2 → Nat) a + S1x16.size a ≤ S128x128.size a
  inb_S128x128_S1x16_97_96 : ∀ a, (![97, 96] : Fin 2 → Nat) a + S1x16.size a ≤ S128x128.size a
  inb_S128x128_S1x16_98_96 : ∀ a, (![98, 96] : Fin 2 → Nat) a + S1x16.size a ≤ S128x128.size a
  inb_S128x128_S1x16_99_96 : ∀ a, (![99, 96] : Fin 2 → Nat) a + S1x16.size a ≤ S128x128.size a
  inb_S128x128_S1x16_100_96 : ∀ a, (![100, 96] : Fin 2 → Nat) a + S1x16.size a ≤ S128x128.size a
  inb_S128x128_S1x16_101_96 : ∀ a, (![101, 96] : Fin 2 → Nat) a + S1x16.size a ≤ S128x128.size a
  inb_S128x128_S1x16_102_96 : ∀ a, (![102, 96] : Fin 2 → Nat) a + S1x16.size a ≤ S128x128.size a
  inb_S128x128_S1x16_103_96 : ∀ a, (![103, 96] : Fin 2 → Nat) a + S1x16.size a ≤ S128x128.size a
  inb_S128x128_S1x16_104_96 : ∀ a, (![104, 96] : Fin 2 → Nat) a + S1x16.size a ≤ S128x128.size a
  inb_S128x128_S1x16_105_96 : ∀ a, (![105, 96] : Fin 2 → Nat) a + S1x16.size a ≤ S128x128.size a
  inb_S128x128_S1x16_106_96 : ∀ a, (![106, 96] : Fin 2 → Nat) a + S1x16.size a ≤ S128x128.size a
  inb_S128x128_S1x16_107_96 : ∀ a, (![107, 96] : Fin 2 → Nat) a + S1x16.size a ≤ S128x128.size a
  inb_S128x128_S1x16_108_96 : ∀ a, (![108, 96] : Fin 2 → Nat) a + S1x16.size a ≤ S128x128.size a
  inb_S128x128_S1x16_109_96 : ∀ a, (![109, 96] : Fin 2 → Nat) a + S1x16.size a ≤ S128x128.size a
  inb_S128x128_S1x16_110_96 : ∀ a, (![110, 96] : Fin 2 → Nat) a + S1x16.size a ≤ S128x128.size a
  inb_S128x128_S1x16_111_96 : ∀ a, (![111, 96] : Fin 2 → Nat) a + S1x16.size a ≤ S128x128.size a
  inb_S128x128_S1x16_112_112 : ∀ a, (![112, 112] : Fin 2 → Nat) a + S1x16.size a ≤ S128x128.size a
  inb_S128x128_S1x16_113_112 : ∀ a, (![113, 112] : Fin 2 → Nat) a + S1x16.size a ≤ S128x128.size a
  inb_S128x128_S1x16_114_112 : ∀ a, (![114, 112] : Fin 2 → Nat) a + S1x16.size a ≤ S128x128.size a
  inb_S128x128_S1x16_115_112 : ∀ a, (![115, 112] : Fin 2 → Nat) a + S1x16.size a ≤ S128x128.size a
  inb_S128x128_S1x16_116_112 : ∀ a, (![116, 112] : Fin 2 → Nat) a + S1x16.size a ≤ S128x128.size a
  inb_S128x128_S1x16_117_112 : ∀ a, (![117, 112] : Fin 2 → Nat) a + S1x16.size a ≤ S128x128.size a
  inb_S128x128_S1x16_118_112 : ∀ a, (![118, 112] : Fin 2 → Nat) a + S1x16.size a ≤ S128x128.size a
  inb_S128x128_S1x16_119_112 : ∀ a, (![119, 112] : Fin 2 → Nat) a + S1x16.size a ≤ S128x128.size a
  inb_S128x128_S1x16_120_112 : ∀ a, (![120, 112] : Fin 2 → Nat) a + S1x16.size a ≤ S128x128.size a
  inb_S128x128_S1x16_121_112 : ∀ a, (![121, 112] : Fin 2 → Nat) a + S1x16.size a ≤ S128x128.size a
  inb_S128x128_S1x16_122_112 : ∀ a, (![122, 112] : Fin 2 → Nat) a + S1x16.size a ≤ S128x128.size a
  inb_S128x128_S1x16_123_112 : ∀ a, (![123, 112] : Fin 2 → Nat) a + S1x16.size a ≤ S128x128.size a
  inb_S128x128_S1x16_124_112 : ∀ a, (![124, 112] : Fin 2 → Nat) a + S1x16.size a ≤ S128x128.size a
  inb_S128x128_S1x16_125_112 : ∀ a, (![125, 112] : Fin 2 → Nat) a + S1x16.size a ≤ S128x128.size a
  inb_S128x128_S1x16_126_112 : ∀ a, (![126, 112] : Fin 2 → Nat) a + S1x16.size a ≤ S128x128.size a
  inb_S128x128_S1x16_127_112 : ∀ a, (![127, 112] : Fin 2 → Nat) a + S1x16.size a ≤ S128x128.size a
  inb_S16_S16_0 : ∀ a, (![0] : Fin 1 → Nat) a + S16.size a ≤ S16.size a
  h_S16 : 0 < S16.numel
  shapeCasts_S16_S16 : S16.ShapeCasts S16
  squeezes_S1x16_S16 : S1x16.Squeezes S16
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  h_S1x1024x1024 : 0 < S1x1024x1024.numel
  shapeCasts_S1x1024x1024_S1024x1024 : S1x1024x1024.ShapeCasts S1024x1024
  iota_S1024x1024_d0_w32 : S1024x1024.Iotas .tc 32 [0]
  iota_S1024x1024_d1_w32 : S1024x1024.Iotas .tc 32 [1]
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  reduces_S1024x2048_S2048 : S1024x2048.Reduces [0] S2048
  shapeCasts_S2048_S1x2048 : S2048.ShapeCasts S1x2048
  iota_S1x2048_d1_w32 : S1x2048.Iotas .tc 32 [1]
  natLt_1_32 : 1 < 32
  shapeCasts_S1x2048_S1x1x2048 : S1x2048.ShapeCasts S1x1x2048
  reduces_S1x1x2048_S1 : S1x1x2048.Reduces [1, 2] S1
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S32x16_S16x32 : S32x16.ShapeCasts S16x32
  reducesTo_S16x32_S16_d1 : S16x32.ReducesTo [1] S16
  h_S_ : 0 < S_.numel
  slices_S16x1x128_S16x1x1_0_0_0 : S16x1x128.Slices ![0, 0, 0] S16x1x1
  shapeCasts_S16x1x1_S16 : S16x1x1.ShapeCasts S16
  concatenates_S16_S16_S32_d0 : Shape.Concatenates [S16, S16] S32 0
  bcast_S32_S1x32_1 : S32.BroadcastsInDim S1x32 (![1] : Fin 1 → Fin S1x32.rank)
  hcc0_scratch2 : 0 + S_.numel ≤ 6
  hcc0_scoped0 : 1 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S128x128.size a ≤ S32768x2048.size a
  k0_off2_inb : ∀ i : grid0.Coords, ∀ a, (k0_off2 i) a + S1x16.size a ≤ S32x16.size a
  hrank1 : 0 < grid1.rank
  k1_off1_inb : ∀ i : grid1.Coords, ∀ a, (k1_off1 i) a + S1x1024x1024.size a ≤ S1x1024x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S16x2048x2048.size a
  hwx1_0 : ∀ i : grid1.Coords, EltTy.bits .f32 = 32 ∨ (Rect.block (s := S16x2048x2048) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S16x1x128.size a
  hwx1_1 : ∀ i : grid1.Coords, EltTy.bits .f32 = 32 ∨ (Rect.block (s := S16x1x128) S1x1x128.size (cc1_transform_1 i) (hinb1_1 i)).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0

abbrev win1_0 : Pipeline.Window sig grid1 :=
  Pipeline.Window.ofSpec (Memref.whole main_v0) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1x16x2048x2048 : Shape := ⟨4, ![1, 16, 2048, 2048]⟩
abbrev S2048 : Shape := ⟨1, ![2048]⟩
abbrev S_ : Shape := ⟨0, ![]⟩
abbrev S2048x1 : Shape := ⟨2, ![2048, 1]⟩
abbrev S2048x2 : Shape := ⟨2, ![2048, 2]⟩
abbrev S1x16x2048 : Shape := ⟨3, ![1, 16, 2048]⟩
abbrev S1x16 : Shape := ⟨2, ![1, 16]⟩
abbrev S1x32 : Shape := ⟨2, ![1, 32]⟩

abbrev nBuf : Space → Nat
  | .hbm => 49
  | .vmem => 0
  | .smem => 0
  | _ => 0

abbrev bufTy : (tb : Table) → Fin (tcTables nBuf tb) → BufTy
  | .hbm, ⟨0, _⟩ => ⟨S1x16x2048x2048, .f32⟩
  | .hbm, ⟨1, _⟩ => ⟨S2048, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x1, .i32⟩
  | .hbm, ⟨19, _⟩ => ⟨S2048x2, .i32⟩
  | .hbm, ⟨20, _⟩ => ⟨S1x16x2048, .f32⟩
  | .hbm, ⟨21, _⟩ => ⟨S_, .f32⟩
  | .hbm, ⟨22, _⟩ => ⟨S1x16, .f32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S2048x1, .i32⟩
  | .hbm, ⟨40, _⟩ => ⟨S2048x2, .i32⟩
  | .hbm, ⟨41, _⟩ => ⟨S_, .f32⟩
  | .hbm, ⟨42, _⟩ => ⟨S1x16x2048, .f32⟩
  | .hbm, ⟨43, _⟩ => ⟨S1x16x2048x2048, .f32⟩
  | .hbm, ⟨44, _⟩ => ⟨S_, .f32⟩
  | .hbm, ⟨45, _⟩ => ⟨S1x16x2048, .f32⟩
  | .hbm, ⟨46, _⟩ => ⟨S_, .f32⟩
  | .hbm, ⟨47, _⟩ => ⟨S1x16, .f32⟩
  | .hbm, ⟨48, _⟩ => ⟨S1x32, .f32⟩
  | _, _ => ⟨S1x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_c : Ref sig .tc := ⟨.hbm, 3, rfl⟩
abbrev main_call0_v2 : Ref sig .tc := ⟨.hbm, 4, rfl⟩
abbrev main_call0_v3 : Ref sig .tc := ⟨.hbm, 5, rfl⟩
abbrev main_call0_c_0 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_c_1 : Ref sig .tc := ⟨.hbm, 10, rfl⟩
abbrev main_call0_v7 : Ref sig .tc := ⟨.hbm, 11, rfl⟩
abbrev main_call0_v8 : Ref sig .tc := ⟨.hbm, 12, rfl⟩
abbrev main_call0_c_2 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_cst_5 : Ref sig .tc := ⟨.hbm, 46, rfl⟩
abbrev main_v19 : Ref sig .tc := ⟨.hbm, 47, rfl⟩
abbrev main_v20 : Ref sig .tc := ⟨.hbm, 48, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S1x16x2048_S1x16_d2 : S1x16x2048.ReducesTo [2] S1x16
  h_S_ : 0 < S_.numel
  bcast_S_S1x16x2048 : S_.BroadcastsInDim S1x16x2048 (![] : Fin 0 → Fin S1x16x2048.rank)
  reducesTo_S1x16x2048x2048_S1x16x2048_d3 : S1x16x2048x2048.ReducesTo [3] S1x16x2048
  concatenates_S1x16_S1x16_S1x32_d1 : Shape.Concatenates [S1x16, S1x16] S1x32 1
  gather_S1x16x2048x2048_S2048x2_S1x16x2048_01_23_n_n_23_1_11611_wf : GatherDims.WF S1x16x2048x2048 S2048x2 S1x16x2048 [0, 1] [2, 3] [] [2, 3] [] 1 ![1, 16, 1, 1]
  scatter_S1x16x2048x2048_S2048x2_S1x16x2048_01_23_23_1_wf : ScatterDims.WF S1x16x2048x2048 S2048x2 S1x16x2048 [0, 1] [2, 3] [2, 3] 1

variable [Facts₀]

def gather_S1x16x2048x2048_S2048x2_S1x16x2048_01_23_n_n_23_1_11611 : GatherDims S1x16x2048x2048 S2048x2 S1x16x2048 where
  offsetDims := [0, 1]
  collapsedSliceDims := [2, 3]
  operandBatchingDims := []
  startIndicesBatchingDims := []
  startIndexMap := [2, 3]
  indexVectorDim := 1
  sliceSizes := ![1, 16, 1, 1]
  wf := gather_S1x16x2048x2048_S2048x2_S1x16x2048_01_23_n_n_23_1_11611_wf
def scatter_S1x16x2048x2048_S2048x2_S1x16x2048_01_23_23_1 : ScatterDims S1x16x2048x2048 S2048x2 S1x16x2048 where
  updateWindowDims := [0, 1]
  insertedWindowDims := [2, 3]
  scatterDimsToOperandDims := [2, 3]
  indexVectorDim := 1
  wf := scatter_S1x16x2048x2048_S2048x2_S1x16x2048_01_23_23_1_wf

class Facts : Prop extends Facts₀ where

variable [Facts]
-- ==== Proof.Common.lean ====
/-
  Shared set-up for the frame of the kernel program: the program as the SparseCore launch theorem
  sees it (its configuration, the body table under it, the variants), the ghost state — the launch handshakes'
  rounds, the staging cells' rounds of the TensorCore pipeline, and the transfers' counters side by side —
  and the locations of the arrays the proof speaks of.
-/
import proofs.«210750_g14534169330353_cont_week2b_1167_29_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«210750_g14534169330353_cont_week2b_1167_29_alg».proof.Proof.Gen.KernelIdeal
import proofs.«210750_g14534169330353_cont_week2b_1167_29_alg».proof.Proof.Gen.KernelIdeal.Skeleton
import proofs.«210750_g14534169330353_cont_week2b_1167_29_alg».proof.Proof.Gen.KernelIdeal.Launch
import proofs.«210750_g14534169330353_cont_week2b_1167_29_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshake rounds, staging-cell rounds, transfer counters -/

abbrev UH : Type := URounds (GSem nD τ sig) ℕ
abbrev UR : Type := URounds (GSem nD τ sig) Unit
abbrev UU : Type := UH × (UR × Counters)

abbrev 𝕄F (F : FTy → Type) : Type := MT nD τ sig (HIx 1) (Elt F) ℕ UU ℕ

local notation "𝕄" => MT nD τ sig (HIx 1) (Elt F) ℕ UU ℕ

/-- The handshakes' rounds: the left factor. -/
abbrev EH : Emb UH (MT nD τ sig (HIx 1) (Elt F) ℕ UU ℕ) := embL

/-- The staging cells' rounds: the left factor of the right factor. -/
def ER : Emb UR (MT nD τ sig (HIx 1) (Elt F) ℕ UU ℕ) :=
  (Emb.inl : Emb UR (UR × Counters)).trans (embR (A := UH) (B := UR × Counters))

instance ER_landsIn : (ER : Emb UR 𝕄).LandsIn (upEmb : UEmb _ 𝕄) := by unfold ER embR; infer_instance

/-! ## The arrays -/

/-- The argument, its two reshapes, the two calls' results, as locations of device `d`. -/
abbrev xLoc (d : Dev nD) : Loc nD τ sig := (SparseCore.T d).loc main_arg0
abbrev x0Loc (d : Dev nD) : Loc nD τ sig := (SparseCore.T d).loc main_v0
abbrev x1Loc (d : Dev nD) : Loc nD τ sig := (SparseCore.T d).loc main_v1
abbrev oLoc (d : Dev nD) : Loc nD τ sig := (SparseCore.T d).loc main_v2
abbrev offLoc (d : Dev nD) : Loc nD τ sig := (SparseCore.T d).loc main_v3

end Cert.KernelIdeal.Hand

end
-- ==== Proof.ScBands.lean ====
/-
  The 128 rows of one staged 128×128 block, in the order and grouping of the program's text: row j's sixteen
  lanes starting at column 16·⌊j/16⌋ are read from the scratch and folded into the running 16-lane maximum with
  every lane but j mod 16 masked to -inf. A table read off the kernel's skeleton: `band1` … `band25` are the
  groups of rows the program's text is cut into, `band26` their composition with rows 124–126.
-/
import proofs.«210750_g14534169330353_cont_week2b_1167_29_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

noncomputable def band1 (s : Vec F S128x128 .f32) (v33 : IVec S16 32) (arg8 : FVec F S16 .f32) : (Σ' (v71 : FVec F S16 .f32), FVec F S16 .f32) :=
  let v49 : Vec F S1x16 .f32 := (Memref.whole cc0_scratch0 : Memref sig .scVector .vmem S128x128 .f32).view.readAt (Elt F) (Rect.unit (s := S128x128) ![0, 0] S1x16.size inb_S128x128_S1x16_0_0).toLoadRect s
  let v57 : Vec F S1x16 .f32 := (Memref.whole cc0_scratch0 : Memref sig .scVector .vmem S128x128 .f32).view.readAt (Elt F) (Rect.unit (s := S128x128) ![1, 0] S1x16.size inb_S128x128_S1x16_1_0).toLoadRect s
  let v65 : Vec F S1x16 .f32 := (Memref.whole cc0_scratch0 : Memref sig .scVector .vmem S128x128 .f32).view.readAt (Elt F) (Rect.unit (s := S128x128) ![2, 0] S1x16.size inb_S128x128_S1x16_2_0).toLoadRect s
  let v73 : Vec F S1x16 .f32 := (Memref.whole cc0_scratch0 : Memref sig .scVector .vmem S128x128 .f32).view.readAt (Elt F) (Rect.unit (s := S128x128) ![3, 0] S1x16.size inb_S128x128_S1x16_3_0).toLoadRect s
  ⟨k0_pay2 v33 arg8 v49 v57 v65, k0_pay3 v33 v73⟩

noncomputable def band2 (s : Vec F S128x128 .f32) (v33 : IVec S16 32) (v71 : FVec F S16 .f32) (v78 : FVec F S16 .f32) : (Σ' (v111 : FVec F S16 .f32), FVec F S16 .f32) :=
  let v81 : Vec F S1x16 .f32 := (Memref.whole cc0_scratch0 : Memref sig .scVector .vmem S128x128 .f32).view.readAt (Elt F) (Rect.unit (s := S128x128) ![4, 0] S1x16.size inb_S128x128_S1x16_4_0).toLoadRect s
  let v89 : Vec F S1x16 .f32 := (Memref.whole cc0_scratch0 : Memref sig .scVector .vmem S128x128 .f32).view.readAt (Elt F) (Rect.unit (s := S128x128) ![5, 0] S1x16.size inb_S128x128_S1x16_5_0).toLoadRect s
  let v97 : Vec F S1x16 .f32 := (Memref.whole cc0_scratch0 : Memref sig .scVector .vmem S128x128 .f32).view.readAt (Elt F) (Rect.unit (s := S128x128) ![6, 0] S1x16.size inb_S128x128_S1x16_6_0).toLoadRect s
  let v105 : Vec F S1x16 .f32 := (Memref.whole cc0_scratch0 : Memref sig .scVector .vmem S128x128 .f32).view.readAt (Elt F) (Rect.unit (s := S128x128) ![7, 0] S1x16.size inb_S128x128_S1x16_7_0).toLoadRect s
  let v113 : Vec F S1x16 .f32 := (Memref.whole cc0_scratch0 : Memref sig .scVector .vmem S128x128 .f32).view.readAt (Elt F) (Rect.unit (s := S128x128) ![8, 0] S1x16.size inb_S128x128_S1x16_8_0).toLoadRect s
  ⟨k0_pay4 v33 v71 v78 v81 v89 v97 v105, k0_pay5 v33 v113⟩

noncomputable def band3 (s : Vec F S128x128 .f32) (v33 : IVec S16 32) (v111 : FVec F S16 .f32) (v118 : FVec F S16 .f32) : (Σ' (v151 : FVec F S16 .f32), FVec F S16 .f32) :=
  let v121 : Vec F S1x16 .f32 := (Memref.whole cc0_scratch0 : Memref sig .scVector .vmem S128x128 .f32).view.readAt (Elt F) (Rect.unit (s := S128x128) ![9, 0] S1x16.size inb_S128x128_S1x16_9_0).toLoadRect s
  let v129 : Vec F S1x16 .f32 := (Memref.whole cc0_scratch0 : Memref sig .scVector .vmem S128x128 .f32).view.readAt (Elt F) (Rect.unit (s := S128x128) ![10, 0] S1x16.size inb_S128x128_S1x16_10_0).toLoadRect s
  let v137 : Vec F S1x16 .f32 := (Memref.whole cc0_scratch0 : Memref sig .scVector .vmem S128x128 .f32).view.readAt (Elt F) (Rect.unit (s := S128x128) ![11, 0] S1x16.size inb_S128x128_S1x16_11_0).toLoadRect s
  let v145 : Vec F S1x16 .f32 := (Memref.whole cc0_scratch0 : Memref sig .scVector .vmem S128x128 .f32).view.readAt (Elt F) (Rect.unit (s := S128x128) ![12, 0] S1x16.size inb_S128x128_S1x16_12_0).toLoadRect s
  let v153 : Vec F S1x16 .f32 := (Memref.whole cc0_scratch0 : Memref sig .scVector .vmem S128x128 .f32).view.readAt (Elt F) (Rect.unit (s := S128x128) ![13, 0] S1x16.size inb_S128x128_S1x16_13_0).toLoadRect s
  ⟨k0_pay6 v33 v111 v118 v121 v129 v137 v145, k0_pay7 v33 v153⟩

noncomputable def band4 (s : Vec F S128x128 .f32) (v33 : IVec S16 32) (v151 : FVec F S16 .f32) (v158 : FVec F S16 .f32) : (Σ' (v191 : FVec F S16 .f32), FVec F S16 .f32) :=
  let v161 : Vec F S1x16 .f32 := (Memref.whole cc0_scratch0 : Memref sig .scVector .vmem S128x128 .f32).view.readAt (Elt F) (Rect.unit (s := S128x128) ![14, 0] S1x16.size inb_S128x128_S1x16_14_0).toLoadRect s
  let v169 : Vec F S1x16 .f32 := (Memref.whole cc0_scratch0 : Memref sig .scVector .vmem S128x128 .f32).view.readAt (Elt F) (Rect.unit (s := S128x128) ![15, 0] S1x16.size inb_S128x128_S1x16_15_0).toLoadRect s
  let v177 : Vec F S1x16 .f32 := (Memref.whole cc0_scratch0 : Memref sig .scVector .vmem S128x128 .f32).view.readAt (Elt F) (Rect.unit (s := S128x128) ![16, 16] S1x16.size inb_S128x128_S1x16_16_16).toLoadRect s
  let v185 : Vec F S1x16 .f32 := (Memref.whole cc0_scratch0 : Memref sig .scVector .vmem S128x128 .f32).view.readAt (Elt F) (Rect.unit (s := S128x128) ![17, 16] S1x16.size inb_S128x128_S1x16_17_16).toLoadRect s
  let v193 : Vec F S1x16 .f32 := (Memref.whole cc0_scratch0 : Memref sig .scVector .vmem S128x128 .f32).view.readAt (Elt F) (Rect.unit (s := S128x128) ![18, 16] S1x16.size inb_S128x128_S1x16_18_16).toLoadRect s
  ⟨k0_pay8 v33 v151 v158 v161 v169 v177 v185, k0_pay9 v33 v193⟩

noncomputable def band5 (s : Vec F S128x128 .f32) (v33 : IVec S16 32) (v191 : FVec F S16 .f32) (v198 : FVec F S16 .f32) : (Σ' (v231 : FVec F S16 .f32), FVec F S16 .f32) :=
  let v201 : Vec F S1x16 .f32 := (Memref.whole cc0_scratch0 : Memref sig .scVector .vmem S128x128 .f32).view.readAt (Elt F) (Rect.unit (s := S128x128) ![19, 16] S1x16.size inb_S128x128_S1x16_19_16).toLoadRect s
  let v209 : Vec F S1x16 .f32 := (Memref.whole cc0_scratch0 : Memref sig .scVector .vmem S128x128 .f32).view.readAt (Elt F) (Rect.unit (s := S128x128) ![20, 16] S1x16.size inb_S128x128_S1x16_20_16).toLoadRect s
  let v217 : Vec F S1x16 .f32 := (Memref.whole cc0_scratch0 : Memref sig .scVector .vmem S128x128 .f32).view.readAt (Elt F) (Rect.unit (s := S128x128) ![21, 16] S1x16.size inb_S128x128_S1x16_21_16).toLoadRect s
  let v225 : Vec F S1x16 .f32 := (Memref.whole cc0_scratch0 : Memref sig .scVector .vmem S128x128 .f32).view.readAt (Elt F) (Rect.unit (s := S128x128) ![22, 16] S1x16.size inb_S128x128_S1x16_22_16).toLoadRect s
  let v233 : Vec F S1x16 .f32 := (Memref.whole cc0_scratch0 : Memref sig .scVector .vmem S128x128 .f32).view.readAt (Elt F) (Rect.unit (s := S128x128) ![23, 16] S1x16.size inb_S128x128_S1x16_23_16).toLoadRect s
  ⟨k0_pay10 v33 v191 v198 v201 v209 v217 v225, k0_pay11 v33 v233⟩

noncomputable def band6 (s : Vec F S128x128 .f32) (v33 : IVec S16 32) (v231 : FVec F S16 .f32) (v238 : FVec F S16 .f32) : (Σ' (v271 : FVec F S16 .f32), FVec F S16 .f32) :=
  let v241 : Vec F S1x16 .f32 := (Memref.whole cc0_scratch0 : Memref sig .scVector .vmem S128x128 .f32).view.readAt (Elt F) (Rect.unit (s := S128x128) ![24, 16] S1x16.size inb_S128x128_S1x16_24_16).toLoadRect s
  let v249 : Vec F S1x16 .f32 := (Memref.whole cc0_scratch0 : Memref sig .scVector .vmem S128x128 .f32).view.readAt (Elt F) (Rect.unit (s := S128x128) ![25, 16] S1x16.size inb_S128x128_S1x16_25_16).toLoadRect s
  let v257 : Vec F S1x16 .f32 := (Memref.whole cc0_scratch0 : Memref sig .scVector .vmem S128x128 .f32).view.readAt (Elt F) (Rect.unit (s := S128x128) ![26, 16] S1x16.size inb_S128x128_S1x16_26_16).toLoadRect s
  let v265 : Vec F S1x16 .f32 := (Memref.whole cc0_scratch0 : Memref sig .scVector .vmem S128x128 .f32).view.readAt (Elt F) (Rect.unit (s := S128x128) ![27, 16] S1x16.size inb_S128x128_S1x16_27_16).toLoadRect s
  let v273 : Vec F S1x16 .f32 := (Memref.whole cc0_scratch0 : Memref sig .scVector .vmem S128x128 .f32).view.readAt (Elt F) (Rect.unit (s := S128x128) ![28, 16] S1x16.size inb_S128x128_S1x16_28_16).toLoadRect s
  ⟨k0_pay12 v33 v231 v238 v241 v249 v257 v265, k0_pay13 v33 v273⟩

noncomputable def band7 (s : Vec F S128x128 .f32) (v33 : IVec S16 32) (v271 : FVec F S16 .f32) (v278 : FVec F S16 .f32) : (Σ' (v311 : FVec F S16 .f32), FVec F S16 .f32) :=
  let v281 : Vec F S1x16 .f32 := (Memref.whole cc0_scratch0 : Memref sig .scVector .vmem S128x128 .f32).view.readAt (Elt F) (Rect.unit (s := S128x128) ![29, 16] S1x16.size inb_S128x128_S1x16_29_16).toLoadRect s
  let v289 : Vec F S1x16 .f32 := (Memref.whole cc0_scratch0 : Memref sig .scVector .vmem S128x128 .f32).view.readAt (Elt F) (Rect.unit (s := S128x128) ![30, 16] S1x16.size inb_S128x128_S1x16_30_16).toLoadRect s
  let v297 : Vec F S1x16 .f32 := (Memref.whole cc0_scratch0 : Memref sig .scVector .vmem S128x128 .f32).view.readAt (Elt F) (Rect.unit (s := S128x128) ![31, 16] S1x16.size inb_S128x128_S1x16_31_16).toLoadRect s
  let v305 : Vec F S1x16 .f32 := (Memref.whole cc0_scratch0 : Memref sig .scVector .vmem S128x128 .f32).view.readAt (Elt F) (Rect.unit (s := S128x128) ![32, 32] S1x16.size inb_S128x128_S1x16_32_32).toLoadRect s
  let v313 : Vec F S1x16 .f32 := (Memref.whole cc0_scratch0 : Memref sig .scVector .vmem S128x128 .f32).view.readAt (Elt F) (Rect.unit (s := S128x128) ![33, 32] S1x16.size inb_S128x128_S1x16_33_32).toLoadRect s
  ⟨k0_pay14 v33 v271 v278 v281 v289 v297 v305, k0_pay15 v33 v313⟩

noncomputable def band8 (s : Vec F S128x128 .f32) (v33 : IVec S16 32) (v311 : FVec F S16 .f32) (v318 : FVec F S16 .f32) : (Σ' (v351 : FVec F S16 .f32), FVec F S16 .f32) :=
  let v321 : Vec F S1x16 .f32 := (Memref.whole cc0_scratch0 : Memref sig .scVector .vmem S128x128 .f32).view.readAt (Elt F) (Rect.unit (s := S128x128) ![34, 32] S1x16.size inb_S128x128_S1x16_34_32).toLoadRect s
  let v329 : Vec F S1x16 .f32 := (Memref.whole cc0_scratch0 : Memref sig .scVector .vmem S128x128 .f32).view.readAt (Elt F) (Rect.unit (s := S128x128) ![35, 32] S1x16.size inb_S128x128_S1x16_35_32).toLoadRect s
  let v337 : Vec F S1x16 .f32 := (Memref.whole cc0_scratch0 : Memref sig .scVector .vmem S128x128 .f32).view.readAt (Elt F) (Rect.unit (s := S128x128) ![36, 32] S1x16.size inb_S128x128_S1x16_36_32).toLoadRect s
  let v345 : Vec F S1x16 .f32 := (Memref.whole cc0_scratch0 : Memref sig .scVector .vmem S128x128 .f32).view.readAt (Elt F) (Rect.unit (s := S128x128) ![37, 32] S1x16.size inb_S128x128_S1x16_37_32).toLoadRect s
  let v353 : Vec F S1x16 .f32 := (Memref.whole cc0_scratch0 : Memref sig .scVector .vmem S128x128 .f32).view.readAt (Elt F) (Rect.unit (s := S128x128) ![38, 32] S1x16.size inb_S128x128_S1x16_38_32).toLoadRect s
  ⟨k0_pay16 v33 v311 v318 v321 v329 v337 v345, k0_pay17 v33 v353⟩

noncomputable def band9 (s : Vec F S128x128 .f32) (v33 : IVec S16 32) (v351 : FVec F S16 .f32) (v358 : FVec F S16 .f32) : (Σ' (v391 : FVec F S16 .f32), FVec F S16 .f32) :=
  let v361 : Vec F S1x16 .f32 := (Memref.whole cc0_scratch0 : Memref sig .scVector .vmem S128x128 .f32).view.readAt (Elt F) (Rect.unit (s := S128x128) ![39, 32] S1x16.size inb_S128x128_S1x16_39_32).toLoadRect s
  let v369 : Vec F S1x16 .f32 := (Memref.whole cc0_scratch0 : Memref sig .scVector .vmem S128x128 .f32).view.readAt (Elt F) (Rect.unit (s := S128x128) ![40, 32] S1x16.size inb_S128x128_S1x16_40_32).toLoadRect s
  let v377 : Vec F S1x16 .f32 := (Memref.whole cc0_scratch0 : Memref sig .scVector .vmem S128x128 .f32).view.readAt (Elt F) (Rect.unit (s := S128x128) ![41, 32] S1x16.size inb_S128x128_S1x16_41_32).toLoadRect s
  let v385 : Vec F S1x16 .f32 := (Memref.whole cc0_scratch0 : Memref sig .scVector .vmem S128x128 .f32).view.readAt (Elt F) (Rect.unit (s := S128x128) ![42, 32] S1x16.size inb_S128x128_S1x16_42_32).toLoadRect s
  let v393 : Vec F S1x16 .f32 := (Memref.whole cc0_scratch0 : Memref sig .scVector .vmem S128x128 .f32).view.readAt (Elt F) (Rect.unit (s := S128x128) ![43, 32] S1x16.size inb_S128x128_S1x16_43_32).toLoadRect s
  ⟨k0_pay18 v33 v351 v358 v361 v369 v377 v385, k0_pay19 v33 v393⟩

noncomputable def band10 (s : Vec F S128x128 .f32) (v33 : IVec S16 32) (v391 : FVec F S16 .f32) (v398 : FVec F S16 .f32) : (Σ' (v431 : FVec F S16 .f32), FVec F S16 .f32) :=
  let v401 : Vec F S1x16 .f32 := (Memref.whole cc0_scratch0 : Memref sig .scVector .vmem S128x128 .f32).view.readAt (Elt F) (Rect.unit (s := S128x128) ![44, 32] S1x16.size inb_S128x128_S1x16_44_32).toLoadRect s
  let v409 : Vec F S1x16 .f32 := (Memref.whole cc0_scratch0 : Memref sig .scVector .vmem S128x128 .f32).view.readAt (Elt F) (Rect.unit (s := S128x128) ![45, 32] S1x16.size inb_S128x128_S1x16_45_32).toLoadRect s
  let v417 : Vec F S1x16 .f32 := (Memref.whole cc0_scratch0 : Memref sig .scVector .vmem S128x128 .f32).view.readAt (Elt F) (Rect.unit (s := S128x128) ![46, 32] S1x16.size inb_S128x128_S1x16_46_32).toLoadRect s
  let v425 : Vec F S1x16 .f32 := (Memref.whole cc0_scratch0 : Memref sig .scVector .vmem S128x128 .f32).view.readAt (Elt F) (Rect.unit (s := S128x128) ![47, 32] S1x16.size inb_S128x128_S1x16_47_32).toLoadRect s
  let v433 : Vec F S1x16 .f32 := (Memref.whole cc0_scratch0 : Memref sig .scVector .vmem S128x128 .f32).view.readAt (Elt F) (Rect.unit (s := S128x128) ![48, 48] S1x16.size inb_S128x128_S1x16_48_48).toLoadRect s
  ⟨k0_pay20 v33 v391 v398 v401 v409 v417 v425, k0_pay21 v33 v433⟩

noncomputable def band11 (s : Vec F S128x128 .f32) (v33 : IVec S16 32) (v431 : FVec F S16 .f32) (v438 : FVec F S16 .f32) : (Σ' (v471 : FVec F S16 .f32), FVec F S16 .f32) :=
  let v441 : Vec F S1x16 .f32 := (Memref.whole cc0_scratch0 : Memref sig .scVector .vmem S128x128 .f32).view.readAt (Elt F) (Rect.unit (s := S128x128) ![49, 48] S1x16.size inb_S128x128_S1x16_49_48).toLoadRect s
  let v449 : Vec F S1x16 .f32 := (Memref.whole cc0_scratch0 : Memref sig .scVector .vmem S128x128 .f32).view.readAt (Elt F) (Rect.unit (s := S128x128) ![50, 48] S1x16.size inb_S128x128_S1x16_50_48).toLoadRect s
  let v457 : Vec F S1x16 .f32 := (Memref.whole cc0_scratch0 : Memref sig .scVector .vmem S128x128 .f32).view.readAt (Elt F) (Rect.unit (s := S128x128) ![51, 48] S1x16.size inb_S128x128_S1x16_51_48).toLoadRect s
  let v465 : Vec F S1x16 .f32 := (Memref.whole cc0_scratch0 : Memref sig .scVector .vmem S128x128 .f32).view.readAt (Elt F) (Rect.unit (s := S128x128) ![52, 48] S1x16.size inb_S128x128_S1x16_52_48).toLoadRect s
  let v473 : Vec F S1x16 .f32 := (Memref.whole cc0_scratch0 : Memref sig .scVector .vmem S128x128 .f32).view.readAt (Elt F) (Rect.unit (s := S128x128) ![53, 48] S1x16.size inb_S128x128_S1x16_53_48).toLoadRect s
  ⟨k0_pay22 v33 v431 v438 v441 v449 v457 v465, k0_pay23 v33 v473⟩

noncomputable def band12 (s : Vec F S128x128 .f32) (v33 : IVec S16 32) (v471 : FVec F S16 .f32) (v478 : FVec F S16 .f32) : (Σ' (v511 : FVec F S16 .f32), FVec F S16 .f32) :=
  let v481 : Vec F S1x16 .f32 := (Memref.whole cc0_scratch0 : Memref sig .scVector .vmem S128x128 .f32).view.readAt (Elt F) (Rect.unit (s := S128x128) ![54, 48] S1x16.size inb_S128x128_S1x16_54_48).toLoadRect s
  let v489 : Vec F S1x16 .f32 := (Memref.whole cc0_scratch0 : Memref sig .scVector .vmem S128x128 .f32).view.readAt (Elt F) (Rect.unit (s := S128x128) ![55, 48] S1x16.size inb_S128x128_S1x16_55_48).toLoadRect s
  let v497 : Vec F S1x16 .f32 := (Memref.whole cc0_scratch0 : Memref sig .scVector .vmem S128x128 .f32).view.readAt (Elt F) (Rect.unit (s := S128x128) ![56, 48] S1x16.size inb_S128x128_S1x16_56_48).toLoadRect s
  let v505 : Vec F S1x16 .f32 := (Memref.whole cc0_scratch0 : Memref sig .scVector .vmem S128x128 .f32).view.readAt (Elt F) (Rect.unit (s := S128x128) ![57, 48] S1x16.size inb_S128x128_S1x16_57_48).toLoadRect s
  let v513 : Vec F S1x16 .f32 := (Memref.whole cc0_scratch0 : Memref sig .scVector .vmem S128x128 .f32).view.readAt (Elt F) (Rect.unit (s := S128x128) ![58, 48] S1x16.size inb_S128x128_S1x16_58_48).toLoadRect s
  ⟨k0_pay24 v33 v471 v478 v481 v489 v497 v505, k0_pay25 v33 v513⟩

noncomputable def band13 (s : Vec F S128x128 .f32) (v33 : IVec S16 32) (v511 : FVec F S16 .f32) (v518 : FVec F S16 .f32) : (Σ' (v551 : FVec F S16 .f32), FVec F S16 .f32) :=
  let v521 : Vec F S1x16 .f32 := (Memref.whole cc0_scratch0 : Memref sig .scVector .vmem S128x128 .f32).view.readAt (Elt F) (Rect.unit (s := S128x128) ![59, 48] S1x16.size inb_S128x128_S1x16_59_48).toLoadRect s
  let v529 : Vec F S1x16 .f32 := (Memref.whole cc0_scratch0 : Memref sig .scVector .vmem S128x128 .f32).view.readAt (Elt F) (Rect.unit (s := S128x128) ![60, 48] S1x16.size inb_S128x128_S1x16_60_48).toLoadRect s
  let v537 : Vec F S1x16 .f32 := (Memref.whole cc0_scratch0 : Memref sig .scVector .vmem S128x128 .f32).view.readAt (Elt F) (Rect.unit (s := S128x128) ![61, 48] S1x16.size inb_S128x128_S1x16_61_48).toLoadRect s
  let v545 : Vec F S1x16 .f32 := (Memref.whole cc0_scratch0 : Memref sig .scVector .vmem S128x128 .f32).view.readAt (Elt F) (Rect.unit (s := S128x128) ![62, 48] S1x16.size inb_S128x128_S1x16_62_48).toLoadRect s
  let v553 : Vec F S1x16 .f32 := (Memref.whole cc0_scratch0 : Memref sig .scVector .vmem S128x128 .f32).view.readAt (Elt F) (Rect.unit (s := S128x128) ![63, 48] S1x16.size inb_S128x128_S1x16_63_48).toLoadRect s
  ⟨k0_pay26 v33 v511 v518 v521 v529 v537 v545, k0_pay27 v33 v553⟩

noncomputable def band14 (s : Vec F S128x128 .f32) (v33 : IVec S16 32) (v551 : FVec F S16 .f32) (v558 : FVec F S16 .f32) : (Σ' (v591 : FVec F S16 .f32), FVec F S16 .f32) :=
  let v561 : Vec F S1x16 .f32 := (Memref.whole cc0_scratch0 : Memref sig .scVector .vmem S128x128 .f32).view.readAt (Elt F) (Rect.unit (s := S128x128) ![64, 64] S1x16.size inb_S128x128_S1x16_64_64).toLoadRect s
  let v569 : Vec F S1x16 .f32 := (Memref.whole cc0_scratch0 : Memref sig .scVector .vmem S128x128 .f32).view.readAt (Elt F) (Rect.unit (s := S128x128) ![65, 64] S1x16.size inb_S128x128_S1x16_65_64).toLoadRect s
  let v577 : Vec F S1x16 .f32 := (Memref.whole cc0_scratch0 : Memref sig .scVector .vmem S128x128 .f32).view.readAt (Elt F) (Rect.unit (s := S128x128) ![66, 64] S1x16.size inb_S128x128_S1x16_66_64).toLoadRect s
  let v585 : Vec F S1x16 .f32 := (Memref.whole cc0_scratch0 : Memref sig .scVector .vmem S128x128 .f32).view.readAt (Elt F) (Rect.unit (s := S128x128) ![67, 64] S1x16.size inb_S128x128_S1x16_67_64).toLoadRect s
  let v593 : Vec F S1x16 .f32 := (Memref.whole cc0_scratch0 : Memref sig .scVector .vmem S128x128 .f32).view.readAt (Elt F) (Rect.unit (s := S128x128) ![68, 64] S1x16.size inb_S128x128_S1x16_68_64).toLoadRect s
  ⟨k0_pay28 v33 v551 v558 v561 v569 v577 v585, k0_pay29 v33 v593⟩

noncomputable def band15 (s : Vec F S128x128 .f32) (v33 : IVec S16 32) (v591 : FVec F S16 .f32) (v598 : FVec F S16 .f32) : (Σ' (v631 : FVec F S16 .f32), FVec F S16 .f32) :=
  let v601 : Vec F S1x16 .f32 := (Memref.whole cc0_scratch0 : Memref sig .scVector .vmem S128x128 .f32).view.readAt (Elt F) (Rect.unit (s := S128x128) ![69, 64] S1x16.size inb_S128x128_S1x16_69_64).toLoadRect s
  let v609 : Vec F S1x16 .f32 := (Memref.whole cc0_scratch0 : Memref sig .scVector .vmem S128x128 .f32).view.readAt (Elt F) (Rect.unit (s := S128x128) ![70, 64] S1x16.size inb_S128x128_S1x16_70_64).toLoadRect s
  let v617 : Vec F S1x16 .f32 := (Memref.whole cc0_scratch0 : Memref sig .scVector .vmem S128x128 .f32).view.readAt (Elt F) (Rect.unit (s := S128x128) ![71, 64] S1x16.size inb_S128x128_S1x16_71_64).toLoadRect s
  let v625 : Vec F S1x16 .f32 := (Memref.whole cc0_scratch0 : Memref sig .scVector .vmem S128x128 .f32).view.readAt (Elt F) (Rect.unit (s := S128x128) ![72, 64] S1x16.size inb_S128x128_S1x16_72_64).toLoadRect s
  let v633 : Vec F S1x16 .f32 := (Memref.whole cc0_scratch0 : Memref sig .scVector .vmem S128x128 .f32).view.readAt (Elt F) (Rect.unit (s := S128x128) ![73, 64] S1x16.size inb_S128x128_S1x16_73_64).toLoadRect s
  ⟨k0_pay30 v33 v591 v598 v601 v609 v617 v625, k0_pay31 v33 v633⟩

noncomputable def band16 (s : Vec F S128x128 .f32) (v33 : IVec S16 32) (v631 : FVec F S16 .f32) (v638 : FVec F S16 .f32) : (Σ' (v671 : FVec F S16 .f32), FVec F S16 .f32) :=
  let v641 : Vec F S1x16 .f32 := (Memref.whole cc0_scratch0 : Memref sig .scVector .vmem S128x128 .f32).view.readAt (Elt F) (Rect.unit (s := S128x128) ![74, 64] S1x16.size inb_S128x128_S1x16_74_64).toLoadRect s
  let v649 : Vec F S1x16 .f32 := (Memref.whole cc0_scratch0 : Memref sig .scVector .vmem S128x128 .f32).view.readAt (Elt F) (Rect.unit (s := S128x128) ![75, 64] S1x16.size inb_S128x128_S1x16_75_64).toLoadRect s
  let v657 : Vec F S1x16 .f32 := (Memref.whole cc0_scratch0 : Memref sig .scVector .vmem S128x128 .f32).view.readAt (Elt F) (Rect.unit (s := S128x128) ![76, 64] S1x16.size inb_S128x128_S1x16_76_64).toLoadRect s
  let v665 : Vec F S1x16 .f32 := (Memref.whole cc0_scratch0 : Memref sig .scVector .vmem S128x128 .f32).view.readAt (Elt F) (Rect.unit (s := S128x128) ![77, 64] S1x16.size inb_S128x128_S1x16_77_64).toLoadRect s
  let v673 : Vec F S1x16 .f32 := (Memref.whole cc0_scratch0 : Memref sig .scVector .vmem S128x128 .f32).view.readAt (Elt F) (Rect.unit (s := S128x128) ![78, 64] S1x16.size inb_S128x128_S1x16_78_64).toLoadRect s
  ⟨k0_pay32 v33 v631 v638 v641 v649 v657 v665, k0_pay33 v33 v673⟩

noncomputable def band17 (s : Vec F S128x128 .f32) (v33 : IVec S16 32) (v671 : FVec F S16 .f32) (v678 : FVec F S16 .f32) : (Σ' (v711 : FVec F S16 .f32), FVec F S16 .f32) :=
  let v681 : Vec F S1x16 .f32 := (Memref.whole cc0_scratch0 : Memref sig .scVector .vmem S128x128 .f32).view.readAt (Elt F) (Rect.unit (s := S128x128) ![79, 64] S1x16.size inb_S128x128_S1x16_79_64).toLoadRect s
  let v689 : Vec F S1x16 .f32 := (Memref.whole cc0_scratch0 : Memref sig .scVector .vmem S128x128 .f32).view.readAt (Elt F) (Rect.unit (s := S128x128) ![80, 80] S1x16.size inb_S128x128_S1x16_80_80).toLoadRect s
  let v697 : Vec F S1x16 .f32 := (Memref.whole cc0_scratch0 : Memref sig .scVector .vmem S128x128 .f32).view.readAt (Elt F) (Rect.unit (s := S128x128) ![81, 80] S1x16.size inb_S128x128_S1x16_81_80).toLoadRect s
  let v705 : Vec F S1x16 .f32 := (Memref.whole cc0_scratch0 : Memref sig .scVector .vmem S128x128 .f32).view.readAt (Elt F) (Rect.unit (s := S128x128) ![82, 80] S1x16.size inb_S128x128_S1x16_82_80).toLoadRect s
  let v713 : Vec F S1x16 .f32 := (Memref.whole cc0_scratch0 : Memref sig .scVector .vmem S128x128 .f32).view.readAt (Elt F) (Rect.unit (s := S128x128) ![83, 80] S1x16.size inb_S128x128_S1x16_83_80).toLoadRect s
  ⟨k0_pay34 v33 v671 v678 v681 v689 v697 v705, k0_pay35 v33 v713⟩

noncomputable def band18 (s : Vec F S128x128 .f32) (v33 : IVec S16 32) (v711 : FVec F S16 .f32) (v718 : FVec F S16 .f32) : (Σ' (v751 : FVec F S16 .f32), FVec F S16 .f32) :=
  let v721 : Vec F S1x16 .f32 := (Memref.whole cc0_scratch0 : Memref sig .scVector .vmem S128x128 .f32).view.readAt (Elt F) (Rect.unit (s := S128x128) ![84, 80] S1x16.size inb_S128x128_S1x16_84_80).toLoadRect s
  let v729 : Vec F S1x16 .f32 := (Memref.whole cc0_scratch0 : Memref sig .scVector .vmem S128x128 .f32).view.readAt (Elt F) (Rect.unit (s := S128x128) ![85, 80] S1x16.size inb_S128x128_S1x16_85_80).toLoadRect s
  let v737 : Vec F S1x16 .f32 := (Memref.whole cc0_scratch0 : Memref sig .scVector .vmem S128x128 .f32).view.readAt (Elt F) (Rect.unit (s := S128x128) ![86, 80] S1x16.size inb_S128x128_S1x16_86_80).toLoadRect s
  let v745 : Vec F S1x16 .f32 := (Memref.whole cc0_scratch0 : Memref sig .scVector .vmem S128x128 .f32).view.readAt (Elt F) (Rect.unit (s := S128x128) ![87, 80] S1x16.size inb_S128x128_S1x16_87_80).toLoadRect s
  let v753 : Vec F S1x16 .f32 := (Memref.whole cc0_scratch0 : Memref sig .scVector .vmem S128x128 .f32).view.readAt (Elt F) (Rect.unit (s := S128x128) ![88, 80] S1x16.size inb_S128x128_S1x16_88_80).toLoadRect s
  ⟨k0_pay36 v33 v711 v718 v721 v729 v737 v745, k0_pay37 v33 v753⟩

noncomputable def band19 (s : Vec F S128x128 .f32) (v33 : IVec S16 32) (v751 : FVec F S16 .f32) (v758 : FVec F S16 .f32) : (Σ' (v791 : FVec F S16 .f32), FVec F S16 .f32) :=
  let v761 : Vec F S1x16 .f32 := (Memref.whole cc0_scratch0 : Memref sig .scVector .vmem S128x128 .f32).view.readAt (Elt F) (Rect.unit (s := S128x128) ![89, 80] S1x16.size inb_S128x128_S1x16_89_80).toLoadRect s
  let v769 : Vec F S1x16 .f32 := (Memref.whole cc0_scratch0 : Memref sig .scVector .vmem S128x128 .f32).view.readAt (Elt F) (Rect.unit (s := S128x128) ![90, 80] S1x16.size inb_S128x128_S1x16_90_80).toLoadRect s
  let v777 : Vec F S1x16 .f32 := (Memref.whole cc0_scratch0 : Memref sig .scVector .vmem S128x128 .f32).view.readAt (Elt F) (Rect.unit (s := S128x128) ![91, 80] S1x16.size inb_S128x128_S1x16_91_80).toLoadRect s
  let v785 : Vec F S1x16 .f32 := (Memref.whole cc0_scratch0 : Memref sig .scVector .vmem S128x128 .f32).view.readAt (Elt F) (Rect.unit (s := S128x128) ![92, 80] S1x16.size inb_S128x128_S1x16_92_80).toLoadRect s
  let v793 : Vec F S1x16 .f32 := (Memref.whole cc0_scratch0 : Memref sig .scVector .vmem S128x128 .f32).view.readAt (Elt F) (Rect.unit (s := S128x128) ![93, 80] S1x16.size inb_S128x128_S1x16_93_80).toLoadRect s
  ⟨k0_pay38 v33 v751 v758 v761 v769 v777 v785, k0_pay39 v33 v793⟩

noncomputable def band20 (s : Vec F S128x128 .f32) (v33 : IVec S16 32) (v791 : FVec F S16 .f32) (v798 : FVec F S16 .f32) : (Σ' (v831 : FVec F S16 .f32), FVec F S16 .f32) :=
  let v801 : Vec F S1x16 .f32 := (Memref.whole cc0_scratch0 : Memref sig .scVector .vmem S128x128 .f32).view.readAt (Elt F) (Rect.unit (s := S128x128) ![94, 80] S1x16.size inb_S128x128_S1x16_94_80).toLoadRect s
  let v809 : Vec F S1x16 .f32 := (Memref.whole cc0_scratch0 : Memref sig .scVector .vmem S128x128 .f32).view.readAt (Elt F) (Rect.unit (s := S128x128) ![95, 80] S1x16.size inb_S128x128_S1x16_95_80).toLoadRect s
  let v817 : Vec F S1x16 .f32 := (Memref.whole cc0_scratch0 : Memref sig .scVector .vmem S128x128 .f32).view.readAt (Elt F) (Rect.unit (s := S128x128) ![96, 96] S1x16.size inb_S128x128_S1x16_96_96).toLoadRect s
  let v825 : Vec F S1x16 .f32 := (Memref.whole cc0_scratch0 : Memref sig .scVector .vmem S128x128 .f32).view.readAt (Elt F) (Rect.unit (s := S128x128) ![97, 96] S1x16.size inb_S128x128_S1x16_97_96).toLoadRect s
  let v833 : Vec F S1x16 .f32 := (Memref.whole cc0_scratch0 : Memref sig .scVector .vmem S128x128 .f32).view.readAt (Elt F) (Rect.unit (s := S128x128) ![98, 96] S1x16.size inb_S128x128_S1x16_98_96).toLoadRect s
  ⟨k0_pay40 v33 v791 v798 v801 v809 v817 v825, k0_pay41 v33 v833⟩

noncomputable def band21 (s : Vec F S128x128 .f32) (v33 : IVec S16 32) (v831 : FVec F S16 .f32) (v838 : FVec F S16 .f32) : (Σ' (v871 : FVec F S16 .f32), FVec F S16 .f32) :=
  let v841 : Vec F S1x16 .f32 := (Memref.whole cc0_scratch0 : Memref sig .scVector .vmem S128x128 .f32).view.readAt (Elt F) (Rect.unit (s := S128x128) ![99, 96] S1x16.size inb_S128x128_S1x16_99_96).toLoadRect s
  let v849 : Vec F S1x16 .f32 := (Memref.whole cc0_scratch0 : Memref sig .scVector .vmem S128x128 .f32).view.readAt (Elt F) (Rect.unit (s := S128x128) ![100, 96] S1x16.size inb_S128x128_S1x16_100_96).toLoadRect s
  let v857 : Vec F S1x16 .f32 := (Memref.whole cc0_scratch0 : Memref sig .scVector .vmem S128x128 .f32).view.readAt (Elt F) (Rect.unit (s := S128x128) ![101, 96] S1x16.size inb_S128x128_S1x16_101_96).toLoadRect s
  let v865 : Vec F S1x16 .f32 := (Memref.whole cc0_scratch0 : Memref sig .scVector .vmem S128x128 .f32).view.readAt (Elt F) (Rect.unit (s := S128x128) ![102, 96] S1x16.size inb_S128x128_S1x16_102_96).toLoadRect s
  let v873 : Vec F S1x16 .f32 := (Memref.whole cc0_scratch0 : Memref sig .scVector .vmem S128x128 .f32).view.readAt (Elt F) (Rect.unit (s := S128x128) ![103, 96] S1x16.size inb_S128x128_S1x16_103_96).toLoadRect s
  ⟨k0_pay42 v33 v831 v838 v841 v849 v857 v865, k0_pay43 v33 v873⟩

noncomputable def band22 (s : Vec F S128x128 .f32) (v33 : IVec S16 32) (v871 : FVec F S16 .f32) (v878 : FVec F S16 .f32) : (Σ' (v911 : FVec F S16 .f32), FVec F S16 .f32) :=
  let v881 : Vec F S1x16 .f32 := (Memref.whole cc0_scratch0 : Memref sig .scVector .vmem S128x128 .f32).view.readAt (Elt F) (Rect.unit (s := S128x128) ![104, 96] S1x16.size inb_S128x128_S1x16_104_96).toLoadRect s
  let v889 : Vec F S1x16 .f32 := (Memref.whole cc0_scratch0 : Memref sig .scVector .vmem S128x128 .f32).view.readAt (Elt F) (Rect.unit (s := S128x128) ![105, 96] S1x16.size inb_S128x128_S1x16_105_96).toLoadRect s
  let v897 : Vec F S1x16 .f32 := (Memref.whole cc0_scratch0 : Memref sig .scVector .vmem S128x128 .f32).view.readAt (Elt F) (Rect.unit (s := S128x128) ![106, 96] S1x16.size inb_S128x128_S1x16_106_96).toLoadRect s
  let v905 : Vec F S1x16 .f32 := (Memref.whole cc0_scratch0 : Memref sig .scVector .vmem S128x128 .f32).view.readAt (Elt F) (Rect.unit (s := S128x128) ![107, 96] S1x16.size inb_S128x128_S1x16_107_96).toLoadRect s
  let v913 : Vec F S1x16 .f32 := (Memref.whole cc0_scratch0 : Memref sig .scVector .vmem S128x128 .f32).view.readAt (Elt F) (Rect.unit (s := S128x128) ![108, 96] S1x16.size inb_S128x128_S1x16_108_96).toLoadRect s
  ⟨k0_pay44 v33 v871 v878 v881 v889 v897 v905, k0_pay45 v33 v913⟩

noncomputable def band23 (s : Vec F S128x128 .f32) (v33 : IVec S16 32) (v911 : FVec F S16 .f32) (v918 : FVec F S16 .f32) : (Σ' (v951 : FVec F S16 .f32), FVec F S16 .f32) :=
  let v921 : Vec F S1x16 .f32 := (Memref.whole cc0_scratch0 : Memref sig .scVector .vmem S128x128 .f32).view.readAt (Elt F) (Rect.unit (s := S128x128) ![109, 96] S1x16.size inb_S128x128_S1x16_109_96).toLoadRect s
  let v929 : Vec F S1x16 .f32 := (Memref.whole cc0_scratch0 : Memref sig .scVector .vmem S128x128 .f32).view.readAt (Elt F) (Rect.unit (s := S128x128) ![110, 96] S1x16.size inb_S128x128_S1x16_110_96).toLoadRect s
  let v937 : Vec F S1x16 .f32 := (Memref.whole cc0_scratch0 : Memref sig .scVector .vmem S128x128 .f32).view.readAt (Elt F) (Rect.unit (s := S128x128) ![111, 96] S1x16.size inb_S128x128_S1x16_111_96).toLoadRect s
  let v945 : Vec F S1x16 .f32 := (Memref.whole cc0_scratch0 : Memref sig .scVector .vmem S128x128 .f32).view.readAt (Elt F) (Rect.unit (s := S128x128) ![112, 112] S1x16.size inb_S128x128_S1x16_112_112).toLoadRect s
  let v953 : Vec F S1x16 .f32 := (Memref.whole cc0_scratch0 : Memref sig .scVector .vmem S128x128 .f32).view.readAt (Elt F) (Rect.unit (s := S128x128) ![113, 112] S1x16.size inb_S128x128_S1x16_113_112).toLoadRect s
  ⟨k0_pay46 v33 v911 v918 v921 v929 v937 v945, k0_pay47 v33 v953⟩

noncomputable def band24 (s : Vec F S128x128 .f32) (v33 : IVec S16 32) (v951 : FVec F S16 .f32) (v958 : FVec F S16 .f32) : (Σ' (v991 : FVec F S16 .f32), FVec F S16 .f32) :=
  let v961 : Vec F S1x16 .f32 := (Memref.whole cc0_scratch0 : Memref sig .scVector .vmem S128x128 .f32).view.readAt (Elt F) (Rect.unit (s := S128x128) ![114, 112] S1x16.size inb_S128x128_S1x16_114_112).toLoadRect s
  let v969 : Vec F S1x16 .f32 := (Memref.whole cc0_scratch0 : Memref sig .scVector .vmem S128x128 .f32).view.readAt (Elt F) (Rect.unit (s := S128x128) ![115, 112] S1x16.size inb_S128x128_S1x16_115_112).toLoadRect s
  let v977 : Vec F S1x16 .f32 := (Memref.whole cc0_scratch0 : Memref sig .scVector .vmem S128x128 .f32).view.readAt (Elt F) (Rect.unit (s := S128x128) ![116, 112] S1x16.size inb_S128x128_S1x16_116_112).toLoadRect s
  let v985 : Vec F S1x16 .f32 := (Memref.whole cc0_scratch0 : Memref sig .scVector .vmem S128x128 .f32).view.readAt (Elt F) (Rect.unit (s := S128x128) ![117, 112] S1x16.size inb_S128x128_S1x16_117_112).toLoadRect s
  let v993 : Vec F S1x16 .f32 := (Memref.whole cc0_scratch0 : Memref sig .scVector .vmem S128x128 .f32).view.readAt (Elt F) (Rect.unit (s := S128x128) ![118, 112] S1x16.size inb_S128x128_S1x16_118_112).toLoadRect s
  ⟨k0_pay48 v33 v951 v958 v961 v969 v977 v985, k0_pay49 v33 v993⟩

noncomputable def band25 (s : Vec F S128x128 .f32) (v33 : IVec S16 32) (v991 : FVec F S16 .f32) (v998 : FVec F S16 .f32) : (Σ' (v1031 : FVec F S16 .f32), FVec F S16 .f32) :=
  let v1001 : Vec F S1x16 .f32 := (Memref.whole cc0_scratch0 : Memref sig .scVector .vmem S128x128 .f32).view.readAt (Elt F) (Rect.unit (s := S128x128) ![119, 112] S1x16.size inb_S128x128_S1x16_119_112).toLoadRect s
  let v1009 : Vec F S1x16 .f32 := (Memref.whole cc0_scratch0 : Memref sig .scVector .vmem S128x128 .f32).view.readAt (Elt F) (Rect.unit (s := S128x128) ![120, 112] S1x16.size inb_S128x128_S1x16_120_112).toLoadRect s
  let v1017 : Vec F S1x16 .f32 := (Memref.whole cc0_scratch0 : Memref sig .scVector .vmem S128x128 .f32).view.readAt (Elt F) (Rect.unit (s := S128x128) ![121, 112] S1x16.size inb_S128x128_S1x16_121_112).toLoadRect s
  let v1025 : Vec F S1x16 .f32 := (Memref.whole cc0_scratch0 : Memref sig .scVector .vmem S128x128 .f32).view.readAt (Elt F) (Rect.unit (s := S128x128) ![122, 112] S1x16.size inb_S128x128_S1x16_122_112).toLoadRect s
  let v1033 : Vec F S1x16 .f32 := (Memref.whole cc0_scratch0 : Memref sig .scVector .vmem S128x128 .f32).view.readAt (Elt F) (Rect.unit (s := S128x128) ![123, 112] S1x16.size inb_S128x128_S1x16_123_112).toLoadRect s
  ⟨k0_pay50 v33 v991 v998 v1001 v1009 v1017 v1025, k0_pay51 v33 v1033⟩

noncomputable def band26 (s : Vec F S128x128 .f32) (v33 : IVec S16 32) (arg8 : FVec F S16 .f32) : (Σ' (v1055 : FVec F S16 .f32) (v1058 : FVec F S16 .f32) (v1060 : IVec S16 1), FVec F S16 .f32) :=
  let r1 : Σ' (v71 : FVec F S16 .f32), FVec F S16 .f32 := band1 s v33 arg8
  let r2 : Σ' (v111 : FVec F S16 .f32), FVec F S16 .f32 := band2 s v33 r1.1 r1.2
  let r3 : Σ' (v151 : FVec F S16 .f32), FVec F S16 .f32 := band3 s v33 r2.1 r2.2
  let r4 : Σ' (v191 : FVec F S16 .f32), FVec F S16 .f32 := band4 s v33 r3.1 r3.2
  let r5 : Σ' (v231 : FVec F S16 .f32), FVec F S16 .f32 := band5 s v33 r4.1 r4.2
  let r6 : Σ' (v271 : FVec F S16 .f32), FVec F S16 .f32 := band6 s v33 r5.1 r5.2
  let r7 : Σ' (v311 : FVec F S16 .f32), FVec F S16 .f32 := band7 s v33 r6.1 r6.2
  let r8 : Σ' (v351 : FVec F S16 .f32), FVec F S16 .f32 := band8 s v33 r7.1 r7.2
  let r9 : Σ' (v391 : FVec F S16 .f32), FVec F S16 .f32 := band9 s v33 r8.1 r8.2
  let r10 : Σ' (v431 : FVec F S16 .f32), FVec F S16 .f32 := band10 s v33 r9.1 r9.2
  let r11 : Σ' (v471 : FVec F S16 .f32), FVec F S16 .f32 := band11 s v33 r10.1 r10.2
  let r12 : Σ' (v511 : FVec F S16 .f32), FVec F S16 .f32 := band12 s v33 r11.1 r11.2
  let r13 : Σ' (v551 : FVec F S16 .f32), FVec F S16 .f32 := band13 s v33 r12.1 r12.2
  let r14 : Σ' (v591 : FVec F S16 .f32), FVec F S16 .f32 := band14 s v33 r13.1 r13.2
  let r15 : Σ' (v631 : FVec F S16 .f32), FVec F S16 .f32 := band15 s v33 r14.1 r14.2
  let r16 : Σ' (v671 : FVec F S16 .f32), FVec F S16 .f32 := band16 s v33 r15.1 r15.2
  let r17 : Σ' (v711 : FVec F S16 .f32), FVec F S16 .f32 := band17 s v33 r16.1 r16.2
  let r18 : Σ' (v751 : FVec F S16 .f32), FVec F S16 .f32 := band18 s v33 r17.1 r17.2
  let r19 : Σ' (v791 : FVec F S16 .f32), FVec F S16 .f32 := band19 s v33 r18.1 r18.2
  let r20 : Σ' (v831 : FVec F S16 .f32), FVec F S16 .f32 := band20 s v33 r19.1 r19.2
  let r21 : Σ' (v871 : FVec F S16 .f32), FVec F S16 .f32 := band21 s v33 r20.1 r20.2
  let r22 : Σ' (v911 : FVec F S16 .f32), FVec F S16 .f32 := band22 s v33 r21.1 r21.2
  let r23 : Σ' (v951 : FVec F S16 .f32), FVec F S16 .f32 := band23 s v33 r22.1 r22.2
  let r24 : Σ' (v991 : FVec F S16 .f32), FVec F S16 .f32 := band24 s v33 r23.1 r23.2
  let r25 : Σ' (v1031 : FVec F S16 .f32), FVec F S16 .f32 := band25 s v33 r24.1 r24.2
  let v1041 : Vec F S1x16 .f32 := (Memref.whole cc0_scratch0 : Memref sig .scVector .vmem S128x128 .f32).view.readAt (Elt F) (Rect.unit (s := S128x128) ![124, 112] S1x16.size inb_S128x128_S1x16_124_112).toLoadRect s
  let v1049 : Vec F S1x16 .f32 := (Memref.whole cc0_scratch0 : Memref sig .scVector .vmem S128x128 .f32).view.readAt (Elt F) (Rect.unit (s := S128x128) ![125, 112] S1x16.size inb_S128x128_S1x16_125_112).toLoadRect s
  let v1057 : Vec F S1x16 .f32 := (Memref.whole cc0_scratch0 : Memref sig .scVector .vmem S128x128 .f32).view.readAt (Elt F) (Rect.unit (s := S128x128) ![126, 112] S1x16.size inb_S128x128_S1x16_126_112).toLoadRect s
  ⟨k0_pay52 v33 r25.1 r25.2 v1041 v1049, k0_pay53 v1057, k0_pay54 v33, k0_pay55 (F := F)⟩

end Cert.KernelIdeal.Hand

end
-- ==== Proof.ScVal.lean ====
/-
  The values the SparseCore kernel computes, as pure functions of the arrays, for any float instance.
  A vector subcore walks the eight 128×128 blocks on the diagonal of its half of one head's matrix; from each
  block, staged in its scratch, it takes row j's sixteen lanes starting at column 16·⌊j/16⌋ and keeps, lane by
  lane, the running maximum of the lane j mod 16 (every other lane masked to -inf): after a block the
  accumulator's lane l is the maximum of what it was and of the block's diagonal entries (j, j) with
  j ≡ l (mod 16). `band1` … `band26` (their own module) are the block's 128 rows in the order and grouping of the
  program's text, `bandStep` one whole block, `accAt` the accumulator after k blocks, `scOut` the 32×16 result (row 2·s + c is
  subcore (c, s)'s accumulator after its eight blocks); `hostTail` is the host arithmetic after the two calls:
  the per-head maximum of the two subcores' 32 lanes, beside the off-diagonal maxima's first lane.
-/
import proofs.«210750_g14534169330353_cont_week2b_1167_29_alg».proof.Proof.ScBands
import Idealize.ShloMosaic.Lib.StableHlo.Run
import Idealize.ShloMosaic.Lib.ValueIdx

noncomputable section

namespace Cert.KernelIdeal.Hand

open Cert.KernelIdeal Cert.KernelIdeal.Gen
open Idealize.ShloMosaic Idealize.SL.Sem

variable {F : FTy → Type} [FloatOps F]

/-! ## One staged block -/

/-- One whole staged block `s` folded into the accumulator `acc`. -/
noncomputable def bandStep (s : Vec F S128x128 .f32) (acc : FVec F S16 .f32) : FVec F S16 .f32 :=
  let v33 : IVec S16 32 := iota .scVector S16 32 [0] iota_S16_d0_w32_scVector
  let r : (Σ' (v1055 : FVec F S16 .f32) (v1058 : FVec F S16 .f32) (v1060 : IVec S16 1), FVec F S16 .f32) := band26 s v33 acc
  let v1065 : Vec F S1x16 .f32 := (Memref.whole cc0_scratch0 : Memref sig .scVector .vmem S128x128 .f32).view.readAt (Elt F) (Rect.unit (s := S128x128) ![127, 112] S1x16.size inb_S128x128_S1x16_127_112).toLoadRect s
  k0_pay57 r.1 r.2.1 r.2.2.1 r.2.2.2 v1065

/-! ## A subcore's eight blocks -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Block `k` of the subcore at `L`: the 128×128 square the program slices out of the 32768×2048 array. -/
abbrev bandM (L : grid0.Coords) (k : Fin k0_t1_loop.trips) : Memref sig .scVector .hbm S128x128 .f32 :=
  (Memref.whole main_v1_scv : Memref sig .scVector .hbm S32768x2048 .f32).slice (Rect.unit (s := S32768x2048) (k0_off1 L k) S128x128.size (k0_off1_inb L k)) (fun _ => rfl)

/-- The accumulator of the subcore at `L` after its first `k` blocks of `X`, from all lanes -inf. -/
noncomputable def accAt (L : grid0.Coords) (X : Vec F S32768x2048 .f32) : Nat → FVec F S16 .f32
  | 0 => k0_pay56 (F := F)
  | k + 1 => if h : k < k0_t1_loop.trips then bandStep ((bandM L ⟨k, h⟩).view.read (Elt F) X) (accAt L X k) else accAt L X k

/-- Which subcore writes row `w` of the result: SparseCore `w mod 2`, subcore `w / 2`. -/
def tileOf (w : Fin 32) : grid0.Coords :=
  coordsV ⟨w.val % 2, Nat.mod_lt _ (by decide)⟩ ⟨w.val / 2, by have := w.isLt; show w.val / 2 < 16; omega⟩

/-- The call's result: row `w` is the accumulator of its subcore after the eight blocks. -/
noncomputable def scOut (X : Vec F S32768x2048 .f32) : Vec F S32x16 .f32 :=
  fun j => k0_pay1 (accAt (tileOf (j 0)) X k0_t1_loop.trips) (ValueIdx.ix1 (n := 16) (j 1))

/-! ## The host arithmetic around the calls -/

/-- The two reshapes of the argument before the calls. -/
def opsHead : List (HloOp τ sig (Elt F)) :=
  [StableHlo.reshape main_arg0 main_v0 rfl shapeCasts_S1x16x2048x2048_S16x2048x2048,
   StableHlo.reshape main_arg0 main_v1 rfl shapeCasts_S1x16x2048x2048_S32768x2048]

/-- The seven operations after the calls. -/
def opsTail : List (HloOp τ sig (Elt F)) :=
  [StableHlo.reshape main_v2 main_v4 rfl shapeCasts_S32x16_S16x32,
   StableHlo.nullary main_cst (constant S_ .f32 0xFF800000#32),
   StableHlo.binary main_v4 main_cst main_v5 ((fun x v => Host.reduce FloatOps.maximumf x v reducesTo_S16x32_S16_d1 h_S_) : (⟨S16x32, .f32⟩ : BufTy).Contents (Elt F) → (⟨S_, .f32⟩ : BufTy).Contents (Elt F) → (⟨S16, .f32⟩ : BufTy).Contents (Elt F)),
   StableHlo.unary main_v3 main_v6 ((extractStridedSlice S16x1x1 ![0, 0, 0] · slices_S16x1x128_S16x1x1_0_0_0) : (⟨S16x1x128, .f32⟩ : BufTy).Contents (Elt F) → (⟨S16x1x1, .f32⟩ : BufTy).Contents (Elt F)),
   StableHlo.reshape main_v6 main_v7 rfl shapeCasts_S16x1x1_S16,
   StableHlo.binary main_v5 main_v7 main_v8 ((fun a b => concatenate S32 0 [⟨S16, a⟩, ⟨S16, b⟩] concatenates_S16_S16_S32_d0) : (⟨S16, .f32⟩ : BufTy).Contents (Elt F) → (⟨S16, .f32⟩ : BufTy).Contents (Elt F) → (⟨S32, .f32⟩ : BufTy).Contents (Elt F)),
   StableHlo.unary main_v8 main_v9 (broadcastInDim S1x32 ![1] bcast_S32_S1x32_1 : (⟨S32, .f32⟩ : BufTy).Contents (Elt F) → (⟨S1x32, .f32⟩ : BufTy).Contents (Elt F))]

/-- The result as a function of what the two calls leave. -/
noncomputable def hostTail (v2 : Vec F S32x16 .f32) (v3 : Vec F S16x1x128 .f32) : Vec F S1x32 .f32 :=
  broadcastInDim S1x32 ![1] bcast_S32_S1x32_1
    (concatenate S32 0 [⟨S16, Host.reduce FloatOps.maximumf (shapeCast S16x32 v2 shapeCasts_S32x16_S16x32) (constant S_ .f32 0xFF800000#32) reducesTo_S16x32_S16_d1 h_S_⟩,
      ⟨S16, shapeCast S16 (extractStridedSlice S16x1x1 ![0, 0, 0] v3 slices_S16x1x128_S16x1x1_0_0_0) shapeCasts_S16x1x1_S16⟩] concatenates_S16_S16_S32_d0)

end Cert.KernelIdeal.Hand

end
-- ==== Proof.ScBody.lean ====
/-
  One vector subcore's task of the SparseCore kernel, at a symbolic grid point: eight times, a 128×128 block of
  the array is copied into the subcore's scratch, waited for, and folded row by row into the 16-lane accumulator;
  the accumulator is stored to the second scratch and copied out to the subcore's row of the result. Every copy
  is local and waited for before the next access to its ends, so the task needs no schedule: it reads the array
  through a read share and owns its row of the result.
-/
import proofs.«210750_g14534169330353_cont_week2b_1167_29_alg».proof.Proof.Common
import proofs.«210750_g14534169330353_cont_week2b_1167_29_alg».proof.Proof.ScVal

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "xV" => (Memref.whole Cert.KernelIdeal.main_v1_scv : Memref Cert.KernelIdeal.sig Kind.scVector Space.hbm Cert.KernelIdeal.S32768x2048 EltTy.f32)
local notation "oV" => (Memref.whole Cert.KernelIdeal.main_v2_scv : Memref Cert.KernelIdeal.sig Kind.scVector Space.hbm Cert.KernelIdeal.S32x16 EltTy.f32)
local notation "sB" => (Memref.whole Cert.KernelIdeal.cc0_scratch0 : Memref Cert.KernelIdeal.sig Kind.scVector Space.vmem Cert.KernelIdeal.S128x128 EltTy.f32)
local notation "sA" => (Memref.whole Cert.KernelIdeal.cc0_scratch1 : Memref Cert.KernelIdeal.sig Kind.scVector Space.vmem Cert.KernelIdeal.S16 EltTy.f32)

section Tile

variable (d : Dev nD) (L : grid0.Coords)

abbrev cV (L : grid0.Coords) : Fin τ.nSC := (L 0).castLE hcore0
abbrev jV (L : grid0.Coords) : Fin τ.nSub := (L 1).castLE hsub0

/-- The subcore's row of the result, as the program slices it. -/
abbrev oRowK (L : grid0.Coords) : Memref sig .scVector .hbm S16 .f32 :=
  ((oV).slice (Rect.unit (s := S32x16) (k0_off2 L) S1x16.size (k0_off2_inb L)) (fun _ => rfl)).squeeze S16 squeezes_S1x16_S16
abbrev oRowSet (L : grid0.Coords) : Finset S32x16.Idx := (oRowK L).view.set

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)

theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The array at a read share; the subcore's row of the result. -/
abbrev x1Pts (d : Dev nD) (q : PosShare TreeShare) (X1 : Buf (Elt F) (x1Loc d)) : sProp 𝕄 := x1Loc d ↦{q} X1
abbrev oRowPts (d : Dev nD) (L : grid0.Coords) (f : Buf (Elt F) (oLoc d)) : sProp 𝕄 := oLoc d ↦[oRowSet L]{fullShare} f

/-- Where the subcore's row lies: row `2·s + c`, the lanes in order. -/
theorem oRow_emb0 : ∀ (L : grid0.Coords) (x : S16.Idx), (((oRowK L).view.emb x) 0).val = 2 * (L 1).val + (L 0).val := by decide +kernel
theorem oRow_emb1 : ∀ (L : grid0.Coords) (x : S16.Idx), (((oRowK L).view.emb x) 1).val = (x 0).val := by decide +kernel

theorem tileOf_emb (L : grid0.Coords) (x : S16.Idx) : tileOf (((oRowK L).view.emb x) 0) = L := by
  funext a
  have h0 := oRow_emb0 L x
  have hc : (L 0).val < 2 := (L 0).isLt
  match a with
  | ⟨0, _⟩ => apply Fin.ext; show (((oRowK L).view.emb x) 0).val % 2 = (L 0).val; rw [h0]; omega
  | ⟨1, _⟩ => apply Fin.ext; show (((oRowK L).view.emb x) 0).val / 2 = (L 1).val; rw [h0]; omega

theorem lane_emb (L : grid0.Coords) (x : S16.Idx) : ValueIdx.ix1 (n := 16) (((oRowK L).view.emb x) 1) = x := by
  funext a; obtain rfl : a = 0 := Subsingleton.elim _ _; apply Fin.ext; exact oRow_emb1 L x

variable [FloatOps F]

/-- The loop's invariant after `k` blocks: the array's read share, the block scratch at some contents, its
    semaphore's counter at zero, the carried accumulator the fold of the first `k` blocks, and what the subcore owes. -/
def inv (X1 : Buf (Elt F) (x1Loc d)) (q : PosShare TreeShare) (O : CellTallies nD τ sig (HIx 1)) (W : Waits sig (HIx 1))
    (k : Nat) (acc : FVec F S16 .f32) : sProp 𝕄 :=
  iprop(Transfers.MayWaits (V d (cV L) (jV L)) (none : HIx 1) O
    ∗ ((xV).view.loc (V d (cV L) (jV L)) ↦{q} X1)
    ∗ (∃ f, (sB).view.loc (V d (cV L) (jV L)) ↦{fullShare} f)
    ∗ semVal (cAcell d (cV L) (jV L)) 0
    ∗ ⌜acc = accAt L X1 k⌝
    ∗ ∃ W', ⌜∀ p ∈ W', p ∈ W ∨ p.2 = none⌝ ∗ owes (V d (cV L) (jV L)) O W')

theorem tile_body (hF : (K (F := F)).Facts) (X1 : Buf (Elt F) (x1Loc d)) (O0 : Buf (Elt F) (oLoc d)) (q : PosShare TreeShare)
    (O : CellTallies nD τ sig (HIx 1)) (W : Waits sig (HIx 1)) (hO : ∀ g, O g none = 0) :
    iprop(levAts (K (F := F)).L (K (F := F)).lev ∗ emp
        ∗ (x1Pts d q X1 ∗ oRowPts d L O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_diag_body L xV (Memref.isWhole_whole _) oV (Memref.isWhole_whole _) sB (Memref.isWhole_whole _) sA (Memref.isWhole_whole _) cc0_scratch2 cc0_scoped0)
          fun _ => iprop((x1Pts d q X1 ∗ oRowPts d L (scOut (F := F) X1))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_diag_body_eq_skeleton]; unfold cc0__sc_diag_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fb, Hsb⟩, ⟨%fa, Hsa⟩, Hbufs⟩, ⟨HsemA, HsemB, Hsems⟩, HO⟩
  ihave Hmw := ((K (F := F)).mayWaits_none (thr := V d (cV L) (jV L)) hO) $$ Hlv
  ihave Hx' := (Entails.of_eq (show ((xV).view.loc (V d (cV L) (jV L)) ↦{q} X1 : sProp 𝕄) = (x1Loc d ↦{q} X1) from by simp only [Memref.view_whole, View.set_whole]).symm) $$ Hx
  ihave Hsb' := (Entails.of_eq (show ((sB).view.loc (V d (cV L) (jV L)) ↦{fullShare} fb : sProp 𝕄) = ((V d (cV L) (jV L)).loc cc0_scratch0 ↦{fullShare} fb) from rfl).symm) $$ Hsb
  ihave Hsa' := (Entails.of_eq (show ((sA).view.loc (V d (cV L) (jV L)) ↦{fullShare} fa : sProp 𝕄) = ((V d (cV L) (jV L)).loc cc0_scratch1 ↦{fullShare} fa) from rfl).symm) $$ Hsa
  ihave Ho' := (Entails.of_eq (show ((oRowK L).view.loc (V d (cV L) (jV L)) ↦[(oRowK L).view.set]{fullShare} O0 : sProp 𝕄) = oRowPts d L O0 from rfl).symm) $$ Ho
  sl_exec_parts
  sl_for (inv d L X1 q O W) $$ [Hmw Hx' Hsb' HsemA HO Ho' Hsa' HsemB Hbufs Hsems]
  case region =>
    intro k acc
    unfold inv
    iintro ⟨Hmw, Hx, ⟨%f, Hsb⟩, Hsem, %hacc, %W', %hW', HO⟩
    sl_exec_parts
    have hstep : k0_pay57 (tile_body.sl.r_50 d L X1 k acc f) (tile_body.sl.r_51 d L X1 k f) (k0_pay54 tile_body.sl.v33) k0_pay55
        (tile_body.sl.v1065 d L X1 k f) = accAt L X1 (↑k + 1) := by
      have e1 : accAt L X1 (↑k + 1) = bandStep ((bandM L k).view.read (Elt F) X1) (accAt L X1 ↑k) := by
        rw [accAt, dif_pos k.isLt]
      have hw : (sB).view.write (Elt F) f (tile_body.sl.dma0 d L X1 k) Finset.univ = (bandM L k).view.read (Elt F) X1 :=
        View.write_whole_univ _ _ _
      have e2 : k0_pay57 (tile_body.sl.r_50 d L X1 k acc f) (tile_body.sl.r_51 d L X1 k f) (k0_pay54 tile_body.sl.v33) k0_pay55
          (tile_body.sl.v1065 d L X1 k f) = bandStep ((sB).view.write (Elt F) f (tile_body.sl.dma0 d L X1 k) Finset.univ) acc := rfl
      rw [e2, hw, e1, hacc]
    sl_step
    isplitl [Hmw]; · iexact Hmw
    isplitl [Hx]; · iexact Hx
    isplitl [Hsb]; · iexists _; iexact Hsb
    isplitl [Hsem]; · iexact Hsem
    isplitr; · ipureintro; exact hstep
    iexists (insert (SemLoc.dma cc0_scratch2.sem, (default : HIx 1)) W'); isplitr
    · ipureintro; intro p hp
      rcases Finset.mem_insert.mp hp with hp | hp
      · exact .inr (hp ▸ rfl)
      · exact hW' p hp
    · iexact HO
  isplitl [Hmw Hx' Hsb' HsemA HO]
  · unfold inv
    isplitl [Hmw]; · iexact Hmw
    isplitl [Hx']; · iexact Hx'
    isplitl [Hsb']; · iexists _; iexact Hsb'
    isplitl [HsemA]; · iexact HsemA
    isplitr; · ipureintro; rfl
    iexists W; isplitr
    · ipureintro; exact fun p hp => .inl hp
    · iexact HO
  iintro %acc HI
  unfold inv
  icases HI with ⟨-, Hx, ⟨%f, Hsb⟩, Hsem, %hacc, %W', %hW', HO⟩
  sl_exec
  sl_step
  have hval : ∀ i ∈ (oRowK L).view.set, scOut (F := F) X1 i = (oRowK L).view.writes (Elt F) O0 [⟨Rect.whole S16, tile_body.sl.dma2 d L fa acc⟩] i := by
    intro i hi
    obtain ⟨x, -, rfl⟩ := Finset.mem_map.mp hi
    rw [View.writes_singleton]
    have he : ((oRowK L).view.slice (Rect.whole S16)).emb x = (oRowK L).view.emb x := by
      show (oRowK L).view.emb ((Rect.whole S16).emb x) = _
      rw [Rect.emb_whole_apply S16 x]
    have hw := View.write_emb_of_mem (v := (oRowK L).view.slice (Rect.whole S16)) O0 (tile_body.sl.dma2 d L fa acc) (Finset.mem_univ x)
    rw [he] at hw
    rw [hw]
    show k0_pay1 (accAt (tileOf (((oRowK L).view.emb x) 0)) X1 k0_t1_loop.trips) (ValueIdx.ix1 (n := 16) (((oRowK L).view.emb x) 1)) = _
    rw [tileOf_emb, lane_emb, hacc]
    have hrd : ∀ A : FVec F S16 .f32, tile_body.sl.dma2 d L fa A x = k0_pay1 A x := by
      intro A
      have hx : (Rect.unit (s := S16) ![0] S16.size inb_S16_S16_0).emb x = x := by
        funext a; apply Fin.ext; obtain rfl : a = 0 := Subsingleton.elim _ _; show 0 + 1 * (x 0).val = (x 0).val; omega
      have h := View.read_writes_cons_emb (sA).view fa (Rect.unit (s := S16) ![0] S16.size inb_S16_S16_0) (k0_pay1 A) [] x
      rw [hx] at h
      exact h
    rw [hrd]
    exact (cast_eq _ _).symm
  isplitl [Hx Ho']
  · isplitl [Hx]
    · iapply (Entails.of_eq (show ((xV).view.loc (V d (cV L) (jV L)) ↦{q} X1 : sProp 𝕄) = (x1Loc d ↦{q} X1) from by simp only [Memref.view_whole, View.set_whole])); iexact Hx
    · unfold oRowPts
      rw [show (oLoc d ↦[oRowSet L]{fullShare} scOut (F := F) X1 : sProp 𝕄)
          = ((oRowK L).view.loc (V d (cV L) (jV L)) ↦[(oRowK L).view.set]{fullShare} (oRowK L).view.writes (Elt F) O0 [⟨Rect.whole S16, tile_body.sl.dma2 d L fa acc⟩])
          from pointsTo_congr hval]
      iexact Ho'
  isplitl [Hsb Hsa' Hbufs]
  · isplitl [Hsb]; · iexists _; iexact Hsb
    isplitl [Hsa']; · iexists _; iexact Hsa'
    iexact Hbufs
  isplitl [Hsem HsemB Hsems]
  · isplitl [Hsem]; · iexact Hsem
    isplitl [HsemB]; · iexact HsemB
    iexact Hsems
  iexists (insert (SemLoc.dma cc0_scoped0.sem, (default : HIx 1)) W'); isplitr
  · ipureintro; intro p hp
    rcases Finset.mem_insert.mp hp with hp | hp
    · exact .inr (hp ▸ rfl)
    · exact hW' p hp
  · iexact HO

end Tile

end Cert.KernelIdeal.Hand

end
-- ==== Proof.ScRows.lean ====
/-
  The SparseCore call's launch data: what the call hands each SparseCore and each vector subcore — a read share
  of the 32768×2048 array and the subcore's own row of the 32×16 result — and takes back with the row at the
  subcore's accumulator; the rows of the result tile it (row 2·s + c belongs to subcore (c, s)), so the 32 tasks'
  rows join to the whole result at one function of the array.
-/
import proofs.«210750_g14534169330353_cont_week2b_1167_29_alg».proof.Proof.ScBody

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The rows of the result -/

/-- The grid point of SparseCore `c`, subcore `i`. -/
def Lof (c : Fin 2) (i : Fin 16) : grid0.Coords := coordsV ⟨c.val, c.isLt⟩ ⟨i.val, i.isLt⟩

/-- An element lies in subcore `L`'s row exactly when its row number is `2·s + c`. -/
theorem mem_oRowSet (L : grid0.Coords) (j : S32x16.Idx) : j ∈ oRowSet L ↔ (j 0).val = 2 * (L 1).val + (L 0).val := by
  constructor
  · intro h
    obtain ⟨x, -, rfl⟩ := Finset.mem_map.mp h
    exact oRow_emb0 L x
  · intro h
    have hj : (oRowK L).view.emb (ValueIdx.ix1 (n := 16) (j 1)) = j := by
      funext a
      match a with
      | ⟨0, _⟩ => exact Fin.ext ((oRow_emb0 L _).trans h.symm)
      | ⟨1, _⟩ => exact Fin.ext ((oRow_emb1 L _).trans rfl)
    rw [← hj]; exact View.emb_mem_set _ _

theorem oRows_disjoint : ∀ p ∈ (Finset.univ : Finset (Fin 2 × Fin 16)), ∀ p' ∈ (Finset.univ : Finset (Fin 2 × Fin 16)), p ≠ p' →
    Disjoint (oRowSet (Lof p.1 p.2)) (oRowSet (Lof p'.1 p'.2)) := by
  intro p _ p' _ hne
  refine Finset.disjoint_left.mpr fun j h1 h2 => hne ?_
  have e1 := (mem_oRowSet _ j).mp h1
  have e2 := (mem_oRowSet _ j).mp h2
  have a1 : ((Lof p.1 p.2) 1).val = p.2.val := rfl
  have a0 : ((Lof p.1 p.2) 0).val = p.1.val := rfl
  have b1 : ((Lof p'.1 p'.2) 1).val = p'.2.val := rfl
  have b0 : ((Lof p'.1 p'.2) 0).val = p'.1.val := rfl
  rw [a1, a0] at e1; rw [b1, b0] at e2
  have h1' := p.1.isLt; have h2' := p'.1.isLt
  exact Prod.ext (Fin.ext (by omega)) (Fin.ext (by omega))

theorem oRows_cover : (Finset.univ : Finset (Fin 2 × Fin 16)).biUnion (fun p => oRowSet (Lof p.1 p.2)) = Finset.univ := by
  refine Finset.eq_univ_iff_forall.mpr fun j => Finset.mem_biUnion.mpr ?_
  have hj : (j 0).val < 32 := (j 0).isLt
  refine ⟨(⟨(j 0).val % 2, Nat.mod_lt _ (by decide)⟩, ⟨(j 0).val / 2, by omega⟩), Finset.mem_univ _, (mem_oRowSet _ j).mpr ?_⟩
  show (j 0).val = 2 * ((j 0).val / 2) + (j 0).val % 2
  omega

/-- The whole result is its 32 rows, subcore by subcore. -/
theorem oPts_rows (d : Dev nD) (f : Buf (Elt F) (oLoc d)) :
    (oLoc d ↦{fullShare} f : sProp 𝕄) = bigSep Finset.univ fun c : Fin 2 => bigSep Finset.univ fun i : Fin 16 => oRowPts d (Lof c i) f := by
  rw [← SparseCore.bigSep_product (Finset.univ : Finset (Fin 2)) (Finset.univ : Finset (Fin 16)) (fun p => oRowPts d (Lof p.1 p.2) f), Finset.univ_product_univ]
  unfold oRowPts
  rw [← pointsTo_biUnion Finset.univ (ℓ := oLoc d) (fun p : Fin 2 × Fin 16 => oRowSet (Lof p.1 p.2)) oRows_disjoint, oRows_cover]; try rfl

/-! ## The read shares of the array -/

abbrev qC (c : Fin 2) : PosShare TreeShare := Transfers.shareTok fullShare 2 c
abbrev qD (c : Fin 2) : PosShare TreeShare := Transfers.shareDrop (qC c) 16
abbrev qT (c : Fin 2) (i : Fin 16) : PosShare TreeShare := Transfers.shareTok (qC c) 16 i

/-- The array whole is a remainder and, per SparseCore, a remainder and a read share per subcore. -/
theorem x1_split (d : Dev nD) (f : Buf (Elt F) (x1Loc d)) :
    (x1Loc d ↦{fullShare} f : sProp 𝕄) ⊢ iprop((x1Loc d ↦{Transfers.shareDrop fullShare 2} f)
      ∗ bigSep Finset.univ fun c : Fin 2 => iprop(x1Pts d (qD c) f ∗ bigSep Finset.univ fun i : Fin 16 => x1Pts d (qT c i) f)) := by
  refine (Transfers.pointsTo_toks_split (ℓ := x1Loc d) (S := Finset.univ) (f := f) fullShare 2).trans ?_
  refine BI.sep_mono (BI.Entails.refl _) ?_
  exact bigSep_mono fun c _ => Transfers.pointsTo_toks_split (ℓ := x1Loc d) (S := Finset.univ) (f := f) (qC c) 16

theorem x1_join (d : Dev nD) (f : Buf (Elt F) (x1Loc d)) :
    iprop((x1Loc d ↦{Transfers.shareDrop fullShare 2} f)
      ∗ bigSep Finset.univ fun c : Fin 2 => iprop(x1Pts d (qD c) f ∗ bigSep Finset.univ fun i : Fin 16 => x1Pts d (qT c i) f))
      ⊢ (x1Loc d ↦{fullShare} f : sProp 𝕄) := by
  refine BI.Entails.trans ?_ (Transfers.pointsTo_toks_join (ℓ := x1Loc d) (S := Finset.univ) (f := f) fullShare 2)
  refine BI.sep_mono (BI.Entails.refl _) ?_
  exact bigSep_mono fun c _ => Transfers.pointsTo_toks_join (ℓ := x1Loc d) (S := Finset.univ) (f := f) (qC c) 16

end Cert.KernelIdeal.Hand

end
-- ==== Proof.ScLaunch.lean ====
/-
  The SparseCore call as the launch theorem takes it: the payloads of its handshakes (what a SparseCore and a
  vector subcore are handed and hand back), each subcore's task discharged by the body's proof at its grid
  point, and the split of a SparseCore's share among its sixteen subcores, which is by definition.
-/
import proofs.«210750_g14534169330353_cont_week2b_1167_29_alg».proof.Proof.ScRows

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arrays' contents along @main -/

abbrev arg' : DevRef τ sig := Proc.devRef .tc (main_arg0 : Ref sig .tc)
abbrev x0' : DevRef τ sig := Proc.devRef .tc (main_v0 : Ref sig .tc)
abbrev x1' : DevRef τ sig := Proc.devRef .tc (main_v1 : Ref sig .tc)
abbrev o' : DevRef τ sig := Proc.devRef .tc (main_v2 : Ref sig .tc)
abbrev off' : DevRef τ sig := Proc.devRef .tc (main_v3 : Ref sig .tc)
abbrev res' : DevRef τ sig := Proc.devRef .tc (main_v9 : Ref sig .tc)

/-- The launch contents, and the contents after the two reshapes. -/
def V0 (d : Dev nD) : Valuation τ sig (Elt F) := fun b => m (d, b)
def V1 (d : Dev nD) : Valuation τ sig (Elt F) := StableHlo.after (opsHead (F := F)) (V0 m d)
/-- The two reshapes of the argument the calls read. -/
def X0 (d : Dev nD) : Buf (Elt F) (x0Loc d) := V1 m d x0'
def X1 (d : Dev nD) : Buf (Elt F) (x1Loc d) := V1 m d x1'

/-! ## What the handshakes carry -/

def goF (d : Dev nD) (c : Fin 2) (i : Fin 16) : sProp 𝕄 := iprop(x1Pts d (qT c i) (X1 m d) ∗ oRowPts d (Lof c i) (m (oLoc d)))
def tdF (d : Dev nD) (c : Fin 2) (i : Fin 16) : sProp 𝕄 := iprop(x1Pts d (qT c i) (X1 m d) ∗ oRowPts d (Lof c i) (scOut (F := F) (X1 m d)))

/-- The call hands SparseCore `c` the remainder of its read share and its sixteen subcores' shares and rows, and
    takes them back with the rows at the result. -/
def P : (K (F := F)).Pay (nD := nD) (Val := Elt F) (Name := ℕ) (U := UU) where
  st := fun q d c => match q with
    | 0 => iprop(x1Pts d (qD (Fin.cast nCore_zero c)) (X1 m d) ∗ bigSep Finset.univ fun i : Fin 16 => goF m d (Fin.cast nCore_zero c) i)
  dn := fun q d c => match q with
    | 0 => iprop(x1Pts d (qD (Fin.cast nCore_zero c)) (X1 m d) ∗ bigSep Finset.univ fun i : Fin 16 => tdF m d (Fin.cast nCore_zero c) i)
  go := fun q d c i => match q with
    | 0 => goF m d (Fin.cast nCore_zero c) (Fin.cast nSub_zero i)
  td := fun q d c i => match q with
    | 0 => tdF m d (Fin.cast nCore_zero c) (Fin.cast nSub_zero i)
  x := fun _ _ => iprop(emp)

instance P_storable : (P (F := F) m).IsStorable where
  st q d c := match q with
    | 0 => by unfold P goF; dsimp only; infer_instance
  dn q d c := match q with
    | 0 => by unfold P tdF; dsimp only; infer_instance
  go q d c i := match q with
    | 0 => by unfold P goF; dsimp only; infer_instance
  td q d c i := match q with
    | 0 => by unfold P tdF; dsimp only; infer_instance

/-! ## The launch theorem's obligations -/

theorem defs₀_vector (c : Fin τ.nSC) (s : Fin τ.nSub) :
    defs₀ (F := F) (.scVector c s) 0 ()
      = SparseCore.onTile hcore0 hsub0 (fun c s => cc0__sc_diag_body (coordsV c s)
          (Memref.whole main_v1_scv) (Memref.isWhole_whole _) (Memref.whole main_v2_scv) (Memref.isWhole_whole _)
          (Memref.whole cc0_scratch0) (Memref.isWhole_whole _) (Memref.whole cc0_scratch1) (Memref.isWhole_whole _) cc0_scratch2 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (X1 m d) (m (oLoc d)) (qT (Fin.cast nCore_zero c) (Fin.cast nSub_zero i)) O W hO).trans
    (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(x1Pts d (qD (Fin.cast nCore_zero c)) (X1 m d) ∗ bigSep Finset.univ fun i : Fin 16 => goF m d (Fin.cast nCore_zero c) i) ⊢ |={Set.univ}=> iprop(
      (bigSep Finset.univ fun i : Fin ((K (F := F)).nSub 0) => goF m d (Fin.cast nCore_zero c) (Fin.cast nSub_zero i))
      ∗ ((bigSep Finset.univ fun i : Fin ((K (F := F)).nSub 0) => tdF m d (Fin.cast nCore_zero c) (Fin.cast nSub_zero i))
          -∗ iprop(x1Pts d (qD (Fin.cast nCore_zero c)) (X1 m d) ∗ bigSep Finset.univ fun i : Fin 16 => tdF m d (Fin.cast nCore_zero c) i)))
  rw [bigSep_tasks (F := F) (fun i => goF m d (Fin.cast nCore_zero c) i), bigSep_tasks (F := F) (fun i => tdF m d (Fin.cast nCore_zero c) i)]
  iintro ⟨Hd, Hgo⟩; imodintro
  isplitl [Hgo]; · iexact Hgo
  iintro Htd
  isplitl [Hd]; · iexact Hd
  iexact Htd

end Cert.KernelIdeal.Hand

end
-- ==== Proof.TcVal.lean ====
/-
  The value the TensorCore kernel's body leaves in its result's staging buffer at one grid point, as a function
  of the input block it reads and of what the buffer held before, written over the payloads of the body's
  skeleton; and the whole result array these point values add up to: per head, the second point's value over
  the first point's.
-/
import proofs.«210750_g14534169330353_cont_week2b_1167_29_alg».proof.Proof.Gen.KernelIdeal.Skeleton

noncomputable section

namespace Cert.KernelIdeal.Hand

open Cert.KernelIdeal Cert.KernelIdeal.Gen
open Idealize.ShloMosaic

variable {F : FTy → Type} [FloatOps F]

/-- The grid has 32 points. -/
theorem tcN : cfg1.N = 32 := by decide

/-- The grid point number `n`. -/
def tcPt (n : ℕ) (hn : n < 32) : Fin cfg1.N := ⟨n, tcN ▸ hn⟩

/-- What the body stores into the result's staging buffer at point `t`: from the input block `blk` the maximum
    over the stripe off its diagonal and over the columns outside the stripe, joined with the buffer's contents,
    which at the first point of a head (second coordinate zero) the body has just reset to minus infinity and
    otherwise are what the buffer held before, `prev`. -/
def tcPoint (t : Fin cfg1.N) (blk : Vec F S1x1024x2048 .f32) (prev : Vec F S1x1x128 .f32) : Vec F S1x1x128 .f32 :=
  k1_pay2 (BitVec.ofNat 32 ((grid1.coords t) 1).val)
    (k1_pay3 (fun x => blk ((Rect.unit (s := S1x1024x2048) (k1_off1 (grid1.coords t)) S1x1024x1024.size (k1_off1_inb (grid1.coords t))).toLoadRect.idx x)))
    (k1_pay4 (fun x => blk ((Rect.unit (s := S1x1024x2048) ![0, 0, 0] S1x1024x2048.size inb_S1x1024x2048_S1x1024x2048_0_0_0).toLoadRect.idx x)))
    k1_pay5
    (if ((grid1.coords t) 1).val = 0 then k1_pay1 else prev)

/-- The input block the pipeline stages at point `t`: the array read through the window's rectangle there. -/
def tcBlk (x0 : FVec F S16x2048x2048 .f32) (t : Fin cfg1.N) : Vec F S1x1024x2048 .f32 :=
  fun j => x0 ((win1_0.rect t).emb j)

/-- Lane `k` of the one row of a result block. -/
def tcLane (k : Fin 128) : S1x1x128.Idx :=
  fun | 0 => ⟨0, by decide⟩ | 1 => ⟨0, by decide⟩ | 2 => k | ⟨_ + 3, h⟩ => absurd h (Nat.not_lt.2 (Nat.le_add_left _ _))

/-- The whole result: entry `(h, 0, k)` is lane `k` of the value at point `(h, 1)` over the value at point
    `(h, 0)` (which reads nothing of what was there before: any contents do). -/
def tcOut (x0 : FVec F S16x2048x2048 .f32) : FVec F S16x1x128 .f32 := fun y =>
  tcPoint (tcPt (2 * (y 0).val + 1) (by have := (y 0).isLt; change _ < 16 at this; omega))
      (tcBlk x0 (tcPt (2 * (y 0).val + 1) (by have := (y 0).isLt; change _ < 16 at this; omega)))
      (tcPoint (tcPt (2 * (y 0).val) (by have := (y 0).isLt; change _ < 16 at this; omega))
        (tcBlk x0 (tcPt (2 * (y 0).val) (by have := (y 0).isLt; change _ < 16 at this; omega))) k1_pay1)
    (tcLane (y 2))

end Cert.KernelIdeal.Hand

end
-- ==== Proof.TcBody.lean ====
/-
  The TensorCore kernel's body at a symbolic grid point (h, b): it loads the whole 1024×2048 input block and its
  1024×1024 diagonal stripe, takes the maximum over the columns outside the stripe of the column maxima and the
  stripe's maximum with the diagonal masked to -inf, resets the result block to -inf when b = 0, and stores the
  maximum of the result block and that value. The branch is decided by the point's second coordinate; what the
  body leaves in the result block is the pure function of TcVal.lean.
-/
import proofs.«210750_g14534169330353_cont_week2b_1167_29_alg».proof.Proof.Common
import proofs.«210750_g14534169330353_cont_week2b_1167_29_alg».proof.Proof.TcVal
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The zero offsets of a rank-three block, however spelt. -/
theorem hz3 : (![0, 0, 0] : Fin 3 → ℕ) = fun _ => 0 := by funext a; fin_cases a <;> rfl

/-- The body's reset condition: the word the `scf.if` tests, from the grid coordinates. -/
abbrev tcCond (i : grid1.Coords) : Prop :=
  (Scalar.cmpi .ne (Scalar.extui (Scalar.cmpi .eq (BitVec.ofNat 32 (i 1).val) 0#32)) 0#32) = 1#1

/-- It holds exactly at the points whose second coordinate is zero. -/
theorem tcCond_iff : ∀ i : grid1.Coords, tcCond i ↔ (i 1).val = 0 := by decide +kernel

/-- What the body stores at coordinates `i`, from the input block `x0` and the contents `prev` the accumulation
    starts from. -/
def tcStore (i : grid1.Coords) (x0 : Vec F S1x1024x2048 .f32) (prev : Vec F S1x1x128 .f32) : Vec F S1x1x128 .f32 :=
  k1_pay2 (BitVec.ofNat 32 (i 1).val)
    (k1_pay3 (fun x => x0 ((Rect.unit (s := S1x1024x2048) (k1_off1 i) S1x1024x1024.size (k1_off1_inb i)).toLoadRect.idx x)))
    (k1_pay4 (fun x => x0 ((Rect.unit (s := S1x1024x2048) ![0, 0, 0] S1x1024x2048.size inb_S1x1024x2048_S1x1024x2048_0_0_0).toLoadRect.idx x)))
    k1_pay5 prev

theorem tcPoint_eq (t : Fin cfg1.N) (blk : Vec F S1x1024x2048 .f32) (prev : Vec F S1x1x128 .f32) :
    tcPoint t blk prev = tcStore (grid1.coords t) blk (if ((grid1.coords t) 1).val = 0 then k1_pay1 else prev) := rfl

set_option maxHeartbeats 1000000 in
/-- The body at a point that resets: whatever the result's buffer held, it ends at the point's value over minus infinity. -/
theorem tcRunA (c : Dev nD) (i : grid1.Coords) (arg2 : Memref sig .tc .vmem S1x1024x2048 .f32) (harg2 : arg2.IsWhole) (arg3 : Memref sig .tc .vmem S1x1x128 .f32) (harg3 : arg3.IsWhole)
    (hc : tcCond i) (x0 : Vec F S1x1024x2048 .f32) (xo : Vec F S1x1x128 .f32) (E : Set ℕ) (K : PUnit → sProp 𝕄) :
    iprop(owns (T c) arg2 fullShare x0 ∗ owns (T c) arg3 fullShare xo
        ∗ ((owns (T c) arg2 fullShare x0 ∗ owns (T c) arg3 fullShare (tcStore i x0 k1_pay1)) -∗ K ⟨⟩))
      ⊢ wp frame (wpE (defs₀ (F := F)) 𝒱₀ (T c) none) E (cc1__tc_body i arg2 harg2 arg3 harg3) K := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  iexists _; isplitr
  swap; · iexact H1
  ipureintro
  dsimp only
  rw [View.read_writes_eq_canon _ _ _ (fun y => ⟨_, List.mem_cons_self, View.mem_set_unit_zero hz3 inb_S1x1x128_S1x1x128_0_0_0 y⟩)]
  rw [View.canon_cons_unit_zero hz3]
  sl_unfold_run_names
  rw [View.readCov_unit_zero _ hz3]
  simp only [View.readAt_eq_ld, hf0]
  rfl

set_option maxHeartbeats 1000000 in
/-- The body at a point that does not reset: the result's buffer ends at the point's value over what it held. -/
theorem tcRunB (c : Dev nD) (i : grid1.Coords) (arg2 : Memref sig .tc .vmem S1x1024x2048 .f32) (harg2 : arg2.IsWhole) (arg3 : Memref sig .tc .vmem S1x1x128 .f32) (harg3 : arg3.IsWhole)
    (hc : ¬tcCond i) (x0 : Vec F S1x1024x2048 .f32) (xo : Vec F S1x1x128 .f32) (E : Set ℕ) (K : PUnit → sProp 𝕄) :
    iprop(owns (T c) arg2 fullShare x0 ∗ owns (T c) arg3 fullShare xo
        ∗ ((owns (T c) arg2 fullShare x0 ∗ owns (T c) arg3 fullShare (tcStore i x0 xo)) -∗ K ⟨⟩))
      ⊢ wp frame (wpE (defs₀ (F := F)) 𝒱₀ (T c) none) E (cc1__tc_body i arg2 harg2 arg3 harg3) K := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  iexists _; isplitr
  swap; · iexact H1
  ipureintro
  dsimp only
  rw [View.read_writes_eq_canon _ _ _ (fun y => ⟨_, List.mem_singleton_self _, View.mem_set_unit_zero hz3 inb_S1x1x128_S1x1x128_0_0_0 y⟩)]
  rw [View.canon_unit_zero hz3]
  simp only [View.readAt_eq_ld, hf0, hf1]
  rw [View.ld_unit_zero (S := S1x1x128) hz3]
  rfl

/-- The body at any point: from the input block and the result's buffer at any contents, to the point's value — over
    minus infinity where the body resets (second coordinate zero), over the buffer's contents elsewhere. -/
theorem tcRun (c : Dev nD) (i : grid1.Coords) (arg2 : Memref sig .tc .vmem S1x1024x2048 .f32) (harg2 : arg2.IsWhole) (arg3 : Memref sig .tc .vmem S1x1x128 .f32) (harg3 : arg3.IsWhole)
    (x0 : Vec F S1x1024x2048 .f32) (xo : Vec F S1x1x128 .f32) (E : Set ℕ) (K : PUnit → sProp 𝕄) :
    iprop(owns (T c) arg2 fullShare x0 ∗ owns (T c) arg3 fullShare xo
        ∗ ((owns (T c) arg2 fullShare x0 ∗ owns (T c) arg3 fullShare (tcStore i x0 (if (i 1).val = 0 then k1_pay1 else xo))) -∗ K ⟨⟩))
      ⊢ wp frame (wpE (defs₀ (F := F)) 𝒱₀ (T c) none) E (cc1__tc_body i arg2 harg2 arg3 harg3) K := by
  by_cases h : (i 1).val = 0
  · rw [if_pos h]; exact tcRunA c i arg2 harg2 arg3 harg3 ((tcCond_iff i).mpr h) x0 xo E K
  · rw [if_neg h]; exact tcRunB c i arg2 harg2 arg3 harg3 (fun hc => h ((tcCond_iff i).mp hc)) x0 xo E K

end Cert.KernelIdeal.Hand

end
-- ==== Proof.TcRegion.lean ====
/-
  The TensorCore call as one region of the program: the 32 grid points in order, the input window fetched at
  every point, the result window carried over the two points of a head and written back at the second. The
  proof data names, per point, what each window's staging buffer and array hold; the body's obligation is the
  body's run at a symbolic point; the result array after the region is, head by head, the second point's value
  over the first's, because the 16 written-back blocks tile it.
-/
import proofs.«210750_g14534169330353_cont_week2b_1167_29_alg».proof.Proof.Common
import proofs.«210750_g14534169330353_cont_week2b_1167_29_alg».proof.Proof.TcVal
import proofs.«210750_g14534169330353_cont_week2b_1167_29_alg».proof.Proof.TcBody
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The proof data of the TensorCore pipeline -/

/-- The grid's second coordinate is the point's parity, its first the half. -/
theorem tc_coord1 : ∀ t : Fin cfg1.N, ((grid1.coords t) 1).val = t.val % 2 := by decide +kernel
theorem tc_coord0 : ∀ t : Fin cfg1.N, ((grid1.coords t) 0).val = t.val / 2 := by decide +kernel

/-- The input window's block at point `t`, read off the array. -/
def tcIblk (c : Dev nD) (A : Buf (Elt F) (x0Loc c)) (t : Fin cfg1.N) : ((cfg1.win 0).xblock (cfg1.grid.coords t)).Idx → Elt F (cfg1.win 0).elt :=
  ((cfg1.win 0).blk t).view.read (Elt F) A

/-- What the result's staging buffer holds after the body at point `n`: the point's value over what the point before
    left (which a resetting point does not read). -/
def tcOuts (c : Dev nD) (A : Buf (Elt F) (x0Loc c)) : (n : ℕ) → n < cfg1.N → Vec F S1x1x128 .f32
  | 0, hn => tcPoint ⟨0, hn⟩ (tcIblk c A ⟨0, hn⟩) k1_pay1
  | n + 1, hn => tcPoint ⟨n + 1, hn⟩ (tcIblk c A ⟨n + 1, hn⟩) (tcOuts c A n (Nat.lt_of_succ_lt hn))

/-- At every point: the stored value, over minus infinity at a resetting point and over the point before's elsewhere. -/
theorem tcOuts_eq (c : Dev nD) (A : Buf (Elt F) (x0Loc c)) (t : Fin cfg1.N) :
    tcOuts c A t.val t.isLt = tcStore (grid1.coords t) (tcIblk c A t)
      (if ((grid1.coords t) 1).val = 0 then k1_pay1 else tcOuts c A (t.val - 1) (Nat.lt_of_le_of_lt (Nat.sub_le _ _) t.isLt)) := by
  obtain ⟨n, hn⟩ := t
  cases n with
  | zero =>
    have h0 : ((grid1.coords ⟨0, hn⟩) 1).val = 0 := (tc_coord1 ⟨0, hn⟩).trans rfl
    show tcPoint ⟨0, hn⟩ (tcIblk c A ⟨0, hn⟩) k1_pay1 = _
    rw [tcPoint_eq, if_pos h0, if_pos h0]
  | succ n => rfl

/-- The result array as a buffer's contents. -/
def tcOutBuf (c : Dev nD) (A : Buf (Elt F) (x0Loc c)) : Buf (Elt F) (offLoc c) := tcOut (F := F) A

section Data

variable (A : (c : Dev nD) → Buf (Elt F) (x0Loc c)) (f : (c : Dev nD) → Buf (Elt F) (offLoc c))
  (O : CellTallies nD τ sig (HIx 1)) (W : Finset (SemLoc sig × HIx 1))

/-- The proof data on core `c`: the input array at `A c`, the result array at `f c`; after the body the input's buffer at
    its block and the result's at `tcOuts`; no invariant of the body's own; the core owing `O` throughout, its recorded
    waits within `W` and the pipeline's own. -/
def tcDat (_ : Fin 1) (c : Dev nD) : Dat τ (Elt F) (HIx 1) ℕ UU ℕ cfg1 c where
  A w := match w with
    | ⟨0, _⟩ => A c
    | ⟨1, _⟩ => f c
  after w t := match w with
    | ⟨0, _⟩ => tcIblk c (A c) t
    | ⟨1, _⟩ => tcOuts c (A c) t.val t.isLt
  Φ _ := BI.emp
  q _ := fullShare
  owed _ := O
  recorded _ := (↑W : Set (SemLoc sig × HIx 1))

theorem tcDat_A0 (c : Dev nD) : (tcDat A f O W 0 c).A 0 = A c := by dsimp only [tcDat]
theorem tcDat_A1 (c : Dev nD) : (tcDat A f O W 0 c).A 1 = f c := by dsimp only [tcDat]
theorem tcDat_after0 (c : Dev nD) (t : Fin cfg1.N) : (tcDat A f O W 0 c).after 0 t = tcIblk c (A c) t := by dsimp only [tcDat]
theorem tcDat_after1 (c : Dev nD) (t : Fin cfg1.N) : (tcDat A f O W 0 c).after 1 t = tcOuts c (A c) t.val t.isLt := by dsimp only [tcDat]

/-- The input's current staging buffer holds its block at every point. -/
theorem tc_before0 (c : Dev nD) (t : Fin cfg1.N) (d) : (tcDat A f O W 0 c).before 0 t d = tcIblk c (A c) t :=
  ((tcDat A f O W 0 c).before_in_eq_fetched 0 rfl (fun _ => rfl) (fun _ _ _ => rfl)
    (fun t => by rw [tcDat_after0]; unfold Dat.blockOf tcIblk; rw [tcDat_A0]; try rfl) t d).trans
    (by unfold Dat.fetched Dat.blockOf tcIblk; rw [tcDat_A0]; try rfl)

/-- At a point that does not reset, the result's current staging buffer holds what the point before left. -/
theorem tc_before1 (c : Dev nD) (t : Fin cfg1.N) (h : ¬((grid1.coords t) 1).val = 0) (d) :
    (tcDat A f O W 0 c).before 1 t d = tcOuts c (A c) (t.val - 1) (Nat.lt_of_le_of_lt (Nat.sub_le _ _) t.isLt) := by
  rw [tc_coord1] at h
  have hN : t.val < 32 := lt_of_lt_of_eq t.isLt tcN
  rw [Dat.before_out_kept _ 1 rfl t (by omega) (Bool.eq_false_iff.mpr fun hf => by have := (flush1_1 _).mp hf; dsimp only at this; omega)
    (fun _ => rfl) (fun _ _ => rfl)]
  dsimp only [tcDat]

/-- What the body is called with at point `t`, -/
def tcBodyPre (c : Dev nD) (t : Fin cfg1.N) : sProp 𝕄 :=
  iprop((tcDat A f O W 0 c).Φ t.castSucc ∗ (tcDat A f O W 0 c).owesAt none t.castSucc
    ∗ (∃ d, owns (c : Thread nD τ) (win1_0.stage (cfg1.slots t 0)) fullShare ((tcDat A f O W 0 c).before 0 t d))
    ∗ (∃ d, owns (c : Thread nD τ) (win1_1.stage (cfg1.slots t 1)) fullShare ((tcDat A f O W 0 c).before 1 t d)))

/-- and what it returns. -/
def tcBodyPost (c : Dev nD) (t : Fin cfg1.N) : sProp 𝕄 :=
  iprop((tcDat A f O W 0 c).Φ t.succ ∗ (tcDat A f O W 0 c).owesAt none t.succ
    ∗ owns (c : Thread nD τ) (win1_0.stage (cfg1.slots t 0)) fullShare ((tcDat A f O W 0 c).after 0 t)
    ∗ owns (c : Thread nD τ) (win1_1.stage (cfg1.slots t 1)) fullShare ((tcDat A f O W 0 c).after 1 t))

set_option maxHeartbeats 800000 in
/-- The body at any point: the input's buffer holds its block, the result's either is reset or holds what the point
    before left; the run applies; the core's debts pass through untouched. -/
theorem tc_sound_body (c : Dev nD) (t : Fin cfg1.N) :
    tcBodyPre A f O W c t ⊢ wp frame (wpE (defs₀ (F := F)) 𝒱₀ c none) Set.univ (bodyAt1 t) (fun _ => tcBodyPost A f O W c t) := by
  have hE : ∀ d1, tcStore (grid1.coords t) (tcIblk c (A c) t)
      (if ((grid1.coords t) 1).val = 0 then k1_pay1 else (tcDat A f O W 0 c).before 1 t d1) = tcOuts c (A c) t.val t.isLt := by
    intro d1
    rw [tcOuts_eq]
    by_cases h : ((grid1.coords t) 1).val = 0
    · rw [if_pos h, if_pos h]
    · rw [if_neg h, if_neg h, tc_before1 A f O W c t h]
  unfold tcBodyPre tcBodyPost bodyAt1
  simp only [tc_before0]
  rw [show (tcDat A f O W 0 c).Φ t.succ = (tcDat A f O W 0 c).Φ t.castSucc from rfl,
    show (tcDat A f O W 0 c).owesAt none t.succ = (tcDat A f O W 0 c).owesAt none t.castSucc from rfl,
    tcDat_after0, tcDat_after1]
  iintro ⟨HΦ, Ho, ⟨%d0, H0⟩, ⟨%d1, H1⟩⟩
  iapply (tcRun c (grid1.coords t) _ _ _ _ (tcIblk c (A c) t) ((tcDat A f O W 0 c).before 1 t d1) Set.univ _)
  isplitl [H0]; · iexact H0
  isplitl [H1]; · iexact H1
  iintro ⟨H0, H1⟩
  rw [hE d1]
  isplitl [HΦ]; · iexact HΦ
  isplitl [Ho]; · iexact Ho
  isplitl [H0]; · iexact H0
  iexact H1

/-- The library's body obligation, at every point. -/
theorem tc_body_obligation (c : Dev nD) : BodyObligation (tcDat (F := F) A f O W 0 c) (defs₀ (F := F)) 𝒱₀ none Set.univ := fun t => by
  rw [bigSep_W1, bigSep_W1]
  exact tc_sound_body A f O W c t

end Data

/-! ## The result array after the last write-back -/

/-- A resetting point's value does not depend on what the buffer held. -/
theorem tcPoint_reset (t : Fin cfg1.N) (h : ((grid1.coords t) 1).val = 0) (blk : Vec F S1x1024x2048 .f32) (p p' : Vec F S1x1x128 .f32) :
    tcPoint t blk p = tcPoint t blk p' := by
  rw [tcPoint_eq, tcPoint_eq, if_pos h, if_pos h]

/-- The block the pipeline stages is the array read through the window's rectangle. -/
theorem tcIblk_eq (c : Dev nD) (A : Buf (Elt F) (x0Loc c)) (t : Fin cfg1.N) : tcIblk c A t = tcBlk (F := F) A t := by
  rfl

/-- An entry of the result in terms of the two points of its head. -/
theorem tcOut_apply (x0 : FVec F S16x2048x2048 .f32) (y : S16x1x128.Idx) (t1 t0 : Fin cfg1.N)
    (h1 : t1.val = 2 * (y 0).val + 1) (h0 : t0.val = 2 * (y 0).val) :
    tcOut x0 y = tcPoint t1 (tcBlk x0 t1) (tcPoint t0 (tcBlk x0 t0) k1_pay1) (tcLane (y 2)) := by
  obtain ⟨n1, hn1⟩ := t1
  obtain ⟨n0, hn0⟩ := t0
  simp only at h1 h0
  subst h1 h0
  rfl

/-- After an even point the result's buffer holds that point's value over minus infinity; -/
theorem tcOuts_even (c : Dev nD) (A : Buf (Elt F) (x0Loc c)) (n : ℕ) (hn : n < cfg1.N) (he : n % 2 = 0) :
    tcOuts c A n hn = tcPoint ⟨n, hn⟩ (tcIblk c A ⟨n, hn⟩) k1_pay1 := by
  cases n with
  | zero => rfl
  | succ m => exact tcPoint_reset ⟨m + 1, hn⟩ ((tc_coord1 ⟨m + 1, hn⟩).trans he) _ _ _

/-- after the odd point that follows, that point's value over it. -/
theorem tcOuts_odd (c : Dev nD) (A : Buf (Elt F) (x0Loc c)) (n : ℕ) (hn : n + 1 < cfg1.N) (he : n % 2 = 0) :
    tcOuts c A (n + 1) hn = tcPoint ⟨n + 1, hn⟩ (tcIblk c A ⟨n + 1, hn⟩)
      (tcPoint ⟨n, Nat.lt_of_succ_lt hn⟩ (tcIblk c A ⟨n, Nat.lt_of_succ_lt hn⟩) k1_pay1) := by
  show tcPoint _ _ (tcOuts c A n _) = _
  rw [tcOuts_even c A n _ he]

/-- The result window's block index at a point: the head, and the one row and one stripe of lanes. -/
theorem tc_idx1 : ∀ t : Fin cfg1.N, win1_1.index t (0 : Fin 3) = t.val / 2 ∧ win1_1.index t (1 : Fin 3) = 0 ∧ win1_1.index t (2 : Fin 3) = 0 :=
  (by decide +kernel : ∀ t : Fin grid1.N, _)

section Final

variable (A : (c : Dev nD) → Buf (Elt F) (x0Loc c)) (f : (c : Dev nD) → Buf (Elt F) (offLoc c))
  (O : CellTallies nD τ sig (HIx 1)) (W : Finset (SemLoc sig × HIx 1))

/-- What a point that writes back writes is its block of the result array. -/
theorem tc_flushed (c : Dev nD) (t : Fin cfg1.N) (hf : (cfg1.win 1).flush t = true) :
    (tcDat A f O W 0 c).flushed 1 t = ((cfg1.win 1).blk t).view.read (Elt F) (tcOutBuf c (A c)) := by
  have ht : t.val % 2 = 1 := (flush1_1 t).mp hf
  obtain ⟨n', hn'⟩ := t
  obtain ⟨n, rfl⟩ : ∃ n, n' = n + 1 := ⟨n' - 1, by dsimp only at ht; omega⟩
  have he : n % 2 = 0 := by dsimp only at ht; omega
  obtain ⟨e0, e1, e2⟩ := tc_idx1 ⟨n + 1, hn'⟩
  show (cfg1.win 1).cut (grid1.coords ⟨n + 1, hn'⟩) ((tcDat A f O W 0 c).after 1 ⟨n + 1, hn'⟩) = _
  rw [tcDat_after1]
  funext j
  show tcOuts c (A c) (n + 1) hn' ((cfg1.win 1).xinj (grid1.coords ⟨n + 1, hn'⟩) j)
    = tcOut (F := F) (A c) (((cfg1.win 1).blk ⟨n + 1, hn'⟩).view.emb j)
  have hj0 : (j 0).val < 1 := (j 0).isLt
  have hj1 : (j 1).val < 1 := (j 1).isLt
  have hy0 : ((((cfg1.win 1).blk ⟨n + 1, hn'⟩).view.emb j) 0).val = (n + 1) / 2 := by
    show win1_1.index ⟨n + 1, hn'⟩ (0 : Fin 3) * 1 + 1 * (j 0).val = _
    rw [e0]; dsimp only; omega
  rw [tcOut_apply (A c) _ ⟨n + 1, hn'⟩ ⟨n, Nat.lt_of_succ_lt hn'⟩ (by rw [hy0]; dsimp only; omega) (by rw [hy0]; dsimp only; omega),
    tcOuts_odd c (A c) n hn' he]
  refine congrArg _ ?_
  funext a; apply Fin.ext
  match a with
  | ⟨0, _⟩ => show (j 0).val = 0; omega
  | ⟨1, _⟩ => show (j 1).val = 0; omega
  | ⟨2, _⟩ =>
    show (j 2).val = win1_1.index ⟨n + 1, hn'⟩ (2 : Fin 3) * 128 + 1 * (j 2).val
    rw [e2]; omega

/-- Every entry of the result array is in the block of the second point of its head. -/
theorem tc_cover (c : Dev nD) (i : ((cfg1.win 1).arr.view.loc (c.tc : Thread nD τ)).2.ty.Idx) :
    ∃ t : Fin cfg1.N, (cfg1.win 1).flush t = true ∧ i ∈ ((cfg1.win 1).blk t).view.set := by
  have hi0 : (i 0).val < 16 := (i 0).isLt
  have hi1 : (i 1).val < 1 := (i 1).isLt
  have hi2 : (i 2).val < 128 := (i 2).isLt
  have hlt : 2 * (i 0).val + 1 < cfg1.N := by rw [tcN]; omega
  obtain ⟨e0, e1, e2⟩ := tc_idx1 ⟨2 * (i 0).val + 1, hlt⟩
  refine ⟨⟨2 * (i 0).val + 1, hlt⟩, (flush1_1 _).mpr (by dsimp only; omega), ?_⟩
  show i ∈ ((View.whole main_v3).slice (win1_1.rect ⟨2 * (i 0).val + 1, hlt⟩)).set
  rw [View.set_slice_whole, Rect.mem_set_unit]
  intro a
  match a with
  | ⟨0, _⟩ =>
    show win1_1.index ⟨2 * (i 0).val + 1, hlt⟩ (0 : Fin 3) * 1 ≤ (i 0).val ∧ (i 0).val < win1_1.index ⟨2 * (i 0).val + 1, hlt⟩ (0 : Fin 3) * 1 + 1
    rw [e0]; dsimp only; omega
  | ⟨1, _⟩ =>
    show win1_1.index ⟨2 * (i 0).val + 1, hlt⟩ (1 : Fin 3) * 1 ≤ (i 1).val ∧ (i 1).val < win1_1.index ⟨2 * (i 0).val + 1, hlt⟩ (1 : Fin 3) * 1 + 1
    rw [e1]; omega
  | ⟨2, _⟩ =>
    show win1_1.index ⟨2 * (i 0).val + 1, hlt⟩ (2 : Fin 3) * 128 ≤ (i 2).val ∧ (i 2).val < win1_1.index ⟨2 * (i 0).val + 1, hlt⟩ (2 : Fin 3) * 128 + 128
    rw [e2]; omega

/-- So the result array ends holding `tcOut` of the input array, -/
theorem tc_final1 (c : Dev nD) : (tcDat A f O W 0 c).arrAt 1 cfg1.N = tcOutBuf c (A c) :=
  (tcDat A f O W 0 c).arrAt_eq_of_cover 1 (tcOutBuf c (A c)) (tc_flushed A f O W c) (tc_cover c)

/-- and the input array is never written. -/
theorem tc_final0 (c : Dev nD) : (tcDat A f O W 0 c).arrAt 0 cfg1.N = A c :=
  ((tcDat A f O W 0 c).arrAt_in 0 rfl _).trans (tcDat_A0 A f O W c)

end Final

/-! ## The region -/

/-- The pipeline prefetches no table: its one admissible contents. -/
abbrev tcAdm : (p : Fin 1) → (pcfgs (F := F) p).Adm := fun p => (cfgs p).toPCfg_adm

section Region

variable (A : (c : Dev nD) → Buf (Elt F) (x0Loc c)) (f : (c : Dev nD) → Buf (Elt F) (offLoc c))
  (O : CellTallies nD τ sig (HIx 1)) (W : Finset (SemLoc sig × HIx 1)) (hO : ∀ g, O g none = 0)

/-- What the TensorCore holds of the pipeline's concern when the region is entered: the input array, the result array
    at some contents, and what it owes. -/
def tcPre (c : Dev nD) : sProp 𝕄 :=
  iprop((x0Loc c ↦{fullShare} A c) ∗ (offLoc c ↦{fullShare} f c) ∗ owes (T c) O W)

/-- What it holds when the region is left: the input array unchanged, the result array at `tcOut` of it, the same
    debts, its recorded waits those it had and waits at the kernels' own index. -/
def tcPost (c : Dev nD) : sProp 𝕄 :=
  iprop((x0Loc c ↦{fullShare} A c) ∗ (offLoc c ↦{fullShare} tcOutBuf c (A c))
    ∗ ∃ W', ⌜∀ p ∈ W', p ∈ W ∨ p.2 = none⌝ ∗ owes (T c) O W')

omit [FloatOps F] in
theorem prefHeld_none (c : Dev nD) (q : Fin (Pipeline.Prefetch.none (sig := sig)).K → PosShare TreeShare) (V : (Pipeline.Prefetch.none (sig := sig)).Contents (Elt F)) :
    (Pipeline.prefHeld (Pipeline.Prefetch.none (sig := sig)) c q V : sProp 𝕄) = BI.emp := by
  unfold Pipeline.prefHeld; rw [show (Finset.univ : Finset (Fin 0)) = ∅ from rfl, BI.bigSep_empty]

set_option backward.isDefEq.respectTransparency.types false in
/-- THE REGION: the layout, no semaphore of the kernel's own, the body obligation, the wait evidence from the levels
    (the pipeline waits at the kernels' own index, below every debt), and the arrays in and out. -/
def tcReg : Pipeline.RegionSeg (pcfgs (F := F)) tcAdm (tcDat A f O W) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (tc_body_obligation A f O W c).loose
  hwaits c := Pipeline.cellsWaits_intro _ _ _ _ c fun w s t => (K (F := F)).mayWait_none _ hO
  pre := tcPre A f O W
  post := tcPost A O W
  X _ := BI.emp
  Y _ := BI.emp
  Z _ := BI.emp
  hentry c := by
    rw [Pipeline.ownSems0_none, prefHeld_none,
      Pipeline.arrays_eq _ _ _ c launch1.arr_whole ((tcDat A f O W 0 c).share_full fun _ => rfl), bigSep_W1]
    unfold tcPre
    iintro ⟨⟨Hx, Hf, HO⟩, -, -⟩
    imodintro
    isplitl [Hx Hf]
    · isplitl [Hx]
      · rw [show (tcDat A f O W 0 c).arrAt 0 0 = A c from tcDat_A0 A f O W c]; iexact Hx
      · rw [show (tcDat A f O W 0 c).arrAt 1 0 = f c from tcDat_A1 A f O W c]; iexact Hf
    isplitr; · iempintro
    isplitl [HO]
    · unfold Pipeline.Dat.owesAt Pipeline.owesWithin
      iexists W; isplitr; · ipureintro; exact fun _ h => Or.inl h
      iexact HO
    isplitr <;> iempintro
  hin c := by rw [prefHeld_none, scopedRest1_eq]; iintro ⟨-, -, -⟩; iempintro
  hout c := by rw [Pipeline.ownSems0_none, scopedRest1_eq]; iintro -; isplitr; · iempintro
               isplitr <;> iempintro
  hexit c := by
    rw [Pipeline.arrays_eq _ _ _ c launch1.arr_whole ((tcDat A f O W 0 c).share_full fun _ => rfl), bigSep_W1,
      tc_final0 A f O W c, tc_final1 A f O W c]
    unfold tcPost
    iintro ⟨⟨Hx, Hf⟩, HO, -, -⟩
    imodintro
    isplitl [Hx]; · iexact Hx
    isplitl [Hf]; · iexact Hf
    unfold Pipeline.Dat.owesAt Pipeline.owesWithin
    icases HO with ⟨%W', %hW', HO⟩
    iexists W'; isplitr
    · ipureintro
      intro p hp
      rcases hW' hp with h | ⟨w, s, rfl⟩
      · exact Or.inl h
      · exact Or.inr rfl
    iexact HO

theorem tcReg_pre : (tcReg A f O W hO).pre = tcPre A f O W := rfl
theorem tcReg_post : (tcReg A f O W hO).post = tcPost A O W := rfl

end Region

set_option backward.isDefEq.respectTransparency.types false in
/-- THE TENSORCORE CALL, from the boundary between kernels: holding the input array, the result array at any contents,
    the pipeline's ghost state and the levels, owing `O` (nothing at the kernels' own index), the call runs; the
    continuation starts from the boundary again with the input array unchanged and the result array at `tcOut` of it. -/
theorem tc_region (d : Dev nD) (A : (c : Dev nD) → Buf (Elt F) (x0Loc c)) (O : CellTallies nD τ sig (HIx 1)) (W : Finset (SemLoc sig × HIx 1))
    (hO : ∀ g, O g none = 0)
    {α : Type} (k : PUnit → Prog (TpuEff nD τ sig (Elt F) (ΛP (F := F)) .tc) α) {Φ : α → sProp 𝕄} :
    iprop(levAts (K (F := F)).L (K (F := F)).lev ∗ boundary (T d) ∗ (x0Loc d ↦{fullShare} A d) ∗ (∃ f, offLoc d ↦{fullShare} f)
        ∗ Pipeline.cellsGhost cfgs ER 0 d ∗ Pipeline.toksInit cfgs ER 0 d ∗ owes (T d) O W
        ∗ ((boundary (T d) ∗ (x0Loc d ↦{fullShare} A d) ∗ (offLoc d ↦{fullShare} tcOutBuf d (A d))
              ∗ (∃ W', ⌜∀ p ∈ W', p ∈ W ∨ p.2 = none⌝ ∗ owes (T d) O W'))
            -∗ wp frame (wpE (D (F := F)) 𝒱 (T d) none) Set.univ (k ⟨⟩) Φ))
      ⊢ wp frame (wpE (D (F := F)) 𝒱 (T d) none) Set.univ (.op (.customCall (Pipeline.entry 0) ()) k) Φ := by
  iintro ⟨Hla, Hbd, Hx, ⟨%f0, Hf⟩, Hg, Ht, HO, Hk⟩
  -- the result array's entry contents, as a family over the (one) device
  have hsub : ∀ c : Dev nD, c = d := fun c => Subsingleton.elim c d
  iapply (Pipeline.RegionSeg.wp (pcfgs (F := F)) tcAdm (tcDat A (fun c => (hsub c) ▸ f0) O W) (none : HIx 1) cellOf_inj ER defs₀ 𝒱₀
    (K (F := F)).L (K (F := F)).lev (tcReg A (fun c => (hsub c) ▸ f0) O W hO) d none (fun _ h => nomatch h) k Φ)
  isplitl [Hk]
  · rw [tcReg_post]; unfold tcPost
    iintro ⟨Hbd, Hpost⟩
    iapply Hk
    isplitl [Hbd]; · iexact Hbd
    iexact Hpost
  isplitl [Hbd]; · iexact Hbd
  isplitl [Hx Hf HO]
  · rw [tcReg_pre]; unfold tcPre
    isplitl [Hx]; · iexact Hx
    isplitl [Hf]; · iexact Hf
    iexact HO
  isplitl [Hla]; · iexact Hla
  isplitl [Hg]; · iexact Hg
  iexact Ht

end Cert.KernelIdeal.Hand

end
-- ==== Proof.Main.lean ====
/-
  The whole program's run: the TensorCore's @main around the two calls, the launch element of the ghost state,
  and the run with its strongest post — the argument unchanged and the result the host arithmetic of what the two
  calls leave, each a function of the argument's reshapes.
-/
import proofs.«210750_g14534169330353_cont_week2b_1167_29_alg».proof.Proof.ScLaunch
import proofs.«210750_g14534169330353_cont_week2b_1167_29_alg».proof.Proof.TcRegion

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq after)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

/-- @main's arrays: every reference of the TensorCore that is not a staging buffer. -/
def Sall : Finset (DevRef τ sig) :=
  (Finset.univ.filter fun b : Ref sig .tc => ¬ b.isScoped).map ⟨fun b => Proc.devRef (τ := τ) .tc b, Proc.devRef_injective _⟩

omit m in
theorem unscoped_held (d : Dev nD) (m : (ℓ : Loc nD τ sig) → Buf (Elt F) ℓ) :
    (unscopedBufs d (fun b => m ((SparseCore.T d).loc b)) : sProp 𝕄) = held (T d) Sall (fun b => m (d, b)) := by
  unfold unscopedBufs held Sall
  rw [BI.bigSep_map]; rfl

variable [FloatOps F]

abbrev rf (b : Ref sig .tc) : DevRef τ sig := Proc.devRef .tc b

theorem hHead : ∀ op ∈ opsHead (F := F), op.bufs ⊆ Sall := by
  intro op hop
  simp only [opsHead, List.mem_cons, List.mem_nil_iff, or_false] at hop
  rcases hop with rfl | rfl
  · exact (show ({rf main_arg0, rf main_v0} : Finset (DevRef τ sig)) ⊆ Sall by decide)
  · exact (show ({rf main_arg0, rf main_v1} : Finset (DevRef τ sig)) ⊆ Sall by decide)
theorem hTail : ∀ op ∈ opsTail (F := F), op.bufs ⊆ Sall := by
  intro op hop
  simp only [opsTail, List.mem_cons, List.mem_nil_iff, or_false] at hop
  rcases hop with rfl | rfl | rfl | rfl | rfl | rfl | rfl
  · exact (show ({rf main_v2, rf main_v4} : Finset (DevRef τ sig)) ⊆ Sall by decide)
  · exact (show ({rf main_cst} : Finset (DevRef τ sig)) ⊆ Sall by decide)
  · exact (show ({rf main_v4, rf main_cst, rf main_v5} : Finset (DevRef τ sig)) ⊆ Sall by decide)
  · exact (show ({rf main_v3, rf main_v6} : Finset (DevRef τ sig)) ⊆ Sall by decide)
  · exact (show ({rf main_v6, rf main_v7} : Finset (DevRef τ sig)) ⊆ Sall by decide)
  · exact (show ({rf main_v5, rf main_v7, rf main_v8} : Finset (DevRef τ sig)) ⊆ Sall by decide)
  · exact (show ({rf main_v8, rf main_v9} : Finset (DevRef τ sig)) ⊆ Sall by decide)
theorem fHead : ∀ op ∈ opsHead (F := F), op.fresh = ∅ := by
  intro op hop
  simp only [opsHead, List.mem_cons, List.mem_nil_iff, or_false] at hop
  rcases hop with rfl | rfl <;> rfl
theorem fTail : ∀ op ∈ opsTail (F := F), op.fresh = ∅ := by
  intro op hop
  simp only [opsTail, List.mem_cons, List.mem_nil_iff, or_false] at hop
  rcases hop with rfl | rfl | rfl | rfl | rfl | rfl | rfl <;> rfl

/-- @main as its three stretches of host operations around the two calls. -/
theorem main_eq (d : Dev nD) : main (F := F) d
    = (StableHlo.seq (opsHead (F := F)) >>= fun _ => (sc (F := F)).run d 0 >>= fun _ =>
        Prog.lift (.customCall (SparseCore.inner (Pipeline.entry 0)) ()) >>= fun _ => StableHlo.seq (opsTail (F := F))) := rfl

/-! ## The arrays' contents along @main -/

/-- After the SparseCore call the 32×16 array holds the subcores' accumulators; after the TensorCore call the
    16×1×128 array holds the off-diagonal maxima; after the tail the result. -/
def V2 (d : Dev nD) : Valuation τ sig (Elt F) := Function.update (V1 m d) o' (scOut (F := F) (X1 m d))
def V3 (d : Dev nD) : Valuation τ sig (Elt F) := Function.update (V2 m d) off' (tcOutBuf d (X0 m d))
def V4 (d : Dev nD) : Valuation τ sig (Elt F) := after (opsTail (F := F)) (V3 m d)

/-- The result: the host arithmetic of what the two calls leave. -/
abbrev resLoc (d : Dev nD) : Loc nD τ sig := (SparseCore.T d).loc main_v9
def OUT (d : Dev nD) : Buf (Elt F) (resLoc d) := hostTail (F := F) (scOut (X1 m d)) (tcOutBuf d (X0 m d))

theorem V1_arg (d : Dev nD) : V1 m d arg' = m (xLoc d) := by
  unfold V1 V0 opsHead; after_results
theorem V1_o (d : Dev nD) : V1 m d o' = m (oLoc d) := by
  unfold V1 V0 opsHead; after_results
theorem X0_eq (d : Dev nD) : X0 m d = shapeCast S16x2048x2048 (m (xLoc d)) shapeCasts_S1x16x2048x2048_S16x2048x2048 := by
  unfold X0 V1 V0 opsHead; after_results; rfl
theorem X1_eq (d : Dev nD) : X1 m d = shapeCast S32768x2048 (m (xLoc d)) shapeCasts_S1x16x2048x2048_S32768x2048 := by
  unfold X1 V1 V0 opsHead; after_results; rfl

theorem V2_x0 (d : Dev nD) : V2 m d x0' = X0 m d := Function.update_of_ne (show x0' ≠ o' by decide) _ _
theorem V2_off (d : Dev nD) : V2 m d off' = V1 m d off' := Function.update_of_ne (show off' ≠ o' by decide) _ _
theorem V2_o (d : Dev nD) : V2 m d o' = scOut (F := F) (X1 m d) := Function.update_self _ _ _
theorem V2_x1 (d : Dev nD) : V2 m d x1' = X1 m d := Function.update_of_ne (show x1' ≠ o' by decide) _ _
theorem V3_x0 (d : Dev nD) : V3 m d x0' = X0 m d := (Function.update_of_ne (show x0' ≠ off' by decide) _ _).trans (V2_x0 m d)
theorem V3_off (d : Dev nD) : V3 m d off' = tcOutBuf d (X0 m d) := Function.update_self _ _ _
theorem V3_o (d : Dev nD) : V3 m d o' = scOut (F := F) (X1 m d) := (Function.update_of_ne (show o' ≠ off' by decide) _ _).trans (V2_o m d)
theorem V3_arg (d : Dev nD) : V3 m d arg' = m (xLoc d) :=
  (Function.update_of_ne (show arg' ≠ off' by decide) _ _).trans ((Function.update_of_ne (show arg' ≠ o' by decide) _ _).trans (V1_arg m d))

theorem V4_arg (d : Dev nD) : V4 m d arg' = m (xLoc d) := by
  unfold V4 opsTail; after_results; exact V3_arg m d
theorem V4_res (d : Dev nD) : V4 m d res' = OUT m d := by
  unfold V4 opsTail; after_results; rw [V3_o, V3_off]; rfl

omit [FloatOps F] in
theorem held_pair (d : Dev nD) (a b : DevRef τ sig) (hab : a ≠ b) (W : Valuation τ sig (Elt F)) :
    (held (T d) {a, b} W : sProp 𝕄) = iprop(((d, a) ↦{fullShare} W a) ∗ ((d, b) ↦{fullShare} W b)) := by
  unfold held; rw [SparseCore.bigSep_insert' (by simpa using hab), bigSep_singleton]

/-- A pair of arrays taken out of @main's arrays and put back at new contents. -/
theorem held_put (d : Dev nD) (a b : DevRef τ sig) (hab : a ≠ b) (hs : ({a, b} : Finset (DevRef τ sig)) ⊆ Sall)
    (W W' : Valuation τ sig (Elt F)) (hW : ∀ c ∈ Sall \ {a, b}, W' c = W c) :
    iprop(((d, a) ↦{fullShare} W' a) ∗ ((d, b) ↦{fullShare} W' b) ∗ (held (T d) (Sall \ {a, b}) W : sProp 𝕄)) ⊢ held (T d) Sall W' := by
  rw [held_sub_split (T d) hs W', held_pair d a b hab, held_congr (T d) (V := W') (V' := W) hW]
  iintro ⟨Ha, Hb, Hr⟩
  isplitl [Ha Hb]
  · isplitl [Ha] <;> iassumption
  · iexact Hr

theorem held_take (d : Dev nD) (a b : DevRef τ sig) (hab : a ≠ b) (hs : ({a, b} : Finset (DevRef τ sig)) ⊆ Sall) (W : Valuation τ sig (Elt F)) :
    (held (T d) Sall W : sProp 𝕄) ⊢ iprop(((d, a) ↦{fullShare} W a) ∗ ((d, b) ↦{fullShare} W b) ∗ held (T d) (Sall \ {a, b}) W) := by
  rw [held_sub_split (T d) hs W, held_pair d a b hab]
  iintro ⟨⟨Ha, Hb⟩, Hr⟩
  isplitl [Ha]; · iexact Ha
  isplitl [Hb]; · iexact Hb
  iexact Hr

/-! ## What the SparseCore call takes and gives back, from the whole arrays -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_intro (d : Dev nD) :
    iprop((bigSep Finset.univ fun c : Fin 2 => iprop(x1Pts d (qD c) (X1 m d) ∗ bigSep Finset.univ fun i : Fin 16 => x1Pts d (qT c i) (X1 m d)))
        ∗ (bigSep Finset.univ fun c : Fin 2 => bigSep Finset.univ fun i : Fin 16 => oRowPts d (Lof c i) (m (oLoc d))))
      ⊢ bigSep Finset.univ fun c : Fin ((K (F := F)).nCore 0) => (P m).st 0 d c := by
  refine BI.Entails.trans ?_ (Entails.of_eq (bigSep_cores (F := F)
    (fun c : Fin 2 => iprop(x1Pts d (qD c) (X1 m d) ∗ bigSep Finset.univ fun i : Fin 16 => goF m d c i))).symm)
  rw [← bigSep_sep']
  refine bigSep_mono fun c _ => ?_
  unfold goF; rw [bigSep_sep']
  exact BI.sep_assoc

theorem dn_elim (d : Dev nD) :
    (bigSep Finset.univ fun c : Fin ((K (F := F)).nCore 0) => (P m).dn 0 d c)
      ⊢ iprop((bigSep Finset.univ fun c : Fin 2 => iprop(x1Pts d (qD c) (X1 m d) ∗ bigSep Finset.univ fun i : Fin 16 => x1Pts d (qT c i) (X1 m d)))
        ∗ (bigSep Finset.univ fun c : Fin 2 => bigSep Finset.univ fun i : Fin 16 => oRowPts d (Lof c i) (scOut (F := F) (X1 m d)))) := by
  refine (Entails.of_eq (bigSep_cores (F := F)
    (fun c : Fin 2 => iprop(x1Pts d (qD c) (X1 m d) ∗ bigSep Finset.univ fun i : Fin 16 => tdF m d c i)))).trans ?_
  rw [← bigSep_sep']
  refine bigSep_mono fun c _ => ?_
  unfold tdF; rw [bigSep_sep']
  exact BI.sep_assoc'

/-! ## The launch element -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof starts from besides the launch's deal: the staging cells' ghost state. -/
def Gd (d : Dev nD) : sProp 𝕄 := iprop(Pipeline.cellsGhost cfgs ER 0 d ∗ Pipeline.toksInit cfgs ER 0 d)

omit [FloatOps F] in
theorem bigSep_emp' {I : Type} (s : Finset I) : (bigSep s fun _ => iprop(emp)) = (iprop(emp) : sProp 𝕄) := bigSep_emp_const s

omit [FloatOps F] in
theorem ownR_split (a : UR) (b : Counters) :
    (BI.own ((embR (A := UH) (B := UR × Counters)) (a, b)) : sProp 𝕄)
      ⊢ iprop(BI.own (ER (F := F) a) ∗ BI.own (((Emb.inr : Emb Counters (UR × Counters)).trans (embR (A := UH) (B := UR × Counters))) b)) :=
  own_pair_emb (embR (A := UH) (B := UR × Counters)) a b

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (ownR_split (F := F) _ _) $$ HR
  icases H2 with ⟨HP, -⟩
  imod (Pipeline.fund_ghost cfgs (ER (F := F)) cellOf_inj) $$ HP with ⟨Hg, Ht⟩
  imodintro
  isplitl [HH]; · iexact HH
  isplitl [Hg Ht]
  · unfold Gd; rw [bigSep_sep']
    isplitl [Hg]
    · have hG : (bigSep Finset.univ fun d : Dev nD => bigSep Finset.univ fun p : Fin 1 => Pipeline.cellsGhost cfgs (ER (F := F)) p d : sProp 𝕄)
          ⊢ bigSep Finset.univ fun d : Dev nD => Pipeline.cellsGhost cfgs (ER (F := F)) 0 d :=
        bigSep_mono fun d _ => Entails.of_eq (bigSep_univ_of_subsingleton (0 : Fin 1))
      iapply hG; iexact Hg
    · have hT : (bigSep Finset.univ fun d : Dev nD => bigSep Finset.univ fun p : Fin 1 => Pipeline.toksInit cfgs (ER (F := F)) p d : sProp 𝕄)
          ⊢ bigSep Finset.univ fun d : Dev nD => Pipeline.toksInit cfgs (ER (F := F)) 0 d :=
        bigSep_mono fun d _ => Entails.of_eq (bigSep_univ_of_subsingleton (0 : Fin 1))
      iapply hT; iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev xPts (d : Dev nD) : sProp 𝕄 := xLoc d ↦{fullShare} m (xLoc d)
abbrev FIN (d : Dev nD) : sProp 𝕄 := iprop(xPts m d ∗ resLoc d ↦{fullShare} OUT m d)

set_option backward.isDefEq.respectTransparency.types false in
/-- @main on device `d`'s TensorCore: the two reshapes, the SparseCore call (the array out as read shares, the
    result out as rows, both back), the TensorCore call (the region's rule), the seven operations of the tail. -/
theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes Gd
  rw [unscoped_held, main_eq]
  iintro ⟨#Hctx, Hst, ⟨Hb, Hheld, -, -⟩, ⟨Hg, Ht⟩⟩
  ihave #Hlv := (SparseCore.Cfg.ctx_levAts κ) $$ Hctx
  -- the two reshapes
  iapply (wp_seq 𝒱 none Set.univ d Sall _ (opsHead (F := F)) hHead fHead (V0 m d)) $$ [Hb Hheld]
  · isplitl [Hb]; · iexact Hb
    iexact Hheld
  iintro ⟨Hb, Hheld⟩
  -- the SparseCore call: the array as read shares, the result as rows
  ihave Hh := (held_take d x1' o' (by decide) (by decide) _) $$ Hheld
  icases Hh with ⟨Hx1, Ho, Hrest⟩
  ihave Hx1s := (x1_split d _) $$ Hx1
  icases Hx1s with ⟨Hx1d, Hx1c⟩
  ihave Hor := (Entails.of_eq (oPts_rows d _)) $$ Ho
  rw [wp_bind]
  iapply ((K (F := F)).wp_run (D (F := F)) 𝒱 (EH := EH) (P := P m) κ d 0) $$ [Hst Hx1c Hor Hb Hrest Hx1d Hg Ht]
  isplitr; · iexact Hctx
  isplitl [Hst]; · iexact Hst
  isplitl [Hx1c Hor]
  · iapply (st_intro m d)
    isplitl [Hx1c]; · iexact Hx1c
    rw [← V1_o m d]; iexact Hor
  iintro ⟨Hst, Hdn⟩
  ihave Hdn' := (dn_elim m d) $$ Hdn
  icases Hdn' with ⟨Hx1c, Hor⟩
  ihave Hx1 := (x1_join d (X1 m d)) $$ [Hx1d Hx1c]
  · isplitl [Hx1d]; · iexact Hx1d
    iexact Hx1c
  ihave Ho := (Entails.of_eq (oPts_rows d _).symm) $$ Hor
  ihave Hheld := (held_put d x1' o' (by decide) (by decide) (V1 m d) (V2 m d)
      (fun c hc => Function.update_of_ne (fun e => (Finset.mem_sdiff.mp hc).2 (by rw [e]; exact Finset.mem_insert_of_mem (Finset.mem_singleton_self _))) _ _)) $$ [Hx1 Ho Hrest]
  · rw [V2_x1, V2_o]
    isplitl [Hx1]; · iexact Hx1
    isplitl [Ho]; · iexact Ho
    iexact Hrest
  -- the TensorCore call
  rw [wp_bind]
  unfold SparseCore.Cfg.tcSt
  icases Hst with ⟨⟨%W, %hW, HO⟩, Hat, Hrd, Hrs, Htoks⟩
  rw [(K (F := F)).Otc_end d (le_refl 1)]
  ihave Hh := (held_take d x0' off' (by decide) (by decide) _) $$ Hheld
  icases Hh with ⟨Hx0, Hoff, Hrest⟩
  iapply ((K (F := F)).wp_liftProg (D (F := F)) 𝒱 (SparseCore.T d) Set.univ none (Prog.lift (.customCall (Pipeline.entry 0) ())) _)
  iapply (tc_region (F := F) d (fun c => X0 m c) 0 W (fun _ => rfl) (fun x => .ret x)) $$ [Hb Hx0 Hoff Hg Ht HO Hat Hrd Hrs Htoks Hrest]
  isplitr; · iexact Hlv
  isplitl [Hb]; · iexact Hb
  isplitl [Hx0]; · rw [← V2_x0 m d]; iexact Hx0
  isplitl [Hoff]; · iexists _; iexact Hoff
  isplitl [Hg]; · iexact Hg
  isplitl [Ht]; · iexact Ht
  isplitl [HO]; · iexact HO
  iintro ⟨Hb, Hx0, Hoff, %W', %hW', HO⟩
  rw [wp_ret]; imodintro
  ihave Hheld := (held_put d x0' off' (by decide) (by decide) (V2 m d) (V3 m d)
      (fun c hc => Function.update_of_ne (fun e => (Finset.mem_sdiff.mp hc).2 (by rw [e]; exact Finset.mem_insert_of_mem (Finset.mem_singleton_self _))) _ _)) $$ [Hx0 Hoff Hrest]
  · rw [V3_x0, V3_off]
    isplitl [Hx0]; · iexact Hx0
    isplitl [Hoff]; · iexact Hoff
    iexact Hrest
  -- the tail
  rw [show (StableHlo.seq (opsTail (F := F)) : Prog (TpuEff nD τ sig (Elt F) _ .tc) PUnit) = StableHlo.seq (opsTail (F := F)) >>= fun x => .ret x from (bind_pure _).symm]
  iapply (wp_seq 𝒱 none Set.univ d Sall _ (opsTail (F := F)) hTail fTail (V3 m d)) $$ [Hb Hheld]
  · isplitl [Hb]; · iexact Hb
    iexact Hheld
  iintro ⟨Hb, Hheld⟩
  ihave Hh := (held_take d arg' res' (by decide) (by decide) _) $$ Hheld
  icases Hh with ⟨Harg, Hres, -⟩
  rw [wp_ret]; imodintro
  isplitl [HO Hat Hrd Hrs Htoks]
  · isplitl [HO]
    · iexists W'; isplitr
      · ipureintro; intro p hp
        rcases hW' p hp with h | h
        · exact hW p h
        · rw [show p.2 = none from h]; exact Nat.zero_le _
      · iexact HO
    isplitl [Hat]; · iexact Hat
    isplitl [Hrd]; · iexact Hrd
    isplitl [Hrs]; · iexact Hrs
    iexact Htoks
  isplitl [Harg]
  · rw [show (xPts m d : sProp 𝕄) = ((d, arg') ↦{fullShare} after (opsTail (F := F)) (V3 m d) arg') from by rw [show after (opsTail (F := F)) (V3 m d) arg' = m (xLoc d) from V4_arg m d]]
    iexact Harg
  · rw [show (resLoc d ↦{fullShare} OUT m d : sProp 𝕄) = ((d, res') ↦{fullShare} after (opsTail (F := F)) (V3 m d) res') from by rw [show after (opsTail (F := F)) (V3 m d) res' = OUT m d from V4_res m d]]
    iexact Hres

def fq (d : Dev nD) (s' : Phys nD τ sig (Elt F)) : Prop :=
  s'.mem.mem (xLoc d) = m (xLoc d) ∧ s'.mem.mem (resLoc d) = OUT m d

theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := xLoc d) (I := Finset.univ) (q := fullShare) (f := m (xLoc d)))) $$ [HSI Hi]
  · isplitl [HSI] <;> iassumption
  icases H with ⟨%h1, HSI, -⟩
  ihave H := (SI_pointsTo_agree (st := s') (ℓ := resLoc d) (I := Finset.univ) (q := fullShare) (f := OUT m d)) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  ∀ c : Dev nD, r.2.mem (xLoc c) = m (xLoc c) ∧ r.2.mem (resLoc c) = OUT m c

/-- Every weakly fair execution of the device's threads terminates, nothing faulting, with the argument unchanged
    and the result at the host arithmetic of the two calls' results. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.KernelIdeal.Hand

end
-- ==== Proof.Bits.Common.lean ====
/-
  Shared set-up for the frame of the kernel program: the program as the SparseCore launch theorem
  sees it (its configuration, the body table under it, the variants), the ghost state — the launch handshakes'
  rounds, the staging cells' rounds of the TensorCore pipeline, and the transfers' counters side by side —
  and the locations of the arrays the proof speaks of.
-/
import proofs.«210750_g14534169330353_cont_week2b_1167_29_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«210750_g14534169330353_cont_week2b_1167_29_alg».proof.Proof.Gen.Kernel
import proofs.«210750_g14534169330353_cont_week2b_1167_29_alg».proof.Proof.Gen.Kernel.Skeleton
import proofs.«210750_g14534169330353_cont_week2b_1167_29_alg».proof.Proof.Gen.Kernel.Launch
import proofs.«210750_g14534169330353_cont_week2b_1167_29_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshake rounds, staging-cell rounds, transfer counters -/

abbrev UH : Type := URounds (GSem nD τ sig) ℕ
abbrev UR : Type := URounds (GSem nD τ sig) Unit
abbrev UU : Type := UH × (UR × Counters)

abbrev 𝕄F (F : FTy → Type) : Type := MT nD τ sig (HIx 1) (Elt F) ℕ UU ℕ

local notation "𝕄" => MT nD τ sig (HIx 1) (Elt F) ℕ UU ℕ

/-- The handshakes' rounds: the left factor. -/
abbrev EH : Emb UH (MT nD τ sig (HIx 1) (Elt F) ℕ UU ℕ) := embL

/-- The staging cells' rounds: the left factor of the right factor. -/
def ER : Emb UR (MT nD τ sig (HIx 1) (Elt F) ℕ UU ℕ) :=
  (Emb.inl : Emb UR (UR × Counters)).trans (embR (A := UH) (B := UR × Counters))

instance ER_landsIn : (ER : Emb UR 𝕄).LandsIn (upEmb : UEmb _ 𝕄) := by unfold ER embR; infer_instance

/-! ## The arrays -/

/-- The argument, its two reshapes, the two calls' results, as locations of device `d`. -/
abbrev xLoc (d : Dev nD) : Loc nD τ sig := (SparseCore.T d).loc main_arg0
abbrev x0Loc (d : Dev nD) : Loc nD τ sig := (SparseCore.T d).loc main_v0
abbrev x1Loc (d : Dev nD) : Loc nD τ sig := (SparseCore.T d).loc main_v1
abbrev oLoc (d : Dev nD) : Loc nD τ sig := (SparseCore.T d).loc main_v2
abbrev offLoc (d : Dev nD) : Loc nD τ sig := (SparseCore.T d).loc main_v3

end Cert.Kernel.Hand

end
-- ==== Proof.Bits.ScBands.lean ====
/-
  The 128 rows of one staged 128×128 block, in the order and grouping of the program's text: row j's sixteen
  lanes starting at column 16·⌊j/16⌋ are read from the scratch and folded into the running 16-lane maximum with
  every lane but j mod 16 masked to -inf. A table read off the kernel's skeleton: `band1` … `band25` are the
  groups of rows the program's text is cut into, `band26` their composition with rows 124–126.
-/
import proofs.«210750_g14534169330353_cont_week2b_1167_29_alg».proof.Proof.Gen.Kernel.Skeleton

noncomputable section

namespace Cert.Kernel.Hand

open Cert.Kernel Cert.Kernel.Gen
open Idealize.ShloMosaic Idealize.SL.Sem

variable {F : FTy → Type} [FloatOps F]

noncomputable def band1 (s : Vec F S128x128 .f32) (v33 : IVec S16 32) (arg8 : FVec F S16 .f32) : (Σ' (v71 : FVec F S16 .f32), FVec F S16 .f32) :=
  let v49 : Vec F S1x16 .f32 := (Memref.whole cc0_scratch0 : Memref sig .scVector .vmem S128x128 .f32).view.readAt (Elt F) (Rect.unit (s := S128x128) ![0, 0] S1x16.size inb_S128x128_S1x16_0_0).toLoadRect s
  let v57 : Vec F S1x16 .f32 := (Memref.whole cc0_scratch0 : Memref sig .scVector .vmem S128x128 .f32).view.readAt (Elt F) (Rect.unit (s := S128x128) ![1, 0] S1x16.size inb_S128x128_S1x16_1_0).toLoadRect s
  let v65 : Vec F S1x16 .f32 := (Memref.whole cc0_scratch0 : Memref sig .scVector .vmem S128x128 .f32).view.readAt (Elt F) (Rect.unit (s := S128x128) ![2, 0] S1x16.size inb_S128x128_S1x16_2_0).toLoadRect s
  let v73 : Vec F S1x16 .f32 := (Memref.whole cc0_scratch0 : Memref sig .scVector .vmem S128x128 .f32).view.readAt (Elt F) (Rect.unit (s := S128x128) ![3, 0] S1x16.size inb_S128x128_S1x16_3_0).toLoadRect s
  ⟨k0_pay2 v33 arg8 v49 v57 v65, k0_pay3 v33 v73⟩

noncomputable def band2 (s : Vec F S128x128 .f32) (v33 : IVec S16 32) (v71 : FVec F S16 .f32) (v78 : FVec F S16 .f32) : (Σ' (v111 : FVec F S16 .f32), FVec F S16 .f32) :=
  let v81 : Vec F S1x16 .f32 := (Memref.whole cc0_scratch0 : Memref sig .scVector .vmem S128x128 .f32).view.readAt (Elt F) (Rect.unit (s := S128x128) ![4, 0] S1x16.size inb_S128x128_S1x16_4_0).toLoadRect s
  let v89 : Vec F S1x16 .f32 := (Memref.whole cc0_scratch0 : Memref sig .scVector .vmem S128x128 .f32).view.readAt (Elt F) (Rect.unit (s := S128x128) ![5, 0] S1x16.size inb_S128x128_S1x16_5_0).toLoadRect s
  let v97 : Vec F S1x16 .f32 := (Memref.whole cc0_scratch0 : Memref sig .scVector .vmem S128x128 .f32).view.readAt (Elt F) (Rect.unit (s := S128x128) ![6, 0] S1x16.size inb_S128x128_S1x16_6_0).toLoadRect s
  let v105 : Vec F S1x16 .f32 := (Memref.whole cc0_scratch0 : Memref sig .scVector .vmem S128x128 .f32).view.readAt (Elt F) (Rect.unit (s := S128x128) ![7, 0] S1x16.size inb_S128x128_S1x16_7_0).toLoadRect s
  let v113 : Vec F S1x16 .f32 := (Memref.whole cc0_scratch0 : Memref sig .scVector .vmem S128x128 .f32).view.readAt (Elt F) (Rect.unit (s := S128x128) ![8, 0] S1x16.size inb_S128x128_S1x16_8_0).toLoadRect s
  ⟨k0_pay4 v33 v71 v78 v81 v89 v97 v105, k0_pay5 v33 v113⟩

noncomputable def band3 (s : Vec F S128x128 .f32) (v33 : IVec S16 32) (v111 : FVec F S16 .f32) (v118 : FVec F S16 .f32) : (Σ' (v151 : FVec F S16 .f32), FVec F S16 .f32) :=
  let v121 : Vec F S1x16 .f32 := (Memref.whole cc0_scratch0 : Memref sig .scVector .vmem S128x128 .f32).view.readAt (Elt F) (Rect.unit (s := S128x128) ![9, 0] S1x16.size inb_S128x128_S1x16_9_0).toLoadRect s
  let v129 : Vec F S1x16 .f32 := (Memref.whole cc0_scratch0 : Memref sig .scVector .vmem S128x128 .f32).view.readAt (Elt F) (Rect.unit (s := S128x128) ![10, 0] S1x16.size inb_S128x128_S1x16_10_0).toLoadRect s
  let v137 : Vec F S1x16 .f32 := (Memref.whole cc0_scratch0 : Memref sig .scVector .vmem S128x128 .f32).view.readAt (Elt F) (Rect.unit (s := S128x128) ![11, 0] S1x16.size inb_S128x128_S1x16_11_0).toLoadRect s
  let v145 : Vec F S1x16 .f32 := (Memref.whole cc0_scratch0 : Memref sig .scVector .vmem S128x128 .f32).view.readAt (Elt F) (Rect.unit (s := S128x128) ![12, 0] S1x16.size inb_S128x128_S1x16_12_0).toLoadRect s
  let v153 : Vec F S1x16 .f32 := (Memref.whole cc0_scratch0 : Memref sig .scVector .vmem S128x128 .f32).view.readAt (Elt F) (Rect.unit (s := S128x128) ![13, 0] S1x16.size inb_S128x128_S1x16_13_0).toLoadRect s
  ⟨k0_pay6 v33 v111 v118 v121 v129 v137 v145, k0_pay7 v33 v153⟩

noncomputable def band4 (s : Vec F S128x128 .f32) (v33 : IVec S16 32) (v151 : FVec F S16 .f32) (v158 : FVec F S16 .f32) : (Σ' (v191 : FVec F S16 .f32), FVec F S16 .f32) :=
  let v161 : Vec F S1x16 .f32 := (Memref.whole cc0_scratch0 : Memref sig .scVector .vmem S128x128 .f32).view.readAt (Elt F) (Rect.unit (s := S128x128) ![14, 0] S1x16.size inb_S128x128_S1x16_14_0).toLoadRect s
  let v169 : Vec F S1x16 .f32 := (Memref.whole cc0_scratch0 : Memref sig .scVector .vmem S128x128 .f32).view.readAt (Elt F) (Rect.unit (s := S128x128) ![15, 0] S1x16.size inb_S128x128_S1x16_15_0).toLoadRect s
  let v177 : Vec F S1x16 .f32 := (Memref.whole cc0_scratch0 : Memref sig .scVector .vmem S128x128 .f32).view.readAt (Elt F) (Rect.unit (s := S128x128) ![16, 16] S1x16.size inb_S128x128_S1x16_16_16).toLoadRect s
  let v185 : Vec F S1x16 .f32 := (Memref.whole cc0_scratch0 : Memref sig .scVector .vmem S128x128 .f32).view.readAt (Elt F) (Rect.unit (s := S128x128) ![17, 16] S1x16.size inb_S128x128_S1x16_17_16).toLoadRect s
  let v193 : Vec F S1x16 .f32 := (Memref.whole cc0_scratch0 : Memref sig .scVector .vmem S128x128 .f32).view.readAt (Elt F) (Rect.unit (s := S128x128) ![18, 16] S1x16.size inb_S128x128_S1x16_18_16).toLoadRect s
  ⟨k0_pay8 v33 v151 v158 v161 v169 v177 v185, k0_pay9 v33 v193⟩

noncomputable def band5 (s : Vec F S128x128 .f32) (v33 : IVec S16 32) (v191 : FVec F S16 .f32) (v198 : FVec F S16 .f32) : (Σ' (v231 : FVec F S16 .f32), FVec F S16 .f32) :=
  let v201 : Vec F S1x16 .f32 := (Memref.whole cc0_scratch0 : Memref sig .scVector .vmem S128x128 .f32).view.readAt (Elt F) (Rect.unit (s := S128x128) ![19, 16] S1x16.size inb_S128x128_S1x16_19_16).toLoadRect s
  let v209 : Vec F S1x16 .f32 := (Memref.whole cc0_scratch0 : Memref sig .scVector .vmem S128x128 .f32).view.readAt (Elt F) (Rect.unit (s := S128x128) ![20, 16] S1x16.size inb_S128x128_S1x16_20_16).toLoadRect s
  let v217 : Vec F S1x16 .f32 := (Memref.whole cc0_scratch0 : Memref sig .scVector .vmem S128x128 .f32).view.readAt (Elt F) (Rect.unit (s := S128x128) ![21, 16] S1x16.size inb_S128x128_S1x16_21_16).toLoadRect s
  let v225 : Vec F S1x16 .f32 := (Memref.whole cc0_scratch0 : Memref sig .scVector .vmem S128x128 .f32).view.readAt (Elt F) (Rect.unit (s := S128x128) ![22, 16] S1x16.size inb_S128x128_S1x16_22_16).toLoadRect s
  let v233 : Vec F S1x16 .f32 := (Memref.whole cc0_scratch0 : Memref sig .scVector .vmem S128x128 .f32).view.readAt (Elt F) (Rect.unit (s := S128x128) ![23, 16] S1x16.size inb_S128x128_S1x16_23_16).toLoadRect s
  ⟨k0_pay10 v33 v191 v198 v201 v209 v217 v225, k0_pay11 v33 v233⟩

noncomputable def band6 (s : Vec F S128x128 .f32) (v33 : IVec S16 32) (v231 : FVec F S16 .f32) (v238 : FVec F S16 .f32) : (Σ' (v271 : FVec F S16 .f32), FVec F S16 .f32) :=
  let v241 : Vec F S1x16 .f32 := (Memref.whole cc0_scratch0 : Memref sig .scVector .vmem S128x128 .f32).view.readAt (Elt F) (Rect.unit (s := S128x128) ![24, 16] S1x16.size inb_S128x128_S1x16_24_16).toLoadRect s
  let v249 : Vec F S1x16 .f32 := (Memref.whole cc0_scratch0 : Memref sig .scVector .vmem S128x128 .f32).view.readAt (Elt F) (Rect.unit (s := S128x128) ![25, 16] S1x16.size inb_S128x128_S1x16_25_16).toLoadRect s
  let v257 : Vec F S1x16 .f32 := (Memref.whole cc0_scratch0 : Memref sig .scVector .vmem S128x128 .f32).view.readAt (Elt F) (Rect.unit (s := S128x128) ![26, 16] S1x16.size inb_S128x128_S1x16_26_16).toLoadRect s
  let v265 : Vec F S1x16 .f32 := (Memref.whole cc0_scratch0 : Memref sig .scVector .vmem S128x128 .f32).view.readAt (Elt F) (Rect.unit (s := S128x128) ![27, 16] S1x16.size inb_S128x128_S1x16_27_16).toLoadRect s
  let v273 : Vec F S1x16 .f32 := (Memref.whole cc0_scratch0 : Memref sig .scVector .vmem S128x128 .f32).view.readAt (Elt F) (Rect.unit (s := S128x128) ![28, 16] S1x16.size inb_S128x128_S1x16_28_16).toLoadRect s
  ⟨k0_pay12 v33 v231 v238 v241 v249 v257 v265, k0_pay13 v33 v273⟩

noncomputable def band7 (s : Vec F S128x128 .f32) (v33 : IVec S16 32) (v271 : FVec F S16 .f32) (v278 : FVec F S16 .f32) : (Σ' (v311 : FVec F S16 .f32), FVec F S16 .f32) :=
  let v281 : Vec F S1x16 .f32 := (Memref.whole cc0_scratch0 : Memref sig .scVector .vmem S128x128 .f32).view.readAt (Elt F) (Rect.unit (s := S128x128) ![29, 16] S1x16.size inb_S128x128_S1x16_29_16).toLoadRect s
  let v289 : Vec F S1x16 .f32 := (Memref.whole cc0_scratch0 : Memref sig .scVector .vmem S128x128 .f32).view.readAt (Elt F) (Rect.unit (s := S128x128) ![30, 16] S1x16.size inb_S128x128_S1x16_30_16).toLoadRect s
  let v297 : Vec F S1x16 .f32 := (Memref.whole cc0_scratch0 : Memref sig .scVector .vmem S128x128 .f32).view.readAt (Elt F) (Rect.unit (s := S128x128) ![31, 16] S1x16.size inb_S128x128_S1x16_31_16).toLoadRect s
  let v305 : Vec F S1x16 .f32 := (Memref.whole cc0_scratch0 : Memref sig .scVector .vmem S128x128 .f32).view.readAt (Elt F) (Rect.unit (s := S128x128) ![32, 32] S1x16.size inb_S128x128_S1x16_32_32).toLoadRect s
  let v313 : Vec F S1x16 .f32 := (Memref.whole cc0_scratch0 : Memref sig .scVector .vmem S128x128 .f32).view.readAt (Elt F) (Rect.unit (s := S128x128) ![33, 32] S1x16.size inb_S128x128_S1x16_33_32).toLoadRect s
  ⟨k0_pay14 v33 v271 v278 v281 v289 v297 v305, k0_pay15 v33 v313⟩

noncomputable def band8 (s : Vec F S128x128 .f32) (v33 : IVec S16 32) (v311 : FVec F S16 .f32) (v318 : FVec F S16 .f32) : (Σ' (v351 : FVec F S16 .f32), FVec F S16 .f32) :=
  let v321 : Vec F S1x16 .f32 := (Memref.whole cc0_scratch0 : Memref sig .scVector .vmem S128x128 .f32).view.readAt (Elt F) (Rect.unit (s := S128x128) ![34, 32] S1x16.size inb_S128x128_S1x16_34_32).toLoadRect s
  let v329 : Vec F S1x16 .f32 := (Memref.whole cc0_scratch0 : Memref sig .scVector .vmem S128x128 .f32).view.readAt (Elt F) (Rect.unit (s := S128x128) ![35, 32] S1x16.size inb_S128x128_S1x16_35_32).toLoadRect s
  let v337 : Vec F S1x16 .f32 := (Memref.whole cc0_scratch0 : Memref sig .scVector .vmem S128x128 .f32).view.readAt (Elt F) (Rect.unit (s := S128x128) ![36, 32] S1x16.size inb_S128x128_S1x16_36_32).toLoadRect s
  let v345 : Vec F S1x16 .f32 := (Memref.whole cc0_scratch0 : Memref sig .scVector .vmem S128x128 .f32).view.readAt (Elt F) (Rect.unit (s := S128x128) ![37, 32] S1x16.size inb_S128x128_S1x16_37_32).toLoadRect s
  let v353 : Vec F S1x16 .f32 := (Memref.whole cc0_scratch0 : Memref sig .scVector .vmem S128x128 .f32).view.readAt (Elt F) (Rect.unit (s := S128x128) ![38, 32] S1x16.size inb_S128x128_S1x16_38_32).toLoadRect s
  ⟨k0_pay16 v33 v311 v318 v321 v329 v337 v345, k0_pay17 v33 v353⟩

noncomputable def band9 (s : Vec F S128x128 .f32) (v33 : IVec S16 32) (v351 : FVec F S16 .f32) (v358 : FVec F S16 .f32) : (Σ' (v391 : FVec F S16 .f32), FVec F S16 .f32) :=
  let v361 : Vec F S1x16 .f32 := (Memref.whole cc0_scratch0 : Memref sig .scVector .vmem S128x128 .f32).view.readAt (Elt F) (Rect.unit (s := S128x128) ![39, 32] S1x16.size inb_S128x128_S1x16_39_32).toLoadRect s
  let v369 : Vec F S1x16 .f32 := (Memref.whole cc0_scratch0 : Memref sig .scVector .vmem S128x128 .f32).view.readAt (Elt F) (Rect.unit (s := S128x128) ![40, 32] S1x16.size inb_S128x128_S1x16_40_32).toLoadRect s
  let v377 : Vec F S1x16 .f32 := (Memref.whole cc0_scratch0 : Memref sig .scVector .vmem S128x128 .f32).view.readAt (Elt F) (Rect.unit (s := S128x128) ![41, 32] S1x16.size inb_S128x128_S1x16_41_32).toLoadRect s
  let v385 : Vec F S1x16 .f32 := (Memref.whole cc0_scratch0 : Memref sig .scVector .vmem S128x128 .f32).view.readAt (Elt F) (Rect.unit (s := S128x128) ![42, 32] S1x16.size inb_S128x128_S1x16_42_32).toLoadRect s
  let v393 : Vec F S1x16 .f32 := (Memref.whole cc0_scratch0 : Memref sig .scVector .vmem S128x128 .f32).view.readAt (Elt F) (Rect.unit (s := S128x128) ![43, 32] S1x16.size inb_S128x128_S1x16_43_32).toLoadRect s
  ⟨k0_pay18 v33 v351 v358 v361 v369 v377 v385, k0_pay19 v33 v393⟩

noncomputable def band10 (s : Vec F S128x128 .f32) (v33 : IVec S16 32) (v391 : FVec F S16 .f32) (v398 : FVec F S16 .f32) : (Σ' (v431 : FVec F S16 .f32), FVec F S16 .f32) :=
  let v401 : Vec F S1x16 .f32 := (Memref.whole cc0_scratch0 : Memref sig .scVector .vmem S128x128 .f32).view.readAt (Elt F) (Rect.unit (s := S128x128) ![44, 32] S1x16.size inb_S128x128_S1x16_44_32).toLoadRect s
  let v409 : Vec F S1x16 .f32 := (Memref.whole cc0_scratch0 : Memref sig .scVector .vmem S128x128 .f32).view.readAt (Elt F) (Rect.unit (s := S128x128) ![45, 32] S1x16.size inb_S128x128_S1x16_45_32).toLoadRect s
  let v417 : Vec F S1x16 .f32 := (Memref.whole cc0_scratch0 : Memref sig .scVector .vmem S128x128 .f32).view.readAt (Elt F) (Rect.unit (s := S128x128) ![46, 32] S1x16.size inb_S128x128_S1x16_46_32).toLoadRect s
  let v425 : Vec F S1x16 .f32 := (Memref.whole cc0_scratch0 : Memref sig .scVector .vmem S128x128 .f32).view.readAt (Elt F) (Rect.unit (s := S128x128) ![47, 32] S1x16.size inb_S128x128_S1x16_47_32).toLoadRect s
  let v433 : Vec F S1x16 .f32 := (Memref.whole cc0_scratch0 : Memref sig .scVector .vmem S128x128 .f32).view.readAt (Elt F) (Rect.unit (s := S128x128) ![48, 48] S1x16.size inb_S128x128_S1x16_48_48).toLoadRect s
  ⟨k0_pay20 v33 v391 v398 v401 v409 v417 v425, k0_pay21 v33 v433⟩

noncomputable def band11 (s : Vec F S128x128 .f32) (v33 : IVec S16 32) (v431 : FVec F S16 .f32) (v438 : FVec F S16 .f32) : (Σ' (v471 : FVec F S16 .f32), FVec F S16 .f32) :=
  let v441 : Vec F S1x16 .f32 := (Memref.whole cc0_scratch0 : Memref sig .scVector .vmem S128x128 .f32).view.readAt (Elt F) (Rect.unit (s := S128x128) ![49, 48] S1x16.size inb_S128x128_S1x16_49_48).toLoadRect s
  let v449 : Vec F S1x16 .f32 := (Memref.whole cc0_scratch0 : Memref sig .scVector .vmem S128x128 .f32).view.readAt (Elt F) (Rect.unit (s := S128x128) ![50, 48] S1x16.size inb_S128x128_S1x16_50_48).toLoadRect s
  let v457 : Vec F S1x16 .f32 := (Memref.whole cc0_scratch0 : Memref sig .scVector .vmem S128x128 .f32).view.readAt (Elt F) (Rect.unit (s := S128x128) ![51, 48] S1x16.size inb_S128x128_S1x16_51_48).toLoadRect s
  let v465 : Vec F S1x16 .f32 := (Memref.whole cc0_scratch0 : Memref sig .scVector .vmem S128x128 .f32).view.readAt (Elt F) (Rect.unit (s := S128x128) ![52, 48] S1x16.size inb_S128x128_S1x16_52_48).toLoadRect s
  let v473 : Vec F S1x16 .f32 := (Memref.whole cc0_scratch0 : Memref sig .scVector .vmem S128x128 .f32).view.readAt (Elt F) (Rect.unit (s := S128x128) ![53, 48] S1x16.size inb_S128x128_S1x16_53_48).toLoadRect s
  ⟨k0_pay22 v33 v431 v438 v441 v449 v457 v465, k0_pay23 v33 v473⟩

noncomputable def band12 (s : Vec F S128x128 .f32) (v33 : IVec S16 32) (v471 : FVec F S16 .f32) (v478 : FVec F S16 .f32) : (Σ' (v511 : FVec F S16 .f32), FVec F S16 .f32) :=
  let v481 : Vec F S1x16 .f32 := (Memref.whole cc0_scratch0 : Memref sig .scVector .vmem S128x128 .f32).view.readAt (Elt F) (Rect.unit (s := S128x128) ![54, 48] S1x16.size inb_S128x128_S1x16_54_48).toLoadRect s
  let v489 : Vec F S1x16 .f32 := (Memref.whole cc0_scratch0 : Memref sig .scVector .vmem S128x128 .f32).view.readAt (Elt F) (Rect.unit (s := S128x128) ![55, 48] S1x16.size inb_S128x128_S1x16_55_48).toLoadRect s
  let v497 : Vec F S1x16 .f32 := (Memref.whole cc0_scratch0 : Memref sig .scVector .vmem S128x128 .f32).view.readAt (Elt F) (Rect.unit (s := S128x128) ![56, 48] S1x16.size inb_S128x128_S1x16_56_48).toLoadRect s
  let v505 : Vec F S1x16 .f32 := (Memref.whole cc0_scratch0 : Memref sig .scVector .vmem S128x128 .f32).view.readAt (Elt F) (Rect.unit (s := S128x128) ![57, 48] S1x16.size inb_S128x128_S1x16_57_48).toLoadRect s
  let v513 : Vec F S1x16 .f32 := (Memref.whole cc0_scratch0 : Memref sig .scVector .vmem S128x128 .f32).view.readAt (Elt F) (Rect.unit (s := S128x128) ![58, 48] S1x16.size inb_S128x128_S1x16_58_48).toLoadRect s
  ⟨k0_pay24 v33 v471 v478 v481 v489 v497 v505, k0_pay25 v33 v513⟩

noncomputable def band13 (s : Vec F S128x128 .f32) (v33 : IVec S16 32) (v511 : FVec F S16 .f32) (v518 : FVec F S16 .f32) : (Σ' (v551 : FVec F S16 .f32), FVec F S16 .f32) :=
  let v521 : Vec F S1x16 .f32 := (Memref.whole cc0_scratch0 : Memref sig .scVector .vmem S128x128 .f32).view.readAt (Elt F) (Rect.unit (s := S128x128) ![59, 48] S1x16.size inb_S128x128_S1x16_59_48).toLoadRect s
  let v529 : Vec F S1x16 .f32 := (Memref.whole cc0_scratch0 : Memref sig .scVector .vmem S128x128 .f32).view.readAt (Elt F) (Rect.unit (s := S128x128) ![60, 48] S1x16.size inb_S128x128_S1x16_60_48).toLoadRect s
  let v537 : Vec F S1x16 .f32 := (Memref.whole cc0_scratch0 : Memref sig .scVector .vmem S128x128 .f32).view.readAt (Elt F) (Rect.unit (s := S128x128) ![61, 48] S1x16.size inb_S128x128_S1x16_61_48).toLoadRect s
  let v545 : Vec F S1x16 .f32 := (Memref.whole cc0_scratch0 : Memref sig .scVector .vmem S128x128 .f32).view.readAt (Elt F) (Rect.unit (s := S128x128) ![62, 48] S1x16.size inb_S128x128_S1x16_62_48).toLoadRect s
  let v553 : Vec F S1x16 .f32 := (Memref.whole cc0_scratch0 : Memref sig .scVector .vmem S128x128 .f32).view.readAt (Elt F) (Rect.unit (s := S128x128) ![63, 48] S1x16.size inb_S128x128_S1x16_63_48).toLoadRect s
  ⟨k0_pay26 v33 v511 v518 v521 v529 v537 v545, k0_pay27 v33 v553⟩

noncomputable def band14 (s : Vec F S128x128 .f32) (v33 : IVec S16 32) (v551 : FVec F S16 .f32) (v558 : FVec F S16 .f32) : (Σ' (v591 : FVec F S16 .f32), FVec F S16 .f32) :=
  let v561 : Vec F S1x16 .f32 := (Memref.whole cc0_scratch0 : Memref sig .scVector .vmem S128x128 .f32).view.readAt (Elt F) (Rect.unit (s := S128x128) ![64, 64] S1x16.size inb_S128x128_S1x16_64_64).toLoadRect s
  let v569 : Vec F S1x16 .f32 := (Memref.whole cc0_scratch0 : Memref sig .scVector .vmem S128x128 .f32).view.readAt (Elt F) (Rect.unit (s := S128x128) ![65, 64] S1x16.size inb_S128x128_S1x16_65_64).toLoadRect s
  let v577 : Vec F S1x16 .f32 := (Memref.whole cc0_scratch0 : Memref sig .scVector .vmem S128x128 .f32).view.readAt (Elt F) (Rect.unit (s := S128x128) ![66, 64] S1x16.size inb_S128x128_S1x16_66_64).toLoadRect s
  let v585 : Vec F S1x16 .f32 := (Memref.whole cc0_scratch0 : Memref sig .scVector .vmem S128x128 .f32).view.readAt (Elt F) (Rect.unit (s := S128x128) ![67, 64] S1x16.size inb_S128x128_S1x16_67_64).toLoadRect s
  let v593 : Vec F S1x16 .f32 := (Memref.whole cc0_scratch0 : Memref sig .scVector .vmem S128x128 .f32).view.readAt (Elt F) (Rect.unit (s := S128x128) ![68, 64] S1x16.size inb_S128x128_S1x16_68_64).toLoadRect s
  ⟨k0_pay28 v33 v551 v558 v561 v569 v577 v585, k0_pay29 v33 v593⟩

noncomputable def band15 (s : Vec F S128x128 .f32) (v33 : IVec S16 32) (v591 : FVec F S16 .f32) (v598 : FVec F S16 .f32) : (Σ' (v631 : FVec F S16 .f32), FVec F S16 .f32) :=
  let v601 : Vec F S1x16 .f32 := (Memref.whole cc0_scratch0 : Memref sig .scVector .vmem S128x128 .f32).view.readAt (Elt F) (Rect.unit (s := S128x128) ![69, 64] S1x16.size inb_S128x128_S1x16_69_64).toLoadRect s
  let v609 : Vec F S1x16 .f32 := (Memref.whole cc0_scratch0 : Memref sig .scVector .vmem S128x128 .f32).view.readAt (Elt F) (Rect.unit (s := S128x128) ![70, 64] S1x16.size inb_S128x128_S1x16_70_64).toLoadRect s
  let v617 : Vec F S1x16 .f32 := (Memref.whole cc0_scratch0 : Memref sig .scVector .vmem S128x128 .f32).view.readAt (Elt F) (Rect.unit (s := S128x128) ![71, 64] S1x16.size inb_S128x128_S1x16_71_64).toLoadRect s
  let v625 : Vec F S1x16 .f32 := (Memref.whole cc0_scratch0 : Memref sig .scVector .vmem S128x128 .f32).view.readAt (Elt F) (Rect.unit (s := S128x128) ![72, 64] S1x16.size inb_S128x128_S1x16_72_64).toLoadRect s
  let v633 : Vec F S1x16 .f32 := (Memref.whole cc0_scratch0 : Memref sig .scVector .vmem S128x128 .f32).view.readAt (Elt F) (Rect.unit (s := S128x128) ![73, 64] S1x16.size inb_S128x128_S1x16_73_64).toLoadRect s
  ⟨k0_pay30 v33 v591 v598 v601 v609 v617 v625, k0_pay31 v33 v633⟩

noncomputable def band16 (s : Vec F S128x128 .f32) (v33 : IVec S16 32) (v631 : FVec F S16 .f32) (v638 : FVec F S16 .f32) : (Σ' (v671 : FVec F S16 .f32), FVec F S16 .f32) :=
  let v641 : Vec F S1x16 .f32 := (Memref.whole cc0_scratch0 : Memref sig .scVector .vmem S128x128 .f32).view.readAt (Elt F) (Rect.unit (s := S128x128) ![74, 64] S1x16.size inb_S128x128_S1x16_74_64).toLoadRect s
  let v649 : Vec F S1x16 .f32 := (Memref.whole cc0_scratch0 : Memref sig .scVector .vmem S128x128 .f32).view.readAt (Elt F) (Rect.unit (s := S128x128) ![75, 64] S1x16.size inb_S128x128_S1x16_75_64).toLoadRect s
  let v657 : Vec F S1x16 .f32 := (Memref.whole cc0_scratch0 : Memref sig .scVector .vmem S128x128 .f32).view.readAt (Elt F) (Rect.unit (s := S128x128) ![76, 64] S1x16.size inb_S128x128_S1x16_76_64).toLoadRect s
  let v665 : Vec F S1x16 .f32 := (Memref.whole cc0_scratch0 : Memref sig .scVector .vmem S128x128 .f32).view.readAt (Elt F) (Rect.unit (s := S128x128) ![77, 64] S1x16.size inb_S128x128_S1x16_77_64).toLoadRect s
  let v673 : Vec F S1x16 .f32 := (Memref.whole cc0_scratch0 : Memref sig .scVector .vmem S128x128 .f32).view.readAt (Elt F) (Rect.unit (s := S128x128) ![78, 64] S1x16.size inb_S128x128_S1x16_78_64).toLoadRect s
  ⟨k0_pay32 v33 v631 v638 v641 v649 v657 v665, k0_pay33 v33 v673⟩

noncomputable def band17 (s : Vec F S128x128 .f32) (v33 : IVec S16 32) (v671 : FVec F S16 .f32) (v678 : FVec F S16 .f32) : (Σ' (v711 : FVec F S16 .f32), FVec F S16 .f32) :=
  let v681 : Vec F S1x16 .f32 := (Memref.whole cc0_scratch0 : Memref sig .scVector .vmem S128x128 .f32).view.readAt (Elt F) (Rect.unit (s := S128x128) ![79, 64] S1x16.size inb_S128x128_S1x16_79_64).toLoadRect s
  let v689 : Vec F S1x16 .f32 := (Memref.whole cc0_scratch0 : Memref sig .scVector .vmem S128x128 .f32).view.readAt (Elt F) (Rect.unit (s := S128x128) ![80, 80] S1x16.size inb_S128x128_S1x16_80_80).toLoadRect s
  let v697 : Vec F S1x16 .f32 := (Memref.whole cc0_scratch0 : Memref sig .scVector .vmem S128x128 .f32).view.readAt (Elt F) (Rect.unit (s := S128x128) ![81, 80] S1x16.size inb_S128x128_S1x16_81_80).toLoadRect s
  let v705 : Vec F S1x16 .f32 := (Memref.whole cc0_scratch0 : Memref sig .scVector .vmem S128x128 .f32).view.readAt (Elt F) (Rect.unit (s := S128x128) ![82, 80] S1x16.size inb_S128x128_S1x16_82_80).toLoadRect s
  let v713 : Vec F S1x16 .f32 := (Memref.whole cc0_scratch0 : Memref sig .scVector .vmem S128x128 .f32).view.readAt (Elt F) (Rect.unit (s := S128x128) ![83, 80] S1x16.size inb_S128x128_S1x16_83_80).toLoadRect s
  ⟨k0_pay34 v33 v671 v678 v681 v689 v697 v705, k0_pay35 v33 v713⟩

noncomputable def band18 (s : Vec F S128x128 .f32) (v33 : IVec S16 32) (v711 : FVec F S16 .f32) (v718 : FVec F S16 .f32) : (Σ' (v751 : FVec F S16 .f32), FVec F S16 .f32) :=
  let v721 : Vec F S1x16 .f32 := (Memref.whole cc0_scratch0 : Memref sig .scVector .vmem S128x128 .f32).view.readAt (Elt F) (Rect.unit (s := S128x128) ![84, 80] S1x16.size inb_S128x128_S1x16_84_80).toLoadRect s
  let v729 : Vec F S1x16 .f32 := (Memref.whole cc0_scratch0 : Memref sig .scVector .vmem S128x128 .f32).view.readAt (Elt F) (Rect.unit (s := S128x128) ![85, 80] S1x16.size inb_S128x128_S1x16_85_80).toLoadRect s
  let v737 : Vec F S1x16 .f32 := (Memref.whole cc0_scratch0 : Memref sig .scVector .vmem S128x128 .f32).view.readAt (Elt F) (Rect.unit (s := S128x128) ![86, 80] S1x16.size inb_S128x128_S1x16_86_80).toLoadRect s
  let v745 : Vec F S1x16 .f32 := (Memref.whole cc0_scratch0 : Memref sig .scVector .vmem S128x128 .f32).view.readAt (Elt F) (Rect.unit (s := S128x128) ![87, 80] S1x16.size inb_S128x128_S1x16_87_80).toLoadRect s
  let v753 : Vec F S1x16 .f32 := (Memref.whole cc0_scratch0 : Memref sig .scVector .vmem S128x128 .f32).view.readAt (Elt F) (Rect.unit (s := S128x128) ![88, 80] S1x16.size inb_S128x128_S1x16_88_80).toLoadRect s
  ⟨k0_pay36 v33 v711 v718 v721 v729 v737 v745, k0_pay37 v33 v753⟩

noncomputable def band19 (s : Vec F S128x128 .f32) (v33 : IVec S16 32) (v751 : FVec F S16 .f32) (v758 : FVec F S16 .f32) : (Σ' (v791 : FVec F S16 .f32), FVec F S16 .f32) :=
  let v761 : Vec F S1x16 .f32 := (Memref.whole cc0_scratch0 : Memref sig .scVector .vmem S128x128 .f32).view.readAt (Elt F) (Rect.unit (s := S128x128) ![89, 80] S1x16.size inb_S128x128_S1x16_89_80).toLoadRect s
  let v769 : Vec F S1x16 .f32 := (Memref.whole cc0_scratch0 : Memref sig .scVector .vmem S128x128 .f32).view.readAt (Elt F) (Rect.unit (s := S128x128) ![90, 80] S1x16.size inb_S128x128_S1x16_90_80).toLoadRect s
  let v777 : Vec F S1x16 .f32 := (Memref.whole cc0_scratch0 : Memref sig .scVector .vmem S128x128 .f32).view.readAt (Elt F) (Rect.unit (s := S128x128) ![91, 80] S1x16.size inb_S128x128_S1x16_91_80).toLoadRect s
  let v785 : Vec F S1x16 .f32 := (Memref.whole cc0_scratch0 : Memref sig .scVector .vmem S128x128 .f32).view.readAt (Elt F) (Rect.unit (s := S128x128) ![92, 80] S1x16.size inb_S128x128_S1x16_92_80).toLoadRect s
  let v793 : Vec F S1x16 .f32 := (Memref.whole cc0_scratch0 : Memref sig .scVector .vmem S128x128 .f32).view.readAt (Elt F) (Rect.unit (s := S128x128) ![93, 80] S1x16.size inb_S128x128_S1x16_93_80).toLoadRect s
  ⟨k0_pay38 v33 v751 v758 v761 v769 v777 v785, k0_pay39 v33 v793⟩

noncomputable def band20 (s : Vec F S128x128 .f32) (v33 : IVec S16 32) (v791 : FVec F S16 .f32) (v798 : FVec F S16 .f32) : (Σ' (v831 : FVec F S16 .f32), FVec F S16 .f32) :=
  let v801 : Vec F S1x16 .f32 := (Memref.whole cc0_scratch0 : Memref sig .scVector .vmem S128x128 .f32).view.readAt (Elt F) (Rect.unit (s := S128x128) ![94, 80] S1x16.size inb_S128x128_S1x16_94_80).toLoadRect s
  let v809 : Vec F S1x16 .f32 := (Memref.whole cc0_scratch0 : Memref sig .scVector .vmem S128x128 .f32).view.readAt (Elt F) (Rect.unit (s := S128x128) ![95, 80] S1x16.size inb_S128x128_S1x16_95_80).toLoadRect s
  let v817 : Vec F S1x16 .f32 := (Memref.whole cc0_scratch0 : Memref sig .scVector .vmem S128x128 .f32).view.readAt (Elt F) (Rect.unit (s := S128x128) ![96, 96] S1x16.size inb_S128x128_S1x16_96_96).toLoadRect s
  let v825 : Vec F S1x16 .f32 := (Memref.whole cc0_scratch0 : Memref sig .scVector .vmem S128x128 .f32).view.readAt (Elt F) (Rect.unit (s := S128x128) ![97, 96] S1x16.size inb_S128x128_S1x16_97_96).toLoadRect s
  let v833 : Vec F S1x16 .f32 := (Memref.whole cc0_scratch0 : Memref sig .scVector .vmem S128x128 .f32).view.readAt (Elt F) (Rect.unit (s := S128x128) ![98, 96] S1x16.size inb_S128x128_S1x16_98_96).toLoadRect s
  ⟨k0_pay40 v33 v791 v798 v801 v809 v817 v825, k0_pay41 v33 v833⟩

noncomputable def band21 (s : Vec F S128x128 .f32) (v33 : IVec S16 32) (v831 : FVec F S16 .f32) (v838 : FVec F S16 .f32) : (Σ' (v871 : FVec F S16 .f32), FVec F S16 .f32) :=
  let v841 : Vec F S1x16 .f32 := (Memref.whole cc0_scratch0 : Memref sig .scVector .vmem S128x128 .f32).view.readAt (Elt F) (Rect.unit (s := S128x128) ![99, 96] S1x16.size inb_S128x128_S1x16_99_96).toLoadRect s
  let v849 : Vec F S1x16 .f32 := (Memref.whole cc0_scratch0 : Memref sig .scVector .vmem S128x128 .f32).view.readAt (Elt F) (Rect.unit (s := S128x128) ![100, 96] S1x16.size inb_S128x128_S1x16_100_96).toLoadRect s
  let v857 : Vec F S1x16 .f32 := (Memref.whole cc0_scratch0 : Memref sig .scVector .vmem S128x128 .f32).view.readAt (Elt F) (Rect.unit (s := S128x128) ![101, 96] S1x16.size inb_S128x128_S1x16_101_96).toLoadRect s
  let v865 : Vec F S1x16 .f32 := (Memref.whole cc0_scratch0 : Memref sig .scVector .vmem S128x128 .f32).view.readAt (Elt F) (Rect.unit (s := S128x128) ![102, 96] S1x16.size inb_S128x128_S1x16_102_96).toLoadRect s
  let v873 : Vec F S1x16 .f32 := (Memref.whole cc0_scratch0 : Memref sig .scVector .vmem S128x128 .f32).view.readAt (Elt F) (Rect.unit (s := S128x128) ![103, 96] S1x16.size inb_S128x128_S1x16_103_96).toLoadRect s
  ⟨k0_pay42 v33 v831 v838 v841 v849 v857 v865, k0_pay43 v33 v873⟩

noncomputable def band22 (s : Vec F S128x128 .f32) (v33 : IVec S16 32) (v871 : FVec F S16 .f32) (v878 : FVec F S16 .f32) : (Σ' (v911 : FVec F S16 .f32), FVec F S16 .f32) :=
  let v881 : Vec F S1x16 .f32 := (Memref.whole cc0_scratch0 : Memref sig .scVector .vmem S128x128 .f32).view.readAt (Elt F) (Rect.unit (s := S128x128) ![104, 96] S1x16.size inb_S128x128_S1x16_104_96).toLoadRect s
  let v889 : Vec F S1x16 .f32 := (Memref.whole cc0_scratch0 : Memref sig .scVector .vmem S128x128 .f32).view.readAt (Elt F) (Rect.unit (s := S128x128) ![105, 96] S1x16.size inb_S128x128_S1x16_105_96).toLoadRect s
  let v897 : Vec F S1x16 .f32 := (Memref.whole cc0_scratch0 : Memref sig .scVector .vmem S128x128 .f32).view.readAt (Elt F) (Rect.unit (s := S128x128) ![106, 96] S1x16.size inb_S128x128_S1x16_106_96).toLoadRect s
  let v905 : Vec F S1x16 .f32 := (Memref.whole cc0_scratch0 : Memref sig .scVector .vmem S128x128 .f32).view.readAt (Elt F) (Rect.unit (s := S128x128) ![107, 96] S1x16.size inb_S128x128_S1x16_107_96).toLoadRect s
  let v913 : Vec F S1x16 .f32 := (Memref.whole cc0_scratch0 : Memref sig .scVector .vmem S128x128 .f32).view.readAt (Elt F) (Rect.unit (s := S128x128) ![108, 96] S1x16.size inb_S128x128_S1x16_108_96).toLoadRect s
  ⟨k0_pay44 v33 v871 v878 v881 v889 v897 v905, k0_pay45 v33 v913⟩

noncomputable def band23 (s : Vec F S128x128 .f32) (v33 : IVec S16 32) (v911 : FVec F S16 .f32) (v918 : FVec F S16 .f32) : (Σ' (v951 : FVec F S16 .f32), FVec F S16 .f32) :=
  let v921 : Vec F S1x16 .f32 := (Memref.whole cc0_scratch0 : Memref sig .scVector .vmem S128x128 .f32).view.readAt (Elt F) (Rect.unit (s := S128x128) ![109, 96] S1x16.size inb_S128x128_S1x16_109_96).toLoadRect s
  let v929 : Vec F S1x16 .f32 := (Memref.whole cc0_scratch0 : Memref sig .scVector .vmem S128x128 .f32).view.readAt (Elt F) (Rect.unit (s := S128x128) ![110, 96] S1x16.size inb_S128x128_S1x16_110_96).toLoadRect s
  let v937 : Vec F S1x16 .f32 := (Memref.whole cc0_scratch0 : Memref sig .scVector .vmem S128x128 .f32).view.readAt (Elt F) (Rect.unit (s := S128x128) ![111, 96] S1x16.size inb_S128x128_S1x16_111_96).toLoadRect s
  let v945 : Vec F S1x16 .f32 := (Memref.whole cc0_scratch0 : Memref sig .scVector .vmem S128x128 .f32).view.readAt (Elt F) (Rect.unit (s := S128x128) ![112, 112] S1x16.size inb_S128x128_S1x16_112_112).toLoadRect s
  let v953 : Vec F S1x16 .f32 := (Memref.whole cc0_scratch0 : Memref sig .scVector .vmem S128x128 .f32).view.readAt (Elt F) (Rect.unit (s := S128x128) ![113, 112] S1x16.size inb_S128x128_S1x16_113_112).toLoadRect s
  ⟨k0_pay46 v33 v911 v918 v921 v929 v937 v945, k0_pay47 v33 v953⟩

noncomputable def band24 (s : Vec F S128x128 .f32) (v33 : IVec S16 32) (v951 : FVec F S16 .f32) (v958 : FVec F S16 .f32) : (Σ' (v991 : FVec F S16 .f32), FVec F S16 .f32) :=
  let v961 : Vec F S1x16 .f32 := (Memref.whole cc0_scratch0 : Memref sig .scVector .vmem S128x128 .f32).view.readAt (Elt F) (Rect.unit (s := S128x128) ![114, 112] S1x16.size inb_S128x128_S1x16_114_112).toLoadRect s
  let v969 : Vec F S1x16 .f32 := (Memref.whole cc0_scratch0 : Memref sig .scVector .vmem S128x128 .f32).view.readAt (Elt F) (Rect.unit (s := S128x128) ![115, 112] S1x16.size inb_S128x128_S1x16_115_112).toLoadRect s
  let v977 : Vec F S1x16 .f32 := (Memref.whole cc0_scratch0 : Memref sig .scVector .vmem S128x128 .f32).view.readAt (Elt F) (Rect.unit (s := S128x128) ![116, 112] S1x16.size inb_S128x128_S1x16_116_112).toLoadRect s
  let v985 : Vec F S1x16 .f32 := (Memref.whole cc0_scratch0 : Memref sig .scVector .vmem S128x128 .f32).view.readAt (Elt F) (Rect.unit (s := S128x128) ![117, 112] S1x16.size inb_S128x128_S1x16_117_112).toLoadRect s
  let v993 : Vec F S1x16 .f32 := (Memref.whole cc0_scratch0 : Memref sig .scVector .vmem S128x128 .f32).view.readAt (Elt F) (Rect.unit (s := S128x128) ![118, 112] S1x16.size inb_S128x128_S1x16_118_112).toLoadRect s
  ⟨k0_pay48 v33 v951 v958 v961 v969 v977 v985, k0_pay49 v33 v993⟩

noncomputable def band25 (s : Vec F S128x128 .f32) (v33 : IVec S16 32) (v991 : FVec F S16 .f32) (v998 : FVec F S16 .f32) : (Σ' (v1031 : FVec F S16 .f32), FVec F S16 .f32) :=
  let v1001 : Vec F S1x16 .f32 := (Memref.whole cc0_scratch0 : Memref sig .scVector .vmem S128x128 .f32).view.readAt (Elt F) (Rect.unit (s := S128x128) ![119, 112] S1x16.size inb_S128x128_S1x16_119_112).toLoadRect s
  let v1009 : Vec F S1x16 .f32 := (Memref.whole cc0_scratch0 : Memref sig .scVector .vmem S128x128 .f32).view.readAt (Elt F) (Rect.unit (s := S128x128) ![120, 112] S1x16.size inb_S128x128_S1x16_120_112).toLoadRect s
  let v1017 : Vec F S1x16 .f32 := (Memref.whole cc0_scratch0 : Memref sig .scVector .vmem S128x128 .f32).view.readAt (Elt F) (Rect.unit (s := S128x128) ![121, 112] S1x16.size inb_S128x128_S1x16_121_112).toLoadRect s
  let v1025 : Vec F S1x16 .f32 := (Memref.whole cc0_scratch0 : Memref sig .scVector .vmem S128x128 .f32).view.readAt (Elt F) (Rect.unit (s := S128x128) ![122, 112] S1x16.size inb_S128x128_S1x16_122_112).toLoadRect s
  let v1033 : Vec F S1x16 .f32 := (Memref.whole cc0_scratch0 : Memref sig .scVector .vmem S128x128 .f32).view.readAt (Elt F) (Rect.unit (s := S128x128) ![123, 112] S1x16.size inb_S128x128_S1x16_123_112).toLoadRect s
  ⟨k0_pay50 v33 v991 v998 v1001 v1009 v1017 v1025, k0_pay51 v33 v1033⟩

noncomputable def band26 (s : Vec F S128x128 .f32) (v33 : IVec S16 32) (arg8 : FVec F S16 .f32) : (Σ' (v1055 : FVec F S16 .f32) (v1058 : FVec F S16 .f32) (v1060 : IVec S16 1), FVec F S16 .f32) :=
  let r1 : Σ' (v71 : FVec F S16 .f32), FVec F S16 .f32 := band1 s v33 arg8
  let r2 : Σ' (v111 : FVec F S16 .f32), FVec F S16 .f32 := band2 s v33 r1.1 r1.2
  let r3 : Σ' (v151 : FVec F S16 .f32), FVec F S16 .f32 := band3 s v33 r2.1 r2.2
  let r4 : Σ' (v191 : FVec F S16 .f32), FVec F S16 .f32 := band4 s v33 r3.1 r3.2
  let r5 : Σ' (v231 : FVec F S16 .f32), FVec F S16 .f32 := band5 s v33 r4.1 r4.2
  let r6 : Σ' (v271 : FVec F S16 .f32), FVec F S16 .f32 := band6 s v33 r5.1 r5.2
  let r7 : Σ' (v311 : FVec F S16 .f32), FVec F S16 .f32 := band7 s v33 r6.1 r6.2
  let r8 : Σ' (v351 : FVec F S16 .f32), FVec F S16 .f32 := band8 s v33 r7.1 r7.2
  let r9 : Σ' (v391 : FVec F S16 .f32), FVec F S16 .f32 := band9 s v33 r8.1 r8.2
  let r10 : Σ' (v431 : FVec F S16 .f32), FVec F S16 .f32 := band10 s v33 r9.1 r9.2
  let r11 : Σ' (v471 : FVec F S16 .f32), FVec F S16 .f32 := band11 s v33 r10.1 r10.2
  let r12 : Σ' (v511 : FVec F S16 .f32), FVec F S16 .f32 := band12 s v33 r11.1 r11.2
  let r13 : Σ' (v551 : FVec F S16 .f32), FVec F S16 .f32 := band13 s v33 r12.1 r12.2
  let r14 : Σ' (v591 : FVec F S16 .f32), FVec F S16 .f32 := band14 s v33 r13.1 r13.2
  let r15 : Σ' (v631 : FVec F S16 .f32), FVec F S16 .f32 := band15 s v33 r14.1 r14.2
  let r16 : Σ' (v671 : FVec F S16 .f32), FVec F S16 .f32 := band16 s v33 r15.1 r15.2
  let r17 : Σ' (v711 : FVec F S16 .f32), FVec F S16 .f32 := band17 s v33 r16.1 r16.2
  let r18 : Σ' (v751 : FVec F S16 .f32), FVec F S16 .f32 := band18 s v33 r17.1 r17.2
  let r19 : Σ' (v791 : FVec F S16 .f32), FVec F S16 .f32 := band19 s v33 r18.1 r18.2
  let r20 : Σ' (v831 : FVec F S16 .f32), FVec F S16 .f32 := band20 s v33 r19.1 r19.2
  let r21 : Σ' (v871 : FVec F S16 .f32), FVec F S16 .f32 := band21 s v33 r20.1 r20.2
  let r22 : Σ' (v911 : FVec F S16 .f32), FVec F S16 .f32 := band22 s v33 r21.1 r21.2
  let r23 : Σ' (v951 : FVec F S16 .f32), FVec F S16 .f32 := band23 s v33 r22.1 r22.2
  let r24 : Σ' (v991 : FVec F S16 .f32), FVec F S16 .f32 := band24 s v33 r23.1 r23.2
  let r25 : Σ' (v1031 : FVec F S16 .f32), FVec F S16 .f32 := band25 s v33 r24.1 r24.2
  let v1041 : Vec F S1x16 .f32 := (Memref.whole cc0_scratch0 : Memref sig .scVector .vmem S128x128 .f32).view.readAt (Elt F) (Rect.unit (s := S128x128) ![124, 112] S1x16.size inb_S128x128_S1x16_124_112).toLoadRect s
  let v1049 : Vec F S1x16 .f32 := (Memref.whole cc0_scratch0 : Memref sig .scVector .vmem S128x128 .f32).view.readAt (Elt F) (Rect.unit (s := S128x128) ![125, 112] S1x16.size inb_S128x128_S1x16_125_112).toLoadRect s
  let v1057 : Vec F S1x16 .f32 := (Memref.whole cc0_scratch0 : Memref sig .scVector .vmem S128x128 .f32).view.readAt (Elt F) (Rect.unit (s := S128x128) ![126, 112] S1x16.size inb_S128x128_S1x16_126_112).toLoadRect s
  ⟨k0_pay52 v33 r25.1 r25.2 v1041 v1049, k0_pay53 v1057, k0_pay54 v33, k0_pay55 (F := F)⟩

end Cert.Kernel.Hand

end
-- ==== Proof.Bits.ScVal.lean ====
/-
  The values the SparseCore kernel computes, as pure functions of the arrays, for any float instance.
  A vector subcore walks the eight 128×128 blocks on the diagonal of its half of one head's matrix; from each
  block, staged in its scratch, it takes row j's sixteen lanes starting at column 16·⌊j/16⌋ and keeps, lane by
  lane, the running maximum of the lane j mod 16 (every other lane masked to -inf): after a block the
  accumulator's lane l is the maximum of what it was and of the block's diagonal entries (j, j) with
  j ≡ l (mod 16). `band1` … `band26` (their own module) are the block's 128 rows in the order and grouping of the
  program's text, `bandStep` one whole block, `accAt` the accumulator after k blocks, `scOut` the 32×16 result (row 2·s + c is
  subcore (c, s)'s accumulator after its eight blocks); `hostTail` is the host arithmetic after the two calls:
  the per-head maximum of the two subcores' 32 lanes, beside the off-diagonal maxima's first lane.
-/
import proofs.«210750_g14534169330353_cont_week2b_1167_29_alg».proof.Proof.Bits.ScBands
import Idealize.ShloMosaic.Lib.StableHlo.Run
import Idealize.ShloMosaic.Lib.ValueIdx

noncomputable section

namespace Cert.Kernel.Hand

open Cert.Kernel Cert.Kernel.Gen
open Idealize.ShloMosaic Idealize.SL.Sem

variable {F : FTy → Type} [FloatOps F]

/-! ## One staged block -/

/-- One whole staged block `s` folded into the accumulator `acc`. -/
noncomputable def bandStep (s : Vec F S128x128 .f32) (acc : FVec F S16 .f32) : FVec F S16 .f32 :=
  let v33 : IVec S16 32 := iota .scVector S16 32 [0] iota_S16_d0_w32_scVector
  let r : (Σ' (v1055 : FVec F S16 .f32) (v1058 : FVec F S16 .f32) (v1060 : IVec S16 1), FVec F S16 .f32) := band26 s v33 acc
  let v1065 : Vec F S1x16 .f32 := (Memref.whole cc0_scratch0 : Memref sig .scVector .vmem S128x128 .f32).view.readAt (Elt F) (Rect.unit (s := S128x128) ![127, 112] S1x16.size inb_S128x128_S1x16_127_112).toLoadRect s
  k0_pay57 r.1 r.2.1 r.2.2.1 r.2.2.2 v1065

/-! ## A subcore's eight blocks -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Block `k` of the subcore at `L`: the 128×128 square the program slices out of the 32768×2048 array. -/
abbrev bandM (L : grid0.Coords) (k : Fin k0_t1_loop.trips) : Memref sig .scVector .hbm S128x128 .f32 :=
  (Memref.whole main_v1_scv : Memref sig .scVector .hbm S32768x2048 .f32).slice (Rect.unit (s := S32768x2048) (k0_off1 L k) S128x128.size (k0_off1_inb L k)) (fun _ => rfl)

/-- The accumulator of the subcore at `L` after its first `k` blocks of `X`, from all lanes -inf. -/
noncomputable def accAt (L : grid0.Coords) (X : Vec F S32768x2048 .f32) : Nat → FVec F S16 .f32
  | 0 => k0_pay56 (F := F)
  | k + 1 => if h : k < k0_t1_loop.trips then bandStep ((bandM L ⟨k, h⟩).view.read (Elt F) X) (accAt L X k) else accAt L X k

/-- Which subcore writes row `w` of the result: SparseCore `w mod 2`, subcore `w / 2`. -/
def tileOf (w : Fin 32) : grid0.Coords :=
  coordsV ⟨w.val % 2, Nat.mod_lt _ (by decide)⟩ ⟨w.val / 2, by have := w.isLt; show w.val / 2 < 16; omega⟩

/-- The call's result: row `w` is the accumulator of its subcore after the eight blocks. -/
noncomputable def scOut (X : Vec F S32768x2048 .f32) : Vec F S32x16 .f32 :=
  fun j => k0_pay1 (accAt (tileOf (j 0)) X k0_t1_loop.trips) (ValueIdx.ix1 (n := 16) (j 1))

/-! ## The host arithmetic around the calls -/

/-- The two reshapes of the argument before the calls. -/
def opsHead : List (HloOp τ sig (Elt F)) :=
  [StableHlo.reshape main_arg0 main_v0 rfl shapeCasts_S1x16x2048x2048_S16x2048x2048,
   StableHlo.reshape main_arg0 main_v1 rfl shapeCasts_S1x16x2048x2048_S32768x2048]

/-- The seven operations after the calls. -/
def opsTail : List (HloOp τ sig (Elt F)) :=
  [StableHlo.reshape main_v2 main_v4 rfl shapeCasts_S32x16_S16x32,
   StableHlo.nullary main_cst (constant S_ .f32 0xFF800000#32),
   StableHlo.binary main_v4 main_cst main_v5 ((fun x v => Host.reduce FloatOps.maximumf x v reducesTo_S16x32_S16_d1 h_S_) : (⟨S16x32, .f32⟩ : BufTy).Contents (Elt F) → (⟨S_, .f32⟩ : BufTy).Contents (Elt F) → (⟨S16, .f32⟩ : BufTy).Contents (Elt F)),
   StableHlo.unary main_v3 main_v6 ((extractStridedSlice S16x1x1 ![0, 0, 0] · slices_S16x1x128_S16x1x1_0_0_0) : (⟨S16x1x128, .f32⟩ : BufTy).Contents (Elt F) → (⟨S16x1x1, .f32⟩ : BufTy).Contents (Elt F)),
   StableHlo.reshape main_v6 main_v7 rfl shapeCasts_S16x1x1_S16,
   StableHlo.binary main_v5 main_v7 main_v8 ((fun a b => concatenate S32 0 [⟨S16, a⟩, ⟨S16, b⟩] concatenates_S16_S16_S32_d0) : (⟨S16, .f32⟩ : BufTy).Contents (Elt F) → (⟨S16, .f32⟩ : BufTy).Contents (Elt F) → (⟨S32, .f32⟩ : BufTy).Contents (Elt F)),
   StableHlo.unary main_v8 main_v9 (broadcastInDim S1x32 ![1] bcast_S32_S1x32_1 : (⟨S32, .f32⟩ : BufTy).Contents (Elt F) → (⟨S1x32, .f32⟩ : BufTy).Contents (Elt F))]

/-- The result as a function of what the two calls leave. -/
noncomputable def hostTail (v2 : Vec F S32x16 .f32) (v3 : Vec F S16x1x128 .f32) : Vec F S1x32 .f32 :=
  broadcastInDim S1x32 ![1] bcast_S32_S1x32_1
    (concatenate S32 0 [⟨S16, Host.reduce FloatOps.maximumf (shapeCast S16x32 v2 shapeCasts_S32x16_S16x32) (constant S_ .f32 0xFF800000#32) reducesTo_S16x32_S16_d1 h_S_⟩,
      ⟨S16, shapeCast S16 (extractStridedSlice S16x1x1 ![0, 0, 0] v3 slices_S16x1x128_S16x1x1_0_0_0) shapeCasts_S16x1x1_S16⟩] concatenates_S16_S16_S32_d0)

end Cert.Kernel.Hand

end
-- ==== Proof.Bits.ScBody.lean ====
/-
  One vector subcore's task of the SparseCore kernel, at a symbolic grid point: eight times, a 128×128 block of
  the array is copied into the subcore's scratch, waited for, and folded row by row into the 16-lane accumulator;
  the accumulator is stored to the second scratch and copied out to the subcore's row of the result. Every copy
  is local and waited for before the next access to its ends, so the task needs no schedule: it reads the array
  through a read share and owns its row of the result.
-/
import proofs.«210750_g14534169330353_cont_week2b_1167_29_alg».proof.Proof.Bits.Common
import proofs.«210750_g14534169330353_cont_week2b_1167_29_alg».proof.Proof.Bits.ScVal

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "xV" => (Memref.whole Cert.Kernel.main_v1_scv : Memref Cert.Kernel.sig Kind.scVector Space.hbm Cert.Kernel.S32768x2048 EltTy.f32)
local notation "oV" => (Memref.whole Cert.Kernel.main_v2_scv : Memref Cert.Kernel.sig Kind.scVector Space.hbm Cert.Kernel.S32x16 EltTy.f32)
local notation "sB" => (Memref.whole Cert.Kernel.cc0_scratch0 : Memref Cert.Kernel.sig Kind.scVector Space.vmem Cert.Kernel.S128x128 EltTy.f32)
local notation "sA" => (Memref.whole Cert.Kernel.cc0_scratch1 : Memref Cert.Kernel.sig Kind.scVector Space.vmem Cert.Kernel.S16 EltTy.f32)

section Tile

variable (d : Dev nD) (L : grid0.Coords)

abbrev cV (L : grid0.Coords) : Fin τ.nSC := (L 0).castLE hcore0
abbrev jV (L : grid0.Coords) : Fin τ.nSub := (L 1).castLE hsub0

/-- The subcore's row of the result, as the program slices it. -/
abbrev oRowK (L : grid0.Coords) : Memref sig .scVector .hbm S16 .f32 :=
  ((oV).slice (Rect.unit (s := S32x16) (k0_off2 L) S1x16.size (k0_off2_inb L)) (fun _ => rfl)).squeeze S16 squeezes_S1x16_S16
abbrev oRowSet (L : grid0.Coords) : Finset S32x16.Idx := (oRowK L).view.set

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)

theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The array at a read share; the subcore's row of the result. -/
abbrev x1Pts (d : Dev nD) (q : PosShare TreeShare) (X1 : Buf (Elt F) (x1Loc d)) : sProp 𝕄 := x1Loc d ↦{q} X1
abbrev oRowPts (d : Dev nD) (L : grid0.Coords) (f : Buf (Elt F) (oLoc d)) : sProp 𝕄 := oLoc d ↦[oRowSet L]{fullShare} f

/-- Where the subcore's row lies: row `2·s + c`, the lanes in order. -/
theorem oRow_emb0 : ∀ (L : grid0.Coords) (x : S16.Idx), (((oRowK L).view.emb x) 0).val = 2 * (L 1).val + (L 0).val := by decide +kernel
theorem oRow_emb1 : ∀ (L : grid0.Coords) (x : S16.Idx), (((oRowK L).view.emb x) 1).val = (x 0).val := by decide +kernel

theorem tileOf_emb (L : grid0.Coords) (x : S16.Idx) : tileOf (((oRowK L).view.emb x) 0) = L := by
  funext a
  have h0 := oRow_emb0 L x
  have hc : (L 0).val < 2 := (L 0).isLt
  match a with
  | ⟨0, _⟩ => apply Fin.ext; show (((oRowK L).view.emb x) 0).val % 2 = (L 0).val; rw [h0]; omega
  | ⟨1, _⟩ => apply Fin.ext; show (((oRowK L).view.emb x) 0).val / 2 = (L 1).val; rw [h0]; omega

theorem lane_emb (L : grid0.Coords) (x : S16.Idx) : ValueIdx.ix1 (n := 16) (((oRowK L).view.emb x) 1) = x := by
  funext a; obtain rfl : a = 0 := Subsingleton.elim _ _; apply Fin.ext; exact oRow_emb1 L x

variable [FloatOps F]

/-- The loop's invariant after `k` blocks: the array's read share, the block scratch at some contents, its
    semaphore's counter at zero, the carried accumulator the fold of the first `k` blocks, and what the subcore owes. -/
def inv (X1 : Buf (Elt F) (x1Loc d)) (q : PosShare TreeShare) (O : CellTallies nD τ sig (HIx 1)) (W : Waits sig (HIx 1))
    (k : Nat) (acc : FVec F S16 .f32) : sProp 𝕄 :=
  iprop(Transfers.MayWaits (V d (cV L) (jV L)) (none : HIx 1) O
    ∗ ((xV).view.loc (V d (cV L) (jV L)) ↦{q} X1)
    ∗ (∃ f, (sB).view.loc (V d (cV L) (jV L)) ↦{fullShare} f)
    ∗ semVal (cAcell d (cV L) (jV L)) 0
    ∗ ⌜acc = accAt L X1 k⌝
    ∗ ∃ W', ⌜∀ p ∈ W', p ∈ W ∨ p.2 = none⌝ ∗ owes (V d (cV L) (jV L)) O W')

theorem tile_body (hF : (K (F := F)).Facts) (X1 : Buf (Elt F) (x1Loc d)) (O0 : Buf (Elt F) (oLoc d)) (q : PosShare TreeShare)
    (O : CellTallies nD τ sig (HIx 1)) (W : Waits sig (HIx 1)) (hO : ∀ g, O g none = 0) :
    iprop(levAts (K (F := F)).L (K (F := F)).lev ∗ emp
        ∗ (x1Pts d q X1 ∗ oRowPts d L O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_diag_body L xV (Memref.isWhole_whole _) oV (Memref.isWhole_whole _) sB (Memref.isWhole_whole _) sA (Memref.isWhole_whole _) cc0_scratch2 cc0_scoped0)
          fun _ => iprop((x1Pts d q X1 ∗ oRowPts d L (scOut (F := F) X1))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_diag_body_eq_skeleton]; unfold cc0__sc_diag_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fb, Hsb⟩, ⟨%fa, Hsa⟩, Hbufs⟩, ⟨HsemA, HsemB, Hsems⟩, HO⟩
  ihave Hmw := ((K (F := F)).mayWaits_none (thr := V d (cV L) (jV L)) hO) $$ Hlv
  ihave Hx' := (Entails.of_eq (show ((xV).view.loc (V d (cV L) (jV L)) ↦{q} X1 : sProp 𝕄) = (x1Loc d ↦{q} X1) from by simp only [Memref.view_whole, View.set_whole]).symm) $$ Hx
  ihave Hsb' := (Entails.of_eq (show ((sB).view.loc (V d (cV L) (jV L)) ↦{fullShare} fb : sProp 𝕄) = ((V d (cV L) (jV L)).loc cc0_scratch0 ↦{fullShare} fb) from rfl).symm) $$ Hsb
  ihave Hsa' := (Entails.of_eq (show ((sA).view.loc (V d (cV L) (jV L)) ↦{fullShare} fa : sProp 𝕄) = ((V d (cV L) (jV L)).loc cc0_scratch1 ↦{fullShare} fa) from rfl).symm) $$ Hsa
  ihave Ho' := (Entails.of_eq (show ((oRowK L).view.loc (V d (cV L) (jV L)) ↦[(oRowK L).view.set]{fullShare} O0 : sProp 𝕄) = oRowPts d L O0 from rfl).symm) $$ Ho
  sl_exec_parts
  sl_for (inv d L X1 q O W) $$ [Hmw Hx' Hsb' HsemA HO Ho' Hsa' HsemB Hbufs Hsems]
  case region =>
    intro k acc
    unfold inv
    iintro ⟨Hmw, Hx, ⟨%f, Hsb⟩, Hsem, %hacc, %W', %hW', HO⟩
    sl_exec_parts
    have hstep : k0_pay57 (tile_body.sl.r_50 d L X1 k acc f) (tile_body.sl.r_51 d L X1 k f) (k0_pay54 tile_body.sl.v33) k0_pay55
        (tile_body.sl.v1065 d L X1 k f) = accAt L X1 (↑k + 1) := by
      have e1 : accAt L X1 (↑k + 1) = bandStep ((bandM L k).view.read (Elt F) X1) (accAt L X1 ↑k) := by
        rw [accAt, dif_pos k.isLt]
      have hw : (sB).view.write (Elt F) f (tile_body.sl.dma0 d L X1 k) Finset.univ = (bandM L k).view.read (Elt F) X1 :=
        View.write_whole_univ _ _ _
      have e2 : k0_pay57 (tile_body.sl.r_50 d L X1 k acc f) (tile_body.sl.r_51 d L X1 k f) (k0_pay54 tile_body.sl.v33) k0_pay55
          (tile_body.sl.v1065 d L X1 k f) = bandStep ((sB).view.write (Elt F) f (tile_body.sl.dma0 d L X1 k) Finset.univ) acc := rfl
      rw [e2, hw, e1, hacc]
    sl_step
    isplitl [Hmw]; · iexact Hmw
    isplitl [Hx]; · iexact Hx
    isplitl [Hsb]; · iexists _; iexact Hsb
    isplitl [Hsem]; · iexact Hsem
    isplitr; · ipureintro; exact hstep
    iexists (insert (SemLoc.dma cc0_scratch2.sem, (default : HIx 1)) W'); isplitr
    · ipureintro; intro p hp
      rcases Finset.mem_insert.mp hp with hp | hp
      · exact .inr (hp ▸ rfl)
      · exact hW' p hp
    · iexact HO
  isplitl [Hmw Hx' Hsb' HsemA HO]
  · unfold inv
    isplitl [Hmw]; · iexact Hmw
    isplitl [Hx']; · iexact Hx'
    isplitl [Hsb']; · iexists _; iexact Hsb'
    isplitl [HsemA]; · iexact HsemA
    isplitr; · ipureintro; rfl
    iexists W; isplitr
    · ipureintro; exact fun p hp => .inl hp
    · iexact HO
  iintro %acc HI
  unfold inv
  icases HI with ⟨-, Hx, ⟨%f, Hsb⟩, Hsem, %hacc, %W', %hW', HO⟩
  sl_exec
  sl_step
  have hval : ∀ i ∈ (oRowK L).view.set, scOut (F := F) X1 i = (oRowK L).view.writes (Elt F) O0 [⟨Rect.whole S16, tile_body.sl.dma2 d L fa acc⟩] i := by
    intro i hi
    obtain ⟨x, -, rfl⟩ := Finset.mem_map.mp hi
    rw [View.writes_singleton]
    have he : ((oRowK L).view.slice (Rect.whole S16)).emb x = (oRowK L).view.emb x := by
      show (oRowK L).view.emb ((Rect.whole S16).emb x) = _
      rw [Rect.emb_whole_apply S16 x]
    have hw := View.write_emb_of_mem (v := (oRowK L).view.slice (Rect.whole S16)) O0 (tile_body.sl.dma2 d L fa acc) (Finset.mem_univ x)
    rw [he] at hw
    rw [hw]
    show k0_pay1 (accAt (tileOf (((oRowK L).view.emb x) 0)) X1 k0_t1_loop.trips) (ValueIdx.ix1 (n := 16) (((oRowK L).view.emb x) 1)) = _
    rw [tileOf_emb, lane_emb, hacc]
    have hrd : ∀ A : FVec F S16 .f32, tile_body.sl.dma2 d L fa A x = k0_pay1 A x := by
      intro A
      have hx : (Rect.unit (s := S16) ![0] S16.size inb_S16_S16_0).emb x = x := by
        funext a; apply Fin.ext; obtain rfl : a = 0 := Subsingleton.elim _ _; show 0 + 1 * (x 0).val = (x 0).val; omega
      have h := View.read_writes_cons_emb (sA).view fa (Rect.unit (s := S16) ![0] S16.size inb_S16_S16_0) (k0_pay1 A) [] x
      rw [hx] at h
      exact h
    rw [hrd]
    exact (cast_eq _ _).symm
  isplitl [Hx Ho']
  · isplitl [Hx]
    · iapply (Entails.of_eq (show ((xV).view.loc (V d (cV L) (jV L)) ↦{q} X1 : sProp 𝕄) = (x1Loc d ↦{q} X1) from by simp only [Memref.view_whole, View.set_whole])); iexact Hx
    · unfold oRowPts
      rw [show (oLoc d ↦[oRowSet L]{fullShare} scOut (F := F) X1 : sProp 𝕄)
          = ((oRowK L).view.loc (V d (cV L) (jV L)) ↦[(oRowK L).view.set]{fullShare} (oRowK L).view.writes (Elt F) O0 [⟨Rect.whole S16, tile_body.sl.dma2 d L fa acc⟩])
          from pointsTo_congr hval]
      iexact Ho'
  isplitl [Hsb Hsa' Hbufs]
  · isplitl [Hsb]; · iexists _; iexact Hsb
    isplitl [Hsa']; · iexists _; iexact Hsa'
    iexact Hbufs
  isplitl [Hsem HsemB Hsems]
  · isplitl [Hsem]; · iexact Hsem
    isplitl [HsemB]; · iexact HsemB
    iexact Hsems
  iexists (insert (SemLoc.dma cc0_scoped0.sem, (default : HIx 1)) W'); isplitr
  · ipureintro; intro p hp
    rcases Finset.mem_insert.mp hp with hp | hp
    · exact .inr (hp ▸ rfl)
    · exact hW' p hp
  · iexact HO

end Tile

end Cert.Kernel.Hand

end
-- ==== Proof.Bits.ScRows.lean ====
/-
  The SparseCore call's launch data: what the call hands each SparseCore and each vector subcore — a read share
  of the 32768×2048 array and the subcore's own row of the 32×16 result — and takes back with the row at the
  subcore's accumulator; the rows of the result tile it (row 2·s + c belongs to subcore (c, s)), so the 32 tasks'
  rows join to the whole result at one function of the array.
-/
import proofs.«210750_g14534169330353_cont_week2b_1167_29_alg».proof.Proof.Bits.ScBody

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The rows of the result -/

/-- The grid point of SparseCore `c`, subcore `i`. -/
def Lof (c : Fin 2) (i : Fin 16) : grid0.Coords := coordsV ⟨c.val, c.isLt⟩ ⟨i.val, i.isLt⟩

/-- An element lies in subcore `L`'s row exactly when its row number is `2·s + c`. -/
theorem mem_oRowSet (L : grid0.Coords) (j : S32x16.Idx) : j ∈ oRowSet L ↔ (j 0).val = 2 * (L 1).val + (L 0).val := by
  constructor
  · intro h
    obtain ⟨x, -, rfl⟩ := Finset.mem_map.mp h
    exact oRow_emb0 L x
  · intro h
    have hj : (oRowK L).view.emb (ValueIdx.ix1 (n := 16) (j 1)) = j := by
      funext a
      match a with
      | ⟨0, _⟩ => exact Fin.ext ((oRow_emb0 L _).trans h.symm)
      | ⟨1, _⟩ => exact Fin.ext ((oRow_emb1 L _).trans rfl)
    rw [← hj]; exact View.emb_mem_set _ _

theorem oRows_disjoint : ∀ p ∈ (Finset.univ : Finset (Fin 2 × Fin 16)), ∀ p' ∈ (Finset.univ : Finset (Fin 2 × Fin 16)), p ≠ p' →
    Disjoint (oRowSet (Lof p.1 p.2)) (oRowSet (Lof p'.1 p'.2)) := by
  intro p _ p' _ hne
  refine Finset.disjoint_left.mpr fun j h1 h2 => hne ?_
  have e1 := (mem_oRowSet _ j).mp h1
  have e2 := (mem_oRowSet _ j).mp h2
  have a1 : ((Lof p.1 p.2) 1).val = p.2.val := rfl
  have a0 : ((Lof p.1 p.2) 0).val = p.1.val := rfl
  have b1 : ((Lof p'.1 p'.2) 1).val = p'.2.val := rfl
  have b0 : ((Lof p'.1 p'.2) 0).val = p'.1.val := rfl
  rw [a1, a0] at e1; rw [b1, b0] at e2
  have h1' := p.1.isLt; have h2' := p'.1.isLt
  exact Prod.ext (Fin.ext (by omega)) (Fin.ext (by omega))

theorem oRows_cover : (Finset.univ : Finset (Fin 2 × Fin 16)).biUnion (fun p => oRowSet (Lof p.1 p.2)) = Finset.univ := by
  refine Finset.eq_univ_iff_forall.mpr fun j => Finset.mem_biUnion.mpr ?_
  have hj : (j 0).val < 32 := (j 0).isLt
  refine ⟨(⟨(j 0).val % 2, Nat.mod_lt _ (by decide)⟩, ⟨(j 0).val / 2, by omega⟩), Finset.mem_univ _, (mem_oRowSet _ j).mpr ?_⟩
  show (j 0).val = 2 * ((j 0).val / 2) + (j 0).val % 2
  omega

/-- The whole result is its 32 rows, subcore by subcore. -/
theorem oPts_rows (d : Dev nD) (f : Buf (Elt F) (oLoc d)) :
    (oLoc d ↦{fullShare} f : sProp 𝕄) = bigSep Finset.univ fun c : Fin 2 => bigSep Finset.univ fun i : Fin 16 => oRowPts d (Lof c i) f := by
  rw [← SparseCore.bigSep_product (Finset.univ : Finset (Fin 2)) (Finset.univ : Finset (Fin 16)) (fun p => oRowPts d (Lof p.1 p.2) f), Finset.univ_product_univ]
  unfold oRowPts
  rw [← pointsTo_biUnion Finset.univ (ℓ := oLoc d) (fun p : Fin 2 × Fin 16 => oRowSet (Lof p.1 p.2)) oRows_disjoint, oRows_cover]; try rfl

/-! ## The read shares of the array -/

abbrev qC (c : Fin 2) : PosShare TreeShare := Transfers.shareTok fullShare 2 c
abbrev qD (c : Fin 2) : PosShare TreeShare := Transfers.shareDrop (qC c) 16
abbrev qT (c : Fin 2) (i : Fin 16) : PosShare TreeShare := Transfers.shareTok (qC c) 16 i

/-- The array whole is a remainder and, per SparseCore, a remainder and a read share per subcore. -/
theorem x1_split (d : Dev nD) (f : Buf (Elt F) (x1Loc d)) :
    (x1Loc d ↦{fullShare} f : sProp 𝕄) ⊢ iprop((x1Loc d ↦{Transfers.shareDrop fullShare 2} f)
      ∗ bigSep Finset.univ fun c : Fin 2 => iprop(x1Pts d (qD c) f ∗ bigSep Finset.univ fun i : Fin 16 => x1Pts d (qT c i) f)) := by
  refine (Transfers.pointsTo_toks_split (ℓ := x1Loc d) (S := Finset.univ) (f := f) fullShare 2).trans ?_
  refine BI.sep_mono (BI.Entails.refl _) ?_
  exact bigSep_mono fun c _ => Transfers.pointsTo_toks_split (ℓ := x1Loc d) (S := Finset.univ) (f := f) (qC c) 16

theorem x1_join (d : Dev nD) (f : Buf (Elt F) (x1Loc d)) :
    iprop((x1Loc d ↦{Transfers.shareDrop fullShare 2} f)
      ∗ bigSep Finset.univ fun c : Fin 2 => iprop(x1Pts d (qD c) f ∗ bigSep Finset.univ fun i : Fin 16 => x1Pts d (qT c i) f))
      ⊢ (x1Loc d ↦{fullShare} f : sProp 𝕄) := by
  refine BI.Entails.trans ?_ (Transfers.pointsTo_toks_join (ℓ := x1Loc d) (S := Finset.univ) (f := f) fullShare 2)
  refine BI.sep_mono (BI.Entails.refl _) ?_
  exact bigSep_mono fun c _ => Transfers.pointsTo_toks_join (ℓ := x1Loc d) (S := Finset.univ) (f := f) (qC c) 16

end Cert.Kernel.Hand

end
-- ==== Proof.Bits.ScLaunch.lean ====
/-
  The SparseCore call as the launch theorem takes it: the payloads of its handshakes (what a SparseCore and a
  vector subcore are handed and hand back), each subcore's task discharged by the body's proof at its grid
  point, and the split of a SparseCore's share among its sixteen subcores, which is by definition.
-/
import proofs.«210750_g14534169330353_cont_week2b_1167_29_alg».proof.Proof.Bits.ScRows

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arrays' contents along @main -/

abbrev arg' : DevRef τ sig := Proc.devRef .tc (main_arg0 : Ref sig .tc)
abbrev x0' : DevRef τ sig := Proc.devRef .tc (main_v0 : Ref sig .tc)
abbrev x1' : DevRef τ sig := Proc.devRef .tc (main_v1 : Ref sig .tc)
abbrev o' : DevRef τ sig := Proc.devRef .tc (main_v2 : Ref sig .tc)
abbrev off' : DevRef τ sig := Proc.devRef .tc (main_v3 : Ref sig .tc)
abbrev res' : DevRef τ sig := Proc.devRef .tc (main_v9 : Ref sig .tc)

/-- The launch contents, and the contents after the two reshapes. -/
def V0 (d : Dev nD) : Valuation τ sig (Elt F) := fun b => m (d, b)
def V1 (d : Dev nD) : Valuation τ sig (Elt F) := StableHlo.after (opsHead (F := F)) (V0 m d)
/-- The two reshapes of the argument the calls read. -/
def X0 (d : Dev nD) : Buf (Elt F) (x0Loc d) := V1 m d x0'
def X1 (d : Dev nD) : Buf (Elt F) (x1Loc d) := V1 m d x1'

/-! ## What the handshakes carry -/

def goF (d : Dev nD) (c : Fin 2) (i : Fin 16) : sProp 𝕄 := iprop(x1Pts d (qT c i) (X1 m d) ∗ oRowPts d (Lof c i) (m (oLoc d)))
def tdF (d : Dev nD) (c : Fin 2) (i : Fin 16) : sProp 𝕄 := iprop(x1Pts d (qT c i) (X1 m d) ∗ oRowPts d (Lof c i) (scOut (F := F) (X1 m d)))

/-- The call hands SparseCore `c` the remainder of its read share and its sixteen subcores' shares and rows, and
    takes them back with the rows at the result. -/
def P : (K (F := F)).Pay (nD := nD) (Val := Elt F) (Name := ℕ) (U := UU) where
  st := fun q d c => match q with
    | 0 => iprop(x1Pts d (qD (Fin.cast nCore_zero c)) (X1 m d) ∗ bigSep Finset.univ fun i : Fin 16 => goF m d (Fin.cast nCore_zero c) i)
  dn := fun q d c => match q with
    | 0 => iprop(x1Pts d (qD (Fin.cast nCore_zero c)) (X1 m d) ∗ bigSep Finset.univ fun i : Fin 16 => tdF m d (Fin.cast nCore_zero c) i)
  go := fun q d c i => match q with
    | 0 => goF m d (Fin.cast nCore_zero c) (Fin.cast nSub_zero i)
  td := fun q d c i => match q with
    | 0 => tdF m d (Fin.cast nCore_zero c) (Fin.cast nSub_zero i)
  x := fun _ _ => iprop(emp)

instance P_storable : (P (F := F) m).IsStorable where
  st q d c := match q with
    | 0 => by unfold P goF; dsimp only; infer_instance
  dn q d c := match q with
    | 0 => by unfold P tdF; dsimp only; infer_instance
  go q d c i := match q with
    | 0 => by unfold P goF; dsimp only; infer_instance
  td q d c i := match q with
    | 0 => by unfold P tdF; dsimp only; infer_instance

/-! ## The launch theorem's obligations -/

theorem defs₀_vector (c : Fin τ.nSC) (s : Fin τ.nSub) :
    defs₀ (F := F) (.scVector c s) 0 ()
      = SparseCore.onTile hcore0 hsub0 (fun c s => cc0__sc_diag_body (coordsV c s)
          (Memref.whole main_v1_scv) (Memref.isWhole_whole _) (Memref.whole main_v2_scv) (Memref.isWhole_whole _)
          (Memref.whole cc0_scratch0) (Memref.isWhole_whole _) (Memref.whole cc0_scratch1) (Memref.isWhole_whole _) cc0_scratch2 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (X1 m d) (m (oLoc d)) (qT (Fin.cast nCore_zero c) (Fin.cast nSub_zero i)) O W hO).trans
    (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(x1Pts d (qD (Fin.cast nCore_zero c)) (X1 m d) ∗ bigSep Finset.univ fun i : Fin 16 => goF m d (Fin.cast nCore_zero c) i) ⊢ |={Set.univ}=> iprop(
      (bigSep Finset.univ fun i : Fin ((K (F := F)).nSub 0) => goF m d (Fin.cast nCore_zero c) (Fin.cast nSub_zero i))
      ∗ ((bigSep Finset.univ fun i : Fin ((K (F := F)).nSub 0) => tdF m d (Fin.cast nCore_zero c) (Fin.cast nSub_zero i))
          -∗ iprop(x1Pts d (qD (Fin.cast nCore_zero c)) (X1 m d) ∗ bigSep Finset.univ fun i : Fin 16 => tdF m d (Fin.cast nCore_zero c) i)))
  rw [bigSep_tasks (F := F) (fun i => goF m d (Fin.cast nCore_zero c) i), bigSep_tasks (F := F) (fun i => tdF m d (Fin.cast nCore_zero c) i)]
  iintro ⟨Hd, Hgo⟩; imodintro
  isplitl [Hgo]; · iexact Hgo
  iintro Htd
  isplitl [Hd]; · iexact Hd
  iexact Htd

end Cert.Kernel.Hand

end
-- ==== Proof.Bits.TcVal.lean ====
/-
  The value the TensorCore kernel's body leaves in its result's staging buffer at one grid point, as a function
  of the input block it reads and of what the buffer held before, written over the payloads of the body's
  skeleton; and the whole result array these point values add up to: per head, the second point's value over
  the first point's.
-/
import proofs.«210750_g14534169330353_cont_week2b_1167_29_alg».proof.Proof.Gen.Kernel.Skeleton

noncomputable section

namespace Cert.Kernel.Hand

open Cert.Kernel Cert.Kernel.Gen
open Idealize.ShloMosaic

variable {F : FTy → Type} [FloatOps F]

/-- The grid has 32 points. -/
theorem tcN : cfg1.N = 32 := by decide

/-- The grid point number `n`. -/
def tcPt (n : ℕ) (hn : n < 32) : Fin cfg1.N := ⟨n, tcN ▸ hn⟩

/-- What the body stores into the result's staging buffer at point `t`: from the input block `blk` the maximum
    over the stripe off its diagonal and over the columns outside the stripe, joined with the buffer's contents,
    which at the first point of a head (second coordinate zero) the body has just reset to minus infinity and
    otherwise are what the buffer held before, `prev`. -/
def tcPoint (t : Fin cfg1.N) (blk : Vec F S1x1024x2048 .f32) (prev : Vec F S1x1x128 .f32) : Vec F S1x1x128 .f32 :=
  k1_pay2 (BitVec.ofNat 32 ((grid1.coords t) 1).val)
    (k1_pay3 (fun x => blk ((Rect.unit (s := S1x1024x2048) (k1_off1 (grid1.coords t)) S1x1024x1024.size (k1_off1_inb (grid1.coords t))).toLoadRect.idx x)))
    (k1_pay4 (fun x => blk ((Rect.unit (s := S1x1024x2048) ![0, 0, 0] S1x1024x2048.size inb_S1x1024x2048_S1x1024x2048_0_0_0).toLoadRect.idx x)))
    k1_pay5
    (if ((grid1.coords t) 1).val = 0 then k1_pay1 else prev)

/-- The input block the pipeline stages at point `t`: the array read through the window's rectangle there. -/
def tcBlk (x0 : FVec F S16x2048x2048 .f32) (t : Fin cfg1.N) : Vec F S1x1024x2048 .f32 :=
  fun j => x0 ((win1_0.rect t).emb j)

/-- Lane `k` of the one row of a result block. -/
def tcLane (k : Fin 128) : S1x1x128.Idx :=
  fun | 0 => ⟨0, by decide⟩ | 1 => ⟨0, by decide⟩ | 2 => k | ⟨_ + 3, h⟩ => absurd h (Nat.not_lt.2 (Nat.le_add_left _ _))

/-- The whole result: entry `(h, 0, k)` is lane `k` of the value at point `(h, 1)` over the value at point
    `(h, 0)` (which reads nothing of what was there before: any contents do). -/
def tcOut (x0 : FVec F S16x2048x2048 .f32) : FVec F S16x1x128 .f32 := fun y =>
  tcPoint (tcPt (2 * (y 0).val + 1) (by have := (y 0).isLt; change _ < 16 at this; omega))
      (tcBlk x0 (tcPt (2 * (y 0).val + 1) (by have := (y 0).isLt; change _ < 16 at this; omega)))
      (tcPoint (tcPt (2 * (y 0).val) (by have := (y 0).isLt; change _ < 16 at this; omega))
        (tcBlk x0 (tcPt (2 * (y 0).val) (by have := (y 0).isLt; change _ < 16 at this; omega))) k1_pay1)
    (tcLane (y 2))

end Cert.Kernel.Hand

end
-- ==== Proof.Bits.TcBody.lean ====
/-
  The TensorCore kernel's body at a symbolic grid point (h, b): it loads the whole 1024×2048 input block and its
  1024×1024 diagonal stripe, takes the maximum over the columns outside the stripe of the column maxima and the
  stripe's maximum with the diagonal masked to -inf, resets the result block to -inf when b = 0, and stores the
  maximum of the result block and that value. The branch is decided by the point's second coordinate; what the
  body leaves in the result block is the pure function of TcVal.lean.
-/
import proofs.«210750_g14534169330353_cont_week2b_1167_29_alg».proof.Proof.Bits.Common
import proofs.«210750_g14534169330353_cont_week2b_1167_29_alg».proof.Proof.Bits.TcVal
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The zero offsets of a rank-three block, however spelt. -/
theorem hz3 : (![0, 0, 0] : Fin 3 → ℕ) = fun _ => 0 := by funext a; fin_cases a <;> rfl

/-- The body's reset condition: the word the `scf.if` tests, from the grid coordinates. -/
abbrev tcCond (i : grid1.Coords) : Prop :=
  (Scalar.cmpi .ne (Scalar.extui (Scalar.cmpi .eq (BitVec.ofNat 32 (i 1).val) 0#32)) 0#32) = 1#1

/-- It holds exactly at the points whose second coordinate is zero. -/
theorem tcCond_iff : ∀ i : grid1.Coords, tcCond i ↔ (i 1).val = 0 := by decide +kernel

/-- What the body stores at coordinates `i`, from the input block `x0` and the contents `prev` the accumulation
    starts from. -/
def tcStore (i : grid1.Coords) (x0 : Vec F S1x1024x2048 .f32) (prev : Vec F S1x1x128 .f32) : Vec F S1x1x128 .f32 :=
  k1_pay2 (BitVec.ofNat 32 (i 1).val)
    (k1_pay3 (fun x => x0 ((Rect.unit (s := S1x1024x2048) (k1_off1 i) S1x1024x1024.size (k1_off1_inb i)).toLoadRect.idx x)))
    (k1_pay4 (fun x => x0 ((Rect.unit (s := S1x1024x2048) ![0, 0, 0] S1x1024x2048.size inb_S1x1024x2048_S1x1024x2048_0_0_0).toLoadRect.idx x)))
    k1_pay5 prev

theorem tcPoint_eq (t : Fin cfg1.N) (blk : Vec F S1x1024x2048 .f32) (prev : Vec F S1x1x128 .f32) :
    tcPoint t blk prev = tcStore (grid1.coords t) blk (if ((grid1.coords t) 1).val = 0 then k1_pay1 else prev) := rfl

set_option maxHeartbeats 1000000 in
/-- The body at a point that resets: whatever the result's buffer held, it ends at the point's value over minus infinity. -/
theorem tcRunA (c : Dev nD) (i : grid1.Coords) (arg2 : Memref sig .tc .vmem S1x1024x2048 .f32) (harg2 : arg2.IsWhole) (arg3 : Memref sig .tc .vmem S1x1x128 .f32) (harg3 : arg3.IsWhole)
    (hc : tcCond i) (x0 : Vec F S1x1024x2048 .f32) (xo : Vec F S1x1x128 .f32) (E : Set ℕ) (K : PUnit → sProp 𝕄) :
    iprop(owns (T c) arg2 fullShare x0 ∗ owns (T c) arg3 fullShare xo
        ∗ ((owns (T c) arg2 fullShare x0 ∗ owns (T c) arg3 fullShare (tcStore i x0 k1_pay1)) -∗ K ⟨⟩))
      ⊢ wp frame (wpE (defs₀ (F := F)) 𝒱₀ (T c) none) E (cc1__tc_body i arg2 harg2 arg3 harg3) K := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  iexists _; isplitr
  swap; · iexact H1
  ipureintro
  dsimp only
  rw [View.read_writes_eq_canon _ _ _ (fun y => ⟨_, List.mem_cons_self, View.mem_set_unit_zero hz3 inb_S1x1x128_S1x1x128_0_0_0 y⟩)]
  rw [View.canon_cons_unit_zero hz3]
  sl_unfold_run_names
  rw [View.readCov_unit_zero _ hz3]
  simp only [View.readAt_eq_ld, hf0]
  rfl

set_option maxHeartbeats 1000000 in
/-- The body at a point that does not reset: the result's buffer ends at the point's value over what it held. -/
theorem tcRunB (c : Dev nD) (i : grid1.Coords) (arg2 : Memref sig .tc .vmem S1x1024x2048 .f32) (harg2 : arg2.IsWhole) (arg3 : Memref sig .tc .vmem S1x1x128 .f32) (harg3 : arg3.IsWhole)
    (hc : ¬tcCond i) (x0 : Vec F S1x1024x2048 .f32) (xo : Vec F S1x1x128 .f32) (E : Set ℕ) (K : PUnit → sProp 𝕄) :
    iprop(owns (T c) arg2 fullShare x0 ∗ owns (T c) arg3 fullShare xo
        ∗ ((owns (T c) arg2 fullShare x0 ∗ owns (T c) arg3 fullShare (tcStore i x0 xo)) -∗ K ⟨⟩))
      ⊢ wp frame (wpE (defs₀ (F := F)) 𝒱₀ (T c) none) E (cc1__tc_body i arg2 harg2 arg3 harg3) K := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, Hk⟩
  obtain rfl := harg2.eq_unread hf0; obtain rfl := harg3.eq_unread hf1
  sl_exec (disch := first | exact hc)
  sl_step
  iapply Hk
  isplitl [H0]
  · iexists _; isplitr; · ipureintro; exact harg2.read_unread _
    iexact H0
  iexists _; isplitr
  swap; · iexact H1
  ipureintro
  dsimp only
  rw [View.read_writes_eq_canon _ _ _ (fun y => ⟨_, List.mem_singleton_self _, View.mem_set_unit_zero hz3 inb_S1x1x128_S1x1x128_0_0_0 y⟩)]
  rw [View.canon_unit_zero hz3]
  simp only [View.readAt_eq_ld, hf0, hf1]
  rw [View.ld_unit_zero (S := S1x1x128) hz3]
  rfl

/-- The body at any point: from the input block and the result's buffer at any contents, to the point's value — over
    minus infinity where the body resets (second coordinate zero), over the buffer's contents elsewhere. -/
theorem tcRun (c : Dev nD) (i : grid1.Coords) (arg2 : Memref sig .tc .vmem S1x1024x2048 .f32) (harg2 : arg2.IsWhole) (arg3 : Memref sig .tc .vmem S1x1x128 .f32) (harg3 : arg3.IsWhole)
    (x0 : Vec F S1x1024x2048 .f32) (xo : Vec F S1x1x128 .f32) (E : Set ℕ) (K : PUnit → sProp 𝕄) :
    iprop(owns (T c) arg2 fullShare x0 ∗ owns (T c) arg3 fullShare xo
        ∗ ((owns (T c) arg2 fullShare x0 ∗ owns (T c) arg3 fullShare (tcStore i x0 (if (i 1).val = 0 then k1_pay1 else xo))) -∗ K ⟨⟩))
      ⊢ wp frame (wpE (defs₀ (F := F)) 𝒱₀ (T c) none) E (cc1__tc_body i arg2 harg2 arg3 harg3) K := by
  by_cases h : (i 1).val = 0
  · rw [if_pos h]; exact tcRunA c i arg2 harg2 arg3 harg3 ((tcCond_iff i).mpr h) x0 xo E K
  · rw [if_neg h]; exact tcRunB c i arg2 harg2 arg3 harg3 (fun hc => h ((tcCond_iff i).mp hc)) x0 xo E K

end Cert.Kernel.Hand

end
-- ==== Proof.Bits.TcRegion.lean ====
/-
  The TensorCore call as one region of the program: the 32 grid points in order, the input window fetched at
  every point, the result window carried over the two points of a head and written back at the second. The
  proof data names, per point, what each window's staging buffer and array hold; the body's obligation is the
  body's run at a symbolic point; the result array after the region is, head by head, the second point's value
  over the first's, because the 16 written-back blocks tile it.
-/
import proofs.«210750_g14534169330353_cont_week2b_1167_29_alg».proof.Proof.Bits.Common
import proofs.«210750_g14534169330353_cont_week2b_1167_29_alg».proof.Proof.Bits.TcVal
import proofs.«210750_g14534169330353_cont_week2b_1167_29_alg».proof.Proof.Bits.TcBody
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The proof data of the TensorCore pipeline -/

/-- The grid's second coordinate is the point's parity, its first the half. -/
theorem tc_coord1 : ∀ t : Fin cfg1.N, ((grid1.coords t) 1).val = t.val % 2 := by decide +kernel
theorem tc_coord0 : ∀ t : Fin cfg1.N, ((grid1.coords t) 0).val = t.val / 2 := by decide +kernel

/-- The input window's block at point `t`, read off the array. -/
def tcIblk (c : Dev nD) (A : Buf (Elt F) (x0Loc c)) (t : Fin cfg1.N) : ((cfg1.win 0).xblock (cfg1.grid.coords t)).Idx → Elt F (cfg1.win 0).elt :=
  ((cfg1.win 0).blk t).view.read (Elt F) A

/-- What the result's staging buffer holds after the body at point `n`: the point's value over what the point before
    left (which a resetting point does not read). -/
def tcOuts (c : Dev nD) (A : Buf (Elt F) (x0Loc c)) : (n : ℕ) → n < cfg1.N → Vec F S1x1x128 .f32
  | 0, hn => tcPoint ⟨0, hn⟩ (tcIblk c A ⟨0, hn⟩) k1_pay1
  | n + 1, hn => tcPoint ⟨n + 1, hn⟩ (tcIblk c A ⟨n + 1, hn⟩) (tcOuts c A n (Nat.lt_of_succ_lt hn))

/-- At every point: the stored value, over minus infinity at a resetting point and over the point before's elsewhere. -/
theorem tcOuts_eq (c : Dev nD) (A : Buf (Elt F) (x0Loc c)) (t : Fin cfg1.N) :
    tcOuts c A t.val t.isLt = tcStore (grid1.coords t) (tcIblk c A t)
      (if ((grid1.coords t) 1).val = 0 then k1_pay1 else tcOuts c A (t.val - 1) (Nat.lt_of_le_of_lt (Nat.sub_le _ _) t.isLt)) := by
  obtain ⟨n, hn⟩ := t
  cases n with
  | zero =>
    have h0 : ((grid1.coords ⟨0, hn⟩) 1).val = 0 := (tc_coord1 ⟨0, hn⟩).trans rfl
    show tcPoint ⟨0, hn⟩ (tcIblk c A ⟨0, hn⟩) k1_pay1 = _
    rw [tcPoint_eq, if_pos h0, if_pos h0]
  | succ n => rfl

/-- The result array as a buffer's contents. -/
def tcOutBuf (c : Dev nD) (A : Buf (Elt F) (x0Loc c)) : Buf (Elt F) (offLoc c) := tcOut (F := F) A

section Data

variable (A : (c : Dev nD) → Buf (Elt F) (x0Loc c)) (f : (c : Dev nD) → Buf (Elt F) (offLoc c))
  (O : CellTallies nD τ sig (HIx 1)) (W : Finset (SemLoc sig × HIx 1))

/-- The proof data on core `c`: the input array at `A c`, the result array at `f c`; after the body the input's buffer at
    its block and the result's at `tcOuts`; no invariant of the body's own; the core owing `O` throughout, its recorded
    waits within `W` and the pipeline's own. -/
def tcDat (_ : Fin 1) (c : Dev nD) : Dat τ (Elt F) (HIx 1) ℕ UU ℕ cfg1 c where
  A w := match w with
    | ⟨0, _⟩ => A c
    | ⟨1, _⟩ => f c
  after w t := match w with
    | ⟨0, _⟩ => tcIblk c (A c) t
    | ⟨1, _⟩ => tcOuts c (A c) t.val t.isLt
  Φ _ := BI.emp
  q _ := fullShare
  owed _ := O
  recorded _ := (↑W : Set (SemLoc sig × HIx 1))

theorem tcDat_A0 (c : Dev nD) : (tcDat A f O W 0 c).A 0 = A c := by dsimp only [tcDat]
theorem tcDat_A1 (c : Dev nD) : (tcDat A f O W 0 c).A 1 = f c := by dsimp only [tcDat]
theorem tcDat_after0 (c : Dev nD) (t : Fin cfg1.N) : (tcDat A f O W 0 c).after 0 t = tcIblk c (A c) t := by dsimp only [tcDat]
theorem tcDat_after1 (c : Dev nD) (t : Fin cfg1.N) : (tcDat A f O W 0 c).after 1 t = tcOuts c (A c) t.val t.isLt := by dsimp only [tcDat]

/-- The input's current staging buffer holds its block at every point. -/
theorem tc_before0 (c : Dev nD) (t : Fin cfg1.N) (d) : (tcDat A f O W 0 c).before 0 t d = tcIblk c (A c) t :=
  ((tcDat A f O W 0 c).before_in_eq_fetched 0 rfl (fun _ => rfl) (fun _ _ _ => rfl)
    (fun t => by rw [tcDat_after0]; unfold Dat.blockOf tcIblk; rw [tcDat_A0]; try rfl) t d).trans
    (by unfold Dat.fetched Dat.blockOf tcIblk; rw [tcDat_A0]; try rfl)

/-- At a point that does not reset, the result's current staging buffer holds what the point before left. -/
theorem tc_before1 (c : Dev nD) (t : Fin cfg1.N) (h : ¬((grid1.coords t) 1).val = 0) (d) :
    (tcDat A f O W 0 c).before 1 t d = tcOuts c (A c) (t.val - 1) (Nat.lt_of_le_of_lt (Nat.sub_le _ _) t.isLt) := by
  rw [tc_coord1] at h
  have hN : t.val < 32 := lt_of_lt_of_eq t.isLt tcN
  rw [Dat.before_out_kept _ 1 rfl t (by omega) (Bool.eq_false_iff.mpr fun hf => by have := (flush1_1 _).mp hf; dsimp only at this; omega)
    (fun _ => rfl) (fun _ _ => rfl)]
  dsimp only [tcDat]

/-- What the body is called with at point `t`, -/
def tcBodyPre (c : Dev nD) (t : Fin cfg1.N) : sProp 𝕄 :=
  iprop((tcDat A f O W 0 c).Φ t.castSucc ∗ (tcDat A f O W 0 c).owesAt none t.castSucc
    ∗ (∃ d, owns (c : Thread nD τ) (win1_0.stage (cfg1.slots t 0)) fullShare ((tcDat A f O W 0 c).before 0 t d))
    ∗ (∃ d, owns (c : Thread nD τ) (win1_1.stage (cfg1.slots t 1)) fullShare ((tcDat A f O W 0 c).before 1 t d)))

/-- and what it returns. -/
def tcBodyPost (c : Dev nD) (t : Fin cfg1.N) : sProp 𝕄 :=
  iprop((tcDat A f O W 0 c).Φ t.succ ∗ (tcDat A f O W 0 c).owesAt none t.succ
    ∗ owns (c : Thread nD τ) (win1_0.stage (cfg1.slots t 0)) fullShare ((tcDat A f O W 0 c).after 0 t)
    ∗ owns (c : Thread nD τ) (win1_1.stage (cfg1.slots t 1)) fullShare ((tcDat A f O W 0 c).after 1 t))

set_option maxHeartbeats 800000 in
/-- The body at any point: the input's buffer holds its block, the result's either is reset or holds what the point
    before left; the run applies; the core's debts pass through untouched. -/
theorem tc_sound_body (c : Dev nD) (t : Fin cfg1.N) :
    tcBodyPre A f O W c t ⊢ wp frame (wpE (defs₀ (F := F)) 𝒱₀ c none) Set.univ (bodyAt1 t) (fun _ => tcBodyPost A f O W c t) := by
  have hE : ∀ d1, tcStore (grid1.coords t) (tcIblk c (A c) t)
      (if ((grid1.coords t) 1).val = 0 then k1_pay1 else (tcDat A f O W 0 c).before 1 t d1) = tcOuts c (A c) t.val t.isLt := by
    intro d1
    rw [tcOuts_eq]
    by_cases h : ((grid1.coords t) 1).val = 0
    · rw [if_pos h, if_pos h]
    · rw [if_neg h, if_neg h, tc_before1 A f O W c t h]
  unfold tcBodyPre tcBodyPost bodyAt1
  simp only [tc_before0]
  rw [show (tcDat A f O W 0 c).Φ t.succ = (tcDat A f O W 0 c).Φ t.castSucc from rfl,
    show (tcDat A f O W 0 c).owesAt none t.succ = (tcDat A f O W 0 c).owesAt none t.castSucc from rfl,
    tcDat_after0, tcDat_after1]
  iintro ⟨HΦ, Ho, ⟨%d0, H0⟩, ⟨%d1, H1⟩⟩
  iapply (tcRun c (grid1.coords t) _ _ _ _ (tcIblk c (A c) t) ((tcDat A f O W 0 c).before 1 t d1) Set.univ _)
  isplitl [H0]; · iexact H0
  isplitl [H1]; · iexact H1
  iintro ⟨H0, H1⟩
  rw [hE d1]
  isplitl [HΦ]; · iexact HΦ
  isplitl [Ho]; · iexact Ho
  isplitl [H0]; · iexact H0
  iexact H1

/-- The library's body obligation, at every point. -/
theorem tc_body_obligation (c : Dev nD) : BodyObligation (tcDat (F := F) A f O W 0 c) (defs₀ (F := F)) 𝒱₀ none Set.univ := fun t => by
  rw [bigSep_W1, bigSep_W1]
  exact tc_sound_body A f O W c t

end Data

/-! ## The result array after the last write-back -/

/-- A resetting point's value does not depend on what the buffer held. -/
theorem tcPoint_reset (t : Fin cfg1.N) (h : ((grid1.coords t) 1).val = 0) (blk : Vec F S1x1024x2048 .f32) (p p' : Vec F S1x1x128 .f32) :
    tcPoint t blk p = tcPoint t blk p' := by
  rw [tcPoint_eq, tcPoint_eq, if_pos h, if_pos h]

/-- The block the pipeline stages is the array read through the window's rectangle. -/
theorem tcIblk_eq (c : Dev nD) (A : Buf (Elt F) (x0Loc c)) (t : Fin cfg1.N) : tcIblk c A t = tcBlk (F := F) A t := by
  rfl

/-- An entry of the result in terms of the two points of its head. -/
theorem tcOut_apply (x0 : FVec F S16x2048x2048 .f32) (y : S16x1x128.Idx) (t1 t0 : Fin cfg1.N)
    (h1 : t1.val = 2 * (y 0).val + 1) (h0 : t0.val = 2 * (y 0).val) :
    tcOut x0 y = tcPoint t1 (tcBlk x0 t1) (tcPoint t0 (tcBlk x0 t0) k1_pay1) (tcLane (y 2)) := by
  obtain ⟨n1, hn1⟩ := t1
  obtain ⟨n0, hn0⟩ := t0
  simp only at h1 h0
  subst h1 h0
  rfl

/-- After an even point the result's buffer holds that point's value over minus infinity; -/
theorem tcOuts_even (c : Dev nD) (A : Buf (Elt F) (x0Loc c)) (n : ℕ) (hn : n < cfg1.N) (he : n % 2 = 0) :
    tcOuts c A n hn = tcPoint ⟨n, hn⟩ (tcIblk c A ⟨n, hn⟩) k1_pay1 := by
  cases n with
  | zero => rfl
  | succ m => exact tcPoint_reset ⟨m + 1, hn⟩ ((tc_coord1 ⟨m + 1, hn⟩).trans he) _ _ _

/-- after the odd point that follows, that point's value over it. -/
theorem tcOuts_odd (c : Dev nD) (A : Buf (Elt F) (x0Loc c)) (n : ℕ) (hn : n + 1 < cfg1.N) (he : n % 2 = 0) :
    tcOuts c A (n + 1) hn = tcPoint ⟨n + 1, hn⟩ (tcIblk c A ⟨n + 1, hn⟩)
      (tcPoint ⟨n, Nat.lt_of_succ_lt hn⟩ (tcIblk c A ⟨n, Nat.lt_of_succ_lt hn⟩) k1_pay1) := by
  show tcPoint _ _ (tcOuts c A n _) = _
  rw [tcOuts_even c A n _ he]

/-- The result window's block index at a point: the head, and the one row and one stripe of lanes. -/
theorem tc_idx1 : ∀ t : Fin cfg1.N, win1_1.index t (0 : Fin 3) = t.val / 2 ∧ win1_1.index t (1 : Fin 3) = 0 ∧ win1_1.index t (2 : Fin 3) = 0 :=
  (by decide +kernel : ∀ t : Fin grid1.N, _)

section Final

variable (A : (c : Dev nD) → Buf (Elt F) (x0Loc c)) (f : (c : Dev nD) → Buf (Elt F) (offLoc c))
  (O : CellTallies nD τ sig (HIx 1)) (W : Finset (SemLoc sig × HIx 1))

/-- What a point that writes back writes is its block of the result array. -/
theorem tc_flushed (c : Dev nD) (t : Fin cfg1.N) (hf : (cfg1.win 1).flush t = true) :
    (tcDat A f O W 0 c).flushed 1 t = ((cfg1.win 1).blk t).view.read (Elt F) (tcOutBuf c (A c)) := by
  have ht : t.val % 2 = 1 := (flush1_1 t).mp hf
  obtain ⟨n', hn'⟩ := t
  obtain ⟨n, rfl⟩ : ∃ n, n' = n + 1 := ⟨n' - 1, by dsimp only at ht; omega⟩
  have he : n % 2 = 0 := by dsimp only at ht; omega
  obtain ⟨e0, e1, e2⟩ := tc_idx1 ⟨n + 1, hn'⟩
  show (cfg1.win 1).cut (grid1.coords ⟨n + 1, hn'⟩) ((tcDat A f O W 0 c).after 1 ⟨n + 1, hn'⟩) = _
  rw [tcDat_after1]
  funext j
  show tcOuts c (A c) (n + 1) hn' ((cfg1.win 1).xinj (grid1.coords ⟨n + 1, hn'⟩) j)
    = tcOut (F := F) (A c) (((cfg1.win 1).blk ⟨n + 1, hn'⟩).view.emb j)
  have hj0 : (j 0).val < 1 := (j 0).isLt
  have hj1 : (j 1).val < 1 := (j 1).isLt
  have hy0 : ((((cfg1.win 1).blk ⟨n + 1, hn'⟩).view.emb j) 0).val = (n + 1) / 2 := by
    show win1_1.index ⟨n + 1, hn'⟩ (0 : Fin 3) * 1 + 1 * (j 0).val = _
    rw [e0]; dsimp only; omega
  rw [tcOut_apply (A c) _ ⟨n + 1, hn'⟩ ⟨n, Nat.lt_of_succ_lt hn'⟩ (by rw [hy0]; dsimp only; omega) (by rw [hy0]; dsimp only; omega),
    tcOuts_odd c (A c) n hn' he]
  refine congrArg _ ?_
  funext a; apply Fin.ext
  match a with
  | ⟨0, _⟩ => show (j 0).val = 0; omega
  | ⟨1, _⟩ => show (j 1).val = 0; omega
  | ⟨2, _⟩ =>
    show (j 2).val = win1_1.index ⟨n + 1, hn'⟩ (2 : Fin 3) * 128 + 1 * (j 2).val
    rw [e2]; omega

/-- Every entry of the result array is in the block of the second point of its head. -/
theorem tc_cover (c : Dev nD) (i : ((cfg1.win 1).arr.view.loc (c.tc : Thread nD τ)).2.ty.Idx) :
    ∃ t : Fin cfg1.N, (cfg1.win 1).flush t = true ∧ i ∈ ((cfg1.win 1).blk t).view.set := by
  have hi0 : (i 0).val < 16 := (i 0).isLt
  have hi1 : (i 1).val < 1 := (i 1).isLt
  have hi2 : (i 2).val < 128 := (i 2).isLt
  have hlt : 2 * (i 0).val + 1 < cfg1.N := by rw [tcN]; omega
  obtain ⟨e0, e1, e2⟩ := tc_idx1 ⟨2 * (i 0).val + 1, hlt⟩
  refine ⟨⟨2 * (i 0).val + 1, hlt⟩, (flush1_1 _).mpr (by dsimp only; omega), ?_⟩
  show i ∈ ((View.whole main_v3).slice (win1_1.rect ⟨2 * (i 0).val + 1, hlt⟩)).set
  rw [View.set_slice_whole, Rect.mem_set_unit]
  intro a
  match a with
  | ⟨0, _⟩ =>
    show win1_1.index ⟨2 * (i 0).val + 1, hlt⟩ (0 : Fin 3) * 1 ≤ (i 0).val ∧ (i 0).val < win1_1.index ⟨2 * (i 0).val + 1, hlt⟩ (0 : Fin 3) * 1 + 1
    rw [e0]; dsimp only; omega
  | ⟨1, _⟩ =>
    show win1_1.index ⟨2 * (i 0).val + 1, hlt⟩ (1 : Fin 3) * 1 ≤ (i 1).val ∧ (i 1).val < win1_1.index ⟨2 * (i 0).val + 1, hlt⟩ (1 : Fin 3) * 1 + 1
    rw [e1]; omega
  | ⟨2, _⟩ =>
    show win1_1.index ⟨2 * (i 0).val + 1, hlt⟩ (2 : Fin 3) * 128 ≤ (i 2).val ∧ (i 2).val < win1_1.index ⟨2 * (i 0).val + 1, hlt⟩ (2 : Fin 3) * 128 + 128
    rw [e2]; omega

/-- So the result array ends holding `tcOut` of the input array, -/
theorem tc_final1 (c : Dev nD) : (tcDat A f O W 0 c).arrAt 1 cfg1.N = tcOutBuf c (A c) :=
  (tcDat A f O W 0 c).arrAt_eq_of_cover 1 (tcOutBuf c (A c)) (tc_flushed A f O W c) (tc_cover c)

/-- and the input array is never written. -/
theorem tc_final0 (c : Dev nD) : (tcDat A f O W 0 c).arrAt 0 cfg1.N = A c :=
  ((tcDat A f O W 0 c).arrAt_in 0 rfl _).trans (tcDat_A0 A f O W c)

end Final

/-! ## The region -/

/-- The pipeline prefetches no table: its one admissible contents. -/
abbrev tcAdm : (p : Fin 1) → (pcfgs (F := F) p).Adm := fun p => (cfgs p).toPCfg_adm

section Region

variable (A : (c : Dev nD) → Buf (Elt F) (x0Loc c)) (f : (c : Dev nD) → Buf (Elt F) (offLoc c))
  (O : CellTallies nD τ sig (HIx 1)) (W : Finset (SemLoc sig × HIx 1)) (hO : ∀ g, O g none = 0)

/-- What the TensorCore holds of the pipeline's concern when the region is entered: the input array, the result array
    at some contents, and what it owes. -/
def tcPre (c : Dev nD) : sProp 𝕄 :=
  iprop((x0Loc c ↦{fullShare} A c) ∗ (offLoc c ↦{fullShare} f c) ∗ owes (T c) O W)

/-- What it holds when the region is left: the input array unchanged, the result array at `tcOut` of it, the same
    debts, its recorded waits those it had and waits at the kernels' own index. -/
def tcPost (c : Dev nD) : sProp 𝕄 :=
  iprop((x0Loc c ↦{fullShare} A c) ∗ (offLoc c ↦{fullShare} tcOutBuf c (A c))
    ∗ ∃ W', ⌜∀ p ∈ W', p ∈ W ∨ p.2 = none⌝ ∗ owes (T c) O W')

omit [FloatOps F] in
theorem prefHeld_none (c : Dev nD) (q : Fin (Pipeline.Prefetch.none (sig := sig)).K → PosShare TreeShare) (V : (Pipeline.Prefetch.none (sig := sig)).Contents (Elt F)) :
    (Pipeline.prefHeld (Pipeline.Prefetch.none (sig := sig)) c q V : sProp 𝕄) = BI.emp := by
  unfold Pipeline.prefHeld; rw [show (Finset.univ : Finset (Fin 0)) = ∅ from rfl, BI.bigSep_empty]

set_option backward.isDefEq.respectTransparency.types false in
/-- THE REGION: the layout, no semaphore of the kernel's own, the body obligation, the wait evidence from the levels
    (the pipeline waits at the kernels' own index, below every debt), and the arrays in and out. -/
def tcReg : Pipeline.RegionSeg (pcfgs (F := F)) tcAdm (tcDat A f O W) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (tc_body_obligation A f O W c).loose
  hwaits c := Pipeline.cellsWaits_intro _ _ _ _ c fun w s t => (K (F := F)).mayWait_none _ hO
  pre := tcPre A f O W
  post := tcPost A O W
  X _ := BI.emp
  Y _ := BI.emp
  Z _ := BI.emp
  hentry c := by
    rw [Pipeline.ownSems0_none, prefHeld_none,
      Pipeline.arrays_eq _ _ _ c launch1.arr_whole ((tcDat A f O W 0 c).share_full fun _ => rfl), bigSep_W1]
    unfold tcPre
    iintro ⟨⟨Hx, Hf, HO⟩, -, -⟩
    imodintro
    isplitl [Hx Hf]
    · isplitl [Hx]
      · rw [show (tcDat A f O W 0 c).arrAt 0 0 = A c from tcDat_A0 A f O W c]; iexact Hx
      · rw [show (tcDat A f O W 0 c).arrAt 1 0 = f c from tcDat_A1 A f O W c]; iexact Hf
    isplitr; · iempintro
    isplitl [HO]
    · unfold Pipeline.Dat.owesAt Pipeline.owesWithin
      iexists W; isplitr; · ipureintro; exact fun _ h => Or.inl h
      iexact HO
    isplitr <;> iempintro
  hin c := by rw [prefHeld_none, scopedRest1_eq]; iintro ⟨-, -, -⟩; iempintro
  hout c := by rw [Pipeline.ownSems0_none, scopedRest1_eq]; iintro -; isplitr; · iempintro
               isplitr <;> iempintro
  hexit c := by
    rw [Pipeline.arrays_eq _ _ _ c launch1.arr_whole ((tcDat A f O W 0 c).share_full fun _ => rfl), bigSep_W1,
      tc_final0 A f O W c, tc_final1 A f O W c]
    unfold tcPost
    iintro ⟨⟨Hx, Hf⟩, HO, -, -⟩
    imodintro
    isplitl [Hx]; · iexact Hx
    isplitl [Hf]; · iexact Hf
    unfold Pipeline.Dat.owesAt Pipeline.owesWithin
    icases HO with ⟨%W', %hW', HO⟩
    iexists W'; isplitr
    · ipureintro
      intro p hp
      rcases hW' hp with h | ⟨w, s, rfl⟩
      · exact Or.inl h
      · exact Or.inr rfl
    iexact HO

theorem tcReg_pre : (tcReg A f O W hO).pre = tcPre A f O W := rfl
theorem tcReg_post : (tcReg A f O W hO).post = tcPost A O W := rfl

end Region

set_option backward.isDefEq.respectTransparency.types false in
/-- THE TENSORCORE CALL, from the boundary between kernels: holding the input array, the result array at any contents,
    the pipeline's ghost state and the levels, owing `O` (nothing at the kernels' own index), the call runs; the
    continuation starts from the boundary again with the input array unchanged and the result array at `tcOut` of it. -/
theorem tc_region (d : Dev nD) (A : (c : Dev nD) → Buf (Elt F) (x0Loc c)) (O : CellTallies nD τ sig (HIx 1)) (W : Finset (SemLoc sig × HIx 1))
    (hO : ∀ g, O g none = 0)
    {α : Type} (k : PUnit → Prog (TpuEff nD τ sig (Elt F) (ΛP (F := F)) .tc) α) {Φ : α → sProp 𝕄} :
    iprop(levAts (K (F := F)).L (K (F := F)).lev ∗ boundary (T d) ∗ (x0Loc d ↦{fullShare} A d) ∗ (∃ f, offLoc d ↦{fullShare} f)
        ∗ Pipeline.cellsGhost cfgs ER 0 d ∗ Pipeline.toksInit cfgs ER 0 d ∗ owes (T d) O W
        ∗ ((boundary (T d) ∗ (x0Loc d ↦{fullShare} A d) ∗ (offLoc d ↦{fullShare} tcOutBuf d (A d))
              ∗ (∃ W', ⌜∀ p ∈ W', p ∈ W ∨ p.2 = none⌝ ∗ owes (T d) O W'))
            -∗ wp frame (wpE (D (F := F)) 𝒱 (T d) none) Set.univ (k ⟨⟩) Φ))
      ⊢ wp frame (wpE (D (F := F)) 𝒱 (T d) none) Set.univ (.op (.customCall (Pipeline.entry 0) ()) k) Φ := by
  iintro ⟨Hla, Hbd, Hx, ⟨%f0, Hf⟩, Hg, Ht, HO, Hk⟩
  -- the result array's entry contents, as a family over the (one) device
  have hsub : ∀ c : Dev nD, c = d := fun c => Subsingleton.elim c d
  iapply (Pipeline.RegionSeg.wp (pcfgs (F := F)) tcAdm (tcDat A (fun c => (hsub c) ▸ f0) O W) (none : HIx 1) cellOf_inj ER defs₀ 𝒱₀
    (K (F := F)).L (K (F := F)).lev (tcReg A (fun c => (hsub c) ▸ f0) O W hO) d none (fun _ h => nomatch h) k Φ)
  isplitl [Hk]
  · rw [tcReg_post]; unfold tcPost
    iintro ⟨Hbd, Hpost⟩
    iapply Hk
    isplitl [Hbd]; · iexact Hbd
    iexact Hpost
  isplitl [Hbd]; · iexact Hbd
  isplitl [Hx Hf HO]
  · rw [tcReg_pre]; unfold tcPre
    isplitl [Hx]; · iexact Hx
    isplitl [Hf]; · iexact Hf
    iexact HO
  isplitl [Hla]; · iexact Hla
  isplitl [Hg]; · iexact Hg
  iexact Ht

end Cert.Kernel.Hand

end
-- ==== Proof.Bits.Main.lean ====
/-
  The whole program's run: the TensorCore's @main around the two calls, the launch element of the ghost state,
  and the run with its strongest post — the argument unchanged and the result the host arithmetic of what the two
  calls leave, each a function of the argument's reshapes.
-/
import proofs.«210750_g14534169330353_cont_week2b_1167_29_alg».proof.Proof.Bits.ScLaunch
import proofs.«210750_g14534169330353_cont_week2b_1167_29_alg».proof.Proof.Bits.TcRegion

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within wp_seq after)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays -/

/-- @main's arrays: every reference of the TensorCore that is not a staging buffer. -/
def Sall : Finset (DevRef τ sig) :=
  (Finset.univ.filter fun b : Ref sig .tc => ¬ b.isScoped).map ⟨fun b => Proc.devRef (τ := τ) .tc b, Proc.devRef_injective _⟩

omit m in
theorem unscoped_held (d : Dev nD) (m : (ℓ : Loc nD τ sig) → Buf (Elt F) ℓ) :
    (unscopedBufs d (fun b => m ((SparseCore.T d).loc b)) : sProp 𝕄) = held (T d) Sall (fun b => m (d, b)) := by
  unfold unscopedBufs held Sall
  rw [BI.bigSep_map]; rfl

variable [FloatOps F]

abbrev rf (b : Ref sig .tc) : DevRef τ sig := Proc.devRef .tc b

theorem hHead : ∀ op ∈ opsHead (F := F), op.bufs ⊆ Sall := by
  intro op hop
  simp only [opsHead, List.mem_cons, List.mem_nil_iff, or_false] at hop
  rcases hop with rfl | rfl
  · exact (show ({rf main_arg0, rf main_v0} : Finset (DevRef τ sig)) ⊆ Sall by decide)
  · exact (show ({rf main_arg0, rf main_v1} : Finset (DevRef τ sig)) ⊆ Sall by decide)
theorem hTail : ∀ op ∈ opsTail (F := F), op.bufs ⊆ Sall := by
  intro op hop
  simp only [opsTail, List.mem_cons, List.mem_nil_iff, or_false] at hop
  rcases hop with rfl | rfl | rfl | rfl | rfl | rfl | rfl
  · exact (show ({rf main_v2, rf main_v4} : Finset (DevRef τ sig)) ⊆ Sall by decide)
  · exact (show ({rf main_cst} : Finset (DevRef τ sig)) ⊆ Sall by decide)
  · exact (show ({rf main_v4, rf main_cst, rf main_v5} : Finset (DevRef τ sig)) ⊆ Sall by decide)
  · exact (show ({rf main_v3, rf main_v6} : Finset (DevRef τ sig)) ⊆ Sall by decide)
  · exact (show ({rf main_v6, rf main_v7} : Finset (DevRef τ sig)) ⊆ Sall by decide)
  · exact (show ({rf main_v5, rf main_v7, rf main_v8} : Finset (DevRef τ sig)) ⊆ Sall by decide)
  · exact (show ({rf main_v8, rf main_v9} : Finset (DevRef τ sig)) ⊆ Sall by decide)
theorem fHead : ∀ op ∈ opsHead (F := F), op.fresh = ∅ := by
  intro op hop
  simp only [opsHead, List.mem_cons, List.mem_nil_iff, or_false] at hop
  rcases hop with rfl | rfl <;> rfl
theorem fTail : ∀ op ∈ opsTail (F := F), op.fresh = ∅ := by
  intro op hop
  simp only [opsTail, List.mem_cons, List.mem_nil_iff, or_false] at hop
  rcases hop with rfl | rfl | rfl | rfl | rfl | rfl | rfl <;> rfl

/-- @main as its three stretches of host operations around the two calls. -/
theorem main_eq (d : Dev nD) : main (F := F) d
    = (StableHlo.seq (opsHead (F := F)) >>= fun _ => (sc (F := F)).run d 0 >>= fun _ =>
        Prog.lift (.customCall (SparseCore.inner (Pipeline.entry 0)) ()) >>= fun _ => StableHlo.seq (opsTail (F := F))) := rfl

/-! ## The arrays' contents along @main -/

/-- After the SparseCore call the 32×16 array holds the subcores' accumulators; after the TensorCore call the
    16×1×128 array holds the off-diagonal maxima; after the tail the result. -/
def V2 (d : Dev nD) : Valuation τ sig (Elt F) := Function.update (V1 m d) o' (scOut (F := F) (X1 m d))
def V3 (d : Dev nD) : Valuation τ sig (Elt F) := Function.update (V2 m d) off' (tcOutBuf d (X0 m d))
def V4 (d : Dev nD) : Valuation τ sig (Elt F) := after (opsTail (F := F)) (V3 m d)

/-- The result: the host arithmetic of what the two calls leave. -/
abbrev resLoc (d : Dev nD) : Loc nD τ sig := (SparseCore.T d).loc main_v9
def OUT (d : Dev nD) : Buf (Elt F) (resLoc d) := hostTail (F := F) (scOut (X1 m d)) (tcOutBuf d (X0 m d))

theorem V1_arg (d : Dev nD) : V1 m d arg' = m (xLoc d) := by
  unfold V1 V0 opsHead; after_results
theorem V1_o (d : Dev nD) : V1 m d o' = m (oLoc d) := by
  unfold V1 V0 opsHead; after_results
theorem X0_eq (d : Dev nD) : X0 m d = shapeCast S16x2048x2048 (m (xLoc d)) shapeCasts_S1x16x2048x2048_S16x2048x2048 := by
  unfold X0 V1 V0 opsHead; after_results; rfl
theorem X1_eq (d : Dev nD) : X1 m d = shapeCast S32768x2048 (m (xLoc d)) shapeCasts_S1x16x2048x2048_S32768x2048 := by
  unfold X1 V1 V0 opsHead; after_results; rfl

theorem V2_x0 (d : Dev nD) : V2 m d x0' = X0 m d := Function.update_of_ne (show x0' ≠ o' by decide) _ _
theorem V2_off (d : Dev nD) : V2 m d off' = V1 m d off' := Function.update_of_ne (show off' ≠ o' by decide) _ _
theorem V2_o (d : Dev nD) : V2 m d o' = scOut (F := F) (X1 m d) := Function.update_self _ _ _
theorem V2_x1 (d : Dev nD) : V2 m d x1' = X1 m d := Function.update_of_ne (show x1' ≠ o' by decide) _ _
theorem V3_x0 (d : Dev nD) : V3 m d x0' = X0 m d := (Function.update_of_ne (show x0' ≠ off' by decide) _ _).trans (V2_x0 m d)
theorem V3_off (d : Dev nD) : V3 m d off' = tcOutBuf d (X0 m d) := Function.update_self _ _ _
theorem V3_o (d : Dev nD) : V3 m d o' = scOut (F := F) (X1 m d) := (Function.update_of_ne (show o' ≠ off' by decide) _ _).trans (V2_o m d)
theorem V3_arg (d : Dev nD) : V3 m d arg' = m (xLoc d) :=
  (Function.update_of_ne (show arg' ≠ off' by decide) _ _).trans ((Function.update_of_ne (show arg' ≠ o' by decide) _ _).trans (V1_arg m d))

theorem V4_arg (d : Dev nD) : V4 m d arg' = m (xLoc d) := by
  unfold V4 opsTail; after_results; exact V3_arg m d
theorem V4_res (d : Dev nD) : V4 m d res' = OUT m d := by
  unfold V4 opsTail; after_results; rw [V3_o, V3_off]; rfl

omit [FloatOps F] in
theorem held_pair (d : Dev nD) (a b : DevRef τ sig) (hab : a ≠ b) (W : Valuation τ sig (Elt F)) :
    (held (T d) {a, b} W : sProp 𝕄) = iprop(((d, a) ↦{fullShare} W a) ∗ ((d, b) ↦{fullShare} W b)) := by
  unfold held; rw [SparseCore.bigSep_insert' (by simpa using hab), bigSep_singleton]

/-- A pair of arrays taken out of @main's arrays and put back at new contents. -/
theorem held_put (d : Dev nD) (a b : DevRef τ sig) (hab : a ≠ b) (hs : ({a, b} : Finset (DevRef τ sig)) ⊆ Sall)
    (W W' : Valuation τ sig (Elt F)) (hW : ∀ c ∈ Sall \ {a, b}, W' c = W c) :
    iprop(((d, a) ↦{fullShare} W' a) ∗ ((d, b) ↦{fullShare} W' b) ∗ (held (T d) (Sall \ {a, b}) W : sProp 𝕄)) ⊢ held (T d) Sall W' := by
  rw [held_sub_split (T d) hs W', held_pair d a b hab, held_congr (T d) (V := W') (V' := W) hW]
  iintro ⟨Ha, Hb, Hr⟩
  isplitl [Ha Hb]
  · isplitl [Ha] <;> iassumption
  · iexact Hr

theorem held_take (d : Dev nD) (a b : DevRef τ sig) (hab : a ≠ b) (hs : ({a, b} : Finset (DevRef τ sig)) ⊆ Sall) (W : Valuation τ sig (Elt F)) :
    (held (T d) Sall W : sProp 𝕄) ⊢ iprop(((d, a) ↦{fullShare} W a) ∗ ((d, b) ↦{fullShare} W b) ∗ held (T d) (Sall \ {a, b}) W) := by
  rw [held_sub_split (T d) hs W, held_pair d a b hab]
  iintro ⟨⟨Ha, Hb⟩, Hr⟩
  isplitl [Ha]; · iexact Ha
  isplitl [Hb]; · iexact Hb
  iexact Hr

/-! ## What the SparseCore call takes and gives back, from the whole arrays -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_intro (d : Dev nD) :
    iprop((bigSep Finset.univ fun c : Fin 2 => iprop(x1Pts d (qD c) (X1 m d) ∗ bigSep Finset.univ fun i : Fin 16 => x1Pts d (qT c i) (X1 m d)))
        ∗ (bigSep Finset.univ fun c : Fin 2 => bigSep Finset.univ fun i : Fin 16 => oRowPts d (Lof c i) (m (oLoc d))))
      ⊢ bigSep Finset.univ fun c : Fin ((K (F := F)).nCore 0) => (P m).st 0 d c := by
  refine BI.Entails.trans ?_ (Entails.of_eq (bigSep_cores (F := F)
    (fun c : Fin 2 => iprop(x1Pts d (qD c) (X1 m d) ∗ bigSep Finset.univ fun i : Fin 16 => goF m d c i))).symm)
  rw [← bigSep_sep']
  refine bigSep_mono fun c _ => ?_
  unfold goF; rw [bigSep_sep']
  exact BI.sep_assoc

theorem dn_elim (d : Dev nD) :
    (bigSep Finset.univ fun c : Fin ((K (F := F)).nCore 0) => (P m).dn 0 d c)
      ⊢ iprop((bigSep Finset.univ fun c : Fin 2 => iprop(x1Pts d (qD c) (X1 m d) ∗ bigSep Finset.univ fun i : Fin 16 => x1Pts d (qT c i) (X1 m d)))
        ∗ (bigSep Finset.univ fun c : Fin 2 => bigSep Finset.univ fun i : Fin 16 => oRowPts d (Lof c i) (scOut (F := F) (X1 m d)))) := by
  refine (Entails.of_eq (bigSep_cores (F := F)
    (fun c : Fin 2 => iprop(x1Pts d (qD c) (X1 m d) ∗ bigSep Finset.univ fun i : Fin 16 => tdF m d c i)))).trans ?_
  rw [← bigSep_sep']
  refine bigSep_mono fun c _ => ?_
  unfold tdF; rw [bigSep_sep']
  exact BI.sep_assoc'

/-! ## The launch element -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof starts from besides the launch's deal: the staging cells' ghost state. -/
def Gd (d : Dev nD) : sProp 𝕄 := iprop(Pipeline.cellsGhost cfgs ER 0 d ∗ Pipeline.toksInit cfgs ER 0 d)

omit [FloatOps F] in
theorem bigSep_emp' {I : Type} (s : Finset I) : (bigSep s fun _ => iprop(emp)) = (iprop(emp) : sProp 𝕄) := bigSep_emp_const s

omit [FloatOps F] in
theorem ownR_split (a : UR) (b : Counters) :
    (BI.own ((embR (A := UH) (B := UR × Counters)) (a, b)) : sProp 𝕄)
      ⊢ iprop(BI.own (ER (F := F) a) ∗ BI.own (((Emb.inr : Emb Counters (UR × Counters)).trans (embR (A := UH) (B := UR × Counters))) b)) :=
  own_pair_emb (embR (A := UH) (B := UR × Counters)) a b

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (ownR_split (F := F) _ _) $$ HR
  icases H2 with ⟨HP, -⟩
  imod (Pipeline.fund_ghost cfgs (ER (F := F)) cellOf_inj) $$ HP with ⟨Hg, Ht⟩
  imodintro
  isplitl [HH]; · iexact HH
  isplitl [Hg Ht]
  · unfold Gd; rw [bigSep_sep']
    isplitl [Hg]
    · have hG : (bigSep Finset.univ fun d : Dev nD => bigSep Finset.univ fun p : Fin 1 => Pipeline.cellsGhost cfgs (ER (F := F)) p d : sProp 𝕄)
          ⊢ bigSep Finset.univ fun d : Dev nD => Pipeline.cellsGhost cfgs (ER (F := F)) 0 d :=
        bigSep_mono fun d _ => Entails.of_eq (bigSep_univ_of_subsingleton (0 : Fin 1))
      iapply hG; iexact Hg
    · have hT : (bigSep Finset.univ fun d : Dev nD => bigSep Finset.univ fun p : Fin 1 => Pipeline.toksInit cfgs (ER (F := F)) p d : sProp 𝕄)
          ⊢ bigSep Finset.univ fun d : Dev nD => Pipeline.toksInit cfgs (ER (F := F)) 0 d :=
        bigSep_mono fun d _ => Entails.of_eq (bigSep_univ_of_subsingleton (0 : Fin 1))
      iapply hT; iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev xPts (d : Dev nD) : sProp 𝕄 := xLoc d ↦{fullShare} m (xLoc d)
abbrev FIN (d : Dev nD) : sProp 𝕄 := iprop(xPts m d ∗ resLoc d ↦{fullShare} OUT m d)

set_option backward.isDefEq.respectTransparency.types false in
/-- @main on device `d`'s TensorCore: the two reshapes, the SparseCore call (the array out as read shares, the
    result out as rows, both back), the TensorCore call (the region's rule), the seven operations of the tail. -/
theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes Gd
  rw [unscoped_held, main_eq]
  iintro ⟨#Hctx, Hst, ⟨Hb, Hheld, -, -⟩, ⟨Hg, Ht⟩⟩
  ihave #Hlv := (SparseCore.Cfg.ctx_levAts κ) $$ Hctx
  -- the two reshapes
  iapply (wp_seq 𝒱 none Set.univ d Sall _ (opsHead (F := F)) hHead fHead (V0 m d)) $$ [Hb Hheld]
  · isplitl [Hb]; · iexact Hb
    iexact Hheld
  iintro ⟨Hb, Hheld⟩
  -- the SparseCore call: the array as read shares, the result as rows
  ihave Hh := (held_take d x1' o' (by decide) (by decide) _) $$ Hheld
  icases Hh with ⟨Hx1, Ho, Hrest⟩
  ihave Hx1s := (x1_split d _) $$ Hx1
  icases Hx1s with ⟨Hx1d, Hx1c⟩
  ihave Hor := (Entails.of_eq (oPts_rows d _)) $$ Ho
  rw [wp_bind]
  iapply ((K (F := F)).wp_run (D (F := F)) 𝒱 (EH := EH) (P := P m) κ d 0) $$ [Hst Hx1c Hor Hb Hrest Hx1d Hg Ht]
  isplitr; · iexact Hctx
  isplitl [Hst]; · iexact Hst
  isplitl [Hx1c Hor]
  · iapply (st_intro m d)
    isplitl [Hx1c]; · iexact Hx1c
    rw [← V1_o m d]; iexact Hor
  iintro ⟨Hst, Hdn⟩
  ihave Hdn' := (dn_elim m d) $$ Hdn
  icases Hdn' with ⟨Hx1c, Hor⟩
  ihave Hx1 := (x1_join d (X1 m d)) $$ [Hx1d Hx1c]
  · isplitl [Hx1d]; · iexact Hx1d
    iexact Hx1c
  ihave Ho := (Entails.of_eq (oPts_rows d _).symm) $$ Hor
  ihave Hheld := (held_put d x1' o' (by decide) (by decide) (V1 m d) (V2 m d)
      (fun c hc => Function.update_of_ne (fun e => (Finset.mem_sdiff.mp hc).2 (by rw [e]; exact Finset.mem_insert_of_mem (Finset.mem_singleton_self _))) _ _)) $$ [Hx1 Ho Hrest]
  · rw [V2_x1, V2_o]
    isplitl [Hx1]; · iexact Hx1
    isplitl [Ho]; · iexact Ho
    iexact Hrest
  -- the TensorCore call
  rw [wp_bind]
  unfold SparseCore.Cfg.tcSt
  icases Hst with ⟨⟨%W, %hW, HO⟩, Hat, Hrd, Hrs, Htoks⟩
  rw [(K (F := F)).Otc_end d (le_refl 1)]
  ihave Hh := (held_take d x0' off' (by decide) (by decide) _) $$ Hheld
  icases Hh with ⟨Hx0, Hoff, Hrest⟩
  iapply ((K (F := F)).wp_liftProg (D (F := F)) 𝒱 (SparseCore.T d) Set.univ none (Prog.lift (.customCall (Pipeline.entry 0) ())) _)
  iapply (tc_region (F := F) d (fun c => X0 m c) 0 W (fun _ => rfl) (fun x => .ret x)) $$ [Hb Hx0 Hoff Hg Ht HO Hat Hrd Hrs Htoks Hrest]
  isplitr; · iexact Hlv
  isplitl [Hb]; · iexact Hb
  isplitl [Hx0]; · rw [← V2_x0 m d]; iexact Hx0
  isplitl [Hoff]; · iexists _; iexact Hoff
  isplitl [Hg]; · iexact Hg
  isplitl [Ht]; · iexact Ht
  isplitl [HO]; · iexact HO
  iintro ⟨Hb, Hx0, Hoff, %W', %hW', HO⟩
  rw [wp_ret]; imodintro
  ihave Hheld := (held_put d x0' off' (by decide) (by decide) (V2 m d) (V3 m d)
      (fun c hc => Function.update_of_ne (fun e => (Finset.mem_sdiff.mp hc).2 (by rw [e]; exact Finset.mem_insert_of_mem (Finset.mem_singleton_self _))) _ _)) $$ [Hx0 Hoff Hrest]
  · rw [V3_x0, V3_off]
    isplitl [Hx0]; · iexact Hx0
    isplitl [Hoff]; · iexact Hoff
    iexact Hrest
  -- the tail
  rw [show (StableHlo.seq (opsTail (F := F)) : Prog (TpuEff nD τ sig (Elt F) _ .tc) PUnit) = StableHlo.seq (opsTail (F := F)) >>= fun x => .ret x from (bind_pure _).symm]
  iapply (wp_seq 𝒱 none Set.univ d Sall _ (opsTail (F := F)) hTail fTail (V3 m d)) $$ [Hb Hheld]
  · isplitl [Hb]; · iexact Hb
    iexact Hheld
  iintro ⟨Hb, Hheld⟩
  ihave Hh := (held_take d arg' res' (by decide) (by decide) _) $$ Hheld
  icases Hh with ⟨Harg, Hres, -⟩
  rw [wp_ret]; imodintro
  isplitl [HO Hat Hrd Hrs Htoks]
  · isplitl [HO]
    · iexists W'; isplitr
      · ipureintro; intro p hp
        rcases hW' p hp with h | h
        · exact hW p h
        · rw [show p.2 = none from h]; exact Nat.zero_le _
      · iexact HO
    isplitl [Hat]; · iexact Hat
    isplitl [Hrd]; · iexact Hrd
    isplitl [Hrs]; · iexact Hrs
    iexact Htoks
  isplitl [Harg]
  · rw [show (xPts m d : sProp 𝕄) = ((d, arg') ↦{fullShare} after (opsTail (F := F)) (V3 m d) arg') from by rw [show after (opsTail (F := F)) (V3 m d) arg' = m (xLoc d) from V4_arg m d]]
    iexact Harg
  · rw [show (resLoc d ↦{fullShare} OUT m d : sProp 𝕄) = ((d, res') ↦{fullShare} after (opsTail (F := F)) (V3 m d) res') from by rw [show after (opsTail (F := F)) (V3 m d) res' = OUT m d from V4_res m d]]
    iexact Hres

def fq (d : Dev nD) (s' : Phys nD τ sig (Elt F)) : Prop :=
  s'.mem.mem (xLoc d) = m (xLoc d) ∧ s'.mem.mem (resLoc d) = OUT m d

theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := xLoc d) (I := Finset.univ) (q := fullShare) (f := m (xLoc d)))) $$ [HSI Hi]
  · isplitl [HSI] <;> iassumption
  icases H with ⟨%h1, HSI, -⟩
  ihave H := (SI_pointsTo_agree (st := s') (ℓ := resLoc d) (I := Finset.univ) (q := fullShare) (f := OUT m d)) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  ∀ c : Dev nD, r.2.mem (xLoc c) = m (xLoc c) ∧ r.2.mem (resLoc c) = OUT m c

/-- Every weakly fair execution of the device's threads terminates, nothing faulting, with the argument unchanged
    and the result at the host arithmetic of the two calls' results. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.Kernel.Hand

end
-- ==== Proof.RefRun.lean ====
/- The reference's @main as the list of its 48 host operations, and its run: every weakly fair execution ends with
   the result buffer at the operations' composed pure term of the argument array, the argument unchanged. The
   operations of the called function @diagonal stand inline at the call, over the call's own buffers. -/
import proofs.«210750_g14534169330353_cont_week2b_1167_29_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 48 operations, in order (a called function's operations stand in its call's place, spelt `TRef.…`). -/
abbrev ops : List (HloOp τ sig (Elt F)) :=
  [ TRef.nullary (TRef.of (T := ⟨S2048, .i32⟩) main_call0_v0) (iotaInDim S2048 32 0),
    TRef.nullary (TRef.of (T := ⟨S2048, .i32⟩) main_call0_v1) (iotaInDim S2048 32 0),
    TRef.nullary (TRef.of (T := ⟨S_, .i32⟩) main_call0_c) (constantI S_ 32 0#32),
    TRef.unary (TRef.of (T := ⟨S_, .i32⟩) main_call0_c) (TRef.of (T := ⟨S2048, .i32⟩) main_call0_v2) (broadcastInDim S2048 ![] bcast_S_S2048),
    TRef.binary (TRef.of (T := ⟨S2048, .i32⟩) main_call0_v0) (TRef.of (T := ⟨S2048, .i32⟩) main_call0_v2) (TRef.of (T := ⟨S2048, .i1⟩) main_call0_v3) (cmpi .slt),
    TRef.nullary (TRef.of (T := ⟨S_, .i32⟩) main_call0_c_0) (constantI S_ 32 2048#32),
    TRef.unary (TRef.of (T := ⟨S_, .i32⟩) main_call0_c_0) (TRef.of (T := ⟨S2048, .i32⟩) main_call0_v4) (broadcastInDim S2048 ![] bcast_S_S2048),
    TRef.binary (TRef.of (T := ⟨S2048, .i32⟩) main_call0_v0) (TRef.of (T := ⟨S2048, .i32⟩) main_call0_v4) (TRef.of (T := ⟨S2048, .i32⟩) main_call0_v5) addi,
    TRef.ternary (TRef.of (T := ⟨S2048, .i1⟩) main_call0_v3) (TRef.of (T := ⟨S2048, .i32⟩) main_call0_v5) (TRef.of (T := ⟨S2048, .i32⟩) main_call0_v0) (TRef.of (T := ⟨S2048, .i32⟩) main_call0_v6) select,
    TRef.nullary (TRef.of (T := ⟨S_, .i32⟩) main_call0_c_1) (constantI S_ 32 0#32),
    TRef.unary (TRef.of (T := ⟨S_, .i32⟩) main_call0_c_1) (TRef.of (T := ⟨S2048, .i32⟩) main_call0_v7) (broadcastInDim S2048 ![] bcast_S_S2048),
    TRef.binary (TRef.of (T := ⟨S2048, .i32⟩) main_call0_v1) (TRef.of (T := ⟨S2048, .i32⟩) main_call0_v7) (TRef.of (T := ⟨S2048, .i1⟩) main_call0_v8) (cmpi .slt),
    TRef.nullary (TRef.of (T := ⟨S_, .i32⟩) main_call0_c_2) (constantI S_ 32 2048#32),
    TRef.unary (TRef.of (T := ⟨S_, .i32⟩) main_call0_c_2) (TRef.of (T := ⟨S2048, .i32⟩) main_call0_v9) (broadcastInDim S2048 ![] bcast_S_S2048),
    TRef.binary (TRef.of (T := ⟨S2048, .i32⟩) main_call0_v1) (TRef.of (T := ⟨S2048, .i32⟩) main_call0_v9) (TRef.of (T := ⟨S2048, .i32⟩) main_call0_v10) addi,
    TRef.ternary (TRef.of (T := ⟨S2048, .i1⟩) main_call0_v8) (TRef.of (T := ⟨S2048, .i32⟩) main_call0_v10) (TRef.of (T := ⟨S2048, .i32⟩) main_call0_v1) (TRef.of (T := ⟨S2048, .i32⟩) main_call0_v11) select,
    TRef.unary (TRef.of (T := ⟨S2048, .i32⟩) main_call0_v6) (TRef.of (T := ⟨S2048x1, .i32⟩) main_call0_v12) (broadcastInDim S2048x1 ![0] bcast_S2048_S2048x1_0),
    TRef.unary (TRef.of (T := ⟨S2048, .i32⟩) main_call0_v11) (TRef.of (T := ⟨S2048x1, .i32⟩) main_call0_v13) (broadcastInDim S2048x1 ![0] bcast_S2048_S2048x1_0),
    TRef.binary (TRef.of (T := ⟨S2048x1, .i32⟩) main_call0_v12) (TRef.of (T := ⟨S2048x1, .i32⟩) main_call0_v13) (TRef.of (T := ⟨S2048x2, .i32⟩) main_call0_v14) (fun a b => concatenate S2048x2 1 [⟨S2048x1, a⟩, ⟨S2048x1, b⟩] concatenates_S2048x1_S2048x1_S2048x2_d1),
    TRef.binary (TRef.of (T := ⟨S1x16x2048x2048, .f32⟩) main_arg0) (TRef.of (T := ⟨S2048x2, .i32⟩) main_call0_v14) (TRef.of (T := ⟨S1x16x2048, .f32⟩) main_v0) (fun x i => Host.gather gather_S1x16x2048x2048_S2048x2_S1x16x2048_01_23_n_n_23_1_11611 x i),
    nullary main_cst (constant S_ .f32 0xFF800000#32),
    binary main_v0 main_cst main_v1 ((fun x v => Host.reduce FloatOps.maximumf x v reducesTo_S1x16x2048_S1x16_d2 h_S_) : (⟨S1x16x2048, .f32⟩ : BufTy).Contents (Elt F) → (⟨S_, .f32⟩ : BufTy).Contents (Elt F) → (⟨S1x16, .f32⟩ : BufTy).Contents (Elt F)),
    nullary main_v2 (iotaInDim S2048 32 0),
    nullary main_c (constantI S_ 32 0#32),
    unary main_c main_v3 (broadcastInDim S2048 ![] bcast_S_S2048 : (⟨S_, .i32⟩ : BufTy).Contents (Elt F) → (⟨S2048, .i32⟩ : BufTy).Contents (Elt F)),
    binary main_v2 main_v3 main_v4 (cmpi .slt : (⟨S2048, .i32⟩ : BufTy).Contents (Elt F) → (⟨S2048, .i32⟩ : BufTy).Contents (Elt F) → (⟨S2048, .i1⟩ : BufTy).Contents (Elt F)),
    nullary main_c_0 (constantI S_ 32 2048#32),
    unary main_c_0 main_v5 (broadcastInDim S2048 ![] bcast_S_S2048 : (⟨S_, .i32⟩ : BufTy).Contents (Elt F) → (⟨S2048, .i32⟩ : BufTy).Contents (Elt F)),
    binary main_v2 main_v5 main_v6 (addi : (⟨S2048, .i32⟩ : BufTy).Contents (Elt F) → (⟨S2048, .i32⟩ : BufTy).Contents (Elt F) → (⟨S2048, .i32⟩ : BufTy).Contents (Elt F)),
    ternary main_v4 main_v6 main_v2 main_v7 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    nullary main_c_1 (constantI S_ 32 0#32),
    unary main_c_1 main_v8 (broadcastInDim S2048 ![] bcast_S_S2048 : (⟨S_, .i32⟩ : BufTy).Contents (Elt F) → (⟨S2048, .i32⟩ : BufTy).Contents (Elt F)),
    binary main_v2 main_v8 main_v9 (cmpi .slt : (⟨S2048, .i32⟩ : BufTy).Contents (Elt F) → (⟨S2048, .i32⟩ : BufTy).Contents (Elt F) → (⟨S2048, .i1⟩ : BufTy).Contents (Elt F)),
    nullary main_c_2 (constantI S_ 32 2048#32),
    unary main_c_2 main_v10 (broadcastInDim S2048 ![] bcast_S_S2048 : (⟨S_, .i32⟩ : BufTy).Contents (Elt F) → (⟨S2048, .i32⟩ : BufTy).Contents (Elt F)),
    binary main_v2 main_v10 main_v11 (addi : (⟨S2048, .i32⟩ : BufTy).Contents (Elt F) → (⟨S2048, .i32⟩ : BufTy).Contents (Elt F) → (⟨S2048, .i32⟩ : BufTy).Contents (Elt F)),
    ternary main_v9 main_v11 main_v2 main_v12 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v7 main_v13 (broadcastInDim S2048x1 ![0] bcast_S2048_S2048x1_0 : (⟨S2048, .i32⟩ : BufTy).Contents (Elt F) → (⟨S2048x1, .i32⟩ : BufTy).Contents (Elt F)),
    unary main_v12 main_v14 (broadcastInDim S2048x1 ![0] bcast_S2048_S2048x1_0 : (⟨S2048, .i32⟩ : BufTy).Contents (Elt F) → (⟨S2048x1, .i32⟩ : BufTy).Contents (Elt F)),
    binary main_v13 main_v14 main_v15 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    nullary main_cst_3 (constant S_ .f32 0xFF800000#32),
    unary main_cst_3 main_v16 (broadcastInDim S1x16x2048 ![] bcast_S_S1x16x2048 : (⟨S_, .f32⟩ : BufTy).Contents (Elt F) → (⟨S1x16x2048, .f32⟩ : BufTy).Contents (Elt F)),
    ternary main_arg0 main_v15 main_v16 main_v17 ((fun x i u => Host.scatter scatter_S1x16x2048x2048_S2048x2_S1x16x2048_01_23_23_1 (fun _ b => b) x i u) : (⟨S1x16x2048x2048, .f32⟩ : BufTy).Contents (Elt F) → (⟨S2048x2, .i32⟩ : BufTy).Contents (Elt F) → (⟨S1x16x2048, .f32⟩ : BufTy).Contents (Elt F) → (⟨S1x16x2048x2048, .f32⟩ : BufTy).Contents (Elt F)),
    nullary main_cst_4 (constant S_ .f32 0xFF800000#32),
    binary main_v17 main_cst_4 main_v18 ((fun x v => Host.reduce FloatOps.maximumf x v reducesTo_S1x16x2048x2048_S1x16x2048_d3 h_S_) : (⟨S1x16x2048x2048, .f32⟩ : BufTy).Contents (Elt F) → (⟨S_, .f32⟩ : BufTy).Contents (Elt F) → (⟨S1x16x2048, .f32⟩ : BufTy).Contents (Elt F)),
    nullary main_cst_5 (constant S_ .f32 0xFF800000#32),
    binary main_v18 main_cst_5 main_v19 ((fun x v => Host.reduce FloatOps.maximumf x v reducesTo_S1x16x2048_S1x16_d2 h_S_) : (⟨S1x16x2048, .f32⟩ : BufTy).Contents (Elt F) → (⟨S_, .f32⟩ : BufTy).Contents (Elt F) → (⟨S1x16, .f32⟩ : BufTy).Contents (Elt F)),
    binary main_v1 main_v19 main_v20 ((fun a b => concatenate S1x32 1 [⟨S1x16, a⟩, ⟨S1x16, b⟩] concatenates_S1x16_S1x16_S1x32_d1) : (⟨S1x16, .f32⟩ : BufTy).Contents (Elt F) → (⟨S1x16, .f32⟩ : BufTy).Contents (Elt F) → (⟨S1x32, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., binary_bufs_sub .., nullary_bufs_sub .., binary_bufs_sub .., binary_bufs_sub ..⟩

set_option maxRecDepth 8192 in
set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = concatenate S1x32 1 [⟨S1x16, (Host.reduce FloatOps.maximumf (Host.gather gather_S1x16x2048x2048_S2048x2_S1x16x2048_01_23_n_n_23_1_11611 (m ((c.tc : Thread nD τ).loc main_arg0)) (concatenate S2048x2 1 [⟨S2048x1, (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))⟩, ⟨S2048x1, (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))⟩] concatenates_S2048x1_S2048x1_S2048x2_d1)) (constant S_ .f32 0xFF800000#32) reducesTo_S1x16x2048_S1x16_d2 h_S_)⟩, ⟨S1x16, (Host.reduce FloatOps.maximumf (Host.reduce FloatOps.maximumf (Host.scatter scatter_S1x16x2048x2048_S2048x2_S1x16x2048_01_23_23_1 (fun _ b => b) (m ((c.tc : Thread nD τ).loc main_arg0)) (concatenate S2048x2 1 [⟨S2048x1, (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))⟩, ⟨S2048x1, (broadcastInDim S2048x1 ![0] bcast_S2048_S2048x1_0 (select (cmpi .slt (iotaInDim S2048 32 0) (broadcastInDim S2048 ![] bcast_S_S2048 (constantI S_ 32 0#32))) (addi (iotaInDim S2048 32 0) (broadcastInDim S2048 ![] bcast_S_S2048 (constantI S_ 32 2048#32))) (iotaInDim S2048 32 0)))⟩] concatenates_S2048x1_S2048x1_S2048x2_d1) (broadcastInDim S1x16x2048 ![] bcast_S_S1x16x2048 (constant S_ .f32 0xFF800000#32))) (constant S_ .f32 0xFF800000#32) reducesTo_S1x16x2048x2048_S1x16x2048_d3 h_S_) (constant S_ .f32 0xFF800000#32) reducesTo_S1x16x2048_S1x16_d2 h_S_)⟩] concatenates_S1x16_S1x16_S1x32_d1
      ∧ r.2.mem ((c.tc : Thread nD τ).loc main_arg0) = m ((c.tc : Thread nD τ).loc main_arg0) :=
  (θ_run defs _ _).mono (fun _ h c => ⟨(h c main_v20).trans (by after_results <;> rfl),
      (h c main_arg0).trans (by after_results <;> rfl)⟩)
    (run_seq scopedRefs_eq scopedSems_eq defs main (fun _ => ops) main_eq (fun _ => ops_sub) m ρ)

end Cert.ReferenceIdeal.RefRun

end
-- ==== Proof.LibMax.lean ====
/- Maxima over finite index sets in the extended reals: a fold of the maximum from minus infinity is a supremum, a
   reduction with the maximum over one axis of an array is the supremum over that axis's coordinates, and writing one
   constant at a family of positions of an array leaves the constant where a position lands and the array elsewhere. -/
import Idealize.ShloMosaic.PureOps.Ideal.Laws
import Idealize.ShloMosaic.Lib.ValueIdx
import Idealize.ShloMosaic.Lib.Pipeline.Value

noncomputable section

namespace Cert.LibMax

open Idealize.ShloMosaic

/-- The word of minus infinity is the least extended real. -/
theorem ofBits_neg_inf : Ideal.ofBits .f32 0xFF800000#32 = (⊥ : EReal) := by
  simp [Ideal.ofBits, Ideal.ieee]

/-- A fold of the maximum from the least element is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-- A fold of the maximum from any start is the start joined with the supremum. -/
theorem fold_max_eq {ι : Type} (s : Finset ι) (b : EReal) (f : ι → EReal) : s.fold max b f = max b (s.sup f) := by
  classical
  induction s using Finset.induction_on with
  | empty => simp
  | insert a s ha ih => rw [Finset.fold_insert ha, Finset.sup_insert, ih, max_left_comm]

/-- The host's reduction with the maximum over ONE axis, from minus infinity, read at `j`: the supremum over that
    axis's coordinates `k` of the array at `j` with `k` inserted. -/
theorem hostReduce_max_single {s t : Shape} {a : Fin s.rank} (x : FVec Ideal s .f32)
    (h' : s.ReducesTo [a] t) (h : s.Reduces [a] t) (hu : 0 < (⟨0, ![]⟩ : Shape).numel) (j : t.Idx) :
    Host.reduce FloatOps.maximumf x (constant (F := Ideal) (⟨0, ![]⟩ : Shape) .f32 0xFF800000#32) h' hu j
      = Finset.univ.sup (fun k : Fin (s.size a) => x (h.lift j k)) := by
  rw [Host.reduce_eq_fold_single FloatOps.maximumf x _ h' h hu]
  show Finset.fold max (Ideal.ofBits .f32 0xFF800000#32) (x ∘ h.lift j) Finset.univ = _
  rw [ofBits_neg_inf, fold_max_bot]
  rfl

/-- Writing the constant `c` at every position a family of updates lands on (an update that lands nowhere is
    dropped): the result holds `c` where some update lands, and the array elsewhere. -/
theorem scatter_const_apply {s si u : Shape} {w : Nat} {α : Type} (d : ScatterDims s si u) (x : s.Idx → α)
    (idx : IVec si w) (c : α) (i' : s.Idx) :
    Host.scatter d (fun _ b => b) x idx (fun _ => c) i'
      = if ∃ j : u.Idx, d.resultIdx? j idx = some i' then c else x i' := by
  classical
  have key : ∀ (l : List (Fin u.numel)) (y : s.Idx → α),
      (l.foldl (fun r n =>
          match d.resultIdx? (u.rowMajor.symm n) idx with
          | some i => fun i' => if i' = i then (fun (_ : α) (b : α) => b) (r i) ((fun _ => c) (u.rowMajor.symm n)) else r i'
          | none => r) y) i'
        = if ∃ n ∈ l, d.resultIdx? (u.rowMajor.symm n) idx = some i' then c else y i' := by
    intro l
    induction l with
    | nil => intro y; simp
    | cons n l ih =>
      intro y
      rw [List.foldl_cons, ih]
      cases hg : d.resultIdx? (u.rowMajor.symm n) idx with
      | none =>
        simp only [List.mem_cons, exists_eq_or_imp, hg, reduceCtorEq, false_or]
      | some i =>
        simp only [List.mem_cons, exists_eq_or_imp, hg, Option.some.injEq]
        by_cases h1 : ∃ a ∈ l, d.resultIdx? (u.rowMajor.symm a) idx = some i'
        · rw [if_pos h1, if_pos (Or.inr h1)]
        · rw [if_neg h1]
          by_cases h2 : i' = i
          · rw [if_pos h2, if_pos (Or.inl h2.symm)]
          · rw [if_neg h2, if_neg (by rintro (h | h); exacts [h2 h.symm, h1 h])]
  unfold Host.scatter
  refine (key _ _).trans ?_
  refine if_congr ⟨fun ⟨n, _, hn⟩ => ⟨_, hn⟩, fun ⟨j, hj⟩ => ⟨u.rowMajor j, List.mem_finRange _, ?_⟩⟩ rfl rfl
  rw [Equiv.symm_apply_apply]; exact hj

end Cert.LibMax

end
-- ==== Proof.RefStages.lean ====
/- The reference, stage by stage, read at an index. Its index array pairs every k < 2048 with itself; the gather through
   it reads the diagonal x[0, h, k, k]; the scatter through it writes minus infinity on the diagonal and leaves the rest;
   two reductions with the maximum then run over the columns and over the rows. -/
import proofs.«210750_g14534169330353_cont_week2b_1167_29_alg».proof.Proof.Gen.ReferenceIdeal
import proofs.«210750_g14534169330353_cont_week2b_1167_29_alg».proof.Proof.LibMax

noncomputable section

namespace Cert.ReferenceIdeal.RefValue

open Cert.ReferenceIdeal Idealize.ShloMosaic Idealize.ShloMosaic.ValueIdx Cert.LibMax

open Facts₀ Facts

/-- One column of the index array: row k holds k (an iota whose negative entries would be wrapped by 2048; none is). -/
def col : IVec S2048x1 32 :=
  broadcastInDim S2048x1 ![0] bcast_S2048_S2048x1_0
    (select (cmpi .slt (iotaInDim S2048 32 0) (broadcastInDim S2048 ![] bcast_S_S2048 (constantI S_ 32 0#32)))
      (addi (iotaInDim S2048 32 0) (broadcastInDim S2048 ![] bcast_S_S2048 (constantI S_ 32 2048#32))) (iotaInDim S2048 32 0))

/-- The index array: row k is the pair (k, k). -/
def pairs : IVec S2048x2 32 :=
  concatenate S2048x2 1 [⟨S2048x1, col⟩, ⟨S2048x1, col⟩] concatenates_S2048x1_S2048x1_S2048x2_d1

/-- A number below 2048 as a 32-bit word, read back signed, is itself. -/
theorem toInt_ofNat_small (k : Fin 2048) : (BitVec.ofNat 32 k.val).toInt = (k.val : Int) := by
  have hk := k.isLt
  rw [BitVec.toInt_eq_toNat_cond, BitVec.toNat_ofNat]
  have : k.val % 2 ^ 32 = k.val := Nat.mod_eq_of_lt (by omega)
  rw [this, if_pos (by omega)]

theorem col_apply (k : Fin 2048) : col (ix2 k (0 : Fin 1)) = BitVec.ofNat 32 k.val := by
  unfold col
  rw [broadcastInDim_apply _ bcast_S2048_S2048x1_0 _ (ix2 k (0 : Fin 1)) (ix1 k) (fun a => match a with
    | ⟨0, _⟩ => by show k.val = if (2048 : Nat) = 1 then 0 else k.val; rw [if_neg (by decide)])]
  show Scalar.select (IntOp.cmpi .slt (BitVec.ofNat 32 k.val) 0#32) _ (BitVec.ofNat 32 k.val) = _
  have h0 : IntOp.cmpi .slt (BitVec.ofNat 32 k.val) 0#32 = 0#1 := by
    unfold IntOp.cmpi
    have : (BitVec.ofNat 32 k.val).slt 0#32 = false := by
      rw [BitVec.slt, toInt_ofNat_small]; simp
    simp only [this]; rfl
  rw [h0, select_zero]

theorem pairs_apply0 (k : Fin 2048) : pairs (ix2 k (0 : Fin 2)) = BitVec.ofNat 32 k.val := by
  unfold pairs
  rw [concatenate_pair_apply_left (t := S2048x2) (1 : Fin 2) col col concatenates_S2048x1_S2048x1_S2048x2_d1
    (ix2 k (0 : Fin 2)) rfl (ix2 k (0 : Fin 1)) (fun b => match b with | ⟨0, _⟩ => rfl | ⟨1, _⟩ => rfl)]
  exact col_apply k

theorem pairs_apply1 (k : Fin 2048) : pairs (ix2 k (1 : Fin 2)) = BitVec.ofNat 32 k.val := by
  unfold pairs
  rw [concatenate_pair_apply_right (t := S2048x2) (1 : Fin 2) col col concatenates_S2048x1_S2048x1_S2048x2_d1
    (ix2 k (1 : Fin 2)) rfl rfl (ix2 k (0 : Fin 1))
    (fun b => match b with | ⟨0, _⟩ => fun _ => rfl | ⟨1, _⟩ => fun h => absurd rfl h) rfl]
  exact col_apply k

/-- Both entries of row k of the index array are k. -/
theorem pairs_apply (k : Fin 2048) (c : Fin 2) : pairs (ix2 k c) = BitVec.ofNat 32 k.val := by
  match c with
  | ⟨0, _⟩ => exact pairs_apply0 k
  | ⟨1, _⟩ => exact pairs_apply1 k

/-- The gather's dimension numbers: the two trailing axes are indexed, the two leading ones kept whole. -/
abbrev gd : GatherDims S1x16x2048x2048 S2048x2 S1x16x2048 := gather_S1x16x2048x2048_S2048x2_S1x16x2048_01_23_n_n_23_1_11611
/-- The scatter's dimension numbers: the same, for writing. -/
abbrev sd : ScatterDims S1x16x2048x2048 S2048x2 S1x16x2048 := scatter_S1x16x2048x2048_S2048x2_S1x16x2048_01_23_23_1

/-- The start-indices position that result index (a, b, k) reads component c of its start index from: (k, c). -/
theorem gd_siIdx (j : S1x16x2048.Idx) (c : Fin 2) (hc : c.val < gd.startIndexMap.length) :
    gd.siIdx j ⟨c.val, hc⟩ = ix2 (j 2) c := by
  funext b; refine Fin.ext ?_
  match b with
  | ⟨0, _⟩ => rfl
  | ⟨1, _⟩ => rfl

theorem gd_axis0 {w : Nat} (j : S1x16x2048.Idx) (idx : IVec S2048x2 w) :
    gd.start j idx 0 + gd.offCoord j 0 = (j 0).val := by
  unfold GatherDims.start GatherDims.offCoord
  rw [dif_neg (by decide), dif_pos (by decide), Nat.zero_add]
  exact congrArg (fun q => (j q).val) (by decide)

theorem gd_axis1 {w : Nat} (j : S1x16x2048.Idx) (idx : IVec S2048x2 w) :
    gd.start j idx 1 + gd.offCoord j 1 = (j 1).val := by
  unfold GatherDims.start GatherDims.offCoord
  rw [dif_neg (by decide), dif_pos (by decide), Nat.zero_add]
  exact congrArg (fun q => (j q).val) (by decide)

theorem gd_axis2 {w : Nat} (j : S1x16x2048.Idx) (idx : IVec S2048x2 w) :
    gd.start j idx 2 + gd.offCoord j 2 = min (idx (ix2 (j 2) (0 : Fin 2))).toInt.toNat 2047 := by
  unfold GatherDims.start GatherDims.offCoord
  rw [dif_pos (by decide), dif_neg (by decide)]
  rw [show (⟨List.idxOf (2 : Fin 4) gd.startIndexMap, List.idxOf_lt_length_iff.2 (by decide)⟩ : Fin gd.startIndexMap.length)
    = ⟨(0 : Fin 2).val, by decide⟩ from Fin.ext (by decide), gd_siIdx j 0 (by decide)]
  rfl

theorem gd_axis3 {w : Nat} (j : S1x16x2048.Idx) (idx : IVec S2048x2 w) :
    gd.start j idx 3 + gd.offCoord j 3 = min (idx (ix2 (j 2) (1 : Fin 2))).toInt.toNat 2047 := by
  unfold GatherDims.start GatherDims.offCoord
  rw [dif_pos (by decide), dif_neg (by decide)]
  rw [show (⟨List.idxOf (3 : Fin 4) gd.startIndexMap, List.idxOf_lt_length_iff.2 (by decide)⟩ : Fin gd.startIndexMap.length)
    = ⟨(1 : Fin 2).val, by decide⟩ from Fin.ext (by decide), gd_siIdx j 1 (by decide)]
  rfl

/-- An index below 2048, clamped into [0, 2047], is itself. -/
theorem clamp_small (k : Fin 2048) (c : Fin 2) : min (pairs (ix2 k c)).toInt.toNat 2047 = k.val := by
  rw [pairs_apply, toInt_ofNat_small, Int.toNat_natCast]
  have := k.isLt; omega

/-- The gather through the index array reads the diagonal. -/
theorem gather_apply {α : Type} (x : S1x16x2048x2048.Idx → α) (a : Fin 1) (b : Fin 16) (k : Fin 2048) :
    Host.gather gd x pairs (ix3 a b k) = x (ix4 a b k k) := by
  unfold Host.gather
  refine congrArg x (funext fun e => Fin.ext ?_)
  show gd.start (ix3 a b k) pairs e + gd.batchCoord (ix3 a b k) e + gd.offCoord (ix3 a b k) e = (ix4 a b k k e).val
  rw [GatherDims.batchCoord_eq_zero _ _ _ List.not_mem_nil, Nat.add_zero]
  match e with
  | ⟨0, _⟩ => exact gd_axis0 (ix3 a b k) pairs
  | ⟨1, _⟩ => exact gd_axis1 (ix3 a b k) pairs
  | ⟨2, _⟩ => exact (gd_axis2 (ix3 a b k) pairs).trans (clamp_small k 0)
  | ⟨3, _⟩ => exact (gd_axis3 (ix3 a b k) pairs).trans (clamp_small k 1)

/-- The scatter-indices position that update index (a, b, k) reads component c of its start index from: (k, c). -/
theorem sd_siIdx (j : S1x16x2048.Idx) (c : Fin 2) (hc : c.val < sd.scatterDimsToOperandDims.length) :
    sd.siIdx j ⟨c.val, hc⟩ = ix2 (j 2) c := by
  funext b; refine Fin.ext ?_
  match b with
  | ⟨0, _⟩ => rfl
  | ⟨1, _⟩ => rfl

theorem sd_axis0 {w : Nat} (j : S1x16x2048.Idx) (idx : IVec S2048x2 w) :
    sd.start j idx 0 + (sd.window j 0 : Int) = ((j 0).val : Int) := by
  unfold ScatterDims.start ScatterDims.window
  rw [dif_neg (by decide), dif_pos (by decide), Int.zero_add]
  exact congrArg (fun q => ((j q).val : Int)) (by decide)

theorem sd_axis1 {w : Nat} (j : S1x16x2048.Idx) (idx : IVec S2048x2 w) :
    sd.start j idx 1 + (sd.window j 1 : Int) = ((j 1).val : Int) := by
  unfold ScatterDims.start ScatterDims.window
  rw [dif_neg (by decide), dif_pos (by decide), Int.zero_add]
  exact congrArg (fun q => ((j q).val : Int)) (by decide)

theorem sd_axis2 {w : Nat} (j : S1x16x2048.Idx) (idx : IVec S2048x2 w) :
    sd.start j idx 2 + (sd.window j 2 : Int) = (idx (ix2 (j 2) (0 : Fin 2))).toInt := by
  unfold ScatterDims.start ScatterDims.window
  rw [dif_pos (by decide), dif_neg (by decide)]
  rw [show (⟨List.idxOf (2 : Fin 4) sd.scatterDimsToOperandDims, List.idxOf_lt_length_iff.2 (by decide)⟩ : Fin sd.scatterDimsToOperandDims.length)
    = ⟨(0 : Fin 2).val, by decide⟩ from Fin.ext (by decide), sd_siIdx j 0 (by decide)]
  simp

theorem sd_axis3 {w : Nat} (j : S1x16x2048.Idx) (idx : IVec S2048x2 w) :
    sd.start j idx 3 + (sd.window j 3 : Int) = (idx (ix2 (j 2) (1 : Fin 2))).toInt := by
  unfold ScatterDims.start ScatterDims.window
  rw [dif_pos (by decide), dif_neg (by decide)]
  rw [show (⟨List.idxOf (3 : Fin 4) sd.scatterDimsToOperandDims, List.idxOf_lt_length_iff.2 (by decide)⟩ : Fin sd.scatterDimsToOperandDims.length)
    = ⟨(1 : Fin 2).val, by decide⟩ from Fin.ext (by decide), sd_siIdx j 1 (by decide)]
  simp

/-- Update (a, b, k) lands on the diagonal position (a, b, k, k), axis by axis. -/
theorem sd_axis (j : S1x16x2048.Idx) (e : Fin 4) :
    sd.start j pairs e + (sd.window j e : Int) = ((ix4 (j 0) (j 1) (j 2) (j 2) e).val : Int) := by
  match e with
  | ⟨0, _⟩ => exact sd_axis0 j pairs
  | ⟨1, _⟩ => exact sd_axis1 j pairs
  | ⟨2, _⟩ => exact (sd_axis2 j pairs).trans ((congrArg BitVec.toInt (pairs_apply (j 2) 0)).trans (toInt_ofNat_small (j 2)))
  | ⟨3, _⟩ => exact (sd_axis3 j pairs).trans ((congrArg BitVec.toInt (pairs_apply (j 2) 1)).trans (toInt_ofNat_small (j 2)))

theorem resultIdx_apply (j : S1x16x2048.Idx) :
    sd.resultIdx? j pairs = some (ix4 (j 0) (j 1) (j 2) (j 2)) := by
  unfold ScatterDims.resultIdx?
  have h : ∀ a, 0 ≤ sd.start j pairs a + (sd.window j a : Int)
      ∧ sd.start j pairs a + (sd.window j a : Int) < S1x16x2048x2048.size a := fun a => by
    rw [sd_axis]
    exact ⟨Int.natCast_nonneg _, by exact_mod_cast (ix4 (j 0) (j 1) (j 2) (j 2) a).isLt⟩
  rw [dif_pos h]
  refine congrArg some (funext fun e => Fin.ext ?_)
  show (sd.start j pairs e + (sd.window j e : Int)).toNat = _
  rw [sd_axis, Int.toNat_natCast]

/-- The array with minus infinity written on its diagonal. -/
def masked (x : FVec Ideal S1x16x2048x2048 .f32) : FVec Ideal S1x16x2048x2048 .f32 :=
  Host.scatter sd (fun _ b => b) x pairs
    (broadcastInDim S1x16x2048 ![] bcast_S_S1x16x2048 (constant (F := Ideal) S_ .f32 0xFF800000#32))

/-- It holds minus infinity where row and column agree, and the array elsewhere. -/
theorem masked_apply (x : FVec Ideal S1x16x2048x2048 .f32) (a : Fin 1) (b : Fin 16) (r c : Fin 2048) :
    masked x (ix4 a b r c) = if r = c then (⊥ : EReal) else x (ix4 a b r c) := by
  unfold masked
  have hupd : broadcastInDim S1x16x2048 ![] bcast_S_S1x16x2048 (constant (F := Ideal) S_ .f32 0xFF800000#32)
      = fun _ => (⊥ : EReal) :=
    funext fun _ => (show Ideal.ofBits .f32 0xFF800000#32 = (⊥ : EReal) from ofBits_neg_inf)
  rw [hupd, scatter_const_apply]
  refine if_congr ⟨?_, ?_⟩ rfl rfl
  · rintro ⟨j, hj⟩
    rw [resultIdx_apply] at hj
    have e := Option.some.inj hj
    have e2 : j 2 = r := congrFun e 2
    have e3 : j 2 = c := congrFun e 3
    exact e2.symm.trans e3
  · rintro rfl
    exact ⟨ix3 a b r, resultIdx_apply _⟩

end Cert.ReferenceIdeal.RefValue

end
-- ==== Proof.Spec.lean ====
/- The specification. For an array x of shape [1, 16, 2048, 2048] the result has 32 entries: entry h < 16 is the
   supremum of the diagonal of x[0, h], entry 16 + h the supremum of its off-diagonal entries (written as the supremum
   over all (r, c) of the entry with the diagonal replaced by minus infinity, the least extended real). -/
import Idealize.ShloMosaic.PureOps.Ideal
import Idealize.ShloMosaic.Lib.ValueIdx

noncomputable section

namespace Cert.Spec

open Idealize.ShloMosaic Idealize.ShloMosaic.ValueIdx

/-- The argument's shape and the result's. -/
abbrev SX : Shape := ⟨4, ![1, 16, 2048, 2048]⟩
abbrev SY : Shape := ⟨2, ![1, 32]⟩

/-- The supremum of the diagonal of head h. -/
def diagSup (x : FVec Ideal SX .f32) (h : Fin 16) : EReal :=
  Finset.univ.sup fun d : Fin 2048 => x (ix4 (0 : Fin 1) h d d)

/-- Head h with its diagonal replaced by minus infinity. -/
def offEntry (x : FVec Ideal SX .f32) (h : Fin 16) (r c : Fin 2048) : EReal :=
  if r = c then ⊥ else x (ix4 (0 : Fin 1) h r c)

/-- The supremum of the off-diagonal entries of head h. -/
def offSup (x : FVec Ideal SX .f32) (h : Fin 16) : EReal :=
  Finset.univ.sup fun r : Fin 2048 => Finset.univ.sup fun c : Fin 2048 => offEntry x h r c

/-- The result, index by index: the sixteen diagonal suprema, then the sixteen off-diagonal ones. -/
def G (x : FVec Ideal SX .f32) : FVec Ideal SY .f32 := fun i =>
  if h : (i 1).val < 16 then diagSup x ⟨(i 1).val, h⟩
  else offSup x ⟨(i 1).val - 16, by have := idx2_lt1 i; omega⟩

theorem G_diag (x : FVec Ideal SX .f32) (z : Fin 1) (h : Fin 16) :
    G x (ix2 z (⟨h.val, by have := h.isLt; omega⟩ : Fin 32)) = diagSup x h := by
  unfold G
  rw [dif_pos (show (ix2 z (⟨h.val, _⟩ : Fin 32) 1).val < 16 from h.isLt)]

theorem G_off (x : FVec Ideal SX .f32) (z : Fin 1) (h : Fin 16) :
    G x (ix2 z (⟨16 + h.val, by have := h.isLt; omega⟩ : Fin 32)) = offSup x h := by
  unfold G
  rw [dif_neg (show ¬ (ix2 z (⟨16 + h.val, _⟩ : Fin 32) 1).val < 16 from by show ¬ (16 + h.val < 16); omega)]
  congr 1
  exact Fin.ext (by show 16 + h.val - 16 = h.val; omega)

end Cert.Spec

end
-- ==== Proof.RefValue.lean ====
/- The reference's value is the specification: its first sixteen results are the suprema of the diagonals (a gather of
   the diagonal, then a reduction with the maximum), its last sixteen the suprema off the diagonals (minus infinity
   scattered onto the diagonal, then reductions over the columns and over the rows), joined along the last axis. With
   the reference's run this gives its frame and its value. -/
import proofs.«210750_g14534169330353_cont_week2b_1167_29_alg».proof.Defs
import proofs.«210750_g14534169330353_cont_week2b_1167_29_alg».proof.Proof.Gen.Pre_finite_inputs
import proofs.«210750_g14534169330353_cont_week2b_1167_29_alg».proof.Proof.RefRun
import proofs.«210750_g14534169330353_cont_week2b_1167_29_alg».proof.Proof.RefStages
import proofs.«210750_g14534169330353_cont_week2b_1167_29_alg».proof.Proof.Spec

noncomputable section

namespace Cert.ReferenceIdeal.RefValue

open Cert.ReferenceIdeal Idealize.ShloMosaic Idealize.ShloMosaic.TcCoe Idealize.SL.Sem
open Idealize.ShloMosaic.ValueIdx Cert.LibMax
open Facts₀ Facts

/-- The specification, at the reference's shapes. -/
abbrev G (x : FVec Ideal S1x16x2048x2048 .f32) : FVec Ideal S1x32 .f32 := Cert.Spec.G x

theorem red2 : S1x16x2048.Reduces [2] S1x16 := by decide
theorem red3 : S1x16x2048x2048.Reduces [3] S1x16x2048 := by decide

/-- A result index of the reduction over the last of three axes, with k put back. -/
theorem lift2 (a : Fin 1) (b : Fin 16) (k : Fin 2048) : red2.lift (ix2 a b) k = ix3 a b k := by
  funext c; apply Fin.ext
  fin_cases c <;> rfl

/-- A result index of the reduction over the last of four axes, with c put back. -/
theorem lift3 (a : Fin 1) (b : Fin 16) (r c : Fin 2048) : red3.lift (ix3 a b r) c = ix4 a b r c := by
  funext e; apply Fin.ext
  fin_cases e <;> rfl

/-- The reference's result as one term of its argument. -/
def refOut (x : FVec Ideal S1x16x2048x2048 .f32) : FVec Ideal S1x32 .f32 :=
  concatenate S1x32 1
    [⟨S1x16, Host.reduce FloatOps.maximumf (Host.gather gd x pairs) (constant S_ .f32 0xFF800000#32)
        reducesTo_S1x16x2048_S1x16_d2 h_S_⟩,
     ⟨S1x16, Host.reduce FloatOps.maximumf
        (Host.reduce FloatOps.maximumf (masked x) (constant S_ .f32 0xFF800000#32) reducesTo_S1x16x2048x2048_S1x16x2048_d3 h_S_)
        (constant S_ .f32 0xFF800000#32) reducesTo_S1x16x2048_S1x16_d2 h_S_⟩]
    concatenates_S1x16_S1x16_S1x32_d1

/-- The maximum of the gathered diagonal of head h is the diagonal's supremum. -/
theorem diag_entry (x : FVec Ideal S1x16x2048x2048 .f32) (z : Fin 1) (h : Fin 16) :
    Host.reduce FloatOps.maximumf (Host.gather gd x pairs) (constant (F := Ideal) S_ .f32 0xFF800000#32)
      reducesTo_S1x16x2048_S1x16_d2 h_S_ (ix2 z h) = Cert.Spec.diagSup x h := by
  obtain rfl : z = 0 := Subsingleton.elim _ _
  rw [hostReduce_max_single _ _ red2 _ _]
  unfold Cert.Spec.diagSup
  refine Finset.sup_congr rfl fun k _ => ?_
  exact (congrArg (Host.gather gd x pairs) (lift2 0 h k)).trans (gather_apply x 0 h k)

/-- The maximum over the rows of the maxima over the columns of head h with its diagonal masked is the off-diagonal
    supremum. -/
theorem off_entry (x : FVec Ideal S1x16x2048x2048 .f32) (z : Fin 1) (h : Fin 16) :
    Host.reduce FloatOps.maximumf
      (Host.reduce FloatOps.maximumf (masked x) (constant (F := Ideal) S_ .f32 0xFF800000#32)
        reducesTo_S1x16x2048x2048_S1x16x2048_d3 h_S_)
      (constant (F := Ideal) S_ .f32 0xFF800000#32) reducesTo_S1x16x2048_S1x16_d2 h_S_ (ix2 z h) = Cert.Spec.offSup x h := by
  obtain rfl : z = 0 := Subsingleton.elim _ _
  rw [hostReduce_max_single _ _ red2 _ _]
  unfold Cert.Spec.offSup
  refine Finset.sup_congr rfl fun r _ => ?_
  refine (congrArg (Host.reduce FloatOps.maximumf (masked x) (constant (F := Ideal) S_ .f32 0xFF800000#32)
    reducesTo_S1x16x2048x2048_S1x16x2048_d3 h_S_) (lift2 0 h r)).trans ?_
  rw [hostReduce_max_single _ _ red3 _ _]
  refine Finset.sup_congr rfl fun c _ => ?_
  exact (congrArg (masked x) (lift3 0 h r c)).trans (masked_apply x 0 h r c)

/-- The reference's result is the specification. -/
theorem refOut_eq (x : FVec Ideal S1x16x2048x2048 .f32) : refOut x = G x := by
  funext i
  obtain ⟨z, q, rfl⟩ : ∃ (z : Fin 1) (q : Fin 32), i = ix2 z q := ⟨i 0, i 1, eq_ix2 i⟩
  unfold refOut
  by_cases hq : q.val < 16
  · rw [concatenate_pair_apply_left (t := S1x32) (1 : Fin 2) _ _ concatenates_S1x16_S1x16_S1x32_d1 (ix2 z q) rfl
      (ix2 z (⟨q.val, hq⟩ : Fin 16)) (fun b => match b with | ⟨0, _⟩ => rfl | ⟨1, _⟩ => rfl), diag_entry]
    exact (show Cert.Spec.G x (ix2 z q) = Cert.Spec.diagSup x ⟨q.val, hq⟩ from by unfold Cert.Spec.G; exact dif_pos hq).symm
  · have hq32 := q.isLt
    rw [concatenate_pair_apply_right (t := S1x32) (1 : Fin 2) _ _ concatenates_S1x16_S1x16_S1x32_d1 (ix2 z q) rfl rfl
      (ix2 z (⟨q.val - 16, by omega⟩ : Fin 16)) (fun b => match b with | ⟨0, _⟩ => fun _ => rfl | ⟨1, _⟩ => fun h => absurd rfl h)
      (by show q.val - 16 + 16 = q.val; omega), off_entry]
    exact (show Cert.Spec.G x (ix2 z q) = Cert.Spec.offSup x ⟨q.val - 16, by omega⟩ from by
      unfold Cert.Spec.G; exact dif_neg hq).symm

/-- The reference runs to the end and leaves its argument as it was. -/
theorem frame_ri : Cert.frame_ReferenceIdeal :=
  fun m ρ _ => (θ_run Cert.ReferenceIdeal.defs _ _).mono (fun _ h c => (h c).2) (RefRun.run (F := Ideal) m ρ)

/-- The reference runs to the end with its result the specification of its argument, the argument as it was. -/
theorem run_ref (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread _ _).loc Cert.ReferenceIdeal.main_v20) = G (m' ((c.tc : Thread _ _).loc Cert.ReferenceIdeal.main_arg0))
        ∧ r.2.mem ((c.tc : Thread _ _).loc Cert.ReferenceIdeal.main_arg0) = m' ((c.tc : Thread _ _).loc Cert.ReferenceIdeal.main_arg0)) :=
  (θ_run Cert.ReferenceIdeal.defs _ _).mono
    (fun _ h c => ⟨(h c).1.trans (refOut_eq (m' ((c.tc : Thread nD τ).loc main_arg0))), (h c).2⟩)
    (RefRun.run (F := Ideal) m' ρ')

end Cert.ReferenceIdeal.RefValue

end
-- ==== Proof.KIdealTc.lean ====
/-
  The TensorCore kernel's values at the extended reals: the value a grid point stores is the maximum of what its
  buffer held and of the point's block of rows off the diagonal; the two points of a head together give the maximum
  of the head's matrix off its diagonal.
-/
import proofs.«210750_g14534169330353_cont_week2b_1167_29_alg».proof.Proof.TcVal
import proofs.«210750_g14534169330353_cont_week2b_1167_29_alg».proof.Proof.LibMax
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandIdeal

open Cert.KernelIdeal Cert.KernelIdeal.Gen Cert.KernelIdeal.Hand
open Idealize.ShloMosaic Idealize.ShloMosaic.ValueIdx Cert.LibMax

/-- A reduction with the maximum, from minus infinity, into a shape with one entry: the supremum over the source. -/
theorem multiRed_max_total {s t : Shape} {axes : List (Fin s.rank)} (src : FVec Ideal s .f32) (h : s.Reduces axes t)
    (ht : ∀ b, t.size b = 1) (hφ : FKind.Formats .f32) (hacc : (0xFF800000#32 : BitVec 32) = FKind.maximumf.neutral .f32 hφ) (j : t.Idx) :
    multiReduction .maximumf axes t src 0xFF800000#32 h hφ hacc j = Finset.univ.sup src := by
  rw [multiReduction_maximumf_eq_fold, Finset.filter_true_of_mem (fun i _ => funext fun b => Fin.ext (by
    have := (h.drop i b).isLt; have := (j b).isLt; have := ht b; omega))]
  show Finset.fold max (Ideal.ofBits .f32 0xFF800000#32) src Finset.univ = _
  rw [ofBits_neg_inf, fold_max_bot]

/-- A reduction with the maximum, from minus infinity, over one axis: the supremum over that axis's coordinates. -/
theorem multiRed_max_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = Finset.univ.sup (fun k : Fin (s.size a) => src (h.lift j k)) := by
  rw [Ideal.multiReduction_maximumf_single]
  show Finset.fold max (Ideal.ofBits .f32 0xFF800000#32) _ Finset.univ = _
  rw [ofBits_neg_inf, fold_max_bot]
  rfl

/-- The column's stripe number as the body computes it: the floor of the column over 1024, by a signed division and
    its correction. -/
def tcChain (x : BitVec 32) : BitVec 32 :=
  let v19 := IntOp.divsi .vector x 1024#32
  let v22 : BitVec 32 := (IntOp.cmpi .sgt x 0#32).setWidth 32
  let v25 : BitVec 32 := (IntOp.cmpi .slt x 0#32).setWidth 32
  let v26 := IntOp.subi v22 v25
  let v31 : BitVec 32 := Scalar.subi (Scalar.extui (Scalar.cmpi .sgt 1024#32 0#32)) (Scalar.extui (Scalar.cmpi .slt 1024#32 0#32))
  let v33 := IntOp.cmpi .ne v26 v31
  let v35 := IntOp.remsi .vector x 1024#32
  let v37 := IntOp.cmpi .ne v35 0#32
  let v38 := IntOp.andi v33 v37
  let v40 := IntOp.subi v19 1#32
  Scalar.select v38 v40 v19

theorem k1_pay5_apply (i : S1x2048.Idx) : k1_pay5 i = tcChain (BitVec.ofNat 32 (i 1).val) := by
  show tcChain (iota .tc S1x2048 32 [1] iota_S1x2048_d1_w32 i) = _
  rw [iota_single_apply]

/-- Compared with a stripe number it says whether the column lies in that stripe. -/
theorem tcChain_eq : ∀ (b : Fin 2) (c : Fin 2048),
    IntOp.cmpi .eq (tcChain (BitVec.ofNat 32 c.val)) (BitVec.ofNat 32 b.val) = if c.val / 1024 = b.val then 1#1 else 0#1 := by
  decide +kernel

set_option maxHeartbeats 2000000 in
set_option maxRecDepth 200000 in
/-- The column maxima of a block. -/
theorem k1_pay4_apply (v0 : Vec Ideal S1x1024x2048 .f32) (z : Fin 1) (c : Fin 2048) :
    k1_pay4 v0 (ix2 z c) = Finset.univ.sup (fun r : Fin 1024 => v0 (ix3 (0 : Fin 1) r c)) := by
  unfold k1_pay4
  dsimp only
  rw [shapeCast_a_1a_apply]
  refine (multiRed_max_single _ _ _ _ _).trans ?_
  refine Finset.sup_congr rfl fun r _ => ?_
  rw [show reduces_S1024x2048_S2048.lift (ix1 c) r = ix2 r c from funext fun a => Fin.ext (by
    match a with | ⟨0, _⟩ => rfl | ⟨1, _⟩ => rfl)]
  exact shapeCast_1ab_ab_apply v0 _ r c

/-- Two 32-bit words of numbers below 1024 are equal exactly when the numbers are. -/
theorem cmpi_eq_small (r c : Fin 1024) : IntOp.cmpi .eq (BitVec.ofNat 32 r.val) (BitVec.ofNat 32 c.val) = if r = c then 1#1 else 0#1 := by
  have hr := r.isLt; have hc := c.isLt
  by_cases h : r = c
  · subst h; rw [if_pos rfl]; unfold IntOp.cmpi; simp
  · rw [if_neg h]
    have hne : BitVec.ofNat 32 r.val ≠ BitVec.ofNat 32 c.val := fun e => h (Fin.ext (by
      have := congrArg BitVec.toNat e
      rw [BitVec.toNat_ofNat, BitVec.toNat_ofNat, Nat.mod_eq_of_lt (by omega), Nat.mod_eq_of_lt (by omega)] at this
      exact this))
    have hb : (BitVec.ofNat 32 r.val == BitVec.ofNat 32 c.val) = false := by simpa using hne
    unfold IntOp.cmpi; simp [hb]

/-- The stripe with its diagonal masked. -/
abbrev offDiagVec (v4 : Vec Ideal S1x1024x1024 .f32) : FVec Ideal S1x1024x1024 .f32 :=
  shapeCast S1x1024x1024 (select (cmpi .eq (iota .tc S1024x1024 32 [0] iota_S1024x1024_d0_w32) (iota .tc S1024x1024 32 [1] iota_S1024x1024_d1_w32))
    (broadcast S1024x1024 (Scalar.ofBits (F := Ideal) .f32 0xFF800000#32)) (shapeCast S1024x1024 v4 shapeCasts_S1x1024x1024_S1024x1024))
    shapeCasts_S1024x1024_S1x1024x1024

set_option maxHeartbeats 1000000 in
theorem offDiagVec_apply (v4 : Vec Ideal S1x1024x1024 .f32) (z : Fin 1) (r c : Fin 1024) :
    offDiagVec v4 (ix3 z r c) = if r = c then (⊥ : EReal) else v4 (ix3 (0 : Fin 1) r c) := by
  unfold offDiagVec
  rw [shapeCast_ab_1ab_apply]
  show Scalar.select (IntOp.cmpi .eq (iota .tc S1024x1024 32 [0] iota_S1024x1024_d0_w32 (ix2 r c)) (iota .tc S1024x1024 32 [1] iota_S1024x1024_d1_w32 (ix2 r c)))
    (Ideal.ofBits .f32 0xFF800000#32) (shapeCast S1024x1024 v4 shapeCasts_S1x1024x1024_S1024x1024 (ix2 r c)) = _
  rw [iota_single_apply, iota_single_apply, shapeCast_1ab_ab_apply, ofBits_neg_inf]
  show Scalar.select (IntOp.cmpi .eq (BitVec.ofNat 32 r.val) (BitVec.ofNat 32 c.val)) _ _ = _
  rw [cmpi_eq_small]
  by_cases h : r = c
  · rw [if_pos h, if_pos h, select_one]
  · rw [if_neg h, if_neg h, select_zero]

set_option maxHeartbeats 2000000 in
set_option maxRecDepth 200000 in
/-- The stripe's maximum off its diagonal. -/
theorem k1_pay3_eq (v4 : Vec Ideal S1x1024x1024 .f32) :
    k1_pay3 v4 = Finset.univ.sup (fun r : Fin 1024 => Finset.univ.sup fun c : Fin 1024 =>
      if r = c then (⊥ : EReal) else v4 (ix3 (0 : Fin 1) r c)) := by
  unfold k1_pay3 extractAt shapeCast
  dsimp only
  refine (multiRed_max_total _ _ (fun b => by match b with | ⟨0, _⟩ => rfl) _ _ _).trans ?_
  show Finset.univ.sup (offDiagVec v4) = _
  apply le_antisymm
  · refine Finset.sup_le fun i _ => ?_
    obtain ⟨z, r, c, rfl⟩ : ∃ (z : Fin 1) (r c : Fin 1024), i = ix3 z r c := ⟨i 0, i 1, i 2, eq_ix3 (n0 := 1) (n1 := 1024) (n2 := 1024) i⟩
    rw [offDiagVec_apply]
    exact le_trans (Finset.le_sup (f := fun c' : Fin 1024 => if r = c' then (⊥ : EReal) else v4 (ix3 (0 : Fin 1) r c')) (Finset.mem_univ c))
      (Finset.le_sup (f := fun r' : Fin 1024 => Finset.univ.sup fun c' : Fin 1024 => if r' = c' then (⊥ : EReal) else v4 (ix3 (0 : Fin 1) r' c')) (Finset.mem_univ r))
  · refine Finset.sup_le fun r _ => Finset.sup_le fun c _ => ?_
    rw [← offDiagVec_apply v4 (0 : Fin 1) r c]
    exact Finset.le_sup (f := offDiagVec v4) (Finset.mem_univ (ix3 (0 : Fin 1) r c))

/-- The column maxima with one stripe masked. -/
abbrev maskedCols (b : Fin 2) (v16 : FVec Ideal S1x2048 .f32) : FVec Ideal S1x1x2048 .f32 :=
  shapeCast S1x1x2048 (select (cmpi .eq k1_pay5 (broadcast S1x2048 (BitVec.ofNat 32 b.val)))
    (broadcast S1x2048 (Scalar.ofBits (F := Ideal) .f32 0xFF800000#32)) v16) shapeCasts_S1x2048_S1x1x2048

set_option maxHeartbeats 1000000 in
theorem maskedCols_apply (b : Fin 2) (v16 : FVec Ideal S1x2048 .f32) (z1 z2 : Fin 1) (c : Fin 2048) :
    maskedCols b v16 (ix3 z1 z2 c) = if c.val / 1024 = b.val then (⊥ : EReal) else v16 (ix2 (0 : Fin 1) c) := by
  obtain rfl : z2 = 0 := Subsingleton.elim _ _
  unfold maskedCols
  rw [shapeCast_ab_1ab_apply]
  show Scalar.select (IntOp.cmpi .eq (k1_pay5 (ix2 (0 : Fin 1) c)) (BitVec.ofNat 32 b.val)) (Ideal.ofBits .f32 0xFF800000#32) (v16 (ix2 (0 : Fin 1) c)) = _
  rw [k1_pay5_apply, ofBits_neg_inf]
  show Scalar.select (IntOp.cmpi .eq (tcChain (BitVec.ofNat 32 c.val)) _) _ _ = _
  rw [tcChain_eq b c]
  by_cases h : c.val / 1024 = b.val
  · rw [if_pos h, if_pos h, select_one]
  · rw [if_neg h, if_neg h, select_zero]

set_option maxHeartbeats 2000000 in
set_option maxRecDepth 200000 in
/-- What a point stores: the buffer's contents joined with the masked column maxima and the stripe's value. -/
theorem k1_pay2_apply (b : Fin 2) (v14 : Ideal .f32) (v16 : FVec Ideal S1x2048 .f32) (v54 : Vec Ideal S1x1x128 .f32) (jdx : S1x1x128.Idx) :
    k1_pay2 (BitVec.ofNat 32 b.val) v14 v16 k1_pay5 v54 jdx
      = max (v54 jdx) (max (Finset.univ.sup fun c : Fin 2048 => if c.val / 1024 = b.val then (⊥ : EReal) else v16 (ix2 (0 : Fin 1) c)) v14) := by
  unfold k1_pay2 extractAt
  dsimp only
  rw [shapeCast_self]
  unfold shapeCast
  show max (v54 jdx) (max (multiReduction .maximumf [1, 2] S1 (maskedCols b v16) 0xFF800000#32 reduces_S1x1x2048_S1 _ _ _) v14) = _
  refine congrArg (fun e => max (v54 jdx) (max e v14)) ?_
  refine (multiRed_max_total _ _ (fun b => by match b with | ⟨0, _⟩ => rfl) _ _ _).trans ?_
  apply le_antisymm
  · refine Finset.sup_le fun i _ => ?_
    obtain ⟨z1, z2, c, rfl⟩ : ∃ (z1 z2 : Fin 1) (c : Fin 2048), i = ix3 z1 z2 c := ⟨i 0, i 1, i 2, eq_ix3 (n0 := 1) (n1 := 1) (n2 := 2048) i⟩
    rw [maskedCols_apply]
    exact Finset.le_sup (f := fun c : Fin 2048 => if c.val / 1024 = b.val then (⊥ : EReal) else v16 (ix2 (0 : Fin 1) c)) (Finset.mem_univ c)
  · refine Finset.sup_le fun c _ => ?_
    rw [← maskedCols_apply b v16 (0 : Fin 1) (0 : Fin 1) c]
    exact Finset.le_sup (f := maskedCols b v16) (Finset.mem_univ (ix3 (0 : Fin 1) (0 : Fin 1) c))

/-! ## A grid point's value, and the two points of a head -/

/-- The grid's second coordinate and the input window's block index at a point. -/
theorem tc_pt_facts : ∀ t : Fin cfg1.N, ((grid1.coords t) 1).val = t.val % 2 ∧ win1_0.index t (0 : Fin 3) = t.val / 2
    ∧ win1_0.index t (1 : Fin 3) = t.val % 2 ∧ win1_0.index t (2 : Fin 3) = 0 :=
  (by decide +kernel : ∀ t : Fin grid1.N, _)

/-- Column `c` of stripe `b`. -/
def scol (b : Fin 2) (c : Fin 1024) : Fin 2048 := ⟨1024 * b.val + c.val, by have := b.isLt; have := c.isLt; omega⟩
/-- Row `r` of the block of rows `b`. -/
def srow (b : Fin 2) (r : Fin 1024) : Fin 2048 := ⟨1024 * b.val + r.val, by have := b.isLt; have := r.isLt; omega⟩

theorem wholeIdx (x : S1x1024x2048.Idx) :
    (Rect.unit (s := S1x1024x2048) ![0, 0, 0] S1x1024x2048.size inb_S1x1024x2048_S1x1024x2048_0_0_0).toLoadRect.idx x = x :=
  funext fun a => Fin.ext (by
    rw [LoadRect.idx_apply]
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega)

theorem stripeIdx (i : grid1.Coords) (r c : Fin 1024) :
    (Rect.unit (s := S1x1024x2048) (k1_off1 i) S1x1024x1024.size (k1_off1_inb i)).toLoadRect.idx (ix3 (0 : Fin 1) r c)
      = ix3 (0 : Fin 1) r (scol (i 1) c) :=
  funext fun a => Fin.ext (by
    rw [LoadRect.idx_apply]
    show (k1_off1 i) a + 1 * ((ix3 (0 : Fin 1) r c) a).val = _
    rw [k1_off1_eq]
    match a with
    | ⟨0, _⟩ => rfl
    | ⟨1, _⟩ => show 0 + 1 * r.val = r.val; omega
    | ⟨2, _⟩ => show 1024 * (i 1).val + 1 * c.val = 1024 * (i 1).val + c.val; omega)

/-- What a block of rows contributes: the column maxima outside stripe `b`, and stripe `b` off its diagonal. -/
def blkMax (b : Fin 2) (blk : Vec Ideal S1x1024x2048 .f32) : EReal :=
  max (Finset.univ.sup fun c : Fin 2048 => if c.val / 1024 = b.val then (⊥ : EReal) else Finset.univ.sup fun r : Fin 1024 => blk (ix3 (0 : Fin 1) r c))
    (Finset.univ.sup fun r : Fin 1024 => Finset.univ.sup fun c : Fin 1024 => if r = c then (⊥ : EReal) else blk (ix3 (0 : Fin 1) r (scol b c)))

set_option maxHeartbeats 1000000 in
/-- A grid point's value: what the accumulation starts from, joined with the block's contribution. -/
theorem tcPoint_ideal (t : Fin cfg1.N) (blk : Vec Ideal S1x1024x2048 .f32) (prev : Vec Ideal S1x1x128 .f32) (jdx : S1x1x128.Idx) :
    tcPoint (F := Ideal) t blk prev jdx
      = max ((if ((grid1.coords t) 1).val = 0 then k1_pay1 (F := Ideal) else prev) jdx) (blkMax ((grid1.coords t) 1) blk) := by
  unfold tcPoint blkMax
  rw [k1_pay2_apply ((grid1.coords t) 1), k1_pay3_eq]
  refine congrArg (fun e => max _ e) ?_
  refine congrArg₂ max ?_ ?_
  · refine Finset.sup_congr rfl fun c _ => ?_
    rw [k1_pay4_apply]
    exact if_congr Iff.rfl rfl (Finset.sup_congr rfl fun r _ => congrArg blk (wholeIdx _))
  · refine Finset.sup_congr rfl fun r _ => Finset.sup_congr rfl fun c _ => ?_
    rw [stripeIdx]

/-- The block the pipeline stages at the point of head `h` and rows `b`, entry by entry. -/
theorem tcBlk_apply (x0 : FVec Ideal S16x2048x2048 .f32) (t : Fin cfg1.N) (r : Fin 1024) (c : Fin 2048)
    (h : Fin 16) (b : Fin 2) (ht : t.val = 2 * h.val + b.val) :
    tcBlk x0 t (ix3 (0 : Fin 1) r c) = x0 (ix3 h (srow b r) c) := by
  obtain ⟨-, e0, e1, e2⟩ := tc_pt_facts t
  have hb := b.isLt
  unfold tcBlk
  refine congrArg x0 (funext fun a => Fin.ext ?_)
  match a with
  | ⟨0, _⟩ => show win1_0.index t (0 : Fin 3) * 1 + 1 * 0 = h.val; rw [e0, ht]; omega
  | ⟨1, _⟩ => show win1_0.index t (1 : Fin 3) * 1024 + 1 * r.val = 1024 * b.val + r.val; rw [e1, ht]; omega
  | ⟨2, _⟩ => show win1_0.index t (2 : Fin 3) * 2048 + 1 * c.val = c.val; rw [e2]; omega

/-- The maximum of head `h` off its diagonal. -/
def offSupX (x0 : FVec Ideal S16x2048x2048 .f32) (h : Fin 16) : EReal :=
  Finset.univ.sup fun R : Fin 2048 => Finset.univ.sup fun c : Fin 2048 => if R = c then (⊥ : EReal) else x0 (ix3 h R c)

/-- The same over the block of rows `b` only. -/
def rowsSupX (x0 : FVec Ideal S16x2048x2048 .f32) (h : Fin 16) (b : Fin 2) : EReal :=
  Finset.univ.sup fun r : Fin 1024 => Finset.univ.sup fun c : Fin 2048 => if srow b r = c then (⊥ : EReal) else x0 (ix3 h (srow b r) c)

theorem srow_div (b : Fin 2) (r : Fin 1024) : (srow b r).val / 1024 = b.val := by
  have := r.isLt; show (1024 * b.val + r.val) / 1024 = b.val; omega

/-- A staged block's contribution is the maximum of its rows off the diagonal. -/
theorem blkMax_tcBlk (x0 : FVec Ideal S16x2048x2048 .f32) (t : Fin cfg1.N) (h : Fin 16) (b : Fin 2) (ht : t.val = 2 * h.val + b.val) :
    blkMax b (tcBlk x0 t) = rowsSupX x0 h b := by
  unfold blkMax rowsSupX
  apply le_antisymm
  · refine max_le (Finset.sup_le fun c _ => ?_) (Finset.sup_le fun r _ => Finset.sup_le fun c' _ => ?_)
    · by_cases hc : c.val / 1024 = b.val
      · rw [if_pos hc]; exact bot_le
      · rw [if_neg hc]
        refine Finset.sup_le fun r _ => ?_
        rw [tcBlk_apply x0 t r c h b ht]
        have hne : srow b r ≠ c := fun e => hc (by rw [← e]; exact srow_div b r)
        refine le_trans ?_ (Finset.le_sup (f := fun r : Fin 1024 => Finset.univ.sup fun c : Fin 2048 => if srow b r = c then (⊥ : EReal) else x0 (ix3 h (srow b r) c)) (Finset.mem_univ r))
        refine le_trans ?_ (Finset.le_sup (f := fun c : Fin 2048 => if srow b r = c then (⊥ : EReal) else x0 (ix3 h (srow b r) c)) (Finset.mem_univ c))
        rw [if_neg hne]
    · by_cases hrc : r = c'
      · rw [if_pos hrc]; exact bot_le
      · rw [if_neg hrc, tcBlk_apply x0 t r (scol b c') h b ht]
        have hne : srow b r ≠ scol b c' := fun e => hrc (Fin.ext (by
          have := congrArg Fin.val e; show r.val = c'.val
          change 1024 * b.val + r.val = 1024 * b.val + c'.val at this; omega))
        refine le_trans ?_ (Finset.le_sup (f := fun r : Fin 1024 => Finset.univ.sup fun c : Fin 2048 => if srow b r = c then (⊥ : EReal) else x0 (ix3 h (srow b r) c)) (Finset.mem_univ r))
        refine le_trans ?_ (Finset.le_sup (f := fun c : Fin 2048 => if srow b r = c then (⊥ : EReal) else x0 (ix3 h (srow b r) c)) (Finset.mem_univ (scol b c')))
        rw [if_neg hne]
  · refine Finset.sup_le fun r _ => Finset.sup_le fun c _ => ?_
    by_cases hrc : srow b r = c
    · rw [if_pos hrc]; exact bot_le
    · rw [if_neg hrc]
      by_cases hc : c.val / 1024 = b.val
      · -- the column lies in the block's own stripe
        have hcl := c.isLt
        have hb := b.isLt
        obtain ⟨c', rfl⟩ : ∃ c' : Fin 1024, c = scol b c' := ⟨⟨c.val - 1024 * b.val, by omega⟩, Fin.ext (by
          show c.val = 1024 * b.val + (c.val - 1024 * b.val); omega)⟩
        have hne : r ≠ c' := fun e => hrc (by rw [e]; rfl)
        refine le_trans ?_ (le_max_right _ _)
        refine le_trans ?_ (Finset.le_sup (f := fun r : Fin 1024 => Finset.univ.sup fun c : Fin 1024 => if r = c then (⊥ : EReal) else tcBlk x0 t (ix3 (0 : Fin 1) r (scol b c))) (Finset.mem_univ r))
        refine le_trans ?_ (Finset.le_sup (f := fun c : Fin 1024 => if r = c then (⊥ : EReal) else tcBlk x0 t (ix3 (0 : Fin 1) r (scol b c))) (Finset.mem_univ c'))
        rw [if_neg hne, tcBlk_apply x0 t r (scol b c') h b ht]
      · refine le_trans ?_ (le_max_left _ _)
        refine le_trans ?_ (Finset.le_sup (f := fun c : Fin 2048 => if c.val / 1024 = b.val then (⊥ : EReal) else Finset.univ.sup fun r : Fin 1024 => tcBlk x0 t (ix3 (0 : Fin 1) r c)) (Finset.mem_univ c))
        rw [if_neg hc]
        refine le_trans ?_ (Finset.le_sup (f := fun r : Fin 1024 => tcBlk x0 t (ix3 (0 : Fin 1) r c)) (Finset.mem_univ r))
        rw [tcBlk_apply x0 t r c h b ht]

/-- The two blocks of rows make the head. -/
theorem rowsSupX_join (x0 : FVec Ideal S16x2048x2048 .f32) (h : Fin 16) :
    max (max ⊥ (rowsSupX x0 h 0)) (rowsSupX x0 h 1) = offSupX x0 h := by
  rw [bot_sup_eq]
  unfold rowsSupX offSupX
  apply le_antisymm
  · refine max_le ?_ ?_ <;>
    · refine Finset.sup_le fun r _ => ?_
      exact Finset.le_sup (f := fun R : Fin 2048 => Finset.univ.sup fun c : Fin 2048 => if R = c then (⊥ : EReal) else x0 (ix3 h R c)) (Finset.mem_univ (srow _ r))
  · refine Finset.sup_le fun R _ => ?_
    have hR := R.isLt
    by_cases hb : R.val < 1024
    · obtain ⟨r, rfl⟩ : ∃ r : Fin 1024, R = srow 0 r := ⟨⟨R.val, hb⟩, Fin.ext (by show R.val = 1024 * 0 + R.val; omega)⟩
      refine le_trans ?_ (le_max_left _ _)
      exact Finset.le_sup (f := fun r : Fin 1024 => Finset.univ.sup fun c : Fin 2048 => if srow 0 r = c then (⊥ : EReal) else x0 (ix3 h (srow 0 r) c)) (Finset.mem_univ r)
    · obtain ⟨r, rfl⟩ : ∃ r : Fin 1024, R = srow 1 r := ⟨⟨R.val - 1024, by omega⟩, Fin.ext (by show R.val = 1024 * 1 + (R.val - 1024); omega)⟩
      refine le_trans ?_ (le_max_right _ _)
      exact Finset.le_sup (f := fun r : Fin 1024 => Finset.univ.sup fun c : Fin 2048 => if srow 1 r = c then (⊥ : EReal) else x0 (ix3 h (srow 1 r) c)) (Finset.mem_univ r)

/-- The two points of head `h`: the second point's value over the first's is the head's maximum off the diagonal. -/
theorem tcOut_core (x0 : FVec Ideal S16x2048x2048 .f32) (h : Fin 16) (hn1 : 2 * h.val + 1 < 32) (hn0 : 2 * h.val < 32) (jdx : S1x1x128.Idx) :
    tcPoint (F := Ideal) (tcPt (2 * h.val + 1) hn1) (tcBlk x0 (tcPt (2 * h.val + 1) hn1))
      (tcPoint (tcPt (2 * h.val) hn0) (tcBlk x0 (tcPt (2 * h.val) hn0)) (k1_pay1 (F := Ideal))) jdx = offSupX x0 h := by
  have h1 : ((grid1.coords (tcPt (2 * h.val + 1) hn1)) 1) = (1 : Fin 2) :=
    Fin.ext ((tc_pt_facts _).1.trans (by show (2 * h.val + 1) % 2 = 1; omega))
  have h0 : ((grid1.coords (tcPt (2 * h.val) hn0)) 1) = (0 : Fin 2) :=
    Fin.ext ((tc_pt_facts _).1.trans (by show (2 * h.val) % 2 = 0; omega))
  rw [tcPoint_ideal, h1, if_neg (by decide), tcPoint_ideal, h0, ite_self,
    blkMax_tcBlk x0 _ h 1 (by show 2 * h.val + 1 = _; rfl), blkMax_tcBlk x0 _ h 0 (by show 2 * h.val = _; rfl)]
  rw [show (k1_pay1 (F := Ideal)) jdx = (⊥ : EReal) from ofBits_neg_inf]
  exact rowsSupX_join x0 h

/-- THE TENSORCORE CALL'S VALUE: every lane of head `h`'s row of the result is the maximum of the head's matrix off its
    diagonal. -/
theorem tcOut_ideal (x0 : FVec Ideal S16x2048x2048 .f32) (y : S16x1x128.Idx) :
    tcOut (F := Ideal) x0 y = offSupX x0 (y 0) :=
  tcOut_core x0 (y 0) _ _ (tcLane (y 2))

end Cert.KernelIdeal.HandIdeal

end
-- ==== Proof.KIdealOff.lean ====
/-
  The TensorCore call's value on the argument itself: the first lane of head h's row of its result is the maximum of
  the head's matrix off its diagonal, as the specification spells it.
-/
import proofs.«210750_g14534169330353_cont_week2b_1167_29_alg».proof.Proof.KIdealTc
import proofs.«210750_g14534169330353_cont_week2b_1167_29_alg».proof.Proof.Spec

set_option maxRecDepth 16384

noncomputable section

namespace Cert.KernelIdeal.HandIdeal

open Cert.KernelIdeal Cert.KernelIdeal.Gen Cert.KernelIdeal.Hand
open Idealize.ShloMosaic Idealize.ShloMosaic.ValueIdx Cert.LibMax

/-- The argument viewed as sixteen matrices, entry by entry. -/
theorem x0_apply (x : FVec Ideal S1x16x2048x2048 .f32) (h : Fin 16) (R c : Fin 2048) :
    shapeCast S16x2048x2048 x shapeCasts_S1x16x2048x2048_S16x2048x2048 (ix3 h R c) = x (ix4 (0 : Fin 1) h R c) :=
  shapeCast_1abc_abc_apply x _ h R c

/-- The head's maximum off its diagonal, read on the argument itself. -/
theorem offSupX_eq (x : FVec Ideal S1x16x2048x2048 .f32) (h : Fin 16) :
    offSupX (shapeCast S16x2048x2048 x shapeCasts_S1x16x2048x2048_S16x2048x2048) h = Cert.Spec.offSup x h := by
  unfold offSupX Cert.Spec.offSup Cert.Spec.offEntry
  refine Finset.sup_congr rfl fun R _ => Finset.sup_congr rfl fun c _ => ?_
  rw [x0_apply]

/-- THE TENSORCORE CALL'S VALUE on the argument: lane 0 of head h's row is the specification's off-diagonal maximum. -/
theorem tc_value (x : FVec Ideal S1x16x2048x2048 .f32) (h : Fin 16) :
    tcOut (F := Ideal) (shapeCast S16x2048x2048 x shapeCasts_S1x16x2048x2048_S16x2048x2048) (ix3 h (0 : Fin 1) (0 : Fin 128))
      = Cert.Spec.offSup x h :=
  (tcOut_ideal _ _).trans (offSupX_eq x h)

/-- The same under its other name. -/
theorem off_value (x : FVec Ideal S1x16x2048x2048 .f32) (h : Fin 16) :
    tcOut (F := Ideal) (shapeCast S16x2048x2048 x shapeCasts_S1x16x2048x2048_S16x2048x2048) (ix3 h (0 : Fin 1) (0 : Fin 128))
      = Cert.Spec.offSup x h := tc_value x h

end Cert.KernelIdeal.HandIdeal

end
-- ==== Proof.KIdealAll.lean ====
/-
  The kernel's result at the extended reals, entry by entry: the host arithmetic after the two calls puts the sixteen
  per-head maxima of the SparseCore call's lanes first and the first lane of each head's row of the TensorCore call's
  result after them; the latter is the head's maximum off its diagonal.
-/
import proofs.«210750_g14534169330353_cont_week2b_1167_29_alg».proof.Proof.KIdealOff
import proofs.«210750_g14534169330353_cont_week2b_1167_29_alg».proof.Proof.ScVal

set_option maxRecDepth 16384

noncomputable section

namespace Cert.KernelIdeal.HandIdeal

open Cert.KernelIdeal Cert.KernelIdeal.Gen Cert.KernelIdeal.Hand
open Idealize.ShloMosaic Idealize.ShloMosaic.ValueIdx Cert.LibMax

/-- The sixteen per-head maxima of the SparseCore call's lanes, as the host computes them. -/
abbrev diagVec (v2 : Vec Ideal S32x16 .f32) : FVec Ideal S16 .f32 :=
  Host.reduce FloatOps.maximumf (shapeCast S16x32 v2 shapeCasts_S32x16_S16x32) (constant (F := Ideal) S_ .f32 0xFF800000#32) reducesTo_S16x32_S16_d1 h_S_

/-- The first half of the result: the per-head maxima of the lanes. -/
theorem hostTail_apply_diag (v2 : Vec Ideal S32x16 .f32) (v3 : Vec Ideal S16x1x128 .f32) (z : Fin 1) (h : Fin 16) :
    hostTail (F := Ideal) v2 v3 (ix2 z (⟨h.val, by have := h.isLt; omega⟩ : Fin 32)) = diagVec v2 (ix1 h) := by
  unfold hostTail
  rw [broadcastInDim_apply _ bcast_S32_S1x32_1 _ _ (ix1 (⟨h.val, by have := h.isLt; omega⟩ : Fin 32)) (fun a => match a with
    | ⟨0, _⟩ => by show h.val = if (32 : Nat) = 1 then 0 else h.val; rw [if_neg (by decide)])]
  exact concatenate_pair_apply_left (t := S32) (0 : Fin 1) _ _ concatenates_S16_S16_S32_d0 _ rfl (ix1 h)
    (fun b => match b with | ⟨0, _⟩ => rfl)

/-- The second half: the first lane of each head's row of the TensorCore call's result. -/
theorem hostTail_apply_off (v2 : Vec Ideal S32x16 .f32) (v3 : Vec Ideal S16x1x128 .f32) (z : Fin 1) (h : Fin 16) :
    hostTail (F := Ideal) v2 v3 (ix2 z (⟨16 + h.val, by have := h.isLt; omega⟩ : Fin 32)) = v3 (ix3 h (0 : Fin 1) (0 : Fin 128)) := by
  unfold hostTail
  rw [broadcastInDim_apply _ bcast_S32_S1x32_1 _ _ (ix1 (⟨16 + h.val, by have := h.isLt; omega⟩ : Fin 32)) (fun a => match a with
    | ⟨0, _⟩ => by show 16 + h.val = if (32 : Nat) = 1 then 0 else 16 + h.val; rw [if_neg (by decide)])]
  rw [concatenate_pair_apply_right (t := S32) (0 : Fin 1) _ _ concatenates_S16_S16_S32_d0 _ rfl rfl (ix1 h)
    (fun b => match b with | ⟨0, _⟩ => fun hne => absurd rfl hne) (by show h.val + 16 = 16 + h.val; omega)]
  rw [shapeCast_apply _ shapeCasts_S16x1x1_S16 _ (ix3 h (0 : Fin 1) (0 : Fin 1)) (by
    rw [Shape.rowMajor_val_three, Shape.rowMajor_val_one]; show (h.val * 1 + 0) * 1 + 0 = h.val; omega)]
  exact extractStridedSlice_apply _ v3 slices_S16x1x128_S16x1x1_0_0_0 _ (ix3 h (0 : Fin 1) (0 : Fin 128)) (fun a => match a with
    | ⟨0, _⟩ => by show h.val = 0 + h.val; omega
    | ⟨1, _⟩ => rfl
    | ⟨2, _⟩ => rfl)

/-- THE KERNEL'S VALUE, given the SparseCore side's closed form (the per-head maxima of its lanes are the diagonal's
    maxima): the specification. -/
theorem kernel_value_of_diag (x : FVec Ideal S1x16x2048x2048 .f32)
    (hD : ∀ h : Fin 16, diagVec (scOut (F := Ideal) (shapeCast S32768x2048 x shapeCasts_S1x16x2048x2048_S32768x2048)) (ix1 h) = Cert.Spec.diagSup x h) :
    hostTail (F := Ideal) (scOut (shapeCast S32768x2048 x shapeCasts_S1x16x2048x2048_S32768x2048))
      (tcOut (shapeCast S16x2048x2048 x shapeCasts_S1x16x2048x2048_S16x2048x2048)) = Cert.Spec.G x := by
  funext i
  obtain ⟨z, k, rfl⟩ : ∃ (z : Fin 1) (k : Fin 32), i = ix2 z k := ⟨i 0, i 1, eq_ix2 (n0 := 1) (n1 := 32) i⟩
  have hk := k.isLt
  by_cases hlt : k.val < 16
  · obtain ⟨h, hh⟩ : ∃ h : Fin 16, h.val = k.val := ⟨⟨k.val, hlt⟩, rfl⟩
    have hk' : k = (⟨h.val, by have := h.isLt; omega⟩ : Fin 32) := Fin.ext hh.symm
    rw [hk', hostTail_apply_diag, Cert.Spec.G_diag, hD]
  · obtain ⟨h, hh⟩ : ∃ h : Fin 16, 16 + h.val = k.val := ⟨⟨k.val - 16, by omega⟩, by show 16 + (k.val - 16) = k.val; omega⟩
    have hk' : k = (⟨16 + h.val, by have := h.isLt; omega⟩ : Fin 32) := Fin.ext hh.symm
    rw [hk', hostTail_apply_off, Cert.Spec.G_off, tc_value]

end Cert.KernelIdeal.HandIdeal

end
-- ==== Proof.KIdealDiag.lean ====
/- The diagonal side of the kernel at the extended reals. One staged 128×128 block is folded into the sixteen-lane
   accumulator row by row: row j offers its entry in column j to lane j mod 16 and minus infinity to every other lane,
   so after the block lane l holds the maximum of what it held and of the block's diagonal entries (j, j) with
   j ≡ l (mod 16). -/
import proofs.«210750_g14534169330353_cont_week2b_1167_29_alg».proof.Proof.ScVal
import proofs.«210750_g14534169330353_cont_week2b_1167_29_alg».proof.Proof.LibMax
import proofs.«210750_g14534169330353_cont_week2b_1167_29_alg».proof.Proof.Spec

noncomputable section

namespace Cert.KernelIdeal.HandIdeal

open Cert.KernelIdeal Cert.KernelIdeal.Gen Cert.KernelIdeal.Hand
open Idealize.ShloMosaic Idealize.SL.Sem Idealize.ShloMosaic.ValueIdx Cert.LibMax

section AnyFloat

variable {F : FTy → Type} [FloatOps F]

/-- One row folded into the accumulator: the lane whose number is `c` takes the row's entry, every other lane minus
    infinity, and the accumulator keeps the maximum. -/
def rowUpd (v33 : IVec S16 32) (c : BitVec 32) (row : Vec F S1x16 .f32) (acc : FVec F S16 .f32) : FVec F S16 .f32 :=
  maximumf acc (select (cmpi .eq v33 (broadcast S16 c)) (shapeCast S16 row shapeCasts_S1x16_S16) (broadcast S16 (Scalar.ofBits .f32 0xFF800000#32)))

theorem rowInb (j : ℕ) (hj : j < 128) : ∀ a, (![j, 16 * (j / 16)] : Fin 2 → ℕ) a + S1x16.size a ≤ S128x128.size a := by
  intro a
  match a with
  | ⟨0, _⟩ => show j + 1 ≤ 128; omega
  | ⟨1, _⟩ => show 16 * (j / 16) + 16 ≤ 128; omega

/-- Row `j` of the staged block: its sixteen lanes starting at column 16·⌊j/16⌋. -/
def rowAt (s : Vec F S128x128 .f32) (j : ℕ) (hj : j < 128) : Vec F S1x16 .f32 :=
  (Memref.whole cc0_scratch0 : Memref sig .scVector .vmem S128x128 .f32).view.readAt (Elt F) (Rect.unit (s := S128x128) ![j, 16 * (j / 16)] S1x16.size (rowInb j hj)).toLoadRect s

/-- The first `n` rows folded in, in order. -/
def rowsUpTo (s : Vec F S128x128 .f32) (v33 : IVec S16 32) (acc : FVec F S16 .f32) : (n : ℕ) → n ≤ 128 → FVec F S16 .f32
  | 0, _ => acc
  | n + 1, h => rowUpd v33 (BitVec.ofNat 32 (n % 16)) (rowAt s n (by omega)) (rowsUpTo s v33 acc n (by omega))

set_option maxRecDepth 1000000 in
set_option maxHeartbeats 4000000 in
/-- A whole block is its 128 rows folded in, in order. -/
theorem bandStep_eq (s : Vec F S128x128 .f32) (acc : FVec F S16 .f32) :
    bandStep s acc = rowsUpTo s (iota .scVector S16 32 [0] iota_S16_d0_w32_scVector) acc 128 (le_refl _) := by
  rfl

end AnyFloat

/-! ## At the extended reals, lane by lane -/

/-- Lane `l` of the lane counter is `l`. -/
theorem lanes_apply (l : Fin 16) :
    (iota .scVector S16 32 [0] iota_S16_d0_w32_scVector : IVec S16 32) (ix1 l) = BitVec.ofNat 32 l.val := by
  show BitVec.ofNat 32 (0 * 16 + l.val) = _
  rw [Nat.zero_mul, Nat.zero_add]

/-- Two numbers below 2^32 are the same word only when equal. -/
theorem ofNat_eq_iff {a b : ℕ} (ha : a < 16) (hb : b < 16) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · intro h; rw [h]

/-- A select on an equality of words is the `if`. -/
theorem select_eq {α : Type} (a c : BitVec 32) (x y : α) : Scalar.select (IntOp.cmpi .eq a c) x y = if a = c then x else y := by
  unfold IntOp.cmpi
  by_cases h : a = c
  · rw [if_pos h, h]; simp [Scalar.select]
  · rw [if_neg h]
    have : (a == c) = false := by simpa using h
    simp [Scalar.select, this]

/-- One row at lane `l`: the maximum of the lane and the row's entry there, if the lane is the row's. -/
theorem rowUpd_apply (v33 : IVec S16 32) (c : BitVec 32) (row : Vec Ideal S1x16 .f32) (acc : FVec Ideal S16 .f32) (l : Fin 16) :
    rowUpd v33 c row acc (ix1 l) = max (acc (ix1 l)) (if v33 (ix1 l) = c then row (ix2 (0 : Fin 1) l) else (⊥ : EReal)) := by
  unfold rowUpd
  show max (acc (ix1 l)) (Scalar.select (IntOp.cmpi .eq (v33 (ix1 l)) c)
    (shapeCast S16 row shapeCasts_S1x16_S16 (ix1 l)) (Ideal.ofBits .f32 0xFF800000#32)) = _
  rw [select_eq, ofBits_neg_inf, shapeCast_apply row shapeCasts_S1x16_S16 (ix1 l) (ix2 (0 : Fin 1) l)
    (by rw [Shape.rowMajor_val_two, Shape.rowMajor_val_one]; show 0 * 16 + l.val = l.val; omega)]

/-- Row `j` of the block at lane `l`: the entry in column 16·⌊j/16⌋ + l. -/
theorem rowAt_apply (s : Vec Ideal S128x128 .f32) (j : ℕ) (hj : j < 128) (l : Fin 16) :
    rowAt s j hj (ix2 (0 : Fin 1) l) = s (ix2 (⟨j, hj⟩ : Fin 128) (⟨16 * (j / 16) + l.val, by have := l.isLt; omega⟩ : Fin 128)) := by
  show s _ = s _
  refine congrArg s (funext fun a => Fin.ext ?_)
  match a with
  | ⟨0, _⟩ => show j + 1 * 0 = j; omega
  | ⟨1, _⟩ => show 16 * (j / 16) + 1 * l.val = 16 * (j / 16) + l.val; omega

/-- The diagonal entry `j` of a staged block, minus infinity past the block. -/
def diagAt (s : Vec Ideal S128x128 .f32) (j : ℕ) : EReal :=
  if h : j < 128 then s (ix2 (⟨j, h⟩ : Fin 128) (⟨j, h⟩ : Fin 128)) else ⊥

/-- After `n` rows lane `l` holds the maximum of what it held and the diagonal entries `j < n`, `j ≡ l` (mod 16). -/
theorem rowsUpTo_apply (s : Vec Ideal S128x128 .f32) (acc : FVec Ideal S16 .f32) (l : Fin 16) :
    ∀ (n : ℕ) (h : n ≤ 128),
      rowsUpTo s (iota .scVector S16 32 [0] iota_S16_d0_w32_scVector) acc n h (ix1 l)
        = max (acc (ix1 l)) ((Finset.range n).sup fun j => if j % 16 = l.val then diagAt s j else ⊥)
  | 0, _ => by simp [rowsUpTo]
  | n + 1, h => by
    have hl := l.isLt
    rw [rowsUpTo, rowUpd_apply, rowsUpTo_apply s acc l n (by omega), Finset.range_add_one, Finset.sup_insert, lanes_apply]
    by_cases hc : n % 16 = l.val
    · have hw : BitVec.ofNat 32 l.val = BitVec.ofNat 32 (n % 16) := by rw [hc]
      rw [if_pos hw, if_pos hc, rowAt_apply]
      have hd : diagAt s n = s (ix2 (⟨n, by omega⟩ : Fin 128) (⟨16 * (n / 16) + l.val, by omega⟩ : Fin 128)) := by
        unfold diagAt
        rw [dif_pos (by omega : n < 128)]
        exact congrArg (fun q => s (ix2 (⟨n, by omega⟩ : Fin 128) q)) (Fin.ext (by show n = 16 * (n / 16) + l.val; omega))
      rw [hd, max_assoc, max_comm ((Finset.range n).sup _)]
    · have hw : ¬ BitVec.ofNat 32 l.val = BitVec.ofNat 32 (n % 16) := fun e =>
        hc ((ofNat_eq_iff hl (Nat.mod_lt _ (by decide))).mp e).symm
      rw [if_neg hw, if_neg hc, max_bot_right, max_bot_left]

/-- One block at lane `l`. -/
theorem bandStep_apply (s : Vec Ideal S128x128 .f32) (acc : FVec Ideal S16 .f32) (l : Fin 16) :
    bandStep s acc (ix1 l)
      = max (acc (ix1 l)) ((Finset.range 128).sup fun j => if j % 16 = l.val then diagAt s j else ⊥) := by
  rw [bandStep_eq]
  exact rowsUpTo_apply s acc l 128 (le_refl _)

/-! ## A subcore's eight blocks, and the 32 rows of the result -/

/-- The array at a pair of numbers, minus infinity outside it. -/
def XN (X : Vec Ideal S32768x2048 .f32) (r c : ℕ) : EReal :=
  if h : r < 32768 ∧ c < 2048 then X (ix2 (⟨r, h.1⟩ : Fin 32768) (⟨c, h.2⟩ : Fin 2048)) else ⊥

theorem trips8 : k0_t1_loop.trips = 8 := by decide

/-- Where block `k` of subcore `s` of SparseCore `c` starts: row 2048·s + 1024·c + 128·k, column 1024·c + 128·k. -/
theorem off_closed : ∀ (c : Fin 2) (s : Fin 16) (k : Fin k0_t1_loop.trips),
    k0_off1 (coordsV c s) k 0 = s.val * 2048 + c.val * 1024 + 128 * k.val
      ∧ k0_off1 (coordsV c s) k 1 = c.val * 1024 + 128 * k.val := by
  decide +kernel

/-- The diagonal of block `k`, in the array's own coordinates. -/
theorem block_diag (c : Fin 2) (s : Fin 16) (X : Vec Ideal S32768x2048 .f32) (k : Fin k0_t1_loop.trips) (j : ℕ) (hj : j < 128) :
    diagAt ((bandM (coordsV c s) k).view.read (Elt Ideal) X) j
      = XN X (s.val * 2048 + c.val * 1024 + 128 * k.val + j) (c.val * 1024 + 128 * k.val + j) := by
  have ho := off_closed c s k
  have hk : k.val < 8 := trips8 ▸ k.isLt
  have hc := c.isLt
  have hs := s.isLt
  unfold diagAt XN
  rw [dif_pos hj, dif_pos ⟨by omega, by omega⟩]
  show X _ = X _
  refine congrArg X (funext fun a => Fin.ext ?_)
  match a with
  | ⟨0, _⟩ =>
    show k0_off1 (coordsV c s) k 0 + 1 * j = _
    rw [ho.1]; show _ = s.val * 2048 + c.val * 1024 + 128 * k.val + j; omega
  | ⟨1, _⟩ =>
    show k0_off1 (coordsV c s) k 1 + 1 * j = _
    rw [ho.2]; show _ = c.val * 1024 + 128 * k.val + j; omega

/-- After `k` blocks lane `l` of the subcore's accumulator holds the maximum of the diagonal entries of those blocks
    whose position in the block is `l` modulo 16. -/
theorem accAt_apply (c : Fin 2) (s : Fin 16) (X : Vec Ideal S32768x2048 .f32) (l : Fin 16) :
    ∀ (k : ℕ), k ≤ 8 →
      accAt (coordsV c s) X k (ix1 l)
        = (Finset.range k).sup fun kk => (Finset.range 128).sup fun j =>
            if j % 16 = l.val then XN X (s.val * 2048 + c.val * 1024 + 128 * kk + j) (c.val * 1024 + 128 * kk + j) else ⊥
  | 0, _ => by
    rw [Finset.range_zero, Finset.sup_empty]
    exact ofBits_neg_inf
  | k + 1, h => by
    have hk : k < k0_t1_loop.trips := by rw [trips8]; omega
    rw [accAt, dif_pos hk, bandStep_apply, accAt_apply c s X l k (by omega), Finset.range_add_one (n := k), Finset.sup_insert, max_comm]
    refine congrArg₂ (max : EReal → EReal → EReal) ?_ rfl
    show (Finset.range 128).sup _ = (Finset.range 128).sup _
    refine Finset.sup_congr rfl fun j hj => ?_
    have hj' : j < 128 := Finset.mem_range.mp hj
    show (if j % 16 = l.val then _ else (⊥ : EReal)) = (if j % 16 = l.val then _ else (⊥ : EReal))
    by_cases hc : j % 16 = l.val
    · rw [if_pos hc, if_pos hc]; exact block_diag c s X ⟨k, hk⟩ j hj'
    · rw [if_neg hc, if_neg hc]

/-- Row 2·h + c of the result belongs to subcore `h` of SparseCore `c`. -/
theorem tileOf_eq (h : Fin 16) (c : Fin 2) (hw : 2 * h.val + c.val < 32) : tileOf ⟨2 * h.val + c.val, hw⟩ = coordsV c h := by
  have hc := c.isLt
  unfold tileOf
  exact congrArg₂ coordsV (Fin.ext (by show (2 * h.val + c.val) % 2 = c.val; omega))
    (Fin.ext (by show (2 * h.val + c.val) / 2 = h.val; omega))

/-- Entry (2·h + c, l) of the result. -/
theorem scOut_closed (X : Vec Ideal S32768x2048 .f32) (h : Fin 16) (c : Fin 2) (l : Fin 16) (hw : 2 * h.val + c.val < 32) :
    scOut (F := Ideal) X (ix2 (⟨2 * h.val + c.val, hw⟩ : Fin 32) l)
      = (Finset.range 8).sup fun kk => (Finset.range 128).sup fun j =>
          if j % 16 = l.val then XN X (h.val * 2048 + c.val * 1024 + 128 * kk + j) (c.val * 1024 + 128 * kk + j) else ⊥ := by
  have e : scOut (F := Ideal) X (ix2 (⟨2 * h.val + c.val, hw⟩ : Fin 32) l)
      = accAt (tileOf ⟨2 * h.val + c.val, hw⟩) X k0_t1_loop.trips (ix1 l) := by
    unfold scOut k0_pay1
    show shapeCast S16 (accAt (tileOf ⟨2 * h.val + c.val, hw⟩) X k0_t1_loop.trips) shapeCasts_S16_S16 (ix1 l) = _
    rw [shapeCast_self]
  rw [e, tileOf_eq, trips8]
  exact accAt_apply c h X l 8 (le_refl _)

/-! ## The host's maximum over the 32 lanes of a head -/

theorem red1 : S16x32.Reduces [1] S16 := by decide

theorem lift1 (h : Fin 16) (q : Fin 32) : red1.lift (ix1 h) q = ix2 h q := by
  funext c; apply Fin.ext
  fin_cases c <;> rfl

/-- The 32×16 result regrouped as 16×32: entry (h, q) is entry (2·h + ⌊q/16⌋, q mod 16). -/
theorem regroup_apply (v : Vec Ideal S32x16 .f32) (h : Fin 16) (q : Fin 32) :
    shapeCast S16x32 v shapeCasts_S32x16_S16x32 (ix2 h q)
      = v (ix2 (⟨2 * h.val + q.val / 16, by have := h.isLt; have := q.isLt; omega⟩ : Fin 32) (⟨q.val % 16, Nat.mod_lt _ (by decide)⟩ : Fin 16)) := by
  refine shapeCast_apply v _ _ _ ?_
  rw [Shape.rowMajor_val_two, Shape.rowMajor_val_two]
  show (2 * h.val + q.val / 16) * 16 + q.val % 16 = h.val * 32 + q.val
  omega

/-- The maximum over the two subcores' 32 lanes of head `h` is the supremum of the head's diagonal. -/
theorem diag_lanes (X : Vec Ideal S32768x2048 .f32) (h : Fin 16) :
    Host.reduce FloatOps.maximumf (shapeCast S16x32 (scOut (F := Ideal) X) shapeCasts_S32x16_S16x32)
        (constant (F := Ideal) S_ .f32 0xFF800000#32) reducesTo_S16x32_S16_d1 h_S_ (ix1 h)
      = Finset.univ.sup fun d : Fin 2048 => XN X (h.val * 2048 + d.val) d.val := by
  have hh := h.isLt
  rw [hostReduce_max_single _ _ red1 _ _]
  have key : ∀ q : Fin 32, shapeCast S16x32 (scOut (F := Ideal) X) shapeCasts_S32x16_S16x32 (red1.lift (ix1 h) q)
      = (Finset.range 8).sup fun kk => (Finset.range 128).sup fun j =>
          if j % 16 = q.val % 16 then XN X (h.val * 2048 + q.val / 16 * 1024 + 128 * kk + j) (q.val / 16 * 1024 + 128 * kk + j) else ⊥ := by
    intro q
    have hq := q.isLt
    rw [lift1, regroup_apply]
    exact scOut_closed X h ⟨q.val / 16, by omega⟩ ⟨q.val % 16, Nat.mod_lt _ (by decide)⟩ (by show 2 * h.val + q.val / 16 < 32; omega)
  apply le_antisymm
  · refine Finset.sup_le fun q _ => ?_
    have hq : q.val < 32 := q.isLt
    refine (key q).le.trans ?_
    refine Finset.sup_le fun kk hkk => Finset.sup_le fun j hj => ?_
    have hkk' : kk < 8 := Finset.mem_range.mp hkk
    have hj' : j < 128 := Finset.mem_range.mp hj
    by_cases hc : j % 16 = q.val % 16
    · rw [if_pos hc]
      have := Finset.le_sup (f := fun d : Fin 2048 => XN X (h.val * 2048 + d.val) d.val)
        (Finset.mem_univ (⟨q.val / 16 * 1024 + 128 * kk + j, by omega⟩ : Fin 2048))
      rw [show h.val * 2048 + q.val / 16 * 1024 + 128 * kk + j = h.val * 2048 + (q.val / 16 * 1024 + 128 * kk + j) by omega]
      exact this
    · rw [if_neg hc]; exact bot_le
  · refine Finset.sup_le fun d _ => ?_
    have hd := d.isLt
    have e : XN X (h.val * 2048 + d.val) d.val
        = XN X (h.val * 2048 + d.val / 1024 * 1024 + 128 * (d.val % 1024 / 128) + d.val % 128)
            (d.val / 1024 * 1024 + 128 * (d.val % 1024 / 128) + d.val % 128) := by
      congr 1 <;> omega
    have hq : 16 * (d.val / 1024) + d.val % 16 < 32 := by omega
    have e1 : (16 * (d.val / 1024) + d.val % 16) / 16 = d.val / 1024 := by omega
    have e2 : (16 * (d.val / 1024) + d.val % 16) % 16 = d.val % 128 % 16 := by omega
    let g : ℕ → ℕ → EReal := fun kk j => if j % 16 = d.val % 128 % 16
      then XN X (h.val * 2048 + d.val / 1024 * 1024 + 128 * kk + j) (d.val / 1024 * 1024 + 128 * kk + j) else ⊥
    have s1 : XN X (h.val * 2048 + d.val) d.val = g (d.val % 1024 / 128) (d.val % 128) := by
      rw [e]; exact (if_pos rfl).symm
    have s2 : g (d.val % 1024 / 128) (d.val % 128) ≤ (Finset.range 128).sup (g (d.val % 1024 / 128)) :=
      Finset.le_sup (f := g (d.val % 1024 / 128)) (Finset.mem_range.mpr (Nat.mod_lt _ (by decide : 0 < 128)))
    have s3 : (Finset.range 128).sup (g (d.val % 1024 / 128)) ≤ (Finset.range 8).sup fun kk => (Finset.range 128).sup (g kk) :=
      Finset.le_sup (f := fun kk => (Finset.range 128).sup (g kk)) (Finset.mem_range.mpr (by omega : d.val % 1024 / 128 < 8))
    have k4 := key ⟨16 * (d.val / 1024) + d.val % 16, hq⟩
    rw [e1, e2] at k4
    have s5 := Finset.le_sup (f := fun q : Fin 32 => shapeCast S16x32 (scOut (F := Ideal) X) shapeCasts_S32x16_S16x32 (red1.lift (ix1 h) q))
      (Finset.mem_univ (⟨16 * (d.val / 1024) + d.val % 16, hq⟩ : Fin 32))
    exact s1.le.trans (s2.trans (s3.trans (k4.symm.le.trans s5)))

/-! ## In the argument's own coordinates -/

/-- Inside the array the pair of numbers reads the entry. -/
theorem XN_inb (X : Vec Ideal S32768x2048 .f32) (h : Fin 16) (d : Fin 2048) :
    XN X (h.val * 2048 + d.val) d.val
      = X (ix2 (⟨h.val * 2048 + d.val, by have := h.isLt; have := d.isLt; omega⟩ : Fin 32768) d) := by
  have hh := h.isLt
  have hd := d.isLt
  unfold XN
  rw [dif_pos ⟨by omega, hd⟩]

/-- The argument regrouped as 32768×2048: row 2048·h + r, column c is its entry (0, h, r, c). -/
theorem flat_apply (x : FVec Ideal S1x16x2048x2048 .f32) (h : Fin 16) (d : Fin 2048) :
    XN (shapeCast S32768x2048 x shapeCasts_S1x16x2048x2048_S32768x2048) (h.val * 2048 + d.val) d.val
      = x (ix4 (0 : Fin 1) h d d) := by
  rw [XN_inb]
  refine shapeCast_apply x _ _ _ ?_
  rw [Shape.rowMajor_val_four, Shape.rowMajor_val_two]
  show ((0 * 16 + h.val) * 2048 + d.val) * 2048 + d.val = (h.val * 2048 + d.val) * 2048 + d.val
  omega

/-- The kernel's first sixteen results are the specification's: the suprema of the diagonals. -/
theorem diag_value (x : FVec Ideal S1x16x2048x2048 .f32) (h : Fin 16) :
    Host.reduce FloatOps.maximumf
        (shapeCast S16x32 (scOut (F := Ideal) (shapeCast S32768x2048 x shapeCasts_S1x16x2048x2048_S32768x2048)) shapeCasts_S32x16_S16x32)
        (constant (F := Ideal) S_ .f32 0xFF800000#32) reducesTo_S16x32_S16_d1 h_S_ (ix1 h)
      = Cert.Spec.diagSup x h := by
  rw [diag_lanes]
  unfold Cert.Spec.diagSup
  exact Finset.sup_congr rfl fun d _ => flat_apply x h d

end Cert.KernelIdeal.HandIdeal

end
-- ==== Proof.KIdeal.lean ====
/-
  The kernel's result on the extended reals is the specification: the host's first sixteen entries are the heads'
  diagonal suprema (the maximum of the 32 lanes the two subcores of a head leave), its last sixteen the suprema
  off the diagonal (the first lane of the TensorCore call's row for the head).
-/
import proofs.«210750_g14534169330353_cont_week2b_1167_29_alg».proof.Proof.KIdealAll
import proofs.«210750_g14534169330353_cont_week2b_1167_29_alg».proof.Proof.KIdealDiag

noncomputable section

namespace Cert.KernelIdeal.HandIdeal

open Cert.KernelIdeal Cert.KernelIdeal.Gen Cert.KernelIdeal.Hand
open Idealize.ShloMosaic

theorem kernel_value (x : FVec Ideal S1x16x2048x2048 .f32) :
    hostTail (F := Ideal) (scOut (shapeCast S32768x2048 x shapeCasts_S1x16x2048x2048_S32768x2048))
      (tcOut (shapeCast S16x2048x2048 x shapeCasts_S1x16x2048x2048_S16x2048x2048)) = Cert.Spec.G x :=
  kernel_value_of_diag x (diag_value x)

end Cert.KernelIdeal.HandIdeal

end
-- ==== Proof.lean ====
/-
  The kernel computes, for each of the 16 heads of a 2048×2048 matrix, the maximum of the diagonal and the maximum
  off the diagonal, and so does the reference; the two are equal on the extended reals, where the maximum is a
  lattice operation and no finiteness is used.

  The kernel's diagonal half runs on the SparseCores: 32 vector subcores, two per head, each walking the eight
  128×128 blocks on the diagonal of its half and keeping a 16-lane running maximum (lane l the diagonal entries
  d ≡ l mod 16); the host takes the maximum of a head's 32 lanes. Its off-diagonal half is a TensorCore call over
  (head, row half): per row half, the maximum over the columns outside the half's diagonal stripe of the column
  maxima, joined with the stripe's maximum with its diagonal masked to -inf, accumulated over the two halves.
  The reference gathers the diagonal and reduces it, and scatters -inf onto the diagonal and reduces twice.

  Frames: the program's run (every weakly fair execution of the TensorCore and the SparseCores' 34 threads ends,
  nothing faulting) is proved once for any float instance — each subcore's task at a symbolic grid point, the
  launch handshakes, the TensorCore region, the host operations — with the strongest post: the argument unchanged
  and the result named as a function of the argument; the frames forget the value, the algebraic claim is its
  instance on the extended reals beside the reference's run, the two values one function of the argument.
-/
import proofs.«210750_g14534169330353_cont_week2b_1167_29_alg».proof.Defs
import proofs.«210750_g14534169330353_cont_week2b_1167_29_alg».proof.Proof.Main
import proofs.«210750_g14534169330353_cont_week2b_1167_29_alg».proof.Proof.Bits.Main
import proofs.«210750_g14534169330353_cont_week2b_1167_29_alg».proof.Proof.RefValue
import proofs.«210750_g14534169330353_cont_week2b_1167_29_alg».proof.Proof.KIdeal
import proofs.«210750_g14534169330353_cont_week2b_1167_29_alg».proof.Proof.Gen.Kernel
import proofs.«210750_g14534169330353_cont_week2b_1167_29_alg».proof.Proof.Gen.KernelIdeal
import proofs.«210750_g14534169330353_cont_week2b_1167_29_alg».proof.Proof.Gen.ReferenceIdeal
import proofs.«210750_g14534169330353_cont_week2b_1167_29_alg».proof.Proof.Gen.Pre_finite_inputs
import Idealize.ShloMosaic.Adequacy
import Idealize.ShloMosaic.Init

noncomputable section

namespace Cert.Proof

open Idealize.ShloMosaic Idealize.SL.Sem

/-- The word-level program's run, its value forgotten. -/
theorem frame_p : Cert.frame_Kernel := fun m ρ _ =>
  (θ_run Cert.Kernel.defs _ _).mono (fun _ h c => (h c).1) (Cert.Kernel.Hand.run_main (F := Bits) m ρ)

/-- The idealized program's run, its value forgotten. -/
theorem frame_pi : Cert.frame_KernelIdeal := fun m ρ _ =>
  (θ_run Cert.KernelIdeal.defs _ _).mono (fun _ h c => (h c).1) (Cert.KernelIdeal.Hand.run_main (F := Ideal) m ρ)

/-- On the extended reals the kernel's result is the specification of the argument: the two reshapes read back,
    then the kernel's closed form. -/
theorem kernel_out_eq (m : (ℓ : Loc Cert.KernelIdeal.nD Cert.KernelIdeal.τ Cert.KernelIdeal.sig) → Buf (Elt Ideal) ℓ) (c : Dev Cert.KernelIdeal.nD) :
    Cert.KernelIdeal.Hand.OUT (F := Ideal) m c = Cert.Spec.G (m (Cert.KernelIdeal.Hand.xLoc c)) := by
  unfold Cert.KernelIdeal.Hand.OUT Cert.KernelIdeal.Hand.tcOutBuf
  rw [Cert.KernelIdeal.Hand.X0_eq, Cert.KernelIdeal.Hand.X1_eq]
  exact Cert.KernelIdeal.HandIdeal.kernel_value _

/-- Both idealized programs end, with equal results: the specification of the argument. -/
theorem algebraic : Cert.algebraic_KernelIdeal_ReferenceIdeal := by
  intro m ρ m' ρ' _ hagree
  refine ⟨fun c => Cert.KernelIdeal.Hand.OUT (F := Ideal) m c, ?_, ?_⟩
  · exact (θ_run Cert.KernelIdeal.defs _ _).mono (fun _ h c => ⟨(h c).2, (h c).1⟩) (Cert.KernelIdeal.Hand.run_main (F := Ideal) m ρ)
  · refine (θ_run Cert.ReferenceIdeal.defs _ _).mono (fun _ h c => ⟨(h c).1.trans ?_, (h c).2⟩)
      (Cert.ReferenceIdeal.RefValue.run_ref m' ρ')
    rw [hagree c]
    exact (kernel_out_eq m c).symm

theorem claim : Cert.Claim :=
  ⟨Cert.Kernel.Gen.facts, Cert.KernelIdeal.Gen.facts, Cert.ReferenceIdeal.Gen.facts, Cert.Pre_finite_inputs.Gen.facts,
    frame_p, frame_pi, Cert.ReferenceIdeal.RefValue.frame_ri, trivial, algebraic⟩

end Cert.Proof

end
